-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : IVec S4096x200 32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 127#32
  let main_v2 : IVec S4096x200 32 := broadcastInDim S4096x200 ![] bcast_S_S4096x200 main_c_0
  let main_v3 : IVec S4096x200 1 := cmpi .sle main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  main_v5
-- ==== Kernel.lean ====
abbrev S4096x200 : Shape := ⟨2, ![4096, 200]⟩
abbrev S200x4096 : Shape := ⟨2, ![200, 4096]⟩
abbrev S4096x200x128 : Shape := ⟨3, ![4096, 200, 128]⟩
abbrev S200x128 : Shape := ⟨2, ![200, 128]⟩
abbrev S_ : Shape := ⟨0, ![]⟩
abbrev S16 : Shape := ⟨1, ![16]⟩
abbrev S1x16 : Shape := ⟨2, ![1, 16]⟩
abbrev S1x200x128 : Shape := ⟨3, ![1, 200, 128]⟩
abbrev S4096x128x200 : Shape := ⟨3, ![4096, 128, 200]⟩

abbrev nBuf : Table → Nat
  | .hbm => 4
  | .local .scVector .vmem => 3
  | _ => 0

abbrev bufTy : (tb : Table) → Fin (nBuf tb) → BufTy
  | .hbm, ⟨0, _⟩ => ⟨S4096x200, .i32⟩
  | .hbm, ⟨1, _⟩ => ⟨S200x4096, .i32⟩
  | .hbm, ⟨2, _⟩ => ⟨S4096x200x128, .f32⟩
  | .hbm, ⟨3, _⟩ => ⟨S4096x128x200, .f32⟩
  | .local .scVector .vmem, ⟨0, _⟩ => ⟨S200x128, .i32⟩
  | .local .scVector .vmem, ⟨1, _⟩ => ⟨S200x128, .f32⟩
  | .local .scVector .vmem, ⟨2, _⟩ => ⟨S200x128, .f32⟩
  | _, _ => ⟨S4096x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_46_r0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, v2.toNat]
@[reducible] def k0_t1_loop : Scf.Loop 32 :=
  let c0_i32 : BitVec 32 := 0#32
  let c200_i32 : BitVec 32 := 200#32
  let v6 : BitVec 32 := Scalar.addi c0_i32 c200_i32
  let c1_i32 : BitVec 32 := 1#32
  ⟨c0_i32, v6, c1_i32⟩
def k0_off2 (k0_t1 : Fin k0_t1_loop.trips) : Fin 2 → Nat :=
  let c0_i32_47 : BitVec 32 := 0#32
  let c0_i32 : BitVec 32 := 0#32
  let c1_i32 : BitVec 32 := 1#32
  let arg9 : BitVec 32 := Scf.iv c0_i32 c1_i32 k0_t1
  let c1_i32_46 : BitVec 32 := 1#32
  let v113 : BitVec 32 := Scalar.muli arg9 c1_i32_46
  let v114 : BitVec 32 := Scalar.addi c0_i32_47 v113
  let v115 : Index := Scalar.indexCast v114
  let c0 : Index := 0#32
  ![v115.toNat, 0]
def k0_off3 (k0_t1 : Fin k0_t1_loop.trips) : Fin 2 → Nat :=
  let c0_i32_47 : BitVec 32 := 0#32
  let c0_i32 : BitVec 32 := 0#32
  let c1_i32 : BitVec 32 := 1#32
  let arg9 : BitVec 32 := Scf.iv c0_i32 c1_i32 k0_t1
  let c1_i32_46 : BitVec 32 := 1#32
  let v113 : BitVec 32 := Scalar.muli arg9 c1_i32_46
  let v114 : BitVec 32 := Scalar.addi c0_i32_47 v113
  let v117 : Index := Scalar.indexCast v114
  let c16 : Index := 16#32
  ![v117.toNat, 16]
def k0_off4 (k0_t1 : Fin k0_t1_loop.trips) : Fin 2 → Nat :=
  let c0_i32_47 : BitVec 32 := 0#32
  let c0_i32 : BitVec 32 := 0#32
  let c1_i32 : BitVec 32 := 1#32
  let arg9 : BitVec 32 := Scf.iv c0_i32 c1_i32 k0_t1
  let c1_i32_46 : BitVec 32 := 1#32
  let v113 : BitVec 32 := Scalar.muli arg9 c1_i32_46
  let v114 : BitVec 32 := Scalar.addi c0_i32_47 v113
  let v119 : Index := Scalar.indexCast v114
  let c32 : Index := 32#32
  ![v119.toNat, 32]
def k0_off5 (k0_t1 : Fin k0_t1_loop.trips) : Fin 2 → Nat :=
  let c0_i32_47 : BitVec 32 := 0#32
  let c0_i32 : BitVec 32 := 0#32
  let c1_i32 : BitVec 32 := 1#32
  let arg9 : BitVec 32 := Scf.iv c0_i32 c1_i32 k0_t1
  let c1_i32_46 : BitVec 32 := 1#32
  let v113 : BitVec 32 := Scalar.muli arg9 c1_i32_46
  let v114 : BitVec 32 := Scalar.addi c0_i32_47 v113
  let v121 : Index := Scalar.indexCast v114
  let c48 : Index := 48#32
  ![v121.toNat, 48]
def k0_off6 (k0_t1 : Fin k0_t1_loop.trips) : Fin 2 → Nat :=
  let c0_i32_47 : BitVec 32 := 0#32
  let c0_i32 : BitVec 32 := 0#32
  let c1_i32 : BitVec 32 := 1#32
  let arg9 : BitVec 32 := Scf.iv c0_i32 c1_i32 k0_t1
  let c1_i32_46 : BitVec 32 := 1#32
  let v113 : BitVec 32 := Scalar.muli arg9 c1_i32_46
  let v114 : BitVec 32 := Scalar.addi c0_i32_47 v113
  let v123 : Index := Scalar.indexCast v114
  let c64 : Index := 64#32
  ![v123.toNat, 64]
def k0_off7 (k0_t1 : Fin k0_t1_loop.trips) : Fin 2 → Nat :=
  let c0_i32_47 : BitVec 32 := 0#32
  let c0_i32 : BitVec 32 := 0#32
  let c1_i32 : BitVec 32 := 1#32
  let arg9 : BitVec 32 := Scf.iv c0_i32 c1_i32 k0_t1
  let c1_i32_46 : BitVec 32 := 1#32
  let v113 : BitVec 32 := Scalar.muli arg9 c1_i32_46
  let v114 : BitVec 32 := Scalar.addi c0_i32_47 v113
  let v125 : Index := Scalar.indexCast v114
  let c80 : Index := 80#32
  ![v125.toNat, 80]
def k0_off8 (k0_t1 : Fin k0_t1_loop.trips) : Fin 2 → Nat :=
  let c0_i32_47 : BitVec 32 := 0#32
  let c0_i32 : BitVec 32 := 0#32
  let c1_i32 : BitVec 32 := 1#32
  let arg9 : BitVec 32 := Scf.iv c0_i32 c1_i32 k0_t1
  let c1_i32_46 : BitVec 32 := 1#32
  let v113 : BitVec 32 := Scalar.muli arg9 c1_i32_46
  let v114 : BitVec 32 := Scalar.addi c0_i32_47 v113
  let v127 : Index := Scalar.indexCast v114
  let c96 : Index := 96#32
  ![v127.toNat, 96]
def k0_off9 (k0_t1 : Fin k0_t1_loop.trips) : Fin 2 → Nat :=
  let c0_i32_47 : BitVec 32 := 0#32
  let c0_i32 : BitVec 32 := 0#32
  let c1_i32 : BitVec 32 := 1#32
  let arg9 : BitVec 32 := Scf.iv c0_i32 c1_i32 k0_t1
  let c1_i32_46 : BitVec 32 := 1#32
  let v113 : BitVec 32 := Scalar.muli arg9 c1_i32_46
  let v114 : BitVec 32 := Scalar.addi c0_i32_47 v113
  let v129 : Index := Scalar.indexCast v114
  let c112 : Index := 112#32
  ![v129.toNat, 112]

def k0_chk1 (v10 : IVec S16 32) (v12 : IVec S16 32) : Prop :=
  (∀ a x, ((![v12, v10] : Fin 2 → IVec S16 32) a x).toNat < S200x128.size a)
instance k0_chk1.dec : ∀ (v10 : IVec S16 32) (v12 : IVec S16 32), Decidable (k0_chk1 v10 v12) := fun v10 v12 => decidable_of_iff' _ (Iff.of_eq (k0_chk1.eq_1 v10 v12))
theorem k0_idx1_inb : ∀ (v10 : IVec S16 32) (v12 : IVec S16 32) (k0_hw1 : k0_chk1 v10 v12), ∀ a x, ((![v12, v10] : Fin 2 → IVec S16 32) a x).toNat < S200x128.size a := fun v10 v12 k0_hw1 => k0_hw1

def k0_chk2 (v12 : IVec S16 32) (v13 : IVec S16 32) : Prop :=
  (∀ a x, ((![v12, v13] : Fin 2 → IVec S16 32) a x).toNat < S200x128.size a)
instance k0_chk2.dec : ∀ (v12 : IVec S16 32) (v13 : IVec S16 32), Decidable (k0_chk2 v12 v13) := fun v12 v13 => decidable_of_iff' _ (Iff.of_eq (k0_chk2.eq_1 v12 v13))
theorem k0_idx2_inb : ∀ (v12 : IVec S16 32) (v13 : IVec S16 32) (k0_hw2 : k0_chk2 v12 v13), ∀ a x, ((![v12, v13] : Fin 2 → IVec S16 32) a x).toNat < S200x128.size a := fun v12 v13 k0_hw2 => k0_hw2

def k0_chk3 (v10 : IVec S16 32) (v15 : IVec S16 32) : Prop :=
  (∀ a x, ((![v15, v10] : Fin 2 → IVec S16 32) a x).toNat < S200x128.size a)
instance k0_chk3.dec : ∀ (v10 : IVec S16 32) (v15 : IVec S16 32), Decidable (k0_chk3 v10 v15) := fun v10 v15 => decidable_of_iff' _ (Iff.of_eq (k0_chk3.eq_1 v10 v15))
theorem k0_idx3_inb : ∀ (v10 : IVec S16 32) (v15 : IVec S16 32) (k0_hw3 : k0_chk3 v10 v15), ∀ a x, ((![v15, v10] : Fin 2 → IVec S16 32) a x).toNat < S200x128.size a := fun v10 v15 k0_hw3 => k0_hw3

def k0_chk4 (v15 : IVec S16 32) (v16 : IVec S16 32) : Prop :=
  (∀ a x, ((![v15, v16] : Fin 2 → IVec S16 32) a x).toNat < S200x128.size a)
instance k0_chk4.dec : ∀ (v15 : IVec S16 32) (v16 : IVec S16 32), Decidable (k0_chk4 v15 v16) := fun v15 v16 => decidable_of_iff' _ (Iff.of_eq (k0_chk4.eq_1 v15 v16))
theorem k0_idx4_inb : ∀ (v15 : IVec S16 32) (v16 : IVec S16 32) (k0_hw4 : k0_chk4 v15 v16), ∀ a x, ((![v15, v16] : Fin 2 → IVec S16 32) a x).toNat < S200x128.size a := fun v15 v16 k0_hw4 => k0_hw4

def k0_chk5 (v10 : IVec S16 32) (v18 : IVec S16 32) : Prop :=
  (∀ a x, ((![v18, v10] : Fin 2 → IVec S16 32) a x).toNat < S200x128.size a)
instance k0_chk5.dec : ∀ (v10 : IVec S16 32) (v18 : IVec S16 32), Decidable (k0_chk5 v10 v18) := fun v10 v18 => decidable_of_iff' _ (Iff.of_eq (k0_chk5.eq_1 v10 v18))
theorem k0_idx5_inb : ∀ (v10 : IVec S16 32) (v18 : IVec S16 32) (k0_hw5 : k0_chk5 v10 v18), ∀ a x, ((![v18, v10] : Fin 2 → IVec S16 32) a x).toNat < S200x128.size a := fun v10 v18 k0_hw5 => k0_hw5

def k0_chk6 (v18 : IVec S16 32) (v19 : IVec S16 32) : Prop :=
  (∀ a x, ((![v18, v19] : Fin 2 → IVec S16 32) a x).toNat < S200x128.size a)
instance k0_chk6.dec : ∀ (v18 : IVec S16 32) (v19 : IVec S16 32), Decidable (k0_chk6 v18 v19) := fun v18 v19 => decidable_of_iff' _ (Iff.of_eq (k0_chk6.eq_1 v18 v19))
theorem k0_idx6_inb : ∀ (v18 : IVec S16 32) (v19 : IVec S16 32) (k0_hw6 : k0_chk6 v18 v19), ∀ a x, ((![v18, v19] : Fin 2 → IVec S16 32) a x).toNat < S200x128.size a := fun v18 v19 k0_hw6 => k0_hw6

def k0_chk7 (v10 : IVec S16 32) (v21 : IVec S16 32) : Prop :=
  (∀ a x, ((![v21, v10] : Fin 2 → IVec S16 32) a x).toNat < S200x128.size a)
instance k0_chk7.dec : ∀ (v10 : IVec S16 32) (v21 : IVec S16 32), Decidable (k0_chk7 v10 v21) := fun v10 v21 => decidable_of_iff' _ (Iff.of_eq (k0_chk7.eq_1 v10 v21))
theorem k0_idx7_inb : ∀ (v10 : IVec S16 32) (v21 : IVec S16 32) (k0_hw7 : k0_chk7 v10 v21), ∀ a x, ((![v21, v10] : Fin 2 → IVec S16 32) a x).toNat < S200x128.size a := fun v10 v21 k0_hw7 => k0_hw7

def k0_chk8 (v21 : IVec S16 32) (v22 : IVec S16 32) : Prop :=
  (∀ a x, ((![v21, v22] : Fin 2 → IVec S16 32) a x).toNat < S200x128.size a)
instance k0_chk8.dec : ∀ (v21 : IVec S16 32) (v22 : IVec S16 32), Decidable (k0_chk8 v21 v22) := fun v21 v22 => decidable_of_iff' _ (Iff.of_eq (k0_chk8.eq_1 v21 v22))
theorem k0_idx8_inb : ∀ (v21 : IVec S16 32) (v22 : IVec S16 32) (k0_hw8 : k0_chk8 v21 v22), ∀ a x, ((![v21, v22] : Fin 2 → IVec S16 32) a x).toNat < S200x128.size a := fun v21 v22 k0_hw8 => k0_hw8

def k0_chk9 (v10 : IVec S16 32) (v24 : IVec S16 32) : Prop :=
  (∀ a x, ((![v24, v10] : Fin 2 → IVec S16 32) a x).toNat < S200x128.size a)
instance k0_chk9.dec : ∀ (v10 : IVec S16 32) (v24 : IVec S16 32), Decidable (k0_chk9 v10 v24) := fun v10 v24 => decidable_of_iff' _ (Iff.of_eq (k0_chk9.eq_1 v10 v24))
theorem k0_idx9_inb : ∀ (v10 : IVec S16 32) (v24 : IVec S16 32) (k0_hw9 : k0_chk9 v10 v24), ∀ a x, ((![v24, v10] : Fin 2 → IVec S16 32) a x).toNat < S200x128.size a := fun v10 v24 k0_hw9 => k0_hw9

def k0_chk10 (v24 : IVec S16 32) (v25 : IVec S16 32) : Prop :=
  (∀ a x, ((![v24, v25] : Fin 2 → IVec S16 32) a x).toNat < S200x128.size a)
instance k0_chk10.dec : ∀ (v24 : IVec S16 32) (v25 : IVec S16 32), Decidable (k0_chk10 v24 v25) := fun v24 v25 => decidable_of_iff' _ (Iff.of_eq (k0_chk10.eq_1 v24 v25))
theorem k0_idx10_inb : ∀ (v24 : IVec S16 32) (v25 : IVec S16 32) (k0_hw10 : k0_chk10 v24 v25), ∀ a x, ((![v24, v25] : Fin 2 → IVec S16 32) a x).toNat < S200x128.size a := fun v24 v25 k0_hw10 => k0_hw10

def k0_chk11 (v10 : IVec S16 32) (v27 : IVec S16 32) : Prop :=
  (∀ a x, ((![v27, v10] : Fin 2 → IVec S16 32) a x).toNat < S200x128.size a)
instance k0_chk11.dec : ∀ (v10 : IVec S16 32) (v27 : IVec S16 32), Decidable (k0_chk11 v10 v27) := fun v10 v27 => decidable_of_iff' _ (Iff.of_eq (k0_chk11.eq_1 v10 v27))
theorem k0_idx11_inb : ∀ (v10 : IVec S16 32) (v27 : IVec S16 32) (k0_hw11 : k0_chk11 v10 v27), ∀ a x, ((![v27, v10] : Fin 2 → IVec S16 32) a x).toNat < S200x128.size a := fun v10 v27 k0_hw11 => k0_hw11

def k0_chk12 (v27 : IVec S16 32) (v28 : IVec S16 32) : Prop :=
  (∀ a x, ((![v27, v28] : Fin 2 → IVec S16 32) a x).toNat < S200x128.size a)
instance k0_chk12.dec : ∀ (v27 : IVec S16 32) (v28 : IVec S16 32), Decidable (k0_chk12 v27 v28) := fun v27 v28 => decidable_of_iff' _ (Iff.of_eq (k0_chk12.eq_1 v27 v28))
theorem k0_idx12_inb : ∀ (v27 : IVec S16 32) (v28 : IVec S16 32) (k0_hw12 : k0_chk12 v27 v28), ∀ a x, ((![v27, v28] : Fin 2 → IVec S16 32) a x).toNat < S200x128.size a := fun v27 v28 k0_hw12 => k0_hw12

def k0_chk13 (v10 : IVec S16 32) (v30 : IVec S16 32) : Prop :=
  (∀ a x, ((![v30, v10] : Fin 2 → IVec S16 32) a x).toNat < S200x128.size a)
instance k0_chk13.dec : ∀ (v10 : IVec S16 32) (v30 : IVec S16 32), Decidable (k0_chk13 v10 v30) := fun v10 v30 => decidable_of_iff' _ (Iff.of_eq (k0_chk13.eq_1 v10 v30))
theorem k0_idx13_inb : ∀ (v10 : IVec S16 32) (v30 : IVec S16 32) (k0_hw13 : k0_chk13 v10 v30), ∀ a x, ((![v30, v10] : Fin 2 → IVec S16 32) a x).toNat < S200x128.size a := fun v10 v30 k0_hw13 => k0_hw13

def k0_chk14 (v30 : IVec S16 32) (v31 : IVec S16 32) : Prop :=
  (∀ a x, ((![v30, v31] : Fin 2 → IVec S16 32) a x).toNat < S200x128.size a)
instance k0_chk14.dec : ∀ (v30 : IVec S16 32) (v31 : IVec S16 32), Decidable (k0_chk14 v30 v31) := fun v30 v31 => decidable_of_iff' _ (Iff.of_eq (k0_chk14.eq_1 v30 v31))
theorem k0_idx14_inb : ∀ (v30 : IVec S16 32) (v31 : IVec S16 32) (k0_hw14 : k0_chk14 v30 v31), ∀ a x, ((![v30, v31] : Fin 2 → IVec S16 32) a x).toNat < S200x128.size a := fun v30 v31 k0_hw14 => k0_hw14

def k0_chk15 (v10 : IVec S16 32) (v33 : IVec S16 32) : Prop :=
  (∀ a x, ((![v33, v10] : Fin 2 → IVec S16 32) a x).toNat < S200x128.size a)
instance k0_chk15.dec : ∀ (v10 : IVec S16 32) (v33 : IVec S16 32), Decidable (k0_chk15 v10 v33) := fun v10 v33 => decidable_of_iff' _ (Iff.of_eq (k0_chk15.eq_1 v10 v33))
theorem k0_idx15_inb : ∀ (v10 : IVec S16 32) (v33 : IVec S16 32) (k0_hw15 : k0_chk15 v10 v33), ∀ a x, ((![v33, v10] : Fin 2 → IVec S16 32) a x).toNat < S200x128.size a := fun v10 v33 k0_hw15 => k0_hw15

def k0_chk16 (v33 : IVec S16 32) (v34 : IVec S16 32) : Prop :=
  (∀ a x, ((![v33, v34] : Fin 2 → IVec S16 32) a x).toNat < S200x128.size a)
instance k0_chk16.dec : ∀ (v33 : IVec S16 32) (v34 : IVec S16 32), Decidable (k0_chk16 v33 v34) := fun v33 v34 => decidable_of_iff' _ (Iff.of_eq (k0_chk16.eq_1 v33 v34))
theorem k0_idx16_inb : ∀ (v33 : IVec S16 32) (v34 : IVec S16 32) (k0_hw16 : k0_chk16 v33 v34), ∀ a x, ((![v33, v34] : Fin 2 → IVec S16 32) a x).toNat < S200x128.size a := fun v33 v34 k0_hw16 => k0_hw16

def k0_chk17 (v10 : IVec S16 32) (v36 : IVec S16 32) : Prop :=
  (∀ a x, ((![v36, v10] : Fin 2 → IVec S16 32) a x).toNat < S200x128.size a)
instance k0_chk17.dec : ∀ (v10 : IVec S16 32) (v36 : IVec S16 32), Decidable (k0_chk17 v10 v36) := fun v10 v36 => decidable_of_iff' _ (Iff.of_eq (k0_chk17.eq_1 v10 v36))
theorem k0_idx17_inb : ∀ (v10 : IVec S16 32) (v36 : IVec S16 32) (k0_hw17 : k0_chk17 v10 v36), ∀ a x, ((![v36, v10] : Fin 2 → IVec S16 32) a x).toNat < S200x128.size a := fun v10 v36 k0_hw17 => k0_hw17

def k0_chk18 (v36 : IVec S16 32) (v37 : IVec S16 32) : Prop :=
  (∀ a x, ((![v36, v37] : Fin 2 → IVec S16 32) a x).toNat < S200x128.size a)
instance k0_chk18.dec : ∀ (v36 : IVec S16 32) (v37 : IVec S16 32), Decidable (k0_chk18 v36 v37) := fun v36 v37 => decidable_of_iff' _ (Iff.of_eq (k0_chk18.eq_1 v36 v37))
theorem k0_idx18_inb : ∀ (v36 : IVec S16 32) (v37 : IVec S16 32) (k0_hw18 : k0_chk18 v36 v37), ∀ a x, ((![v36, v37] : Fin 2 → IVec S16 32) a x).toNat < S200x128.size a := fun v36 v37 k0_hw18 => k0_hw18

def k0_chk19 (v10 : IVec S16 32) (v39 : IVec S16 32) : Prop :=
  (∀ a x, ((![v39, v10] : Fin 2 → IVec S16 32) a x).toNat < S200x128.size a)
instance k0_chk19.dec : ∀ (v10 : IVec S16 32) (v39 : IVec S16 32), Decidable (k0_chk19 v10 v39) := fun v10 v39 => decidable_of_iff' _ (Iff.of_eq (k0_chk19.eq_1 v10 v39))
theorem k0_idx19_inb : ∀ (v10 : IVec S16 32) (v39 : IVec S16 32) (k0_hw19 : k0_chk19 v10 v39), ∀ a x, ((![v39, v10] : Fin 2 → IVec S16 32) a x).toNat < S200x128.size a := fun v10 v39 k0_hw19 => k0_hw19

def k0_chk20 (v39 : IVec S16 32) (v40 : IVec S16 32) : Prop :=
  (∀ a x, ((![v39, v40] : Fin 2 → IVec S16 32) a x).toNat < S200x128.size a)
instance k0_chk20.dec : ∀ (v39 : IVec S16 32) (v40 : IVec S16 32), Decidable (k0_chk20 v39 v40) := fun v39 v40 => decidable_of_iff' _ (Iff.of_eq (k0_chk20.eq_1 v39 v40))
theorem k0_idx20_inb : ∀ (v39 : IVec S16 32) (v40 : IVec S16 32) (k0_hw20 : k0_chk20 v39 v40), ∀ a x, ((![v39, v40] : Fin 2 → IVec S16 32) a x).toNat < S200x128.size a := fun v39 v40 k0_hw20 => k0_hw20

def k0_chk21 (v10 : IVec S16 32) (v42 : IVec S16 32) : Prop :=
  (∀ a x, ((![v42, v10] : Fin 2 → IVec S16 32) a x).toNat < S200x128.size a)
instance k0_chk21.dec : ∀ (v10 : IVec S16 32) (v42 : IVec S16 32), Decidable (k0_chk21 v10 v42) := fun v10 v42 => decidable_of_iff' _ (Iff.of_eq (k0_chk21.eq_1 v10 v42))
theorem k0_idx21_inb : ∀ (v10 : IVec S16 32) (v42 : IVec S16 32) (k0_hw21 : k0_chk21 v10 v42), ∀ a x, ((![v42, v10] : Fin 2 → IVec S16 32) a x).toNat < S200x128.size a := fun v10 v42 k0_hw21 => k0_hw21

def k0_chk22 (v42 : IVec S16 32) (v43 : IVec S16 32) : Prop :=
  (∀ a x, ((![v42, v43] : Fin 2 → IVec S16 32) a x).toNat < S200x128.size a)
instance k0_chk22.dec : ∀ (v42 : IVec S16 32) (v43 : IVec S16 32), Decidable (k0_chk22 v42 v43) := fun v42 v43 => decidable_of_iff' _ (Iff.of_eq (k0_chk22.eq_1 v42 v43))
theorem k0_idx22_inb : ∀ (v42 : IVec S16 32) (v43 : IVec S16 32) (k0_hw22 : k0_chk22 v42 v43), ∀ a x, ((![v42, v43] : Fin 2 → IVec S16 32) a x).toNat < S200x128.size a := fun v42 v43 k0_hw22 => k0_hw22

def k0_chk23 (v10 : IVec S16 32) (v45 : IVec S16 32) : Prop :=
  (∀ a x, ((![v45, v10] : Fin 2 → IVec S16 32) a x).toNat < S200x128.size a)
instance k0_chk23.dec : ∀ (v10 : IVec S16 32) (v45 : IVec S16 32), Decidable (k0_chk23 v10 v45) := fun v10 v45 => decidable_of_iff' _ (Iff.of_eq (k0_chk23.eq_1 v10 v45))
theorem k0_idx23_inb : ∀ (v10 : IVec S16 32) (v45 : IVec S16 32) (k0_hw23 : k0_chk23 v10 v45), ∀ a x, ((![v45, v10] : Fin 2 → IVec S16 32) a x).toNat < S200x128.size a := fun v10 v45 k0_hw23 => k0_hw23

def k0_chk24 (v45 : IVec S16 32) (v46 : IVec S16 32) : Prop :=
  (∀ a x, ((![v45, v46] : Fin 2 → IVec S16 32) a x).toNat < S200x128.size a)
instance k0_chk24.dec : ∀ (v45 : IVec S16 32) (v46 : IVec S16 32), Decidable (k0_chk24 v45 v46) := fun v45 v46 => decidable_of_iff' _ (Iff.of_eq (k0_chk24.eq_1 v45 v46))
theorem k0_idx24_inb : ∀ (v45 : IVec S16 32) (v46 : IVec S16 32) (k0_hw24 : k0_chk24 v45 v46), ∀ a x, ((![v45, v46] : Fin 2 → IVec S16 32) a x).toNat < S200x128.size a := fun v45 v46 k0_hw24 => k0_hw24

def k0_chk25 (v10 : IVec S16 32) (v48 : IVec S16 32) : Prop :=
  (∀ a x, ((![v48, v10] : Fin 2 → IVec S16 32) a x).toNat < S200x128.size a)
instance k0_chk25.dec : ∀ (v10 : IVec S16 32) (v48 : IVec S16 32), Decidable (k0_chk25 v10 v48) := fun v10 v48 => decidable_of_iff' _ (Iff.of_eq (k0_chk25.eq_1 v10 v48))
theorem k0_idx25_inb : ∀ (v10 : IVec S16 32) (v48 : IVec S16 32) (k0_hw25 : k0_chk25 v10 v48), ∀ a x, ((![v48, v10] : Fin 2 → IVec S16 32) a x).toNat < S200x128.size a := fun v10 v48 k0_hw25 => k0_hw25

def k0_chk26 (v48 : IVec S16 32) (v49 : IVec S16 32) : Prop :=
  (∀ a x, ((![v48, v49] : Fin 2 → IVec S16 32) a x).toNat < S200x128.size a)
instance k0_chk26.dec : ∀ (v48 : IVec S16 32) (v49 : IVec S16 32), Decidable (k0_chk26 v48 v49) := fun v48 v49 => decidable_of_iff' _ (Iff.of_eq (k0_chk26.eq_1 v48 v49))
theorem k0_idx26_inb : ∀ (v48 : IVec S16 32) (v49 : IVec S16 32) (k0_hw26 : k0_chk26 v48 v49), ∀ a x, ((![v48, v49] : Fin 2 → IVec S16 32) a x).toNat < S200x128.size a := fun v48 v49 k0_hw26 => k0_hw26
def k0_off10 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_6 : BitVec 32 := 0#32
  let v50 : BitVec 32 := Scalar.addi v2 c0_i32_6
  let c0_i32_7 : BitVec 32 := 0#32
  let c0_i32_8 : BitVec 32 := 0#32
  ![v50.toNat, 0, 0]
@[reducible] def k0_t2_loop : Scf.Loop 32 :=
  let c0_i32_11 : BitVec 32 := 0#32
  let c200_i32_12 : BitVec 32 := 200#32
  let v55 : BitVec 32 := Scalar.addi c0_i32_11 c200_i32_12
  let c1_i32_13 : BitVec 32 := 1#32
  ⟨c0_i32_11, v55, c1_i32_13⟩
def k0_off11 (k0_t2 : Fin k0_t2_loop.trips) : Fin 2 → Nat :=
  let c0_i32_47 : BitVec 32 := 0#32
  let c0_i32_11 : BitVec 32 := 0#32
  let c1_i32_13 : BitVec 32 := 1#32
  let arg9 : BitVec 32 := Scf.iv c0_i32_11 c1_i32_13 k0_t2
  let c1_i32_46 : BitVec 32 := 1#32
  let v113 : BitVec 32 := Scalar.muli arg9 c1_i32_46
  let v114 : BitVec 32 := Scalar.addi c0_i32_47 v113
  let v115 : Index := Scalar.indexCast v114
  let c0 : Index := 0#32
  ![v115.toNat, 0]
def k0_off12 (k0_t2 : Fin k0_t2_loop.trips) : Fin 2 → Nat :=
  let c0_i32_47 : BitVec 32 := 0#32
  let c0_i32_11 : BitVec 32 := 0#32
  let c1_i32_13 : BitVec 32 := 1#32
  let arg9 : BitVec 32 := Scf.iv c0_i32_11 c1_i32_13 k0_t2
  let c1_i32_46 : BitVec 32 := 1#32
  let v113 : BitVec 32 := Scalar.muli arg9 c1_i32_46
  let v114 : BitVec 32 := Scalar.addi c0_i32_47 v113
  let v117 : Index := Scalar.indexCast v114
  let c16 : Index := 16#32
  ![v117.toNat, 16]
def k0_off13 (k0_t2 : Fin k0_t2_loop.trips) : Fin 2 → Nat :=
  let c0_i32_47 : BitVec 32 := 0#32
  let c0_i32_11 : BitVec 32 := 0#32
  let c1_i32_13 : BitVec 32 := 1#32
  let arg9 : BitVec 32 := Scf.iv c0_i32_11 c1_i32_13 k0_t2
  let c1_i32_46 : BitVec 32 := 1#32
  let v113 : BitVec 32 := Scalar.muli arg9 c1_i32_46
  let v114 : BitVec 32 := Scalar.addi c0_i32_47 v113
  let v119 : Index := Scalar.indexCast v114
  let c32 : Index := 32#32
  ![v119.toNat, 32]
def k0_off14 (k0_t2 : Fin k0_t2_loop.trips) : Fin 2 → Nat :=
  let c0_i32_47 : BitVec 32 := 0#32
  let c0_i32_11 : BitVec 32 := 0#32
  let c1_i32_13 : BitVec 32 := 1#32
  let arg9 : BitVec 32 := Scf.iv c0_i32_11 c1_i32_13 k0_t2
  let c1_i32_46 : BitVec 32 := 1#32
  let v113 : BitVec 32 := Scalar.muli arg9 c1_i32_46
  let v114 : BitVec 32 := Scalar.addi c0_i32_47 v113
  let v121 : Index := Scalar.indexCast v114
  let c48 : Index := 48#32
  ![v121.toNat, 48]
def k0_off15 (k0_t2 : Fin k0_t2_loop.trips) : Fin 2 → Nat :=
  let c0_i32_47 : BitVec 32 := 0#32
  let c0_i32_11 : BitVec 32 := 0#32
  let c1_i32_13 : BitVec 32 := 1#32
  let arg9 : BitVec 32 := Scf.iv c0_i32_11 c1_i32_13 k0_t2
  let c1_i32_46 : BitVec 32 := 1#32
  let v113 : BitVec 32 := Scalar.muli arg9 c1_i32_46
  let v114 : BitVec 32 := Scalar.addi c0_i32_47 v113
  let v123 : Index := Scalar.indexCast v114
  let c64 : Index := 64#32
  ![v123.toNat, 64]
def k0_off16 (k0_t2 : Fin k0_t2_loop.trips) : Fin 2 → Nat :=
  let c0_i32_47 : BitVec 32 := 0#32
  let c0_i32_11 : BitVec 32 := 0#32
  let c1_i32_13 : BitVec 32 := 1#32
  let arg9 : BitVec 32 := Scf.iv c0_i32_11 c1_i32_13 k0_t2
  let c1_i32_46 : BitVec 32 := 1#32
  let v113 : BitVec 32 := Scalar.muli arg9 c1_i32_46
  let v114 : BitVec 32 := Scalar.addi c0_i32_47 v113
  let v125 : Index := Scalar.indexCast v114
  let c80 : Index := 80#32
  ![v125.toNat, 80]
def k0_off17 (k0_t2 : Fin k0_t2_loop.trips) : Fin 2 → Nat :=
  let c0_i32_47 : BitVec 32 := 0#32
  let c0_i32_11 : BitVec 32 := 0#32
  let c1_i32_13 : BitVec 32 := 1#32
  let arg9 : BitVec 32 := Scf.iv c0_i32_11 c1_i32_13 k0_t2
  let c1_i32_46 : BitVec 32 := 1#32
  let v113 : BitVec 32 := Scalar.muli arg9 c1_i32_46
  let v114 : BitVec 32 := Scalar.addi c0_i32_47 v113
  let v127 : Index := Scalar.indexCast v114
  let c96 : Index := 96#32
  ![v127.toNat, 96]
def k0_off18 (k0_t2 : Fin k0_t2_loop.trips) : Fin 2 → Nat :=
  let c0_i32_47 : BitVec 32 := 0#32
  let c0_i32_11 : BitVec 32 := 0#32
  let c1_i32_13 : BitVec 32 := 1#32
  let arg9 : BitVec 32 := Scf.iv c0_i32_11 c1_i32_13 k0_t2
  let c1_i32_46 : BitVec 32 := 1#32
  let v113 : BitVec 32 := Scalar.muli arg9 c1_i32_46
  let v114 : BitVec 32 := Scalar.addi c0_i32_47 v113
  let v129 : Index := Scalar.indexCast v114
  let c112 : Index := 112#32
  ![v129.toNat, 112]

def k0_chk27 (v59 : IVec S16 32) (v61 : IVec S16 32) : Prop :=
  (∀ a x, ((![v61, v59] : Fin 2 → IVec S16 32) a x).toNat < S200x128.size a)
instance k0_chk27.dec : ∀ (v59 : IVec S16 32) (v61 : IVec S16 32), Decidable (k0_chk27 v59 v61) := fun v59 v61 => decidable_of_iff' _ (Iff.of_eq (k0_chk27.eq_1 v59 v61))
theorem k0_idx27_inb : ∀ (v59 : IVec S16 32) (v61 : IVec S16 32) (k0_hw27 : k0_chk27 v59 v61), ∀ a x, ((![v61, v59] : Fin 2 → IVec S16 32) a x).toNat < S200x128.size a := fun v59 v61 k0_hw27 => k0_hw27

def k0_chk28 (v61 : IVec S16 32) (v62 : IVec S16 32) : Prop :=
  (∀ a x, ((![v61, v62] : Fin 2 → IVec S16 32) a x).toNat < S200x128.size a)
instance k0_chk28.dec : ∀ (v61 : IVec S16 32) (v62 : IVec S16 32), Decidable (k0_chk28 v61 v62) := fun v61 v62 => decidable_of_iff' _ (Iff.of_eq (k0_chk28.eq_1 v61 v62))
theorem k0_idx28_inb : ∀ (v61 : IVec S16 32) (v62 : IVec S16 32) (k0_hw28 : k0_chk28 v61 v62), ∀ a x, ((![v61, v62] : Fin 2 → IVec S16 32) a x).toNat < S200x128.size a := fun v61 v62 k0_hw28 => k0_hw28

def k0_chk29 (v59 : IVec S16 32) (v64 : IVec S16 32) : Prop :=
  (∀ a x, ((![v64, v59] : Fin 2 → IVec S16 32) a x).toNat < S200x128.size a)
instance k0_chk29.dec : ∀ (v59 : IVec S16 32) (v64 : IVec S16 32), Decidable (k0_chk29 v59 v64) := fun v59 v64 => decidable_of_iff' _ (Iff.of_eq (k0_chk29.eq_1 v59 v64))
theorem k0_idx29_inb : ∀ (v59 : IVec S16 32) (v64 : IVec S16 32) (k0_hw29 : k0_chk29 v59 v64), ∀ a x, ((![v64, v59] : Fin 2 → IVec S16 32) a x).toNat < S200x128.size a := fun v59 v64 k0_hw29 => k0_hw29

def k0_chk30 (v64 : IVec S16 32) (v65 : IVec S16 32) : Prop :=
  (∀ a x, ((![v64, v65] : Fin 2 → IVec S16 32) a x).toNat < S200x128.size a)
instance k0_chk30.dec : ∀ (v64 : IVec S16 32) (v65 : IVec S16 32), Decidable (k0_chk30 v64 v65) := fun v64 v65 => decidable_of_iff' _ (Iff.of_eq (k0_chk30.eq_1 v64 v65))
theorem k0_idx30_inb : ∀ (v64 : IVec S16 32) (v65 : IVec S16 32) (k0_hw30 : k0_chk30 v64 v65), ∀ a x, ((![v64, v65] : Fin 2 → IVec S16 32) a x).toNat < S200x128.size a := fun v64 v65 k0_hw30 => k0_hw30

def k0_chk31 (v59 : IVec S16 32) (v67 : IVec S16 32) : Prop :=
  (∀ a x, ((![v67, v59] : Fin 2 → IVec S16 32) a x).toNat < S200x128.size a)
instance k0_chk31.dec : ∀ (v59 : IVec S16 32) (v67 : IVec S16 32), Decidable (k0_chk31 v59 v67) := fun v59 v67 => decidable_of_iff' _ (Iff.of_eq (k0_chk31.eq_1 v59 v67))
theorem k0_idx31_inb : ∀ (v59 : IVec S16 32) (v67 : IVec S16 32) (k0_hw31 : k0_chk31 v59 v67), ∀ a x, ((![v67, v59] : Fin 2 → IVec S16 32) a x).toNat < S200x128.size a := fun v59 v67 k0_hw31 => k0_hw31

def k0_chk32 (v67 : IVec S16 32) (v68 : IVec S16 32) : Prop :=
  (∀ a x, ((![v67, v68] : Fin 2 → IVec S16 32) a x).toNat < S200x128.size a)
instance k0_chk32.dec : ∀ (v67 : IVec S16 32) (v68 : IVec S16 32), Decidable (k0_chk32 v67 v68) := fun v67 v68 => decidable_of_iff' _ (Iff.of_eq (k0_chk32.eq_1 v67 v68))
theorem k0_idx32_inb : ∀ (v67 : IVec S16 32) (v68 : IVec S16 32) (k0_hw32 : k0_chk32 v67 v68), ∀ a x, ((![v67, v68] : Fin 2 → IVec S16 32) a x).toNat < S200x128.size a := fun v67 v68 k0_hw32 => k0_hw32

def k0_chk33 (v59 : IVec S16 32) (v70 : IVec S16 32) : Prop :=
  (∀ a x, ((![v70, v59] : Fin 2 → IVec S16 32) a x).toNat < S200x128.size a)
instance k0_chk33.dec : ∀ (v59 : IVec S16 32) (v70 : IVec S16 32), Decidable (k0_chk33 v59 v70) := fun v59 v70 => decidable_of_iff' _ (Iff.of_eq (k0_chk33.eq_1 v59 v70))
theorem k0_idx33_inb : ∀ (v59 : IVec S16 32) (v70 : IVec S16 32) (k0_hw33 : k0_chk33 v59 v70), ∀ a x, ((![v70, v59] : Fin 2 → IVec S16 32) a x).toNat < S200x128.size a := fun v59 v70 k0_hw33 => k0_hw33

def k0_chk34 (v70 : IVec S16 32) (v71 : IVec S16 32) : Prop :=
  (∀ a x, ((![v70, v71] : Fin 2 → IVec S16 32) a x).toNat < S200x128.size a)
instance k0_chk34.dec : ∀ (v70 : IVec S16 32) (v71 : IVec S16 32), Decidable (k0_chk34 v70 v71) := fun v70 v71 => decidable_of_iff' _ (Iff.of_eq (k0_chk34.eq_1 v70 v71))
theorem k0_idx34_inb : ∀ (v70 : IVec S16 32) (v71 : IVec S16 32) (k0_hw34 : k0_chk34 v70 v71), ∀ a x, ((![v70, v71] : Fin 2 → IVec S16 32) a x).toNat < S200x128.size a := fun v70 v71 k0_hw34 => k0_hw34

def k0_chk35 (v59 : IVec S16 32) (v73 : IVec S16 32) : Prop :=
  (∀ a x, ((![v73, v59] : Fin 2 → IVec S16 32) a x).toNat < S200x128.size a)
instance k0_chk35.dec : ∀ (v59 : IVec S16 32) (v73 : IVec S16 32), Decidable (k0_chk35 v59 v73) := fun v59 v73 => decidable_of_iff' _ (Iff.of_eq (k0_chk35.eq_1 v59 v73))
theorem k0_idx35_inb : ∀ (v59 : IVec S16 32) (v73 : IVec S16 32) (k0_hw35 : k0_chk35 v59 v73), ∀ a x, ((![v73, v59] : Fin 2 → IVec S16 32) a x).toNat < S200x128.size a := fun v59 v73 k0_hw35 => k0_hw35

def k0_chk36 (v73 : IVec S16 32) (v74 : IVec S16 32) : Prop :=
  (∀ a x, ((![v73, v74] : Fin 2 → IVec S16 32) a x).toNat < S200x128.size a)
instance k0_chk36.dec : ∀ (v73 : IVec S16 32) (v74 : IVec S16 32), Decidable (k0_chk36 v73 v74) := fun v73 v74 => decidable_of_iff' _ (Iff.of_eq (k0_chk36.eq_1 v73 v74))
theorem k0_idx36_inb : ∀ (v73 : IVec S16 32) (v74 : IVec S16 32) (k0_hw36 : k0_chk36 v73 v74), ∀ a x, ((![v73, v74] : Fin 2 → IVec S16 32) a x).toNat < S200x128.size a := fun v73 v74 k0_hw36 => k0_hw36

def k0_chk37 (v59 : IVec S16 32) (v76 : IVec S16 32) : Prop :=
  (∀ a x, ((![v76, v59] : Fin 2 → IVec S16 32) a x).toNat < S200x128.size a)
instance k0_chk37.dec : ∀ (v59 : IVec S16 32) (v76 : IVec S16 32), Decidable (k0_chk37 v59 v76) := fun v59 v76 => decidable_of_iff' _ (Iff.of_eq (k0_chk37.eq_1 v59 v76))
theorem k0_idx37_inb : ∀ (v59 : IVec S16 32) (v76 : IVec S16 32) (k0_hw37 : k0_chk37 v59 v76), ∀ a x, ((![v76, v59] : Fin 2 → IVec S16 32) a x).toNat < S200x128.size a := fun v59 v76 k0_hw37 => k0_hw37

def k0_chk38 (v76 : IVec S16 32) (v77 : IVec S16 32) : Prop :=
  (∀ a x, ((![v76, v77] : Fin 2 → IVec S16 32) a x).toNat < S200x128.size a)
instance k0_chk38.dec : ∀ (v76 : IVec S16 32) (v77 : IVec S16 32), Decidable (k0_chk38 v76 v77) := fun v76 v77 => decidable_of_iff' _ (Iff.of_eq (k0_chk38.eq_1 v76 v77))
theorem k0_idx38_inb : ∀ (v76 : IVec S16 32) (v77 : IVec S16 32) (k0_hw38 : k0_chk38 v76 v77), ∀ a x, ((![v76, v77] : Fin 2 → IVec S16 32) a x).toNat < S200x128.size a := fun v76 v77 k0_hw38 => k0_hw38

def k0_chk39 (v59 : IVec S16 32) (v79 : IVec S16 32) : Prop :=
  (∀ a x, ((![v79, v59] : Fin 2 → IVec S16 32) a x).toNat < S200x128.size a)
instance k0_chk39.dec : ∀ (v59 : IVec S16 32) (v79 : IVec S16 32), Decidable (k0_chk39 v59 v79) := fun v59 v79 => decidable_of_iff' _ (Iff.of_eq (k0_chk39.eq_1 v59 v79))
theorem k0_idx39_inb : ∀ (v59 : IVec S16 32) (v79 : IVec S16 32) (k0_hw39 : k0_chk39 v59 v79), ∀ a x, ((![v79, v59] : Fin 2 → IVec S16 32) a x).toNat < S200x128.size a := fun v59 v79 k0_hw39 => k0_hw39

def k0_chk40 (v79 : IVec S16 32) (v80 : IVec S16 32) : Prop :=
  (∀ a x, ((![v79, v80] : Fin 2 → IVec S16 32) a x).toNat < S200x128.size a)
instance k0_chk40.dec : ∀ (v79 : IVec S16 32) (v80 : IVec S16 32), Decidable (k0_chk40 v79 v80) := fun v79 v80 => decidable_of_iff' _ (Iff.of_eq (k0_chk40.eq_1 v79 v80))
theorem k0_idx40_inb : ∀ (v79 : IVec S16 32) (v80 : IVec S16 32) (k0_hw40 : k0_chk40 v79 v80), ∀ a x, ((![v79, v80] : Fin 2 → IVec S16 32) a x).toNat < S200x128.size a := fun v79 v80 k0_hw40 => k0_hw40

def k0_chk41 (v59 : IVec S16 32) (v82 : IVec S16 32) : Prop :=
  (∀ a x, ((![v82, v59] : Fin 2 → IVec S16 32) a x).toNat < S200x128.size a)
instance k0_chk41.dec : ∀ (v59 : IVec S16 32) (v82 : IVec S16 32), Decidable (k0_chk41 v59 v82) := fun v59 v82 => decidable_of_iff' _ (Iff.of_eq (k0_chk41.eq_1 v59 v82))
theorem k0_idx41_inb : ∀ (v59 : IVec S16 32) (v82 : IVec S16 32) (k0_hw41 : k0_chk41 v59 v82), ∀ a x, ((![v82, v59] : Fin 2 → IVec S16 32) a x).toNat < S200x128.size a := fun v59 v82 k0_hw41 => k0_hw41

def k0_chk42 (v82 : IVec S16 32) (v83 : IVec S16 32) : Prop :=
  (∀ a x, ((![v82, v83] : Fin 2 → IVec S16 32) a x).toNat < S200x128.size a)
instance k0_chk42.dec : ∀ (v82 : IVec S16 32) (v83 : IVec S16 32), Decidable (k0_chk42 v82 v83) := fun v82 v83 => decidable_of_iff' _ (Iff.of_eq (k0_chk42.eq_1 v82 v83))
theorem k0_idx42_inb : ∀ (v82 : IVec S16 32) (v83 : IVec S16 32) (k0_hw42 : k0_chk42 v82 v83), ∀ a x, ((![v82, v83] : Fin 2 → IVec S16 32) a x).toNat < S200x128.size a := fun v82 v83 k0_hw42 => k0_hw42

def k0_chk43 (v59 : IVec S16 32) (v85 : IVec S16 32) : Prop :=
  (∀ a x, ((![v85, v59] : Fin 2 → IVec S16 32) a x).toNat < S200x128.size a)
instance k0_chk43.dec : ∀ (v59 : IVec S16 32) (v85 : IVec S16 32), Decidable (k0_chk43 v59 v85) := fun v59 v85 => decidable_of_iff' _ (Iff.of_eq (k0_chk43.eq_1 v59 v85))
theorem k0_idx43_inb : ∀ (v59 : IVec S16 32) (v85 : IVec S16 32) (k0_hw43 : k0_chk43 v59 v85), ∀ a x, ((![v85, v59] : Fin 2 → IVec S16 32) a x).toNat < S200x128.size a := fun v59 v85 k0_hw43 => k0_hw43

def k0_chk44 (v85 : IVec S16 32) (v86 : IVec S16 32) : Prop :=
  (∀ a x, ((![v85, v86] : Fin 2 → IVec S16 32) a x).toNat < S200x128.size a)
instance k0_chk44.dec : ∀ (v85 : IVec S16 32) (v86 : IVec S16 32), Decidable (k0_chk44 v85 v86) := fun v85 v86 => decidable_of_iff' _ (Iff.of_eq (k0_chk44.eq_1 v85 v86))
theorem k0_idx44_inb : ∀ (v85 : IVec S16 32) (v86 : IVec S16 32) (k0_hw44 : k0_chk44 v85 v86), ∀ a x, ((![v85, v86] : Fin 2 → IVec S16 32) a x).toNat < S200x128.size a := fun v85 v86 k0_hw44 => k0_hw44

def k0_chk45 (v59 : IVec S16 32) (v88 : IVec S16 32) : Prop :=
  (∀ a x, ((![v88, v59] : Fin 2 → IVec S16 32) a x).toNat < S200x128.size a)
instance k0_chk45.dec : ∀ (v59 : IVec S16 32) (v88 : IVec S16 32), Decidable (k0_chk45 v59 v88) := fun v59 v88 => decidable_of_iff' _ (Iff.of_eq (k0_chk45.eq_1 v59 v88))
theorem k0_idx45_inb : ∀ (v59 : IVec S16 32) (v88 : IVec S16 32) (k0_hw45 : k0_chk45 v59 v88), ∀ a x, ((![v88, v59] : Fin 2 → IVec S16 32) a x).toNat < S200x128.size a := fun v59 v88 k0_hw45 => k0_hw45

def k0_chk46 (v88 : IVec S16 32) (v89 : IVec S16 32) : Prop :=
  (∀ a x, ((![v88, v89] : Fin 2 → IVec S16 32) a x).toNat < S200x128.size a)
instance k0_chk46.dec : ∀ (v88 : IVec S16 32) (v89 : IVec S16 32), Decidable (k0_chk46 v88 v89) := fun v88 v89 => decidable_of_iff' _ (Iff.of_eq (k0_chk46.eq_1 v88 v89))
theorem k0_idx46_inb : ∀ (v88 : IVec S16 32) (v89 : IVec S16 32) (k0_hw46 : k0_chk46 v88 v89), ∀ a x, ((![v88, v89] : Fin 2 → IVec S16 32) a x).toNat < S200x128.size a := fun v88 v89 k0_hw46 => k0_hw46

def k0_chk47 (v59 : IVec S16 32) (v91 : IVec S16 32) : Prop :=
  (∀ a x, ((![v91, v59] : Fin 2 → IVec S16 32) a x).toNat < S200x128.size a)
instance k0_chk47.dec : ∀ (v59 : IVec S16 32) (v91 : IVec S16 32), Decidable (k0_chk47 v59 v91) := fun v59 v91 => decidable_of_iff' _ (Iff.of_eq (k0_chk47.eq_1 v59 v91))
theorem k0_idx47_inb : ∀ (v59 : IVec S16 32) (v91 : IVec S16 32) (k0_hw47 : k0_chk47 v59 v91), ∀ a x, ((![v91, v59] : Fin 2 → IVec S16 32) a x).toNat < S200x128.size a := fun v59 v91 k0_hw47 => k0_hw47

def k0_chk48 (v91 : IVec S16 32) (v92 : IVec S16 32) : Prop :=
  (∀ a x, ((![v91, v92] : Fin 2 → IVec S16 32) a x).toNat < S200x128.size a)
instance k0_chk48.dec : ∀ (v91 : IVec S16 32) (v92 : IVec S16 32), Decidable (k0_chk48 v91 v92) := fun v91 v92 => decidable_of_iff' _ (Iff.of_eq (k0_chk48.eq_1 v91 v92))
theorem k0_idx48_inb : ∀ (v91 : IVec S16 32) (v92 : IVec S16 32) (k0_hw48 : k0_chk48 v91 v92), ∀ a x, ((![v91, v92] : Fin 2 → IVec S16 32) a x).toNat < S200x128.size a := fun v91 v92 k0_hw48 => k0_hw48

def k0_chk49 (v59 : IVec S16 32) (v94 : IVec S16 32) : Prop :=
  (∀ a x, ((![v94, v59] : Fin 2 → IVec S16 32) a x).toNat < S200x128.size a)
instance k0_chk49.dec : ∀ (v59 : IVec S16 32) (v94 : IVec S16 32), Decidable (k0_chk49 v59 v94) := fun v59 v94 => decidable_of_iff' _ (Iff.of_eq (k0_chk49.eq_1 v59 v94))
theorem k0_idx49_inb : ∀ (v59 : IVec S16 32) (v94 : IVec S16 32) (k0_hw49 : k0_chk49 v59 v94), ∀ a x, ((![v94, v59] : Fin 2 → IVec S16 32) a x).toNat < S200x128.size a := fun v59 v94 k0_hw49 => k0_hw49

def k0_chk50 (v94 : IVec S16 32) (v95 : IVec S16 32) : Prop :=
  (∀ a x, ((![v94, v95] : Fin 2 → IVec S16 32) a x).toNat < S200x128.size a)
instance k0_chk50.dec : ∀ (v94 : IVec S16 32) (v95 : IVec S16 32), Decidable (k0_chk50 v94 v95) := fun v94 v95 => decidable_of_iff' _ (Iff.of_eq (k0_chk50.eq_1 v94 v95))
theorem k0_idx50_inb : ∀ (v94 : IVec S16 32) (v95 : IVec S16 32) (k0_hw50 : k0_chk50 v94 v95), ∀ a x, ((![v94, v95] : Fin 2 → IVec S16 32) a x).toNat < S200x128.size a := fun v94 v95 k0_hw50 => k0_hw50

def k0_chk51 (v59 : IVec S16 32) (v97 : IVec S16 32) : Prop :=
  (∀ a x, ((![v97, v59] : Fin 2 → IVec S16 32) a x).toNat < S200x128.size a)
instance k0_chk51.dec : ∀ (v59 : IVec S16 32) (v97 : IVec S16 32), Decidable (k0_chk51 v59 v97) := fun v59 v97 => decidable_of_iff' _ (Iff.of_eq (k0_chk51.eq_1 v59 v97))
theorem k0_idx51_inb : ∀ (v59 : IVec S16 32) (v97 : IVec S16 32) (k0_hw51 : k0_chk51 v59 v97), ∀ a x, ((![v97, v59] : Fin 2 → IVec S16 32) a x).toNat < S200x128.size a := fun v59 v97 k0_hw51 => k0_hw51

def k0_chk52 (v97 : IVec S16 32) (v98 : IVec S16 32) : Prop :=
  (∀ a x, ((![v97, v98] : Fin 2 → IVec S16 32) a x).toNat < S200x128.size a)
instance k0_chk52.dec : ∀ (v97 : IVec S16 32) (v98 : IVec S16 32), Decidable (k0_chk52 v97 v98) := fun v97 v98 => decidable_of_iff' _ (Iff.of_eq (k0_chk52.eq_1 v97 v98))
theorem k0_idx52_inb : ∀ (v97 : IVec S16 32) (v98 : IVec S16 32) (k0_hw52 : k0_chk52 v97 v98), ∀ a x, ((![v97, v98] : Fin 2 → IVec S16 32) a x).toNat < S200x128.size a := fun v97 v98 k0_hw52 => k0_hw52
def k0_off19 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1_i32_30 : BitVec 32 := 1#32
  let v99 : BitVec 32 := Scalar.addi v2 c1_i32_30
  let c0_i32_31 : BitVec 32 := 0#32
  let c0_i32_32 : BitVec 32 := 0#32
  ![v99.toNat, 0, 0]
@[reducible] def k0_t3_loop : Scf.Loop 32 :=
  let c0_i32_35 : BitVec 32 := 0#32
  let c63_i32 : BitVec 32 := 63#32
  let v104 : BitVec 32 := Scalar.addi c0_i32_35 c63_i32
  let c1_i32_36 : BitVec 32 := 1#32
  ⟨c0_i32_35, v104, c1_i32_36⟩
def k0_off20 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_50 : BitVec 32 := 0#32
  let c0_i32_51 : BitVec 32 := 0#32
  ![v2.toNat, 0, 0]

def k0_chk53 (v125 : IVec S16 32) (v127 : IVec S16 32) : Prop :=
  (∀ a x, ((![v127, v125] : Fin 2 → IVec S16 32) a x).toNat < S200x128.size a)
instance k0_chk53.dec : ∀ (v125 : IVec S16 32) (v127 : IVec S16 32), Decidable (k0_chk53 v125 v127) := fun v125 v127 => decidable_of_iff' _ (Iff.of_eq (k0_chk53.eq_1 v125 v127))
theorem k0_idx53_inb : ∀ (v125 : IVec S16 32) (v127 : IVec S16 32) (k0_hw53 : k0_chk53 v125 v127), ∀ a x, ((![v127, v125] : Fin 2 → IVec S16 32) a x).toNat < S200x128.size a := fun v125 v127 k0_hw53 => k0_hw53

def k0_chk54 (v127 : IVec S16 32) (v128 : IVec S16 32) : Prop :=
  (∀ a x, ((![v127, v128] : Fin 2 → IVec S16 32) a x).toNat < S200x128.size a)
instance k0_chk54.dec : ∀ (v127 : IVec S16 32) (v128 : IVec S16 32), Decidable (k0_chk54 v127 v128) := fun v127 v128 => decidable_of_iff' _ (Iff.of_eq (k0_chk54.eq_1 v127 v128))
theorem k0_idx54_inb : ∀ (v127 : IVec S16 32) (v128 : IVec S16 32) (k0_hw54 : k0_chk54 v127 v128), ∀ a x, ((![v127, v128] : Fin 2 → IVec S16 32) a x).toNat < S200x128.size a := fun v127 v128 k0_hw54 => k0_hw54

def k0_chk55 (v125 : IVec S16 32) (v130 : IVec S16 32) : Prop :=
  (∀ a x, ((![v130, v125] : Fin 2 → IVec S16 32) a x).toNat < S200x128.size a)
instance k0_chk55.dec : ∀ (v125 : IVec S16 32) (v130 : IVec S16 32), Decidable (k0_chk55 v125 v130) := fun v125 v130 => decidable_of_iff' _ (Iff.of_eq (k0_chk55.eq_1 v125 v130))
theorem k0_idx55_inb : ∀ (v125 : IVec S16 32) (v130 : IVec S16 32) (k0_hw55 : k0_chk55 v125 v130), ∀ a x, ((![v130, v125] : Fin 2 → IVec S16 32) a x).toNat < S200x128.size a := fun v125 v130 k0_hw55 => k0_hw55

def k0_chk56 (v130 : IVec S16 32) (v131 : IVec S16 32) : Prop :=
  (∀ a x, ((![v130, v131] : Fin 2 → IVec S16 32) a x).toNat < S200x128.size a)
instance k0_chk56.dec : ∀ (v130 : IVec S16 32) (v131 : IVec S16 32), Decidable (k0_chk56 v130 v131) := fun v130 v131 => decidable_of_iff' _ (Iff.of_eq (k0_chk56.eq_1 v130 v131))
theorem k0_idx56_inb : ∀ (v130 : IVec S16 32) (v131 : IVec S16 32) (k0_hw56 : k0_chk56 v130 v131), ∀ a x, ((![v130, v131] : Fin 2 → IVec S16 32) a x).toNat < S200x128.size a := fun v130 v131 k0_hw56 => k0_hw56

def k0_chk57 (v125 : IVec S16 32) (v133 : IVec S16 32) : Prop :=
  (∀ a x, ((![v133, v125] : Fin 2 → IVec S16 32) a x).toNat < S200x128.size a)
instance k0_chk57.dec : ∀ (v125 : IVec S16 32) (v133 : IVec S16 32), Decidable (k0_chk57 v125 v133) := fun v125 v133 => decidable_of_iff' _ (Iff.of_eq (k0_chk57.eq_1 v125 v133))
theorem k0_idx57_inb : ∀ (v125 : IVec S16 32) (v133 : IVec S16 32) (k0_hw57 : k0_chk57 v125 v133), ∀ a x, ((![v133, v125] : Fin 2 → IVec S16 32) a x).toNat < S200x128.size a := fun v125 v133 k0_hw57 => k0_hw57

def k0_chk58 (v133 : IVec S16 32) (v134 : IVec S16 32) : Prop :=
  (∀ a x, ((![v133, v134] : Fin 2 → IVec S16 32) a x).toNat < S200x128.size a)
instance k0_chk58.dec : ∀ (v133 : IVec S16 32) (v134 : IVec S16 32), Decidable (k0_chk58 v133 v134) := fun v133 v134 => decidable_of_iff' _ (Iff.of_eq (k0_chk58.eq_1 v133 v134))
theorem k0_idx58_inb : ∀ (v133 : IVec S16 32) (v134 : IVec S16 32) (k0_hw58 : k0_chk58 v133 v134), ∀ a x, ((![v133, v134] : Fin 2 → IVec S16 32) a x).toNat < S200x128.size a := fun v133 v134 k0_hw58 => k0_hw58

def k0_chk59 (v125 : IVec S16 32) (v136 : IVec S16 32) : Prop :=
  (∀ a x, ((![v136, v125] : Fin 2 → IVec S16 32) a x).toNat < S200x128.size a)
instance k0_chk59.dec : ∀ (v125 : IVec S16 32) (v136 : IVec S16 32), Decidable (k0_chk59 v125 v136) := fun v125 v136 => decidable_of_iff' _ (Iff.of_eq (k0_chk59.eq_1 v125 v136))
theorem k0_idx59_inb : ∀ (v125 : IVec S16 32) (v136 : IVec S16 32) (k0_hw59 : k0_chk59 v125 v136), ∀ a x, ((![v136, v125] : Fin 2 → IVec S16 32) a x).toNat < S200x128.size a := fun v125 v136 k0_hw59 => k0_hw59

def k0_chk60 (v136 : IVec S16 32) (v137 : IVec S16 32) : Prop :=
  (∀ a x, ((![v136, v137] : Fin 2 → IVec S16 32) a x).toNat < S200x128.size a)
instance k0_chk60.dec : ∀ (v136 : IVec S16 32) (v137 : IVec S16 32), Decidable (k0_chk60 v136 v137) := fun v136 v137 => decidable_of_iff' _ (Iff.of_eq (k0_chk60.eq_1 v136 v137))
theorem k0_idx60_inb : ∀ (v136 : IVec S16 32) (v137 : IVec S16 32) (k0_hw60 : k0_chk60 v136 v137), ∀ a x, ((![v136, v137] : Fin 2 → IVec S16 32) a x).toNat < S200x128.size a := fun v136 v137 k0_hw60 => k0_hw60

def k0_chk61 (v125 : IVec S16 32) (v139 : IVec S16 32) : Prop :=
  (∀ a x, ((![v139, v125] : Fin 2 → IVec S16 32) a x).toNat < S200x128.size a)
instance k0_chk61.dec : ∀ (v125 : IVec S16 32) (v139 : IVec S16 32), Decidable (k0_chk61 v125 v139) := fun v125 v139 => decidable_of_iff' _ (Iff.of_eq (k0_chk61.eq_1 v125 v139))
theorem k0_idx61_inb : ∀ (v125 : IVec S16 32) (v139 : IVec S16 32) (k0_hw61 : k0_chk61 v125 v139), ∀ a x, ((![v139, v125] : Fin 2 → IVec S16 32) a x).toNat < S200x128.size a := fun v125 v139 k0_hw61 => k0_hw61

def k0_chk62 (v139 : IVec S16 32) (v140 : IVec S16 32) : Prop :=
  (∀ a x, ((![v139, v140] : Fin 2 → IVec S16 32) a x).toNat < S200x128.size a)
instance k0_chk62.dec : ∀ (v139 : IVec S16 32) (v140 : IVec S16 32), Decidable (k0_chk62 v139 v140) := fun v139 v140 => decidable_of_iff' _ (Iff.of_eq (k0_chk62.eq_1 v139 v140))
theorem k0_idx62_inb : ∀ (v139 : IVec S16 32) (v140 : IVec S16 32) (k0_hw62 : k0_chk62 v139 v140), ∀ a x, ((![v139, v140] : Fin 2 → IVec S16 32) a x).toNat < S200x128.size a := fun v139 v140 k0_hw62 => k0_hw62

def k0_chk63 (v125 : IVec S16 32) (v142 : IVec S16 32) : Prop :=
  (∀ a x, ((![v142, v125] : Fin 2 → IVec S16 32) a x).toNat < S200x128.size a)
instance k0_chk63.dec : ∀ (v125 : IVec S16 32) (v142 : IVec S16 32), Decidable (k0_chk63 v125 v142) := fun v125 v142 => decidable_of_iff' _ (Iff.of_eq (k0_chk63.eq_1 v125 v142))
theorem k0_idx63_inb : ∀ (v125 : IVec S16 32) (v142 : IVec S16 32) (k0_hw63 : k0_chk63 v125 v142), ∀ a x, ((![v142, v125] : Fin 2 → IVec S16 32) a x).toNat < S200x128.size a := fun v125 v142 k0_hw63 => k0_hw63

def k0_chk64 (v142 : IVec S16 32) (v143 : IVec S16 32) : Prop :=
  (∀ a x, ((![v142, v143] : Fin 2 → IVec S16 32) a x).toNat < S200x128.size a)
instance k0_chk64.dec : ∀ (v142 : IVec S16 32) (v143 : IVec S16 32), Decidable (k0_chk64 v142 v143) := fun v142 v143 => decidable_of_iff' _ (Iff.of_eq (k0_chk64.eq_1 v142 v143))
theorem k0_idx64_inb : ∀ (v142 : IVec S16 32) (v143 : IVec S16 32) (k0_hw64 : k0_chk64 v142 v143), ∀ a x, ((![v142, v143] : Fin 2 → IVec S16 32) a x).toNat < S200x128.size a := fun v142 v143 k0_hw64 => k0_hw64

def k0_chk65 (v125 : IVec S16 32) (v145 : IVec S16 32) : Prop :=
  (∀ a x, ((![v145, v125] : Fin 2 → IVec S16 32) a x).toNat < S200x128.size a)
instance k0_chk65.dec : ∀ (v125 : IVec S16 32) (v145 : IVec S16 32), Decidable (k0_chk65 v125 v145) := fun v125 v145 => decidable_of_iff' _ (Iff.of_eq (k0_chk65.eq_1 v125 v145))
theorem k0_idx65_inb : ∀ (v125 : IVec S16 32) (v145 : IVec S16 32) (k0_hw65 : k0_chk65 v125 v145), ∀ a x, ((![v145, v125] : Fin 2 → IVec S16 32) a x).toNat < S200x128.size a := fun v125 v145 k0_hw65 => k0_hw65

def k0_chk66 (v145 : IVec S16 32) (v146 : IVec S16 32) : Prop :=
  (∀ a x, ((![v145, v146] : Fin 2 → IVec S16 32) a x).toNat < S200x128.size a)
instance k0_chk66.dec : ∀ (v145 : IVec S16 32) (v146 : IVec S16 32), Decidable (k0_chk66 v145 v146) := fun v145 v146 => decidable_of_iff' _ (Iff.of_eq (k0_chk66.eq_1 v145 v146))
theorem k0_idx66_inb : ∀ (v145 : IVec S16 32) (v146 : IVec S16 32) (k0_hw66 : k0_chk66 v145 v146), ∀ a x, ((![v145, v146] : Fin 2 → IVec S16 32) a x).toNat < S200x128.size a := fun v145 v146 k0_hw66 => k0_hw66

def k0_chk67 (v125 : IVec S16 32) (v148 : IVec S16 32) : Prop :=
  (∀ a x, ((![v148, v125] : Fin 2 → IVec S16 32) a x).toNat < S200x128.size a)
instance k0_chk67.dec : ∀ (v125 : IVec S16 32) (v148 : IVec S16 32), Decidable (k0_chk67 v125 v148) := fun v125 v148 => decidable_of_iff' _ (Iff.of_eq (k0_chk67.eq_1 v125 v148))
theorem k0_idx67_inb : ∀ (v125 : IVec S16 32) (v148 : IVec S16 32) (k0_hw67 : k0_chk67 v125 v148), ∀ a x, ((![v148, v125] : Fin 2 → IVec S16 32) a x).toNat < S200x128.size a := fun v125 v148 k0_hw67 => k0_hw67

def k0_chk68 (v148 : IVec S16 32) (v149 : IVec S16 32) : Prop :=
  (∀ a x, ((![v148, v149] : Fin 2 → IVec S16 32) a x).toNat < S200x128.size a)
instance k0_chk68.dec : ∀ (v148 : IVec S16 32) (v149 : IVec S16 32), Decidable (k0_chk68 v148 v149) := fun v148 v149 => decidable_of_iff' _ (Iff.of_eq (k0_chk68.eq_1 v148 v149))
theorem k0_idx68_inb : ∀ (v148 : IVec S16 32) (v149 : IVec S16 32) (k0_hw68 : k0_chk68 v148 v149), ∀ a x, ((![v148, v149] : Fin 2 → IVec S16 32) a x).toNat < S200x128.size a := fun v148 v149 k0_hw68 => k0_hw68

def k0_chk69 (v125 : IVec S16 32) (v151 : IVec S16 32) : Prop :=
  (∀ a x, ((![v151, v125] : Fin 2 → IVec S16 32) a x).toNat < S200x128.size a)
instance k0_chk69.dec : ∀ (v125 : IVec S16 32) (v151 : IVec S16 32), Decidable (k0_chk69 v125 v151) := fun v125 v151 => decidable_of_iff' _ (Iff.of_eq (k0_chk69.eq_1 v125 v151))
theorem k0_idx69_inb : ∀ (v125 : IVec S16 32) (v151 : IVec S16 32) (k0_hw69 : k0_chk69 v125 v151), ∀ a x, ((![v151, v125] : Fin 2 → IVec S16 32) a x).toNat < S200x128.size a := fun v125 v151 k0_hw69 => k0_hw69

def k0_chk70 (v151 : IVec S16 32) (v152 : IVec S16 32) : Prop :=
  (∀ a x, ((![v151, v152] : Fin 2 → IVec S16 32) a x).toNat < S200x128.size a)
instance k0_chk70.dec : ∀ (v151 : IVec S16 32) (v152 : IVec S16 32), Decidable (k0_chk70 v151 v152) := fun v151 v152 => decidable_of_iff' _ (Iff.of_eq (k0_chk70.eq_1 v151 v152))
theorem k0_idx70_inb : ∀ (v151 : IVec S16 32) (v152 : IVec S16 32) (k0_hw70 : k0_chk70 v151 v152), ∀ a x, ((![v151, v152] : Fin 2 → IVec S16 32) a x).toNat < S200x128.size a := fun v151 v152 k0_hw70 => k0_hw70

def k0_chk71 (v125 : IVec S16 32) (v154 : IVec S16 32) : Prop :=
  (∀ a x, ((![v154, v125] : Fin 2 → IVec S16 32) a x).toNat < S200x128.size a)
instance k0_chk71.dec : ∀ (v125 : IVec S16 32) (v154 : IVec S16 32), Decidable (k0_chk71 v125 v154) := fun v125 v154 => decidable_of_iff' _ (Iff.of_eq (k0_chk71.eq_1 v125 v154))
theorem k0_idx71_inb : ∀ (v125 : IVec S16 32) (v154 : IVec S16 32) (k0_hw71 : k0_chk71 v125 v154), ∀ a x, ((![v154, v125] : Fin 2 → IVec S16 32) a x).toNat < S200x128.size a := fun v125 v154 k0_hw71 => k0_hw71

def k0_chk72 (v154 : IVec S16 32) (v155 : IVec S16 32) : Prop :=
  (∀ a x, ((![v154, v155] : Fin 2 → IVec S16 32) a x).toNat < S200x128.size a)
instance k0_chk72.dec : ∀ (v154 : IVec S16 32) (v155 : IVec S16 32), Decidable (k0_chk72 v154 v155) := fun v154 v155 => decidable_of_iff' _ (Iff.of_eq (k0_chk72.eq_1 v154 v155))
theorem k0_idx72_inb : ∀ (v154 : IVec S16 32) (v155 : IVec S16 32) (k0_hw72 : k0_chk72 v154 v155), ∀ a x, ((![v154, v155] : Fin 2 → IVec S16 32) a x).toNat < S200x128.size a := fun v154 v155 k0_hw72 => k0_hw72

def k0_chk73 (v125 : IVec S16 32) (v157 : IVec S16 32) : Prop :=
  (∀ a x, ((![v157, v125] : Fin 2 → IVec S16 32) a x).toNat < S200x128.size a)
instance k0_chk73.dec : ∀ (v125 : IVec S16 32) (v157 : IVec S16 32), Decidable (k0_chk73 v125 v157) := fun v125 v157 => decidable_of_iff' _ (Iff.of_eq (k0_chk73.eq_1 v125 v157))
theorem k0_idx73_inb : ∀ (v125 : IVec S16 32) (v157 : IVec S16 32) (k0_hw73 : k0_chk73 v125 v157), ∀ a x, ((![v157, v125] : Fin 2 → IVec S16 32) a x).toNat < S200x128.size a := fun v125 v157 k0_hw73 => k0_hw73

def k0_chk74 (v157 : IVec S16 32) (v158 : IVec S16 32) : Prop :=
  (∀ a x, ((![v157, v158] : Fin 2 → IVec S16 32) a x).toNat < S200x128.size a)
instance k0_chk74.dec : ∀ (v157 : IVec S16 32) (v158 : IVec S16 32), Decidable (k0_chk74 v157 v158) := fun v157 v158 => decidable_of_iff' _ (Iff.of_eq (k0_chk74.eq_1 v157 v158))
theorem k0_idx74_inb : ∀ (v157 : IVec S16 32) (v158 : IVec S16 32) (k0_hw74 : k0_chk74 v157 v158), ∀ a x, ((![v157, v158] : Fin 2 → IVec S16 32) a x).toNat < S200x128.size a := fun v157 v158 k0_hw74 => k0_hw74

def k0_chk75 (v125 : IVec S16 32) (v160 : IVec S16 32) : Prop :=
  (∀ a x, ((![v160, v125] : Fin 2 → IVec S16 32) a x).toNat < S200x128.size a)
instance k0_chk75.dec : ∀ (v125 : IVec S16 32) (v160 : IVec S16 32), Decidable (k0_chk75 v125 v160) := fun v125 v160 => decidable_of_iff' _ (Iff.of_eq (k0_chk75.eq_1 v125 v160))
theorem k0_idx75_inb : ∀ (v125 : IVec S16 32) (v160 : IVec S16 32) (k0_hw75 : k0_chk75 v125 v160), ∀ a x, ((![v160, v125] : Fin 2 → IVec S16 32) a x).toNat < S200x128.size a := fun v125 v160 k0_hw75 => k0_hw75

def k0_chk76 (v160 : IVec S16 32) (v161 : IVec S16 32) : Prop :=
  (∀ a x, ((![v160, v161] : Fin 2 → IVec S16 32) a x).toNat < S200x128.size a)
instance k0_chk76.dec : ∀ (v160 : IVec S16 32) (v161 : IVec S16 32), Decidable (k0_chk76 v160 v161) := fun v160 v161 => decidable_of_iff' _ (Iff.of_eq (k0_chk76.eq_1 v160 v161))
theorem k0_idx76_inb : ∀ (v160 : IVec S16 32) (v161 : IVec S16 32) (k0_hw76 : k0_chk76 v160 v161), ∀ a x, ((![v160, v161] : Fin 2 → IVec S16 32) a x).toNat < S200x128.size a := fun v160 v161 k0_hw76 => k0_hw76

def k0_chk77 (v125 : IVec S16 32) (v163 : IVec S16 32) : Prop :=
  (∀ a x, ((![v163, v125] : Fin 2 → IVec S16 32) a x).toNat < S200x128.size a)
instance k0_chk77.dec : ∀ (v125 : IVec S16 32) (v163 : IVec S16 32), Decidable (k0_chk77 v125 v163) := fun v125 v163 => decidable_of_iff' _ (Iff.of_eq (k0_chk77.eq_1 v125 v163))
theorem k0_idx77_inb : ∀ (v125 : IVec S16 32) (v163 : IVec S16 32) (k0_hw77 : k0_chk77 v125 v163), ∀ a x, ((![v163, v125] : Fin 2 → IVec S16 32) a x).toNat < S200x128.size a := fun v125 v163 k0_hw77 => k0_hw77

def k0_chk78 (v163 : IVec S16 32) (v164 : IVec S16 32) : Prop :=
  (∀ a x, ((![v163, v164] : Fin 2 → IVec S16 32) a x).toNat < S200x128.size a)
instance k0_chk78.dec : ∀ (v163 : IVec S16 32) (v164 : IVec S16 32), Decidable (k0_chk78 v163 v164) := fun v163 v164 => decidable_of_iff' _ (Iff.of_eq (k0_chk78.eq_1 v163 v164))
theorem k0_idx78_inb : ∀ (v163 : IVec S16 32) (v164 : IVec S16 32) (k0_hw78 : k0_chk78 v163 v164), ∀ a x, ((![v163, v164] : Fin 2 → IVec S16 32) a x).toNat < S200x128.size a := fun v163 v164 k0_hw78 => k0_hw78

def k0_chk79 (v168 : IVec S16 32) (v170 : IVec S16 32) : Prop :=
  (∀ a x, ((![v170, v168] : Fin 2 → IVec S16 32) a x).toNat < S200x128.size a)
instance k0_chk79.dec : ∀ (v168 : IVec S16 32) (v170 : IVec S16 32), Decidable (k0_chk79 v168 v170) := fun v168 v170 => decidable_of_iff' _ (Iff.of_eq (k0_chk79.eq_1 v168 v170))
theorem k0_idx79_inb : ∀ (v168 : IVec S16 32) (v170 : IVec S16 32) (k0_hw79 : k0_chk79 v168 v170), ∀ a x, ((![v170, v168] : Fin 2 → IVec S16 32) a x).toNat < S200x128.size a := fun v168 v170 k0_hw79 => k0_hw79

def k0_chk80 (v170 : IVec S16 32) (v171 : IVec S16 32) : Prop :=
  (∀ a x, ((![v170, v171] : Fin 2 → IVec S16 32) a x).toNat < S200x128.size a)
instance k0_chk80.dec : ∀ (v170 : IVec S16 32) (v171 : IVec S16 32), Decidable (k0_chk80 v170 v171) := fun v170 v171 => decidable_of_iff' _ (Iff.of_eq (k0_chk80.eq_1 v170 v171))
theorem k0_idx80_inb : ∀ (v170 : IVec S16 32) (v171 : IVec S16 32) (k0_hw80 : k0_chk80 v170 v171), ∀ a x, ((![v170, v171] : Fin 2 → IVec S16 32) a x).toNat < S200x128.size a := fun v170 v171 k0_hw80 => k0_hw80

def k0_chk81 (v168 : IVec S16 32) (v173 : IVec S16 32) : Prop :=
  (∀ a x, ((![v173, v168] : Fin 2 → IVec S16 32) a x).toNat < S200x128.size a)
instance k0_chk81.dec : ∀ (v168 : IVec S16 32) (v173 : IVec S16 32), Decidable (k0_chk81 v168 v173) := fun v168 v173 => decidable_of_iff' _ (Iff.of_eq (k0_chk81.eq_1 v168 v173))
theorem k0_idx81_inb : ∀ (v168 : IVec S16 32) (v173 : IVec S16 32) (k0_hw81 : k0_chk81 v168 v173), ∀ a x, ((![v173, v168] : Fin 2 → IVec S16 32) a x).toNat < S200x128.size a := fun v168 v173 k0_hw81 => k0_hw81

def k0_chk82 (v173 : IVec S16 32) (v174 : IVec S16 32) : Prop :=
  (∀ a x, ((![v173, v174] : Fin 2 → IVec S16 32) a x).toNat < S200x128.size a)
instance k0_chk82.dec : ∀ (v173 : IVec S16 32) (v174 : IVec S16 32), Decidable (k0_chk82 v173 v174) := fun v173 v174 => decidable_of_iff' _ (Iff.of_eq (k0_chk82.eq_1 v173 v174))
theorem k0_idx82_inb : ∀ (v173 : IVec S16 32) (v174 : IVec S16 32) (k0_hw82 : k0_chk82 v173 v174), ∀ a x, ((![v173, v174] : Fin 2 → IVec S16 32) a x).toNat < S200x128.size a := fun v173 v174 k0_hw82 => k0_hw82

def k0_chk83 (v168 : IVec S16 32) (v176 : IVec S16 32) : Prop :=
  (∀ a x, ((![v176, v168] : Fin 2 → IVec S16 32) a x).toNat < S200x128.size a)
instance k0_chk83.dec : ∀ (v168 : IVec S16 32) (v176 : IVec S16 32), Decidable (k0_chk83 v168 v176) := fun v168 v176 => decidable_of_iff' _ (Iff.of_eq (k0_chk83.eq_1 v168 v176))
theorem k0_idx83_inb : ∀ (v168 : IVec S16 32) (v176 : IVec S16 32) (k0_hw83 : k0_chk83 v168 v176), ∀ a x, ((![v176, v168] : Fin 2 → IVec S16 32) a x).toNat < S200x128.size a := fun v168 v176 k0_hw83 => k0_hw83

def k0_chk84 (v176 : IVec S16 32) (v177 : IVec S16 32) : Prop :=
  (∀ a x, ((![v176, v177] : Fin 2 → IVec S16 32) a x).toNat < S200x128.size a)
instance k0_chk84.dec : ∀ (v176 : IVec S16 32) (v177 : IVec S16 32), Decidable (k0_chk84 v176 v177) := fun v176 v177 => decidable_of_iff' _ (Iff.of_eq (k0_chk84.eq_1 v176 v177))
theorem k0_idx84_inb : ∀ (v176 : IVec S16 32) (v177 : IVec S16 32) (k0_hw84 : k0_chk84 v176 v177), ∀ a x, ((![v176, v177] : Fin 2 → IVec S16 32) a x).toNat < S200x128.size a := fun v176 v177 k0_hw84 => k0_hw84

def k0_chk85 (v168 : IVec S16 32) (v179 : IVec S16 32) : Prop :=
  (∀ a x, ((![v179, v168] : Fin 2 → IVec S16 32) a x).toNat < S200x128.size a)
instance k0_chk85.dec : ∀ (v168 : IVec S16 32) (v179 : IVec S16 32), Decidable (k0_chk85 v168 v179) := fun v168 v179 => decidable_of_iff' _ (Iff.of_eq (k0_chk85.eq_1 v168 v179))
theorem k0_idx85_inb : ∀ (v168 : IVec S16 32) (v179 : IVec S16 32) (k0_hw85 : k0_chk85 v168 v179), ∀ a x, ((![v179, v168] : Fin 2 → IVec S16 32) a x).toNat < S200x128.size a := fun v168 v179 k0_hw85 => k0_hw85

def k0_chk86 (v179 : IVec S16 32) (v180 : IVec S16 32) : Prop :=
  (∀ a x, ((![v179, v180] : Fin 2 → IVec S16 32) a x).toNat < S200x128.size a)
instance k0_chk86.dec : ∀ (v179 : IVec S16 32) (v180 : IVec S16 32), Decidable (k0_chk86 v179 v180) := fun v179 v180 => decidable_of_iff' _ (Iff.of_eq (k0_chk86.eq_1 v179 v180))
theorem k0_idx86_inb : ∀ (v179 : IVec S16 32) (v180 : IVec S16 32) (k0_hw86 : k0_chk86 v179 v180), ∀ a x, ((![v179, v180] : Fin 2 → IVec S16 32) a x).toNat < S200x128.size a := fun v179 v180 k0_hw86 => k0_hw86

def k0_chk87 (v168 : IVec S16 32) (v182 : IVec S16 32) : Prop :=
  (∀ a x, ((![v182, v168] : Fin 2 → IVec S16 32) a x).toNat < S200x128.size a)
instance k0_chk87.dec : ∀ (v168 : IVec S16 32) (v182 : IVec S16 32), Decidable (k0_chk87 v168 v182) := fun v168 v182 => decidable_of_iff' _ (Iff.of_eq (k0_chk87.eq_1 v168 v182))
theorem k0_idx87_inb : ∀ (v168 : IVec S16 32) (v182 : IVec S16 32) (k0_hw87 : k0_chk87 v168 v182), ∀ a x, ((![v182, v168] : Fin 2 → IVec S16 32) a x).toNat < S200x128.size a := fun v168 v182 k0_hw87 => k0_hw87

def k0_chk88 (v182 : IVec S16 32) (v183 : IVec S16 32) : Prop :=
  (∀ a x, ((![v182, v183] : Fin 2 → IVec S16 32) a x).toNat < S200x128.size a)
instance k0_chk88.dec : ∀ (v182 : IVec S16 32) (v183 : IVec S16 32), Decidable (k0_chk88 v182 v183) := fun v182 v183 => decidable_of_iff' _ (Iff.of_eq (k0_chk88.eq_1 v182 v183))
theorem k0_idx88_inb : ∀ (v182 : IVec S16 32) (v183 : IVec S16 32) (k0_hw88 : k0_chk88 v182 v183), ∀ a x, ((![v182, v183] : Fin 2 → IVec S16 32) a x).toNat < S200x128.size a := fun v182 v183 k0_hw88 => k0_hw88

def k0_chk89 (v168 : IVec S16 32) (v185 : IVec S16 32) : Prop :=
  (∀ a x, ((![v185, v168] : Fin 2 → IVec S16 32) a x).toNat < S200x128.size a)
instance k0_chk89.dec : ∀ (v168 : IVec S16 32) (v185 : IVec S16 32), Decidable (k0_chk89 v168 v185) := fun v168 v185 => decidable_of_iff' _ (Iff.of_eq (k0_chk89.eq_1 v168 v185))
theorem k0_idx89_inb : ∀ (v168 : IVec S16 32) (v185 : IVec S16 32) (k0_hw89 : k0_chk89 v168 v185), ∀ a x, ((![v185, v168] : Fin 2 → IVec S16 32) a x).toNat < S200x128.size a := fun v168 v185 k0_hw89 => k0_hw89

def k0_chk90 (v185 : IVec S16 32) (v186 : IVec S16 32) : Prop :=
  (∀ a x, ((![v185, v186] : Fin 2 → IVec S16 32) a x).toNat < S200x128.size a)
instance k0_chk90.dec : ∀ (v185 : IVec S16 32) (v186 : IVec S16 32), Decidable (k0_chk90 v185 v186) := fun v185 v186 => decidable_of_iff' _ (Iff.of_eq (k0_chk90.eq_1 v185 v186))
theorem k0_idx90_inb : ∀ (v185 : IVec S16 32) (v186 : IVec S16 32) (k0_hw90 : k0_chk90 v185 v186), ∀ a x, ((![v185, v186] : Fin 2 → IVec S16 32) a x).toNat < S200x128.size a := fun v185 v186 k0_hw90 => k0_hw90

def k0_chk91 (v168 : IVec S16 32) (v188 : IVec S16 32) : Prop :=
  (∀ a x, ((![v188, v168] : Fin 2 → IVec S16 32) a x).toNat < S200x128.size a)
instance k0_chk91.dec : ∀ (v168 : IVec S16 32) (v188 : IVec S16 32), Decidable (k0_chk91 v168 v188) := fun v168 v188 => decidable_of_iff' _ (Iff.of_eq (k0_chk91.eq_1 v168 v188))
theorem k0_idx91_inb : ∀ (v168 : IVec S16 32) (v188 : IVec S16 32) (k0_hw91 : k0_chk91 v168 v188), ∀ a x, ((![v188, v168] : Fin 2 → IVec S16 32) a x).toNat < S200x128.size a := fun v168 v188 k0_hw91 => k0_hw91

def k0_chk92 (v188 : IVec S16 32) (v189 : IVec S16 32) : Prop :=
  (∀ a x, ((![v188, v189] : Fin 2 → IVec S16 32) a x).toNat < S200x128.size a)
instance k0_chk92.dec : ∀ (v188 : IVec S16 32) (v189 : IVec S16 32), Decidable (k0_chk92 v188 v189) := fun v188 v189 => decidable_of_iff' _ (Iff.of_eq (k0_chk92.eq_1 v188 v189))
theorem k0_idx92_inb : ∀ (v188 : IVec S16 32) (v189 : IVec S16 32) (k0_hw92 : k0_chk92 v188 v189), ∀ a x, ((![v188, v189] : Fin 2 → IVec S16 32) a x).toNat < S200x128.size a := fun v188 v189 k0_hw92 => k0_hw92

def k0_chk93 (v168 : IVec S16 32) (v191 : IVec S16 32) : Prop :=
  (∀ a x, ((![v191, v168] : Fin 2 → IVec S16 32) a x).toNat < S200x128.size a)
instance k0_chk93.dec : ∀ (v168 : IVec S16 32) (v191 : IVec S16 32), Decidable (k0_chk93 v168 v191) := fun v168 v191 => decidable_of_iff' _ (Iff.of_eq (k0_chk93.eq_1 v168 v191))
theorem k0_idx93_inb : ∀ (v168 : IVec S16 32) (v191 : IVec S16 32) (k0_hw93 : k0_chk93 v168 v191), ∀ a x, ((![v191, v168] : Fin 2 → IVec S16 32) a x).toNat < S200x128.size a := fun v168 v191 k0_hw93 => k0_hw93

def k0_chk94 (v191 : IVec S16 32) (v192 : IVec S16 32) : Prop :=
  (∀ a x, ((![v191, v192] : Fin 2 → IVec S16 32) a x).toNat < S200x128.size a)
instance k0_chk94.dec : ∀ (v191 : IVec S16 32) (v192 : IVec S16 32), Decidable (k0_chk94 v191 v192) := fun v191 v192 => decidable_of_iff' _ (Iff.of_eq (k0_chk94.eq_1 v191 v192))
theorem k0_idx94_inb : ∀ (v191 : IVec S16 32) (v192 : IVec S16 32) (k0_hw94 : k0_chk94 v191 v192), ∀ a x, ((![v191, v192] : Fin 2 → IVec S16 32) a x).toNat < S200x128.size a := fun v191 v192 k0_hw94 => k0_hw94

def k0_chk95 (v168 : IVec S16 32) (v194 : IVec S16 32) : Prop :=
  (∀ a x, ((![v194, v168] : Fin 2 → IVec S16 32) a x).toNat < S200x128.size a)
instance k0_chk95.dec : ∀ (v168 : IVec S16 32) (v194 : IVec S16 32), Decidable (k0_chk95 v168 v194) := fun v168 v194 => decidable_of_iff' _ (Iff.of_eq (k0_chk95.eq_1 v168 v194))
theorem k0_idx95_inb : ∀ (v168 : IVec S16 32) (v194 : IVec S16 32) (k0_hw95 : k0_chk95 v168 v194), ∀ a x, ((![v194, v168] : Fin 2 → IVec S16 32) a x).toNat < S200x128.size a := fun v168 v194 k0_hw95 => k0_hw95

def k0_chk96 (v194 : IVec S16 32) (v195 : IVec S16 32) : Prop :=
  (∀ a x, ((![v194, v195] : Fin 2 → IVec S16 32) a x).toNat < S200x128.size a)
instance k0_chk96.dec : ∀ (v194 : IVec S16 32) (v195 : IVec S16 32), Decidable (k0_chk96 v194 v195) := fun v194 v195 => decidable_of_iff' _ (Iff.of_eq (k0_chk96.eq_1 v194 v195))
theorem k0_idx96_inb : ∀ (v194 : IVec S16 32) (v195 : IVec S16 32) (k0_hw96 : k0_chk96 v194 v195), ∀ a x, ((![v194, v195] : Fin 2 → IVec S16 32) a x).toNat < S200x128.size a := fun v194 v195 k0_hw96 => k0_hw96

def k0_chk97 (v168 : IVec S16 32) (v197 : IVec S16 32) : Prop :=
  (∀ a x, ((![v197, v168] : Fin 2 → IVec S16 32) a x).toNat < S200x128.size a)
instance k0_chk97.dec : ∀ (v168 : IVec S16 32) (v197 : IVec S16 32), Decidable (k0_chk97 v168 v197) := fun v168 v197 => decidable_of_iff' _ (Iff.of_eq (k0_chk97.eq_1 v168 v197))
theorem k0_idx97_inb : ∀ (v168 : IVec S16 32) (v197 : IVec S16 32) (k0_hw97 : k0_chk97 v168 v197), ∀ a x, ((![v197, v168] : Fin 2 → IVec S16 32) a x).toNat < S200x128.size a := fun v168 v197 k0_hw97 => k0_hw97

def k0_chk98 (v197 : IVec S16 32) (v198 : IVec S16 32) : Prop :=
  (∀ a x, ((![v197, v198] : Fin 2 → IVec S16 32) a x).toNat < S200x128.size a)
instance k0_chk98.dec : ∀ (v197 : IVec S16 32) (v198 : IVec S16 32), Decidable (k0_chk98 v197 v198) := fun v197 v198 => decidable_of_iff' _ (Iff.of_eq (k0_chk98.eq_1 v197 v198))
theorem k0_idx98_inb : ∀ (v197 : IVec S16 32) (v198 : IVec S16 32) (k0_hw98 : k0_chk98 v197 v198), ∀ a x, ((![v197, v198] : Fin 2 → IVec S16 32) a x).toNat < S200x128.size a := fun v197 v198 k0_hw98 => k0_hw98

def k0_chk99 (v168 : IVec S16 32) (v200 : IVec S16 32) : Prop :=
  (∀ a x, ((![v200, v168] : Fin 2 → IVec S16 32) a x).toNat < S200x128.size a)
instance k0_chk99.dec : ∀ (v168 : IVec S16 32) (v200 : IVec S16 32), Decidable (k0_chk99 v168 v200) := fun v168 v200 => decidable_of_iff' _ (Iff.of_eq (k0_chk99.eq_1 v168 v200))
theorem k0_idx99_inb : ∀ (v168 : IVec S16 32) (v200 : IVec S16 32) (k0_hw99 : k0_chk99 v168 v200), ∀ a x, ((![v200, v168] : Fin 2 → IVec S16 32) a x).toNat < S200x128.size a := fun v168 v200 k0_hw99 => k0_hw99

def k0_chk100 (v200 : IVec S16 32) (v201 : IVec S16 32) : Prop :=
  (∀ a x, ((![v200, v201] : Fin 2 → IVec S16 32) a x).toNat < S200x128.size a)
instance k0_chk100.dec : ∀ (v200 : IVec S16 32) (v201 : IVec S16 32), Decidable (k0_chk100 v200 v201) := fun v200 v201 => decidable_of_iff' _ (Iff.of_eq (k0_chk100.eq_1 v200 v201))
theorem k0_idx100_inb : ∀ (v200 : IVec S16 32) (v201 : IVec S16 32) (k0_hw100 : k0_chk100 v200 v201), ∀ a x, ((![v200, v201] : Fin 2 → IVec S16 32) a x).toNat < S200x128.size a := fun v200 v201 k0_hw100 => k0_hw100

def k0_chk101 (v168 : IVec S16 32) (v203 : IVec S16 32) : Prop :=
  (∀ a x, ((![v203, v168] : Fin 2 → IVec S16 32) a x).toNat < S200x128.size a)
instance k0_chk101.dec : ∀ (v168 : IVec S16 32) (v203 : IVec S16 32), Decidable (k0_chk101 v168 v203) := fun v168 v203 => decidable_of_iff' _ (Iff.of_eq (k0_chk101.eq_1 v168 v203))
theorem k0_idx101_inb : ∀ (v168 : IVec S16 32) (v203 : IVec S16 32) (k0_hw101 : k0_chk101 v168 v203), ∀ a x, ((![v203, v168] : Fin 2 → IVec S16 32) a x).toNat < S200x128.size a := fun v168 v203 k0_hw101 => k0_hw101

def k0_chk102 (v203 : IVec S16 32) (v204 : IVec S16 32) : Prop :=
  (∀ a x, ((![v203, v204] : Fin 2 → IVec S16 32) a x).toNat < S200x128.size a)
instance k0_chk102.dec : ∀ (v203 : IVec S16 32) (v204 : IVec S16 32), Decidable (k0_chk102 v203 v204) := fun v203 v204 => decidable_of_iff' _ (Iff.of_eq (k0_chk102.eq_1 v203 v204))
theorem k0_idx102_inb : ∀ (v203 : IVec S16 32) (v204 : IVec S16 32) (k0_hw102 : k0_chk102 v203 v204), ∀ a x, ((![v203, v204] : Fin 2 → IVec S16 32) a x).toNat < S200x128.size a := fun v203 v204 k0_hw102 => k0_hw102

def k0_chk103 (v168 : IVec S16 32) (v206 : IVec S16 32) : Prop :=
  (∀ a x, ((![v206, v168] : Fin 2 → IVec S16 32) a x).toNat < S200x128.size a)
instance k0_chk103.dec : ∀ (v168 : IVec S16 32) (v206 : IVec S16 32), Decidable (k0_chk103 v168 v206) := fun v168 v206 => decidable_of_iff' _ (Iff.of_eq (k0_chk103.eq_1 v168 v206))
theorem k0_idx103_inb : ∀ (v168 : IVec S16 32) (v206 : IVec S16 32) (k0_hw103 : k0_chk103 v168 v206), ∀ a x, ((![v206, v168] : Fin 2 → IVec S16 32) a x).toNat < S200x128.size a := fun v168 v206 k0_hw103 => k0_hw103

def k0_chk104 (v206 : IVec S16 32) (v207 : IVec S16 32) : Prop :=
  (∀ a x, ((![v206, v207] : Fin 2 → IVec S16 32) a x).toNat < S200x128.size a)
instance k0_chk104.dec : ∀ (v206 : IVec S16 32) (v207 : IVec S16 32), Decidable (k0_chk104 v206 v207) := fun v206 v207 => decidable_of_iff' _ (Iff.of_eq (k0_chk104.eq_1 v206 v207))
theorem k0_idx104_inb : ∀ (v206 : IVec S16 32) (v207 : IVec S16 32) (k0_hw104 : k0_chk104 v206 v207), ∀ a x, ((![v206, v207] : Fin 2 → IVec S16 32) a x).toNat < S200x128.size a := fun v206 v207 k0_hw104 => k0_hw104
def k0_off21 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1_i32_47 : BitVec 32 := 1#32
  let c0_i32_35 : BitVec 32 := 0#32
  let c1_i32_36 : BitVec 32 := 1#32
  let arg9 : BitVec 32 := Scf.iv c0_i32_35 c1_i32_36 k0_t3
  let c1_i32_46 : BitVec 32 := 1#32
  let v113 : BitVec 32 := Scalar.muli arg9 c1_i32_46
  let v114 : BitVec 32 := Scalar.addi c1_i32_47 v113
  let c2_i32_48 : BitVec 32 := 2#32
  let v115 : BitVec 32 := Scalar.muli v114 c2_i32_48
  let v208 : BitVec 32 := Scalar.addi v2 v115
  let c0_i32_83 : BitVec 32 := 0#32
  let c0_i32_84 : BitVec 32 := 0#32
  ![v208.toNat, 0, 0]
def k0_off22 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_87 : BitVec 32 := 0#32
  let c0_i32_88 : BitVec 32 := 0#32
  ![v2.toNat, 0, 0]

def k0_chk105 (v221 : IVec S16 32) (v223 : IVec S16 32) : Prop :=
  (∀ a x, ((![v223, v221] : Fin 2 → IVec S16 32) a x).toNat < S200x128.size a)
instance k0_chk105.dec : ∀ (v221 : IVec S16 32) (v223 : IVec S16 32), Decidable (k0_chk105 v221 v223) := fun v221 v223 => decidable_of_iff' _ (Iff.of_eq (k0_chk105.eq_1 v221 v223))
theorem k0_idx105_inb : ∀ (v221 : IVec S16 32) (v223 : IVec S16 32) (k0_hw105 : k0_chk105 v221 v223), ∀ a x, ((![v223, v221] : Fin 2 → IVec S16 32) a x).toNat < S200x128.size a := fun v221 v223 k0_hw105 => k0_hw105

def k0_chk106 (v223 : IVec S16 32) (v224 : IVec S16 32) : Prop :=
  (∀ a x, ((![v223, v224] : Fin 2 → IVec S16 32) a x).toNat < S200x128.size a)
instance k0_chk106.dec : ∀ (v223 : IVec S16 32) (v224 : IVec S16 32), Decidable (k0_chk106 v223 v224) := fun v223 v224 => decidable_of_iff' _ (Iff.of_eq (k0_chk106.eq_1 v223 v224))
theorem k0_idx106_inb : ∀ (v223 : IVec S16 32) (v224 : IVec S16 32) (k0_hw106 : k0_chk106 v223 v224), ∀ a x, ((![v223, v224] : Fin 2 → IVec S16 32) a x).toNat < S200x128.size a := fun v223 v224 k0_hw106 => k0_hw106

def k0_chk107 (v221 : IVec S16 32) (v226 : IVec S16 32) : Prop :=
  (∀ a x, ((![v226, v221] : Fin 2 → IVec S16 32) a x).toNat < S200x128.size a)
instance k0_chk107.dec : ∀ (v221 : IVec S16 32) (v226 : IVec S16 32), Decidable (k0_chk107 v221 v226) := fun v221 v226 => decidable_of_iff' _ (Iff.of_eq (k0_chk107.eq_1 v221 v226))
theorem k0_idx107_inb : ∀ (v221 : IVec S16 32) (v226 : IVec S16 32) (k0_hw107 : k0_chk107 v221 v226), ∀ a x, ((![v226, v221] : Fin 2 → IVec S16 32) a x).toNat < S200x128.size a := fun v221 v226 k0_hw107 => k0_hw107

def k0_chk108 (v226 : IVec S16 32) (v227 : IVec S16 32) : Prop :=
  (∀ a x, ((![v226, v227] : Fin 2 → IVec S16 32) a x).toNat < S200x128.size a)
instance k0_chk108.dec : ∀ (v226 : IVec S16 32) (v227 : IVec S16 32), Decidable (k0_chk108 v226 v227) := fun v226 v227 => decidable_of_iff' _ (Iff.of_eq (k0_chk108.eq_1 v226 v227))
theorem k0_idx108_inb : ∀ (v226 : IVec S16 32) (v227 : IVec S16 32) (k0_hw108 : k0_chk108 v226 v227), ∀ a x, ((![v226, v227] : Fin 2 → IVec S16 32) a x).toNat < S200x128.size a := fun v226 v227 k0_hw108 => k0_hw108

def k0_chk109 (v221 : IVec S16 32) (v229 : IVec S16 32) : Prop :=
  (∀ a x, ((![v229, v221] : Fin 2 → IVec S16 32) a x).toNat < S200x128.size a)
instance k0_chk109.dec : ∀ (v221 : IVec S16 32) (v229 : IVec S16 32), Decidable (k0_chk109 v221 v229) := fun v221 v229 => decidable_of_iff' _ (Iff.of_eq (k0_chk109.eq_1 v221 v229))
theorem k0_idx109_inb : ∀ (v221 : IVec S16 32) (v229 : IVec S16 32) (k0_hw109 : k0_chk109 v221 v229), ∀ a x, ((![v229, v221] : Fin 2 → IVec S16 32) a x).toNat < S200x128.size a := fun v221 v229 k0_hw109 => k0_hw109

def k0_chk110 (v229 : IVec S16 32) (v230 : IVec S16 32) : Prop :=
  (∀ a x, ((![v229, v230] : Fin 2 → IVec S16 32) a x).toNat < S200x128.size a)
instance k0_chk110.dec : ∀ (v229 : IVec S16 32) (v230 : IVec S16 32), Decidable (k0_chk110 v229 v230) := fun v229 v230 => decidable_of_iff' _ (Iff.of_eq (k0_chk110.eq_1 v229 v230))
theorem k0_idx110_inb : ∀ (v229 : IVec S16 32) (v230 : IVec S16 32) (k0_hw110 : k0_chk110 v229 v230), ∀ a x, ((![v229, v230] : Fin 2 → IVec S16 32) a x).toNat < S200x128.size a := fun v229 v230 k0_hw110 => k0_hw110

def k0_chk111 (v221 : IVec S16 32) (v232 : IVec S16 32) : Prop :=
  (∀ a x, ((![v232, v221] : Fin 2 → IVec S16 32) a x).toNat < S200x128.size a)
instance k0_chk111.dec : ∀ (v221 : IVec S16 32) (v232 : IVec S16 32), Decidable (k0_chk111 v221 v232) := fun v221 v232 => decidable_of_iff' _ (Iff.of_eq (k0_chk111.eq_1 v221 v232))
theorem k0_idx111_inb : ∀ (v221 : IVec S16 32) (v232 : IVec S16 32) (k0_hw111 : k0_chk111 v221 v232), ∀ a x, ((![v232, v221] : Fin 2 → IVec S16 32) a x).toNat < S200x128.size a := fun v221 v232 k0_hw111 => k0_hw111

def k0_chk112 (v232 : IVec S16 32) (v233 : IVec S16 32) : Prop :=
  (∀ a x, ((![v232, v233] : Fin 2 → IVec S16 32) a x).toNat < S200x128.size a)
instance k0_chk112.dec : ∀ (v232 : IVec S16 32) (v233 : IVec S16 32), Decidable (k0_chk112 v232 v233) := fun v232 v233 => decidable_of_iff' _ (Iff.of_eq (k0_chk112.eq_1 v232 v233))
theorem k0_idx112_inb : ∀ (v232 : IVec S16 32) (v233 : IVec S16 32) (k0_hw112 : k0_chk112 v232 v233), ∀ a x, ((![v232, v233] : Fin 2 → IVec S16 32) a x).toNat < S200x128.size a := fun v232 v233 k0_hw112 => k0_hw112

def k0_chk113 (v221 : IVec S16 32) (v235 : IVec S16 32) : Prop :=
  (∀ a x, ((![v235, v221] : Fin 2 → IVec S16 32) a x).toNat < S200x128.size a)
instance k0_chk113.dec : ∀ (v221 : IVec S16 32) (v235 : IVec S16 32), Decidable (k0_chk113 v221 v235) := fun v221 v235 => decidable_of_iff' _ (Iff.of_eq (k0_chk113.eq_1 v221 v235))
theorem k0_idx113_inb : ∀ (v221 : IVec S16 32) (v235 : IVec S16 32) (k0_hw113 : k0_chk113 v221 v235), ∀ a x, ((![v235, v221] : Fin 2 → IVec S16 32) a x).toNat < S200x128.size a := fun v221 v235 k0_hw113 => k0_hw113

def k0_chk114 (v235 : IVec S16 32) (v236 : IVec S16 32) : Prop :=
  (∀ a x, ((![v235, v236] : Fin 2 → IVec S16 32) a x).toNat < S200x128.size a)
instance k0_chk114.dec : ∀ (v235 : IVec S16 32) (v236 : IVec S16 32), Decidable (k0_chk114 v235 v236) := fun v235 v236 => decidable_of_iff' _ (Iff.of_eq (k0_chk114.eq_1 v235 v236))
theorem k0_idx114_inb : ∀ (v235 : IVec S16 32) (v236 : IVec S16 32) (k0_hw114 : k0_chk114 v235 v236), ∀ a x, ((![v235, v236] : Fin 2 → IVec S16 32) a x).toNat < S200x128.size a := fun v235 v236 k0_hw114 => k0_hw114

def k0_chk115 (v221 : IVec S16 32) (v238 : IVec S16 32) : Prop :=
  (∀ a x, ((![v238, v221] : Fin 2 → IVec S16 32) a x).toNat < S200x128.size a)
instance k0_chk115.dec : ∀ (v221 : IVec S16 32) (v238 : IVec S16 32), Decidable (k0_chk115 v221 v238) := fun v221 v238 => decidable_of_iff' _ (Iff.of_eq (k0_chk115.eq_1 v221 v238))
theorem k0_idx115_inb : ∀ (v221 : IVec S16 32) (v238 : IVec S16 32) (k0_hw115 : k0_chk115 v221 v238), ∀ a x, ((![v238, v221] : Fin 2 → IVec S16 32) a x).toNat < S200x128.size a := fun v221 v238 k0_hw115 => k0_hw115

def k0_chk116 (v238 : IVec S16 32) (v239 : IVec S16 32) : Prop :=
  (∀ a x, ((![v238, v239] : Fin 2 → IVec S16 32) a x).toNat < S200x128.size a)
instance k0_chk116.dec : ∀ (v238 : IVec S16 32) (v239 : IVec S16 32), Decidable (k0_chk116 v238 v239) := fun v238 v239 => decidable_of_iff' _ (Iff.of_eq (k0_chk116.eq_1 v238 v239))
theorem k0_idx116_inb : ∀ (v238 : IVec S16 32) (v239 : IVec S16 32) (k0_hw116 : k0_chk116 v238 v239), ∀ a x, ((![v238, v239] : Fin 2 → IVec S16 32) a x).toNat < S200x128.size a := fun v238 v239 k0_hw116 => k0_hw116

def k0_chk117 (v221 : IVec S16 32) (v241 : IVec S16 32) : Prop :=
  (∀ a x, ((![v241, v221] : Fin 2 → IVec S16 32) a x).toNat < S200x128.size a)
instance k0_chk117.dec : ∀ (v221 : IVec S16 32) (v241 : IVec S16 32), Decidable (k0_chk117 v221 v241) := fun v221 v241 => decidable_of_iff' _ (Iff.of_eq (k0_chk117.eq_1 v221 v241))
theorem k0_idx117_inb : ∀ (v221 : IVec S16 32) (v241 : IVec S16 32) (k0_hw117 : k0_chk117 v221 v241), ∀ a x, ((![v241, v221] : Fin 2 → IVec S16 32) a x).toNat < S200x128.size a := fun v221 v241 k0_hw117 => k0_hw117

def k0_chk118 (v241 : IVec S16 32) (v242 : IVec S16 32) : Prop :=
  (∀ a x, ((![v241, v242] : Fin 2 → IVec S16 32) a x).toNat < S200x128.size a)
instance k0_chk118.dec : ∀ (v241 : IVec S16 32) (v242 : IVec S16 32), Decidable (k0_chk118 v241 v242) := fun v241 v242 => decidable_of_iff' _ (Iff.of_eq (k0_chk118.eq_1 v241 v242))
theorem k0_idx118_inb : ∀ (v241 : IVec S16 32) (v242 : IVec S16 32) (k0_hw118 : k0_chk118 v241 v242), ∀ a x, ((![v241, v242] : Fin 2 → IVec S16 32) a x).toNat < S200x128.size a := fun v241 v242 k0_hw118 => k0_hw118

def k0_chk119 (v221 : IVec S16 32) (v244 : IVec S16 32) : Prop :=
  (∀ a x, ((![v244, v221] : Fin 2 → IVec S16 32) a x).toNat < S200x128.size a)
instance k0_chk119.dec : ∀ (v221 : IVec S16 32) (v244 : IVec S16 32), Decidable (k0_chk119 v221 v244) := fun v221 v244 => decidable_of_iff' _ (Iff.of_eq (k0_chk119.eq_1 v221 v244))
theorem k0_idx119_inb : ∀ (v221 : IVec S16 32) (v244 : IVec S16 32) (k0_hw119 : k0_chk119 v221 v244), ∀ a x, ((![v244, v221] : Fin 2 → IVec S16 32) a x).toNat < S200x128.size a := fun v221 v244 k0_hw119 => k0_hw119

def k0_chk120 (v244 : IVec S16 32) (v245 : IVec S16 32) : Prop :=
  (∀ a x, ((![v244, v245] : Fin 2 → IVec S16 32) a x).toNat < S200x128.size a)
instance k0_chk120.dec : ∀ (v244 : IVec S16 32) (v245 : IVec S16 32), Decidable (k0_chk120 v244 v245) := fun v244 v245 => decidable_of_iff' _ (Iff.of_eq (k0_chk120.eq_1 v244 v245))
theorem k0_idx120_inb : ∀ (v244 : IVec S16 32) (v245 : IVec S16 32) (k0_hw120 : k0_chk120 v244 v245), ∀ a x, ((![v244, v245] : Fin 2 → IVec S16 32) a x).toNat < S200x128.size a := fun v244 v245 k0_hw120 => k0_hw120

def k0_chk121 (v221 : IVec S16 32) (v247 : IVec S16 32) : Prop :=
  (∀ a x, ((![v247, v221] : Fin 2 → IVec S16 32) a x).toNat < S200x128.size a)
instance k0_chk121.dec : ∀ (v221 : IVec S16 32) (v247 : IVec S16 32), Decidable (k0_chk121 v221 v247) := fun v221 v247 => decidable_of_iff' _ (Iff.of_eq (k0_chk121.eq_1 v221 v247))
theorem k0_idx121_inb : ∀ (v221 : IVec S16 32) (v247 : IVec S16 32) (k0_hw121 : k0_chk121 v221 v247), ∀ a x, ((![v247, v221] : Fin 2 → IVec S16 32) a x).toNat < S200x128.size a := fun v221 v247 k0_hw121 => k0_hw121

def k0_chk122 (v247 : IVec S16 32) (v248 : IVec S16 32) : Prop :=
  (∀ a x, ((![v247, v248] : Fin 2 → IVec S16 32) a x).toNat < S200x128.size a)
instance k0_chk122.dec : ∀ (v247 : IVec S16 32) (v248 : IVec S16 32), Decidable (k0_chk122 v247 v248) := fun v247 v248 => decidable_of_iff' _ (Iff.of_eq (k0_chk122.eq_1 v247 v248))
theorem k0_idx122_inb : ∀ (v247 : IVec S16 32) (v248 : IVec S16 32) (k0_hw122 : k0_chk122 v247 v248), ∀ a x, ((![v247, v248] : Fin 2 → IVec S16 32) a x).toNat < S200x128.size a := fun v247 v248 k0_hw122 => k0_hw122

def k0_chk123 (v221 : IVec S16 32) (v250 : IVec S16 32) : Prop :=
  (∀ a x, ((![v250, v221] : Fin 2 → IVec S16 32) a x).toNat < S200x128.size a)
instance k0_chk123.dec : ∀ (v221 : IVec S16 32) (v250 : IVec S16 32), Decidable (k0_chk123 v221 v250) := fun v221 v250 => decidable_of_iff' _ (Iff.of_eq (k0_chk123.eq_1 v221 v250))
theorem k0_idx123_inb : ∀ (v221 : IVec S16 32) (v250 : IVec S16 32) (k0_hw123 : k0_chk123 v221 v250), ∀ a x, ((![v250, v221] : Fin 2 → IVec S16 32) a x).toNat < S200x128.size a := fun v221 v250 k0_hw123 => k0_hw123

def k0_chk124 (v250 : IVec S16 32) (v251 : IVec S16 32) : Prop :=
  (∀ a x, ((![v250, v251] : Fin 2 → IVec S16 32) a x).toNat < S200x128.size a)
instance k0_chk124.dec : ∀ (v250 : IVec S16 32) (v251 : IVec S16 32), Decidable (k0_chk124 v250 v251) := fun v250 v251 => decidable_of_iff' _ (Iff.of_eq (k0_chk124.eq_1 v250 v251))
theorem k0_idx124_inb : ∀ (v250 : IVec S16 32) (v251 : IVec S16 32) (k0_hw124 : k0_chk124 v250 v251), ∀ a x, ((![v250, v251] : Fin 2 → IVec S16 32) a x).toNat < S200x128.size a := fun v250 v251 k0_hw124 => k0_hw124

def k0_chk125 (v221 : IVec S16 32) (v253 : IVec S16 32) : Prop :=
  (∀ a x, ((![v253, v221] : Fin 2 → IVec S16 32) a x).toNat < S200x128.size a)
instance k0_chk125.dec : ∀ (v221 : IVec S16 32) (v253 : IVec S16 32), Decidable (k0_chk125 v221 v253) := fun v221 v253 => decidable_of_iff' _ (Iff.of_eq (k0_chk125.eq_1 v221 v253))
theorem k0_idx125_inb : ∀ (v221 : IVec S16 32) (v253 : IVec S16 32) (k0_hw125 : k0_chk125 v221 v253), ∀ a x, ((![v253, v221] : Fin 2 → IVec S16 32) a x).toNat < S200x128.size a := fun v221 v253 k0_hw125 => k0_hw125

def k0_chk126 (v253 : IVec S16 32) (v254 : IVec S16 32) : Prop :=
  (∀ a x, ((![v253, v254] : Fin 2 → IVec S16 32) a x).toNat < S200x128.size a)
instance k0_chk126.dec : ∀ (v253 : IVec S16 32) (v254 : IVec S16 32), Decidable (k0_chk126 v253 v254) := fun v253 v254 => decidable_of_iff' _ (Iff.of_eq (k0_chk126.eq_1 v253 v254))
theorem k0_idx126_inb : ∀ (v253 : IVec S16 32) (v254 : IVec S16 32) (k0_hw126 : k0_chk126 v253 v254), ∀ a x, ((![v253, v254] : Fin 2 → IVec S16 32) a x).toNat < S200x128.size a := fun v253 v254 k0_hw126 => k0_hw126

def k0_chk127 (v221 : IVec S16 32) (v256 : IVec S16 32) : Prop :=
  (∀ a x, ((![v256, v221] : Fin 2 → IVec S16 32) a x).toNat < S200x128.size a)
instance k0_chk127.dec : ∀ (v221 : IVec S16 32) (v256 : IVec S16 32), Decidable (k0_chk127 v221 v256) := fun v221 v256 => decidable_of_iff' _ (Iff.of_eq (k0_chk127.eq_1 v221 v256))
theorem k0_idx127_inb : ∀ (v221 : IVec S16 32) (v256 : IVec S16 32) (k0_hw127 : k0_chk127 v221 v256), ∀ a x, ((![v256, v221] : Fin 2 → IVec S16 32) a x).toNat < S200x128.size a := fun v221 v256 k0_hw127 => k0_hw127

def k0_chk128 (v256 : IVec S16 32) (v257 : IVec S16 32) : Prop :=
  (∀ a x, ((![v256, v257] : Fin 2 → IVec S16 32) a x).toNat < S200x128.size a)
instance k0_chk128.dec : ∀ (v256 : IVec S16 32) (v257 : IVec S16 32), Decidable (k0_chk128 v256 v257) := fun v256 v257 => decidable_of_iff' _ (Iff.of_eq (k0_chk128.eq_1 v256 v257))
theorem k0_idx128_inb : ∀ (v256 : IVec S16 32) (v257 : IVec S16 32) (k0_hw128 : k0_chk128 v256 v257), ∀ a x, ((![v256, v257] : Fin 2 → IVec S16 32) a x).toNat < S200x128.size a := fun v256 v257 k0_hw128 => k0_hw128

def k0_chk129 (v221 : IVec S16 32) (v259 : IVec S16 32) : Prop :=
  (∀ a x, ((![v259, v221] : Fin 2 → IVec S16 32) a x).toNat < S200x128.size a)
instance k0_chk129.dec : ∀ (v221 : IVec S16 32) (v259 : IVec S16 32), Decidable (k0_chk129 v221 v259) := fun v221 v259 => decidable_of_iff' _ (Iff.of_eq (k0_chk129.eq_1 v221 v259))
theorem k0_idx129_inb : ∀ (v221 : IVec S16 32) (v259 : IVec S16 32) (k0_hw129 : k0_chk129 v221 v259), ∀ a x, ((![v259, v221] : Fin 2 → IVec S16 32) a x).toNat < S200x128.size a := fun v221 v259 k0_hw129 => k0_hw129

def k0_chk130 (v259 : IVec S16 32) (v260 : IVec S16 32) : Prop :=
  (∀ a x, ((![v259, v260] : Fin 2 → IVec S16 32) a x).toNat < S200x128.size a)
instance k0_chk130.dec : ∀ (v259 : IVec S16 32) (v260 : IVec S16 32), Decidable (k0_chk130 v259 v260) := fun v259 v260 => decidable_of_iff' _ (Iff.of_eq (k0_chk130.eq_1 v259 v260))
theorem k0_idx130_inb : ∀ (v259 : IVec S16 32) (v260 : IVec S16 32) (k0_hw130 : k0_chk130 v259 v260), ∀ a x, ((![v259, v260] : Fin 2 → IVec S16 32) a x).toNat < S200x128.size a := fun v259 v260 k0_hw130 => k0_hw130

def k0_chk131 (v264 : IVec S16 32) (v266 : IVec S16 32) : Prop :=
  (∀ a x, ((![v266, v264] : Fin 2 → IVec S16 32) a x).toNat < S200x128.size a)
instance k0_chk131.dec : ∀ (v264 : IVec S16 32) (v266 : IVec S16 32), Decidable (k0_chk131 v264 v266) := fun v264 v266 => decidable_of_iff' _ (Iff.of_eq (k0_chk131.eq_1 v264 v266))
theorem k0_idx131_inb : ∀ (v264 : IVec S16 32) (v266 : IVec S16 32) (k0_hw131 : k0_chk131 v264 v266), ∀ a x, ((![v266, v264] : Fin 2 → IVec S16 32) a x).toNat < S200x128.size a := fun v264 v266 k0_hw131 => k0_hw131

def k0_chk132 (v266 : IVec S16 32) (v267 : IVec S16 32) : Prop :=
  (∀ a x, ((![v266, v267] : Fin 2 → IVec S16 32) a x).toNat < S200x128.size a)
instance k0_chk132.dec : ∀ (v266 : IVec S16 32) (v267 : IVec S16 32), Decidable (k0_chk132 v266 v267) := fun v266 v267 => decidable_of_iff' _ (Iff.of_eq (k0_chk132.eq_1 v266 v267))
theorem k0_idx132_inb : ∀ (v266 : IVec S16 32) (v267 : IVec S16 32) (k0_hw132 : k0_chk132 v266 v267), ∀ a x, ((![v266, v267] : Fin 2 → IVec S16 32) a x).toNat < S200x128.size a := fun v266 v267 k0_hw132 => k0_hw132

def k0_chk133 (v264 : IVec S16 32) (v269 : IVec S16 32) : Prop :=
  (∀ a x, ((![v269, v264] : Fin 2 → IVec S16 32) a x).toNat < S200x128.size a)
instance k0_chk133.dec : ∀ (v264 : IVec S16 32) (v269 : IVec S16 32), Decidable (k0_chk133 v264 v269) := fun v264 v269 => decidable_of_iff' _ (Iff.of_eq (k0_chk133.eq_1 v264 v269))
theorem k0_idx133_inb : ∀ (v264 : IVec S16 32) (v269 : IVec S16 32) (k0_hw133 : k0_chk133 v264 v269), ∀ a x, ((![v269, v264] : Fin 2 → IVec S16 32) a x).toNat < S200x128.size a := fun v264 v269 k0_hw133 => k0_hw133

def k0_chk134 (v269 : IVec S16 32) (v270 : IVec S16 32) : Prop :=
  (∀ a x, ((![v269, v270] : Fin 2 → IVec S16 32) a x).toNat < S200x128.size a)
instance k0_chk134.dec : ∀ (v269 : IVec S16 32) (v270 : IVec S16 32), Decidable (k0_chk134 v269 v270) := fun v269 v270 => decidable_of_iff' _ (Iff.of_eq (k0_chk134.eq_1 v269 v270))
theorem k0_idx134_inb : ∀ (v269 : IVec S16 32) (v270 : IVec S16 32) (k0_hw134 : k0_chk134 v269 v270), ∀ a x, ((![v269, v270] : Fin 2 → IVec S16 32) a x).toNat < S200x128.size a := fun v269 v270 k0_hw134 => k0_hw134

def k0_chk135 (v264 : IVec S16 32) (v272 : IVec S16 32) : Prop :=
  (∀ a x, ((![v272, v264] : Fin 2 → IVec S16 32) a x).toNat < S200x128.size a)
instance k0_chk135.dec : ∀ (v264 : IVec S16 32) (v272 : IVec S16 32), Decidable (k0_chk135 v264 v272) := fun v264 v272 => decidable_of_iff' _ (Iff.of_eq (k0_chk135.eq_1 v264 v272))
theorem k0_idx135_inb : ∀ (v264 : IVec S16 32) (v272 : IVec S16 32) (k0_hw135 : k0_chk135 v264 v272), ∀ a x, ((![v272, v264] : Fin 2 → IVec S16 32) a x).toNat < S200x128.size a := fun v264 v272 k0_hw135 => k0_hw135

def k0_chk136 (v272 : IVec S16 32) (v273 : IVec S16 32) : Prop :=
  (∀ a x, ((![v272, v273] : Fin 2 → IVec S16 32) a x).toNat < S200x128.size a)
instance k0_chk136.dec : ∀ (v272 : IVec S16 32) (v273 : IVec S16 32), Decidable (k0_chk136 v272 v273) := fun v272 v273 => decidable_of_iff' _ (Iff.of_eq (k0_chk136.eq_1 v272 v273))
theorem k0_idx136_inb : ∀ (v272 : IVec S16 32) (v273 : IVec S16 32) (k0_hw136 : k0_chk136 v272 v273), ∀ a x, ((![v272, v273] : Fin 2 → IVec S16 32) a x).toNat < S200x128.size a := fun v272 v273 k0_hw136 => k0_hw136

def k0_chk137 (v264 : IVec S16 32) (v275 : IVec S16 32) : Prop :=
  (∀ a x, ((![v275, v264] : Fin 2 → IVec S16 32) a x).toNat < S200x128.size a)
instance k0_chk137.dec : ∀ (v264 : IVec S16 32) (v275 : IVec S16 32), Decidable (k0_chk137 v264 v275) := fun v264 v275 => decidable_of_iff' _ (Iff.of_eq (k0_chk137.eq_1 v264 v275))
theorem k0_idx137_inb : ∀ (v264 : IVec S16 32) (v275 : IVec S16 32) (k0_hw137 : k0_chk137 v264 v275), ∀ a x, ((![v275, v264] : Fin 2 → IVec S16 32) a x).toNat < S200x128.size a := fun v264 v275 k0_hw137 => k0_hw137

def k0_chk138 (v275 : IVec S16 32) (v276 : IVec S16 32) : Prop :=
  (∀ a x, ((![v275, v276] : Fin 2 → IVec S16 32) a x).toNat < S200x128.size a)
instance k0_chk138.dec : ∀ (v275 : IVec S16 32) (v276 : IVec S16 32), Decidable (k0_chk138 v275 v276) := fun v275 v276 => decidable_of_iff' _ (Iff.of_eq (k0_chk138.eq_1 v275 v276))
theorem k0_idx138_inb : ∀ (v275 : IVec S16 32) (v276 : IVec S16 32) (k0_hw138 : k0_chk138 v275 v276), ∀ a x, ((![v275, v276] : Fin 2 → IVec S16 32) a x).toNat < S200x128.size a := fun v275 v276 k0_hw138 => k0_hw138

def k0_chk139 (v264 : IVec S16 32) (v278 : IVec S16 32) : Prop :=
  (∀ a x, ((![v278, v264] : Fin 2 → IVec S16 32) a x).toNat < S200x128.size a)
instance k0_chk139.dec : ∀ (v264 : IVec S16 32) (v278 : IVec S16 32), Decidable (k0_chk139 v264 v278) := fun v264 v278 => decidable_of_iff' _ (Iff.of_eq (k0_chk139.eq_1 v264 v278))
theorem k0_idx139_inb : ∀ (v264 : IVec S16 32) (v278 : IVec S16 32) (k0_hw139 : k0_chk139 v264 v278), ∀ a x, ((![v278, v264] : Fin 2 → IVec S16 32) a x).toNat < S200x128.size a := fun v264 v278 k0_hw139 => k0_hw139

def k0_chk140 (v278 : IVec S16 32) (v279 : IVec S16 32) : Prop :=
  (∀ a x, ((![v278, v279] : Fin 2 → IVec S16 32) a x).toNat < S200x128.size a)
instance k0_chk140.dec : ∀ (v278 : IVec S16 32) (v279 : IVec S16 32), Decidable (k0_chk140 v278 v279) := fun v278 v279 => decidable_of_iff' _ (Iff.of_eq (k0_chk140.eq_1 v278 v279))
theorem k0_idx140_inb : ∀ (v278 : IVec S16 32) (v279 : IVec S16 32) (k0_hw140 : k0_chk140 v278 v279), ∀ a x, ((![v278, v279] : Fin 2 → IVec S16 32) a x).toNat < S200x128.size a := fun v278 v279 k0_hw140 => k0_hw140

def k0_chk141 (v264 : IVec S16 32) (v281 : IVec S16 32) : Prop :=
  (∀ a x, ((![v281, v264] : Fin 2 → IVec S16 32) a x).toNat < S200x128.size a)
instance k0_chk141.dec : ∀ (v264 : IVec S16 32) (v281 : IVec S16 32), Decidable (k0_chk141 v264 v281) := fun v264 v281 => decidable_of_iff' _ (Iff.of_eq (k0_chk141.eq_1 v264 v281))
theorem k0_idx141_inb : ∀ (v264 : IVec S16 32) (v281 : IVec S16 32) (k0_hw141 : k0_chk141 v264 v281), ∀ a x, ((![v281, v264] : Fin 2 → IVec S16 32) a x).toNat < S200x128.size a := fun v264 v281 k0_hw141 => k0_hw141

def k0_chk142 (v281 : IVec S16 32) (v282 : IVec S16 32) : Prop :=
  (∀ a x, ((![v281, v282] : Fin 2 → IVec S16 32) a x).toNat < S200x128.size a)
instance k0_chk142.dec : ∀ (v281 : IVec S16 32) (v282 : IVec S16 32), Decidable (k0_chk142 v281 v282) := fun v281 v282 => decidable_of_iff' _ (Iff.of_eq (k0_chk142.eq_1 v281 v282))
theorem k0_idx142_inb : ∀ (v281 : IVec S16 32) (v282 : IVec S16 32) (k0_hw142 : k0_chk142 v281 v282), ∀ a x, ((![v281, v282] : Fin 2 → IVec S16 32) a x).toNat < S200x128.size a := fun v281 v282 k0_hw142 => k0_hw142

def k0_chk143 (v264 : IVec S16 32) (v284 : IVec S16 32) : Prop :=
  (∀ a x, ((![v284, v264] : Fin 2 → IVec S16 32) a x).toNat < S200x128.size a)
instance k0_chk143.dec : ∀ (v264 : IVec S16 32) (v284 : IVec S16 32), Decidable (k0_chk143 v264 v284) := fun v264 v284 => decidable_of_iff' _ (Iff.of_eq (k0_chk143.eq_1 v264 v284))
theorem k0_idx143_inb : ∀ (v264 : IVec S16 32) (v284 : IVec S16 32) (k0_hw143 : k0_chk143 v264 v284), ∀ a x, ((![v284, v264] : Fin 2 → IVec S16 32) a x).toNat < S200x128.size a := fun v264 v284 k0_hw143 => k0_hw143

def k0_chk144 (v284 : IVec S16 32) (v285 : IVec S16 32) : Prop :=
  (∀ a x, ((![v284, v285] : Fin 2 → IVec S16 32) a x).toNat < S200x128.size a)
instance k0_chk144.dec : ∀ (v284 : IVec S16 32) (v285 : IVec S16 32), Decidable (k0_chk144 v284 v285) := fun v284 v285 => decidable_of_iff' _ (Iff.of_eq (k0_chk144.eq_1 v284 v285))
theorem k0_idx144_inb : ∀ (v284 : IVec S16 32) (v285 : IVec S16 32) (k0_hw144 : k0_chk144 v284 v285), ∀ a x, ((![v284, v285] : Fin 2 → IVec S16 32) a x).toNat < S200x128.size a := fun v284 v285 k0_hw144 => k0_hw144

def k0_chk145 (v264 : IVec S16 32) (v287 : IVec S16 32) : Prop :=
  (∀ a x, ((![v287, v264] : Fin 2 → IVec S16 32) a x).toNat < S200x128.size a)
instance k0_chk145.dec : ∀ (v264 : IVec S16 32) (v287 : IVec S16 32), Decidable (k0_chk145 v264 v287) := fun v264 v287 => decidable_of_iff' _ (Iff.of_eq (k0_chk145.eq_1 v264 v287))
theorem k0_idx145_inb : ∀ (v264 : IVec S16 32) (v287 : IVec S16 32) (k0_hw145 : k0_chk145 v264 v287), ∀ a x, ((![v287, v264] : Fin 2 → IVec S16 32) a x).toNat < S200x128.size a := fun v264 v287 k0_hw145 => k0_hw145

def k0_chk146 (v287 : IVec S16 32) (v288 : IVec S16 32) : Prop :=
  (∀ a x, ((![v287, v288] : Fin 2 → IVec S16 32) a x).toNat < S200x128.size a)
instance k0_chk146.dec : ∀ (v287 : IVec S16 32) (v288 : IVec S16 32), Decidable (k0_chk146 v287 v288) := fun v287 v288 => decidable_of_iff' _ (Iff.of_eq (k0_chk146.eq_1 v287 v288))
theorem k0_idx146_inb : ∀ (v287 : IVec S16 32) (v288 : IVec S16 32) (k0_hw146 : k0_chk146 v287 v288), ∀ a x, ((![v287, v288] : Fin 2 → IVec S16 32) a x).toNat < S200x128.size a := fun v287 v288 k0_hw146 => k0_hw146

def k0_chk147 (v264 : IVec S16 32) (v290 : IVec S16 32) : Prop :=
  (∀ a x, ((![v290, v264] : Fin 2 → IVec S16 32) a x).toNat < S200x128.size a)
instance k0_chk147.dec : ∀ (v264 : IVec S16 32) (v290 : IVec S16 32), Decidable (k0_chk147 v264 v290) := fun v264 v290 => decidable_of_iff' _ (Iff.of_eq (k0_chk147.eq_1 v264 v290))
theorem k0_idx147_inb : ∀ (v264 : IVec S16 32) (v290 : IVec S16 32) (k0_hw147 : k0_chk147 v264 v290), ∀ a x, ((![v290, v264] : Fin 2 → IVec S16 32) a x).toNat < S200x128.size a := fun v264 v290 k0_hw147 => k0_hw147

def k0_chk148 (v290 : IVec S16 32) (v291 : IVec S16 32) : Prop :=
  (∀ a x, ((![v290, v291] : Fin 2 → IVec S16 32) a x).toNat < S200x128.size a)
instance k0_chk148.dec : ∀ (v290 : IVec S16 32) (v291 : IVec S16 32), Decidable (k0_chk148 v290 v291) := fun v290 v291 => decidable_of_iff' _ (Iff.of_eq (k0_chk148.eq_1 v290 v291))
theorem k0_idx148_inb : ∀ (v290 : IVec S16 32) (v291 : IVec S16 32) (k0_hw148 : k0_chk148 v290 v291), ∀ a x, ((![v290, v291] : Fin 2 → IVec S16 32) a x).toNat < S200x128.size a := fun v290 v291 k0_hw148 => k0_hw148

def k0_chk149 (v264 : IVec S16 32) (v293 : IVec S16 32) : Prop :=
  (∀ a x, ((![v293, v264] : Fin 2 → IVec S16 32) a x).toNat < S200x128.size a)
instance k0_chk149.dec : ∀ (v264 : IVec S16 32) (v293 : IVec S16 32), Decidable (k0_chk149 v264 v293) := fun v264 v293 => decidable_of_iff' _ (Iff.of_eq (k0_chk149.eq_1 v264 v293))
theorem k0_idx149_inb : ∀ (v264 : IVec S16 32) (v293 : IVec S16 32) (k0_hw149 : k0_chk149 v264 v293), ∀ a x, ((![v293, v264] : Fin 2 → IVec S16 32) a x).toNat < S200x128.size a := fun v264 v293 k0_hw149 => k0_hw149

def k0_chk150 (v293 : IVec S16 32) (v294 : IVec S16 32) : Prop :=
  (∀ a x, ((![v293, v294] : Fin 2 → IVec S16 32) a x).toNat < S200x128.size a)
instance k0_chk150.dec : ∀ (v293 : IVec S16 32) (v294 : IVec S16 32), Decidable (k0_chk150 v293 v294) := fun v293 v294 => decidable_of_iff' _ (Iff.of_eq (k0_chk150.eq_1 v293 v294))
theorem k0_idx150_inb : ∀ (v293 : IVec S16 32) (v294 : IVec S16 32) (k0_hw150 : k0_chk150 v293 v294), ∀ a x, ((![v293, v294] : Fin 2 → IVec S16 32) a x).toNat < S200x128.size a := fun v293 v294 k0_hw150 => k0_hw150

def k0_chk151 (v264 : IVec S16 32) (v296 : IVec S16 32) : Prop :=
  (∀ a x, ((![v296, v264] : Fin 2 → IVec S16 32) a x).toNat < S200x128.size a)
instance k0_chk151.dec : ∀ (v264 : IVec S16 32) (v296 : IVec S16 32), Decidable (k0_chk151 v264 v296) := fun v264 v296 => decidable_of_iff' _ (Iff.of_eq (k0_chk151.eq_1 v264 v296))
theorem k0_idx151_inb : ∀ (v264 : IVec S16 32) (v296 : IVec S16 32) (k0_hw151 : k0_chk151 v264 v296), ∀ a x, ((![v296, v264] : Fin 2 → IVec S16 32) a x).toNat < S200x128.size a := fun v264 v296 k0_hw151 => k0_hw151

def k0_chk152 (v296 : IVec S16 32) (v297 : IVec S16 32) : Prop :=
  (∀ a x, ((![v296, v297] : Fin 2 → IVec S16 32) a x).toNat < S200x128.size a)
instance k0_chk152.dec : ∀ (v296 : IVec S16 32) (v297 : IVec S16 32), Decidable (k0_chk152 v296 v297) := fun v296 v297 => decidable_of_iff' _ (Iff.of_eq (k0_chk152.eq_1 v296 v297))
theorem k0_idx152_inb : ∀ (v296 : IVec S16 32) (v297 : IVec S16 32) (k0_hw152 : k0_chk152 v296 v297), ∀ a x, ((![v296, v297] : Fin 2 → IVec S16 32) a x).toNat < S200x128.size a := fun v296 v297 k0_hw152 => k0_hw152

def k0_chk153 (v264 : IVec S16 32) (v299 : IVec S16 32) : Prop :=
  (∀ a x, ((![v299, v264] : Fin 2 → IVec S16 32) a x).toNat < S200x128.size a)
instance k0_chk153.dec : ∀ (v264 : IVec S16 32) (v299 : IVec S16 32), Decidable (k0_chk153 v264 v299) := fun v264 v299 => decidable_of_iff' _ (Iff.of_eq (k0_chk153.eq_1 v264 v299))
theorem k0_idx153_inb : ∀ (v264 : IVec S16 32) (v299 : IVec S16 32) (k0_hw153 : k0_chk153 v264 v299), ∀ a x, ((![v299, v264] : Fin 2 → IVec S16 32) a x).toNat < S200x128.size a := fun v264 v299 k0_hw153 => k0_hw153

def k0_chk154 (v299 : IVec S16 32) (v300 : IVec S16 32) : Prop :=
  (∀ a x, ((![v299, v300] : Fin 2 → IVec S16 32) a x).toNat < S200x128.size a)
instance k0_chk154.dec : ∀ (v299 : IVec S16 32) (v300 : IVec S16 32), Decidable (k0_chk154 v299 v300) := fun v299 v300 => decidable_of_iff' _ (Iff.of_eq (k0_chk154.eq_1 v299 v300))
theorem k0_idx154_inb : ∀ (v299 : IVec S16 32) (v300 : IVec S16 32) (k0_hw154 : k0_chk154 v299 v300), ∀ a x, ((![v299, v300] : Fin 2 → IVec S16 32) a x).toNat < S200x128.size a := fun v299 v300 k0_hw154 => k0_hw154

def k0_chk155 (v264 : IVec S16 32) (v302 : IVec S16 32) : Prop :=
  (∀ a x, ((![v302, v264] : Fin 2 → IVec S16 32) a x).toNat < S200x128.size a)
instance k0_chk155.dec : ∀ (v264 : IVec S16 32) (v302 : IVec S16 32), Decidable (k0_chk155 v264 v302) := fun v264 v302 => decidable_of_iff' _ (Iff.of_eq (k0_chk155.eq_1 v264 v302))
theorem k0_idx155_inb : ∀ (v264 : IVec S16 32) (v302 : IVec S16 32) (k0_hw155 : k0_chk155 v264 v302), ∀ a x, ((![v302, v264] : Fin 2 → IVec S16 32) a x).toNat < S200x128.size a := fun v264 v302 k0_hw155 => k0_hw155

def k0_chk156 (v302 : IVec S16 32) (v303 : IVec S16 32) : Prop :=
  (∀ a x, ((![v302, v303] : Fin 2 → IVec S16 32) a x).toNat < S200x128.size a)
instance k0_chk156.dec : ∀ (v302 : IVec S16 32) (v303 : IVec S16 32), Decidable (k0_chk156 v302 v303) := fun v302 v303 => decidable_of_iff' _ (Iff.of_eq (k0_chk156.eq_1 v302 v303))
theorem k0_idx156_inb : ∀ (v302 : IVec S16 32) (v303 : IVec S16 32) (k0_hw156 : k0_chk156 v302 v303), ∀ a x, ((![v302, v303] : Fin 2 → IVec S16 32) a x).toNat < S200x128.size a := fun v302 v303 k0_hw156 => k0_hw156
def k0_off23 (i : grid0.Coords) (k0_t3 : Fin k0_t3_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1_i32_47 : BitVec 32 := 1#32
  let c0_i32_35 : BitVec 32 := 0#32
  let c1_i32_36 : BitVec 32 := 1#32
  let arg9 : BitVec 32 := Scf.iv c0_i32_35 c1_i32_36 k0_t3
  let c1_i32_46 : BitVec 32 := 1#32
  let v113 : BitVec 32 := Scalar.muli arg9 c1_i32_46
  let v114 : BitVec 32 := Scalar.addi c1_i32_47 v113
  let c2_i32_48 : BitVec 32 := 2#32
  let v115 : BitVec 32 := Scalar.muli v114 c2_i32_48
  let c1_i32_49 : BitVec 32 := 1#32
  let v116 : BitVec 32 := Scalar.addi v115 c1_i32_49
  let v304 : BitVec 32 := Scalar.addi v2 v116
  let c0_i32_120 : BitVec 32 := 0#32
  let c0_i32_121 : BitVec 32 := 0#32
  ![v304.toNat, 0, 0]
def k0_off24 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_38 : BitVec 32 := 0#32
  let c0_i32_39 : BitVec 32 := 0#32
  ![v2.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S4096x200_S200x4096_1_0 : S4096x200.Transposes [1, 0] S200x4096
  iota_S16_d0_w32_scVector : S16.Iotas .scVector 32 [0]
  h_S1x16 : 0 < S1x16.numel
  shapeCasts_S1x16_S16 : S1x16.ShapeCasts S16
  shapeCasts_S16_S1x16 : S16.ShapeCasts S1x16
  h_S200x128 : 0 < S200x128.numel
  squeezes_S1x200x128_S200x128 : S1x200x128.Squeezes S200x128
  transposes_S4096x200x128_S4096x128x200_0_2_1 : S4096x200x128.Transposes [0, 2, 1] S4096x128x200
  hcc0_scratch3 : 0 + S_.numel ≤ 3
  hcc0_scratch4 : 1 + S_.numel ≤ 3
  hcc0_scoped0 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S200x128.size a ≤ S200x4096.size a
  k0_t1_ok : k0_t1_loop.OK
  k0_off2_inb : ∀ k0_t1 : Fin k0_t1_loop.trips, ∀ a, (k0_off2 k0_t1) a + S1x16.size a ≤ S200x128.size a
  k0_off3_inb : ∀ k0_t1 : Fin k0_t1_loop.trips, ∀ a, (k0_off3 k0_t1) a + S1x16.size a ≤ S200x128.size a
  k0_off4_inb : ∀ k0_t1 : Fin k0_t1_loop.trips, ∀ a, (k0_off4 k0_t1) a + S1x16.size a ≤ S200x128.size a
  k0_off5_inb : ∀ k0_t1 : Fin k0_t1_loop.trips, ∀ a, (k0_off5 k0_t1) a + S1x16.size a ≤ S200x128.size a
  k0_off6_inb : ∀ k0_t1 : Fin k0_t1_loop.trips, ∀ a, (k0_off6 k0_t1) a + S1x16.size a ≤ S200x128.size a
  k0_off7_inb : ∀ k0_t1 : Fin k0_t1_loop.trips, ∀ a, (k0_off7 k0_t1) a + S1x16.size a ≤ S200x128.size a
  k0_off8_inb : ∀ k0_t1 : Fin k0_t1_loop.trips, ∀ a, (k0_off8 k0_t1) a + S1x16.size a ≤ S200x128.size a
  k0_off9_inb : ∀ k0_t1 : Fin k0_t1_loop.trips, ∀ a, (k0_off9 k0_t1) a + S1x16.size a ≤ S200x128.size a
  k0_off10_inb : ∀ i : grid0.Coords, ∀ a, (k0_off10 i) a + S1x200x128.size a ≤ S4096x200x128.size a
  k0_t2_ok : k0_t2_loop.OK
  k0_off11_inb : ∀ k0_t2 : Fin k0_t2_loop.trips, ∀ a, (k0_off11 k0_t2) a + S1x16.size a ≤ S200x128.size a
  k0_off12_inb : ∀ k0_t2 : Fin k0_t2_loop.trips, ∀ a, (k0_off12 k0_t2) a + S1x16.size a ≤ S200x128.size a
  k0_off13_inb : ∀ k0_t2 : Fin k0_t2_loop.trips, ∀ a, (k0_off13 k0_t2) a + S1x16.size a ≤ S200x128.size a
  k0_off14_inb : ∀ k0_t2 : Fin k0_t2_loop.trips, ∀ a, (k0_off14 k0_t2) a + S1x16.size a ≤ S200x128.size a
  k0_off15_inb : ∀ k0_t2 : Fin k0_t2_loop.trips, ∀ a, (k0_off15 k0_t2) a + S1x16.size a ≤ S200x128.size a
  k0_off16_inb : ∀ k0_t2 : Fin k0_t2_loop.trips, ∀ a, (k0_off16 k0_t2) a + S1x16.size a ≤ S200x128.size a
  k0_off17_inb : ∀ k0_t2 : Fin k0_t2_loop.trips, ∀ a, (k0_off17 k0_t2) a + S1x16.size a ≤ S200x128.size a
  k0_off18_inb : ∀ k0_t2 : Fin k0_t2_loop.trips, ∀ a, (k0_off18 k0_t2) a + S1x16.size a ≤ S200x128.size a
  k0_off19_inb : ∀ i : grid0.Coords, ∀ a, (k0_off19 i) a + S1x200x128.size a ≤ S4096x200x128.size a
  k0_t3_ok : k0_t3_loop.OK
  k0_off20_inb : ∀ i : grid0.Coords, ∀ a, (k0_off20 i) a + S1x200x128.size a ≤ S4096x200x128.size a
  k0_off21_inb : ∀ (i : grid0.Coords) (k0_t3 : Fin k0_t3_loop.trips), ∀ a, (k0_off21 i k0_t3) a + S1x200x128.size a ≤ S4096x200x128.size a
  k0_off22_inb : ∀ i : grid0.Coords, ∀ a, (k0_off22 i) a + S1x200x128.size a ≤ S4096x200x128.size a
  k0_off23_inb : ∀ (i : grid0.Coords) (k0_t3 : Fin k0_t3_loop.trips), ∀ a, (k0_off23 i k0_t3) a + S1x200x128.size a ≤ S4096x200x128.size a
  k0_off24_inb : ∀ i : grid0.Coords, ∀ a, (k0_off24 i) a + S1x200x128.size a ≤ S4096x200x128.size a

variable [Facts₀]

abbrev cc0_scratch3 : DmaSems sig S_ := SemArray.consecutive 0 S_ hcc0_scratch3
abbrev cc0_scratch4 : DmaSems sig S_ := SemArray.consecutive 1 S_ hcc0_scratch4
abbrev cc0_scoped0 : DmaSems sig S_ := SemArray.consecutive 2 S_ hcc0_scoped0

class Facts : Prop extends Facts₀ where

variable [Facts]
-- ==== ReferenceIdeal.lean ====
abbrev S4096x200 : Shape := ⟨2, ![4096, 200]⟩
abbrev S_ : Shape := ⟨0, ![]⟩
abbrev S4096x128x200 : Shape := ⟨3, ![4096, 128, 200]⟩
abbrev S4096 : Shape := ⟨1, ![4096]⟩
abbrev S4096x1 : Shape := ⟨2, ![4096, 1]⟩
abbrev S200 : Shape := ⟨1, ![200]⟩
abbrev S1x200 : Shape := ⟨2, ![1, 200]⟩
abbrev S4096x200x1 : Shape := ⟨3, ![4096, 200, 1]⟩
abbrev S4096x200x3 : Shape := ⟨3, ![4096, 200, 3]⟩

abbrev nBuf : Space → Nat
  | .hbm => 37
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S_, .f32⟩
  | .hbm, ⟨2, _⟩ => ⟨S4096x128x200, .f32⟩
  | .hbm, ⟨3, _⟩ => ⟨S4096, .i32⟩
  | .hbm, ⟨4, _⟩ => ⟨S4096x1, .i32⟩
  | .hbm, ⟨5, _⟩ => ⟨S200, .i32⟩
  | .hbm, ⟨6, _⟩ => ⟨S1x200, .i32⟩
  | .hbm, ⟨7, _⟩ => ⟨S_, .i32⟩
  | .hbm, ⟨8, _⟩ => ⟨S4096x1, .i32⟩
  | .hbm, ⟨9, _⟩ => ⟨S4096x1, .i1⟩
  | .hbm, ⟨10, _⟩ => ⟨S_, .i32⟩
  | .hbm, ⟨11, _⟩ => ⟨S4096x1, .i32⟩
  | .hbm, ⟨12, _⟩ => ⟨S4096x1, .i32⟩
  | .hbm, ⟨13, _⟩ => ⟨S4096x1, .i32⟩
  | .hbm, ⟨14, _⟩ => ⟨S_, .i32⟩
  | .hbm, ⟨15, _⟩ => ⟨S4096x200, .i32⟩
  | .hbm, ⟨16, _⟩ => ⟨S4096x200, .i1⟩
  | .hbm, ⟨17, _⟩ => ⟨S_, .i32⟩
  | .hbm, ⟨18, _⟩ => ⟨S4096x200, .i32⟩
  | .hbm, ⟨19, _⟩ => ⟨S4096x200, .i32⟩
  | .hbm, ⟨20, _⟩ => ⟨S4096x200, .i32⟩
  | .hbm, ⟨21, _⟩ => ⟨S_, .i32⟩
  | .hbm, ⟨22, _⟩ => ⟨S1x200, .i32⟩
  | .hbm, ⟨23, _⟩ => ⟨S1x200, .i1⟩
  | .hbm, ⟨24, _⟩ => ⟨S_, .i32⟩
  | .hbm, ⟨25, _⟩ => ⟨S1x200, .i32⟩
  | .hbm, ⟨26, _⟩ => ⟨S1x200, .i32⟩
  | .hbm, ⟨27, _⟩ => ⟨S1x200, .i32⟩
  | .hbm, ⟨28, _⟩ => ⟨S4096x200, .i32⟩
  | .hbm, ⟨29, _⟩ => ⟨S4096x200, .i32⟩
  | .hbm, ⟨30, _⟩ => ⟨S4096x200x1, .i32⟩
  | .hbm, ⟨31, _⟩ => ⟨S4096x200x1, .i32⟩
  | .hbm, ⟨32, _⟩ => ⟨S4096x200x1, .i32⟩
  | .hbm, ⟨33, _⟩ => ⟨S4096x200x3, .i32⟩
  | .hbm, ⟨34, _⟩ => ⟨S_, .f32⟩
  | .hbm, ⟨35, _⟩ => ⟨S4096x200, .f32⟩
  | .hbm, ⟨36, _⟩ => ⟨S4096x128x200, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_c_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_3 : Ref sig .tc := ⟨.hbm, 21, rfl⟩
abbrev main_v15 : Ref sig .tc := ⟨.hbm, 22, rfl⟩
abbrev main_v16 : Ref sig .tc := ⟨.hbm, 23, rfl⟩
abbrev main_c_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  bcast_S_S4096x128x200 : S_.BroadcastsInDim S4096x128x200 (![] : Fin 0 → Fin S4096x128x200.rank)
  bcast_S4096_S4096x1_0 : S4096.BroadcastsInDim S4096x1 (![0] : Fin 1 → Fin S4096x1.rank)
  bcast_S200_S1x200_1 : S200.BroadcastsInDim S1x200 (![1] : Fin 1 → Fin S1x200.rank)
  bcast_S_S4096x1 : S_.BroadcastsInDim S4096x1 (![] : Fin 0 → Fin S4096x1.rank)
  bcast_S_S4096x200 : S_.BroadcastsInDim S4096x200 (![] : Fin 0 → Fin S4096x200.rank)
  bcast_S_S1x200 : S_.BroadcastsInDim S1x200 (![] : Fin 0 → Fin S1x200.rank)
  bcast_S4096x1_S4096x200_0_1 : S4096x1.BroadcastsInDim S4096x200 (![0, 1] : Fin 2 → Fin S4096x200.rank)
  bcast_S1x200_S4096x200_0_1 : S1x200.BroadcastsInDim S4096x200 (![0, 1] : Fin 2 → Fin S4096x200.rank)
  bcast_S4096x200_S4096x200x1_0_1 : S4096x200.BroadcastsInDim S4096x200x1 (![0, 1] : Fin 2 → Fin S4096x200x1.rank)
  concatenates_S4096x200x1_S4096x200x1_S4096x200x1_S4096x200x3_d2 : Shape.Concatenates [S4096x200x1, S4096x200x1, S4096x200x1] S4096x200x3 2
  scatter_S4096x128x200_S4096x200x3_S4096x200_n_012_012_2_wf : ScatterDims.WF S4096x128x200 S4096x200x3 S4096x200 [] [0, 1, 2] [0, 1, 2] 2

variable [Facts₀]

def scatter_S4096x128x200_S4096x200x3_S4096x200_n_012_012_2 : ScatterDims S4096x128x200 S4096x200x3 S4096x200 where
  updateWindowDims := []
  insertedWindowDims := [0, 1, 2]
  scatterDimsToOperandDims := [0, 1, 2]
  indexVectorDim := 2
  wf := scatter_S4096x128x200_S4096x200x3_S4096x200_n_012_012_2_wf

class Facts : Prop extends Facts₀ where

variable [Facts]
-- ==== Proof.CommonI.lean ====
/-
  The one-hot kernel on the sparse cores: the names both the tile proof and the launch proof speak in.
  The table `x` (4096 rows of 200 class numbers) is transposed on the host to `xt[l, b]`; each of the 32 vector
  subcores (worker `w = 2 * subcore + core`) owns the 128 batch rows `[128 w, 128 w + 128)`: it reads columns
  `[128 w, 128 w + 128)` of `xt` and writes rows `[128 w, 128 w + 128)` of the `[4096, 200, 128]` array, whose
  entry `(b, l, c)` is 1.0 when `xt[l, b] = c` and 0.0 otherwise; the host transposes the last two axes.
-/
import proofs.«212721_g4020089389465_cont_8to1_b_1189_16_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx
import proofs.«212721_g4020089389465_cont_8to1_b_1189_16_alg».proof.Proof.Gen.KernelIdeal
import proofs.«212721_g4020089389465_cont_8to1_b_1189_16_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- `x`, `xt`, the tiles' array, the result: as locations of device `d`. -/
abbrev aLoc (d : Dev nD) : Loc nD τ sig := (SparseCore.T d).loc main_arg0
abbrev xtLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

variable [FloatOps F]

abbrev xtV : Memref sig .scVector .hbm S200x4096 .i32 := Memref.whole main_v0_scv
abbrev oV : Memref sig .scVector .hbm S4096x200x128 .f32 := Memref.whole main_v1_scv
/-- A tile's scratch: its 128 columns of `xt`, and the two row buffers. -/
abbrev sX : Memref sig .scVector .vmem S200x128 .i32 := Memref.whole cc0_scratch0
abbrev sB0 : Memref sig .scVector .vmem S200x128 .f32 := Memref.whole cc0_scratch1
abbrev sB1 : Memref sig .scVector .vmem S200x128 .f32 := Memref.whole cc0_scratch2

/-- The words of 1.0 and 0.0. -/
abbrev one : Elt F .f32 := FloatOps.ofBits .f32 0x3F800000#32
abbrev zero : Elt F .f32 := FloatOps.ofBits .f32 0x00000000#32

/-- `xt`: the host's transpose of the launch contents of `x`. -/
def xtVal (d : Dev nD) : Buf (Elt F) (xtLoc d) :=
  (transpose S200x4096 [1, 0] (m (aLoc d)) transposes_S4096x200_S200x4096_1_0 : (⟨S200x4096, .i32⟩ : BufTy).Contents (Elt F))

/-- What the tiles leave: entry `(b, l, c)` is 1.0 when `xt[l, b] = c`, else 0.0. -/
def outVal (d : Dev nD) : Buf (Elt F) (oLoc d) :=
  ((fun i => if ((xtVal m d : (⟨S200x4096, .i32⟩ : BufTy).Contents (Elt F)) (ix2 (i 1) (i 0))).toNat = (i 2).val then one else zero)
    : (⟨S4096x200x128, .f32⟩ : BufTy).Contents (Elt F))

/-- The result: the tiles' array with its last two axes exchanged. -/
def resVal (d : Dev nD) : Buf (Elt F) (rLoc d) :=
  (transpose S4096x128x200 [0, 2, 1] (outVal m d) transposes_S4096x200x128_S4096x128x200_0_2_1 : (⟨S4096x128x200, .f32⟩ : BufTy).Contents (Elt F))

/-! ## The 32 workers' parts -/

theorem hdivX : 32 ∣ S200x4096.size 1 := ⟨128, rfl⟩
theorem hdivO : 32 ∣ S4096x200x128.size 0 := ⟨128, rfl⟩
/-- Worker `w`'s columns of `xt` and rows of the tiles' array. -/
abbrev colRect (w : Fin 32) : Rect S200x4096 := Rect.part (s := S200x4096) (a₀ := 1) hdivX w
abbrev rowRect (w : Fin 32) : Rect S4096x200x128 := Rect.part (s := S4096x200x128) (a₀ := 0) hdivO w
abbrev colSet (w : Fin 32) : Finset S200x4096.Idx := ((xtV : Memref sig .scVector .hbm S200x4096 .i32).view.slice (colRect w)).set
abbrev rowSet (w : Fin 32) : Finset S4096x200x128.Idx := ((oV : Memref sig .scVector .hbm S4096x200x128 .f32).view.slice (rowRect w)).set

/-- The worker number of vector subcore `s` of sparse core `c`. -/
def wid (c : Fin 2) (s : Fin 16) : Fin 32 := ⟨2 * s.val + c.val, by omega⟩

/-- What a worker is handed: its columns of `xt` (at the transposed table) and its rows of the tiles' array. -/
def goRes (d : Dev nD) (w : Fin 32) : sProp 𝕄 :=
  iprop((xtLoc d ↦[colSet w]{fullShare} xtVal m d) ∗ (oLoc d ↦[rowSet w]{fullShare} m (oLoc d)))
/-- What it hands back: the columns unchanged, the rows at the one-hot array. -/
def tdRes (d : Dev nD) (w : Fin 32) : sProp 𝕄 :=
  iprop((xtLoc d ↦[colSet w]{fullShare} xtVal m d) ∗ (oLoc d ↦[rowSet w]{fullShare} outVal m d))

/-- The one call: a sparse core takes its sixteen workers' parts and brings them back. -/
def P : (K (F := F)).Pay (nD := nD) (Val := Elt F) (Name := ℕ) (U := UU) where
  st := fun q d c => match q with | 0 => bigSep Finset.univ fun s : Fin 16 => goRes m d (wid (Fin.cast nCore_zero c) s)
  dn := fun q d c => match q with | 0 => bigSep Finset.univ fun s : Fin 16 => tdRes m d (wid (Fin.cast nCore_zero c) s)
  go := fun q d c i => match q with | 0 => goRes m d (wid (Fin.cast nCore_zero c) (Fin.cast nSub_zero i))
  td := fun q d c i => match q with | 0 => tdRes m d (wid (Fin.cast nCore_zero c) (Fin.cast nSub_zero i))
  x := fun _ _ => iprop(emp)

instance goRes_storable (d : Dev nD) (w : Fin 32) : BI.Storable (upEmb : UEmb _ 𝕄) (goRes m d w) := by unfold goRes; infer_instance
instance tdRes_storable (d : Dev nD) (w : Fin 32) : BI.Storable (upEmb : UEmb _ 𝕄) (tdRes m d w) := by unfold tdRes; infer_instance

instance P_storable : (P (F := F) m).IsStorable where
  st q d c := match q with | 0 => (inferInstance : BI.Storable (upEmb : UEmb _ 𝕄) (bigSep Finset.univ fun s : Fin 16 => goRes m d (wid (Fin.cast nCore_zero c) s)))
  dn q d c := match q with | 0 => (inferInstance : BI.Storable (upEmb : UEmb _ 𝕄) (bigSep Finset.univ fun s : Fin 16 => tdRes m d (wid (Fin.cast nCore_zero c) s)))
  go q d c i := match q with | 0 => (inferInstance : BI.Storable (upEmb : UEmb _ 𝕄) (goRes m d (wid (Fin.cast nCore_zero c) (Fin.cast nSub_zero i))))
  td q d c i := match q with | 0 => (inferInstance : BI.Storable (upEmb : UEmb _ 𝕄) (tdRes m d (wid (Fin.cast nCore_zero c) (Fin.cast nSub_zero i))))

end Cert.Proof.KI

end
-- ==== Proof.RowBuffer.lean ====
/-
  The arithmetic of one row buffer.  A row buffer holds a `[200, 128]` array of floats; one indexed store of sixteen
  lanes writes a constant at the sixteen places `(off + k, col (off + k))`, `k < 16`, where `col l` is the class
  number found at token `l` of the row being encoded.  Thirteen such stores, at offsets 0, 16, …, 176 and 184,
  visit every token, so together they write the constant at every `(l, col l)`.
-/
import Idealize.ShloMosaic.PureOps
import Idealize.ShloMosaic.Lib.ValueIdx

noncomputable section

namespace Cert.OneHot.Pure

open Idealize.ShloMosaic Idealize.ShloMosaic.ValueIdx

abbrev SB : Shape := ⟨2, ![200, 128]⟩
abbrev SL : Shape := ⟨1, ![16]⟩

variable {F : FTy → Type} [FloatOps F]

/-! ## A fold of overwrites with one constant -/

theorem foldl_overwrite {ι α : Type} {s : Shape} (Fn : (s.Idx → α) → ι → (s.Idx → α)) (hit : ι → s.Idx) (y : α)
    (hF : ∀ g k j', Fn g k j' = if (∀ a, (j' a).val = ((hit k) a).val) then y else g j')
    (l : List ι) (f : s.Idx → α) (j : s.Idx) :
    (l.foldl Fn f) j = if ∃ k ∈ l, ∀ a, (j a).val = ((hit k) a).val then y else f j := by
  induction l generalizing f with
  | nil => simp
  | cons k l ih =>
    rw [List.foldl_cons, ih, hF]
    by_cases h1 : ∃ k' ∈ l, ∀ a, (j a).val = ((hit k') a).val
    · rw [if_pos h1, if_pos]
      obtain ⟨k', hk', h⟩ := h1
      exact ⟨k', List.mem_cons_of_mem _ hk', h⟩
    · rw [if_neg h1]
      by_cases h2 : ∀ a, (j a).val = ((hit k) a).val
      · rw [if_pos h2, if_pos ⟨k, List.mem_cons_self, h2⟩]
      · rw [if_neg h2, if_neg]
        rintro ⟨k', hk', h⟩
        rcases List.mem_cons.mp hk' with rfl | hk'
        · exact h2 h
        · exact h1 ⟨k', hk', h⟩

/-- The column a token's class number selects, as a number: `col X r l` is the word at `(l, r)` of the table `X`
    (zero outside the table). -/
def col (X : IVec SB 32) (r : ℕ) (l : ℕ) : ℕ :=
  if h : l < 200 ∧ r < 128 then (X (ix2 ⟨l, h.1⟩ ⟨r, h.2⟩)).toNat else 0

theorem col_lt {X : IVec SB 32} (hX : ∀ j, (X j).toNat < 128) (r l : ℕ) : col X r l < 128 := by
  unfold col
  split
  · exact hX _
  · omega

/-- An unmasked indexed store of a constant: the sixteen places the lanes name take the constant, every other place
    keeps its value. -/
theorem storeIdx_const (f : Vec F SB .f32) (lv cv : IVec SL 32) (val : F .f32)
    (h : ∀ a x, ((![lv, cv] : Fin 2 → IVec SL 32) a x).toNat < SB.size a) (off : ℕ) (c : ℕ → ℕ)
    (hl : ∀ x : SL.Idx, (lv x).toNat = off + (x 0).val) (hc : ∀ x : SL.Idx, (cv x).toNat = c (off + (x 0).val)) (j : SB.Idx) :
    storeIdx (F := F) (e := .f32) f ![lv, cv] (broadcast SL val) (fun _ => 1#1) false h j
      = if off ≤ (j 0).val ∧ (j 0).val < off + 16 ∧ (j 1).val = c (j 0).val then val else f j := by
  unfold storeIdx
  refine (foldl_overwrite _ (fun k => idxAt ![lv, cv] h (Shape.ofLane (d := ![16]) k)) val ?_ _ f j).trans ?_
  · intro g k j'
    simp [broadcast]
  congr 1
  apply propext
  constructor
  · rintro ⟨k, -, hk⟩
    have h0 := hk 0
    have h1 := hk 1
    have e0 : ((Shape.ofLane (d := ![16]) k : SL.Idx) 0).val = k.val := rfl
    simp only [idxAt] at h0 h1
    have hl' := hl (Shape.ofLane (d := ![16]) k)
    have hc' := hc (Shape.ofLane (d := ![16]) k)
    rw [e0] at hl' hc'
    have h0' : (j 0).val = off + k.val := h0.trans hl'
    have h1' : (j 1).val = c (off + k.val) := h1.trans hc'
    have hk : k.val < 16 := k.isLt
    refine ⟨by omega, by omega, ?_⟩
    rw [h1', h0']
  · rintro ⟨h1, h2, h3⟩
    have hlt : (j 0).val - off < 16 := by omega
    refine ⟨(⟨(j 0).val - off, hlt⟩ : Fin 16), List.mem_finRange _, ?_⟩
    have e0 : ((Shape.ofLane (d := ![16]) (⟨(j 0).val - off, hlt⟩ : Fin 16) : SL.Idx) 0).val = (j 0).val - off := rfl
    have hl' := hl (Shape.ofLane (d := ![16]) (⟨(j 0).val - off, hlt⟩ : Fin 16))
    have hc' := hc (Shape.ofLane (d := ![16]) (⟨(j 0).val - off, hlt⟩ : Fin 16))
    rw [e0] at hl' hc'
    intro a
    match a with
    | 0 => show (j 0).val = (lv _).toNat; rw [hl']; omega
    | 1 => show (j 1).val = (cv _).toNat; rw [hc', h3]; congr 1; omega

/-! ## A row buffer while its tokens are being visited -/

/-- After the tokens below `n` are visited: the constant at `(l, c l)` for `l < n`, the old contents elsewhere. -/
def ScatTo (c : ℕ → ℕ) (val : F .f32) (base : SB.Idx → F .f32) (n : ℕ) (f : SB.Idx → F .f32) : Prop :=
  ∀ j, f j = if (j 0).val < n ∧ (j 1).val = c (j 0).val then val else base j

theorem ScatTo.zero (c : ℕ → ℕ) (val : F .f32) (base : SB.Idx → F .f32) : ScatTo c val base 0 base := by
  intro j; simp

theorem ScatTo.step {c : ℕ → ℕ} {val : F .f32} {base f f' : SB.Idx → F .f32} {n : ℕ} (off : ℕ) (hS : ScatTo c val base n f)
    (h1 : off ≤ n) (h2 : n ≤ off + 16)
    (hf' : ∀ j, f' j = if off ≤ (j 0).val ∧ (j 0).val < off + 16 ∧ (j 1).val = c (j 0).val then val else f j) :
    ScatTo c val base (off + 16) f' := by
  intro j
  rw [hf' j, hS j]
  by_cases hc : (j 1).val = c (j 0).val
  · by_cases ha : (j 0).val < off + 16
    · by_cases hb : off ≤ (j 0).val
      · rw [if_pos ⟨hb, ha, hc⟩, if_pos ⟨ha, hc⟩]
      · rw [if_neg (fun h => hb h.1), if_pos ⟨by omega, hc⟩, if_pos ⟨ha, hc⟩]
    · rw [if_neg (fun h => ha h.2.1), if_neg (fun h => ha (by omega)), if_neg (fun h => ha h.1)]
  · rw [if_neg (fun h => hc h.2.2), if_neg (fun h => hc h.2), if_neg (fun h => hc h.2)]

theorem ScatTo.done {c : ℕ → ℕ} {val : F .f32} {base f : SB.Idx → F .f32} (hS : ScatTo c val base 200 f) (j : SB.Idx) :
    f j = if (j 1).val = c (j 0).val then val else base j := by
  rw [hS j]
  have : (j 0).val < 200 := (j 0).isLt
  by_cases hc : (j 1).val = c (j 0).val
  · rw [if_pos ⟨this, hc⟩, if_pos hc]
  · rw [if_neg (fun h => hc h.2), if_neg hc]

/-- A row buffer that encodes the row whose class numbers are `c`. -/
def RowIs (c : ℕ → ℕ) (f : SB.Idx → F .f32) : Prop :=
  ∀ j, f j = if (j 1).val = c (j 0).val then (FloatOps.ofBits .f32 0x3F800000#32 : F .f32) else FloatOps.ofBits .f32 0x00000000#32

theorem RowIs.of_zero {c : ℕ → ℕ} {base f : SB.Idx → F .f32} (hz : ∀ j, base j = FloatOps.ofBits .f32 0x00000000#32)
    (h : ∀ j, f j = if (j 1).val = c (j 0).val then (FloatOps.ofBits .f32 0x3F800000#32 : F .f32) else base j) : RowIs c f := by
  intro j; rw [h j, hz j]

theorem RowIs.cleared {c : ℕ → ℕ} {base f : SB.Idx → F .f32} (hb : RowIs c base)
    (h : ∀ j, f j = if (j 1).val = c (j 0).val then (FloatOps.ofBits .f32 0x00000000#32 : F .f32) else base j) (j : SB.Idx) :
    f j = FloatOps.ofBits .f32 0x00000000#32 := by
  rw [h j, hb j]
  by_cases hc : (j 1).val = c (j 0).val
  · rw [if_pos hc]
  · rw [if_neg hc, if_neg hc]

/-! ## The lane vectors -/

theorem iota_toNat (hI : SL.Iotas .scVector 32 [0]) (x : SL.Idx) : (iota .scVector SL 32 [0] hI x).toNat = (x 0).val := by
  unfold iota
  have : (x 0).val < 16 := (x 0).isLt
  simp only [List.foldl_cons, List.foldl_nil, Nat.zero_mul, Nat.zero_add, BitVec.toNat_ofNat]
  omega

/-- The token numbers of a chunk: lane `k` names token `off + k`. -/
theorem lvec_toNat (hI : SL.Iotas .scVector 32 [0]) (o : BitVec 32) (off : ℕ) (ho : o.toNat = off) (hoff : off + 16 ≤ 4294967296) (x : SL.Idx) :
    ((addi (iota .scVector SL 32 [0] hI) (broadcast SL o)) x).toNat = off + (x 0).val := by
  have : (x 0).val < 16 := (x 0).isLt
  show (IntOp.addi (iota .scVector SL 32 [0] hI x) o).toNat = _
  unfold IntOp.addi
  rw [BitVec.toNat_add, iota_toNat, ho]
  omega

/-- The row number of a chunk: every lane names row `r`. -/
theorem rvec_eq (hI : SL.Iotas .scVector 32 [0]) (r : BitVec 32) (x : SL.Idx) :
    (addi (muli (iota .scVector SL 32 [0] hI) (broadcast SL 0#32)) (broadcast SL r)) x = r := by
  show IntOp.addi (IntOp.muli (iota .scVector SL 32 [0] hI x) 0#32) r = r
  unfold IntOp.addi IntOp.muli
  simp

/-- What an indexed load of the table reads at a chunk: lane `k` reads the class number of token `off + k` of row `r`. -/
theorem loadIdx_col (X : IVec SB 32) (lv rv : IVec SL 32) (h : ∀ a x, ((![lv, rv] : Fin 2 → IVec SL 32) a x).toNat < SB.size a)
    (off r : ℕ) (hl : ∀ x : SL.Idx, (lv x).toNat = off + (x 0).val) (hr : ∀ x : SL.Idx, (rv x).toNat = r) (x : SL.Idx) :
    ((loadIdx (F := F) (e := .i32) X ![lv, rv] h x : BitVec 32)).toNat = col X r (off + (x 0).val) := by
  have h0 : off + (x 0).val < 200 := by have := h 0 x; rw [← hl x]; exact this
  have h1 : r < 128 := by have := h 1 x; rw [← hr x]; exact this
  unfold loadIdx col
  rw [dif_pos ⟨h0, h1⟩]
  congr 2
  funext a
  apply Fin.ext
  match a with
  | 0 => exact hl x
  | 1 => exact hr x

/-- The in-range condition of a chunk's load: tokens below 200, the row below 128. -/
theorem chk_load (lv rv : IVec SL 32) (off r : ℕ) (hl : ∀ x : SL.Idx, (lv x).toNat = off + (x 0).val) (hr : ∀ x : SL.Idx, (rv x).toNat = r)
    (ho : off + 16 ≤ 200) (hr' : r < 128) : ∀ a x, ((![lv, rv] : Fin 2 → IVec SL 32) a x).toNat < SB.size a := by
  intro a x
  have : (x 0).val < 16 := (x 0).isLt
  match a with
  | 0 => show (lv x).toNat < 200; rw [hl x]; omega
  | 1 => show (rv x).toNat < 128; rw [hr x]; exact hr'

/-- The in-range condition of a chunk's store: tokens below 200, the class numbers below 128. -/
theorem chk_store (lv cv : IVec SL 32) (off : ℕ) (hl : ∀ x : SL.Idx, (lv x).toNat = off + (x 0).val) (hc : ∀ x : SL.Idx, (cv x).toNat < 128)
    (ho : off + 16 ≤ 200) : ∀ a x, ((![lv, cv] : Fin 2 → IVec SL 32) a x).toNat < SB.size a := by
  intro a x
  have : (x 0).val < 16 := (x 0).isLt
  match a with
  | 0 => show (lv x).toNat < 200; rw [hl x]; omega
  | 1 => show (cv x).toNat < 128; exact hc x

end Cert.OneHot.Pure

end
-- ==== Proof.RowsI.lean ====
/-
  One worker's 128 rows of the tiles' array, row by row: the elements a task's row memref covers, how the worker's
  part splits into them, and what a copy of a whole row through that memref leaves there.
-/
import proofs.«212721_g4020089389465_cont_8to1_b_1189_16_alg».proof.Proof.CommonI

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type}

local notation "𝕄" => MT nD τ sig (HIx 1) (Elt F) ℕ UU ℕ

variable (m : (ℓ : Loc nD τ sig) → Buf (Elt F) ℓ)
variable [FloatOps F]

/-- Row `off 0` of the tiles' array as a task slices it, squeezed to `[200, 128]`. -/
abbrev oRowM (off : Fin 3 → Nat) (h : ∀ a, off a + S1x200x128.size a ≤ S4096x200x128.size a) : Memref sig .scVector .hbm S200x128 .f32 :=
  ((oV : Memref sig .scVector .hbm S4096x200x128 .f32).slice (Rect.unit (s := S4096x200x128) off S1x200x128.size h) (fun _ => rfl)).squeeze S200x128 squeezes_S1x200x128_S200x128

/-- The elements of row `b`: the indices whose first coordinate is `b`. -/
def row1Set (b : Fin 4096) : Finset S4096x200x128.Idx := Finset.univ.filter fun i => (i 0).val = b.val

omit [FloatOps F] in
theorem mem_row1Set {b : Fin 4096} {i : S4096x200x128.Idx} : i ∈ row1Set b ↔ (i 0).val = b.val := by
  unfold row1Set; rw [Finset.mem_filter]; exact ⟨fun h => h.2, fun h => ⟨Finset.mem_univ _, h⟩⟩

omit [FloatOps F] in
/-- The row memref at offsets `(b, 0, 0)` covers row `b`. -/
theorem set_oRowM (b : Fin 4096) (off : Fin 3 → Nat) (h : ∀ a, off a + S1x200x128.size a ≤ S4096x200x128.size a)
    (hoff : off 0 = b.val ∧ off 1 = 0 ∧ off 2 = 0) : (oRowM off h).view.set = row1Set b := by
  show (((View.whole (main_v1_scv : Ref sig .scVector)).slice (Rect.unit (s := S4096x200x128) off S1x200x128.size h)).reshape S200x128
    squeezes_S1x200x128_S200x128.numel_eq).set = _
  rw [View.set_reshape, View.set_slice_whole]
  ext i
  have h1 : (i 1).val < 200 := (i 1).isLt
  have h2 : (i 2).val < 128 := (i 2).isLt
  obtain ⟨e0, e1, e2⟩ := hoff
  rw [Rect.mem_set_unit, mem_row1Set]
  constructor
  · intro hh
    have := hh 0
    have hs : S1x200x128.size 0 = 1 := rfl
    omega
  · intro hi a
    match a with
    | ⟨0, _⟩ =>
      have hs : S1x200x128.size ⟨0, by decide⟩ = 1 := rfl
      show off 0 ≤ (i 0).val ∧ (i 0).val < off 0 + S1x200x128.size ⟨0, by decide⟩
      omega
    | ⟨1, _⟩ =>
      have hs : S1x200x128.size ⟨1, by decide⟩ = 200 := rfl
      show off 1 ≤ (i 1).val ∧ (i 1).val < off 1 + S1x200x128.size ⟨1, by decide⟩
      omega
    | ⟨2, _⟩ =>
      have hs : S1x200x128.size ⟨2, by decide⟩ = 128 := rfl
      show off 2 ≤ (i 2).val ∧ (i 2).val < off 2 + S1x200x128.size ⟨2, by decide⟩
      omega

/-! ## A worker's part is its 128 rows -/

omit [FloatOps F] in
theorem rowSet_eq_rect (w : Fin 32) : rowSet w = (rowRect w).set := by
  show ((View.whole (main_v1_scv : Ref sig .scVector)).slice (rowRect w)).set = _
  rw [View.set_slice_whole]

omit [FloatOps F] in
/-- Worker `w`'s part: the indices whose first coordinate lies in `[128 w, 128 w + 128)`. -/
theorem mem_rowSet {w : Fin 32} {i : S4096x200x128.Idx} : i ∈ rowSet w ↔ 128 * w.val ≤ (i 0).val ∧ (i 0).val < 128 * w.val + 128 := by
  have h1 : (i 1).val < 200 := (i 1).isLt
  have h2 : (i 2).val < 128 := (i 2).isLt
  rw [rowSet_eq_rect, Rect.mem_set_unit]
  constructor
  · intro hh
    have := hh 0
    simp [Shape.partIx, Shape.partSize] at this
    omega
  · intro hi a
    match a with
    | ⟨0, _⟩ => simp [Shape.partIx, Shape.partSize]; omega
    | ⟨1, _⟩ => simp [Shape.partIx, Shape.partSize]; omega
    | ⟨2, _⟩ => simp [Shape.partIx, Shape.partSize]; omega

/-- Row `r` of worker `w`. -/
abbrev rowOf (w : Fin 32) (r : Fin 128) : Fin 4096 := ⟨128 * w.val + r.val, by omega⟩

omit [FloatOps F] in
theorem rows1_cover (w : Fin 32) : (Finset.univ : Finset (Fin 128)).biUnion (fun r => row1Set (rowOf w r)) = rowSet w := by
  ext i
  simp only [Finset.mem_biUnion, Finset.mem_univ, true_and, mem_row1Set, mem_rowSet]
  constructor
  · rintro ⟨r, hr⟩
    have := r.isLt
    show 128 * w.val ≤ (i 0).val ∧ (i 0).val < 128 * w.val + 128
    have hr' : (i 0).val = 128 * w.val + r.val := hr
    omega
  · intro hi
    exact ⟨⟨(i 0).val - 128 * w.val, by omega⟩, by show (i 0).val = 128 * w.val + ((i 0).val - 128 * w.val); omega⟩

omit [FloatOps F] in
theorem rows1_disjoint (w : Fin 32) :
    ∀ r ∈ (Finset.univ : Finset (Fin 128)), ∀ r' ∈ (Finset.univ : Finset (Fin 128)), r ≠ r' → Disjoint (row1Set (rowOf w r)) (row1Set (rowOf w r')) := by
  intro r _ r' _ hne
  refine Finset.disjoint_left.mpr fun i hi hi' => hne (Fin.ext ?_)
  have e : (i 0).val = 128 * w.val + r.val := mem_row1Set.mp hi
  have e' : (i 0).val = 128 * w.val + r'.val := mem_row1Set.mp hi'
  omega

omit [FloatOps F] in
/-- A worker's part of the tiles' array is its 128 rows. -/
theorem oRows_split (d : Dev nD) (w : Fin 32) (f : Buf (Elt F) (oLoc d)) :
    (oLoc d ↦[rowSet w]{fullShare} f : sProp 𝕄) = bigSep Finset.univ fun r : Fin 128 => oLoc d ↦[row1Set (rowOf w r)]{fullShare} f := by
  rw [← rows1_cover w, pointsTo_biUnion Finset.univ (ℓ := oLoc d) (fun r => row1Set (rowOf w r)) (rows1_disjoint w)]

/-! ## What a copy of a whole row leaves -/

omit [FloatOps F] in
/-- Through the row memref, element `(l, c)` of the row is element `(b, l, c)` of the array. -/
theorem emb_oRowM (b : Fin 4096) (off : Fin 3 → Nat) (h : ∀ a, off a + S1x200x128.size a ≤ S4096x200x128.size a)
    (hoff : off 0 = b.val ∧ off 1 = 0 ∧ off 2 = 0) (i : S4096x200x128.Idx) (hi : i ∈ row1Set b) :
    (oRowM off h).view.emb (ix2 (i 1) (i 2)) = i := by
  obtain ⟨e0, e1, e2⟩ := hoff
  have hb : (i 0).val = b.val := mem_row1Set.mp hi
  have hy : Shape.reshapeEquiv squeezes_S1x200x128_S200x128.numel_eq (ix2 (i 1) (i 2) : S200x128.Idx) = (ix3 0 (i 1) (i 2) : S1x200x128.Idx) := by
    refine Shape.reshapeEquiv_eq_of_rowMajor _ ?_
    rw [Shape.rowMajor_val_three, Shape.rowMajor_val_two]
    show ((0 * 200 + (i 1).val) * 128 + (i 2).val) = (i 1).val * 128 + (i 2).val
    omega
  show (Rect.unit (s := S4096x200x128) off S1x200x128.size h).emb (Shape.reshapeEquiv squeezes_S1x200x128_S200x128.numel_eq (ix2 (i 1) (i 2))) = i
  rw [hy]
  funext a
  refine Fin.ext ?_
  rw [Rect.emb_apply]
  match a with
  | ⟨0, _⟩ => show off 0 + 1 * 0 = (i 0).val; omega
  | ⟨1, _⟩ => show off 1 + 1 * (i 1).val = (i 1).val; omega
  | ⟨2, _⟩ => show off 2 + 1 * (i 2).val = (i 2).val; omega

omit [FloatOps F] in
/-- A row written whole through the row memref: element `(b, l, c)` takes the payload's `(l, c)`. -/
theorem write_oRowM (d : Dev nD) (b : Fin 4096) (off : Fin 3 → Nat) (h : ∀ a, off a + S1x200x128.size a ≤ S4096x200x128.size a)
    (hoff : off 0 = b.val ∧ off 1 = 0 ∧ off 2 = 0) (g : Buf (Elt F) (oLoc d)) (pay : S200x128.Idx → Elt F .f32)
    (i : S4096x200x128.Idx) (hi : i ∈ row1Set b) :
    ((oRowM off h).view.write (Elt F) g pay Finset.univ : (⟨S4096x200x128, .f32⟩ : BufTy).Contents (Elt F)) i = pay (ix2 (i 1) (i 2)) := by
  have hw := View.write_emb_of_mem (v := (oRowM off h).view) (Val := Elt F) g pay (Finset.mem_univ (ix2 (i 1) (i 2)))
  have he := emb_oRowM b off h hoff i hi
  exact (congrArg ((oRowM off h).view.write (Elt F) g pay Finset.univ) he.symm).trans (hw.trans (cast_eq _ _))

/-- If the payload is the one-hot rows of column `b` of `xt`, the row written is the one-hot array's. -/
theorem write_oRowM_outVal (d : Dev nD) (b : Fin 4096) (off : Fin 3 → Nat) (h : ∀ a, off a + S1x200x128.size a ≤ S4096x200x128.size a)
    (hoff : off 0 = b.val ∧ off 1 = 0 ∧ off 2 = 0) (g : Buf (Elt F) (oLoc d)) (pay : S200x128.Idx → Elt F .f32)
    (hpay : ∀ j : S200x128.Idx, pay j = if ((xtVal m d : (⟨S200x4096, .i32⟩ : BufTy).Contents (Elt F)) (ix2 (j 0) b)).toNat = (j 1).val then one else zero)
    (i : S4096x200x128.Idx) (hi : i ∈ row1Set b) :
    ((oRowM off h).view.write (Elt F) g pay Finset.univ : (⟨S4096x200x128, .f32⟩ : BufTy).Contents (Elt F)) i
      = (outVal m d : (⟨S4096x200x128, .f32⟩ : BufTy).Contents (Elt F)) i := by
  rw [write_oRowM d b off h hoff g pay i hi, hpay]
  have hb : i 0 = b := Fin.ext (mem_row1Set.mp hi)
  unfold outVal
  show (if ((xtVal m d : (⟨S200x4096, .i32⟩ : BufTy).Contents (Elt F)) (ix2 (i 1) b)).toNat = (i 2).val then one else zero)
    = if ((xtVal m d : (⟨S200x4096, .i32⟩ : BufTy).Contents (Elt F)) (ix2 (i 1) (i 0))).toNat = (i 2).val then one else zero
  rw [hb]

/-- so row `b`, held at what the copy leaves, is held at the one-hot array. -/
theorem row_done (d : Dev nD) (b : Fin 4096) (off : Fin 3 → Nat) (h : ∀ a, off a + S1x200x128.size a ≤ S4096x200x128.size a)
    (hoff : off 0 = b.val ∧ off 1 = 0 ∧ off 2 = 0) (g : Buf (Elt F) (oLoc d)) (pay : S200x128.Idx → Elt F .f32)
    (hpay : ∀ j : S200x128.Idx, pay j = if ((xtVal m d : (⟨S200x4096, .i32⟩ : BufTy).Contents (Elt F)) (ix2 (j 0) b)).toNat = (j 1).val then one else zero) :
    (oLoc d ↦[row1Set b]{fullShare} ((oRowM off h).view.write (Elt F) g pay Finset.univ) : sProp 𝕄)
      = oLoc d ↦[row1Set b]{fullShare} outVal m d :=
  pointsTo_congr fun i hi => write_oRowM_outVal m d b off h hoff g pay hpay i hi

end Cert.Proof.KI

end
-- ==== Proof.PeelI.lean ====
/-
  Peeling a separating conjunction over the 128 rows: the rows from `n` on, and the rows below `n`, one row at a time.
-/
import proofs.«212721_g4020089389465_cont_8to1_b_1189_16_alg».proof.Proof.CommonI

noncomputable section

namespace Cert.Proof.KI

open Cert.KernelIdeal Cert.KernelIdeal.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The rows from `n` on are row `n` and the rows from `n + 1` on. -/
theorem bigSep_from_succ (Φ : Fin 128 → sProp 𝕄) (n : ℕ) (h : n < 128) :
    bigSep (Finset.univ.filter fun r : Fin 128 => n ≤ r.val) Φ
      = iprop(Φ ⟨n, h⟩ ∗ bigSep (Finset.univ.filter fun r : Fin 128 => n + 1 ≤ r.val) Φ) := by
  rw [show (Finset.univ.filter fun r : Fin 128 => n ≤ r.val) = insert (⟨n, h⟩ : Fin 128) (Finset.univ.filter fun r : Fin 128 => n + 1 ≤ r.val) from by
      ext r
      simp only [Finset.mem_filter, Finset.mem_univ, true_and, Finset.mem_insert, Fin.ext_iff]
      omega,
    SparseCore.bigSep_insert' (by simp only [Finset.mem_filter, Finset.mem_univ, true_and]; omega)]

/-- The rows below `n + 1` are the rows below `n` and row `n`. -/
theorem bigSep_below_succ (Φ : Fin 128 → sProp 𝕄) (n : ℕ) (h : n < 128) :
    bigSep (Finset.univ.filter fun r : Fin 128 => r.val < n + 1) Φ
      = iprop(bigSep (Finset.univ.filter fun r : Fin 128 => r.val < n) Φ ∗ Φ ⟨n, h⟩) := by
  rw [show (Finset.univ.filter fun r : Fin 128 => r.val < n + 1) = insert (⟨n, h⟩ : Fin 128) (Finset.univ.filter fun r : Fin 128 => r.val < n) from by
      ext r
      simp only [Finset.mem_filter, Finset.mem_univ, true_and, Finset.mem_insert, Fin.ext_iff]
      omega,
    SparseCore.bigSep_insert' (by simp only [Finset.mem_filter, Finset.mem_univ, true_and]; omega)]
  exact BI.Entails.antisymm BI.sep_comm BI.sep_comm

theorem bigSep_from_zero (Φ : Fin 128 → sProp 𝕄) : bigSep (Finset.univ.filter fun r : Fin 128 => 0 ≤ r.val) Φ = bigSep Finset.univ Φ := by
  rw [Finset.filter_true_of_mem fun r _ => Nat.zero_le r.val]

theorem bigSep_below_all (Φ : Fin 128 → sProp 𝕄) : bigSep (Finset.univ.filter fun r : Fin 128 => r.val < 128) Φ = bigSep Finset.univ Φ := by
  rw [Finset.filter_true_of_mem fun r _ => r.isLt]

theorem bigSep_from_end (Φ : Fin 128 → sProp 𝕄) : bigSep (Finset.univ.filter fun r : Fin 128 => 128 ≤ r.val) Φ = iprop(emp) := by
  rw [Finset.filter_false_of_mem fun r _ => by have := r.isLt; omega, bigSep_empty]; rfl

theorem bigSep_below_zero (Φ : Fin 128 → sProp 𝕄) : bigSep (Finset.univ.filter fun r : Fin 128 => r.val < 0) Φ = iprop(emp) := by
  rw [Finset.filter_false_of_mem fun r _ => Nat.not_lt_zero r.val, bigSep_empty]; rfl

end Cert.Proof.KI

end
-- ==== Proof.TileI.lean ====
/-
  One vector subcore's task, run once at a symbolic place `L` (sparse core `L 0`, subcore `L 1`, worker `w = 2 (L 1) + L 0`).
  The task copies its 128 columns of the transposed table into a scratch table, clears its first row buffer, encodes local
  row 0 into it (thirteen indexed stores of 1.0, one per chunk of sixteen tokens, at the places the table names) and starts
  that buffer's copy onto row `128 w` of the tiles' array; the same with the second buffer and local row 1.  Then 63 trips:
  trip `k` waits for the copy of row `2 k`, takes that row's ones back out of the first buffer (thirteen indexed stores of
  0.0 at the same places, which leaves the buffer all zero), encodes row `2 k + 2` and starts its copy; and the same for
  rows `2 k + 1` and `2 k + 3` with the second buffer.  Two last waits.  A buffer is never touched while its copy is under
  way, and each copy has its own semaphore.  What a copy leaves in its row is the one-hot array's row, so at the end the
  worker's 128 rows hold the one-hot array.
-/
import proofs.«212721_g4020089389465_cont_8to1_b_1189_16_alg».proof.Proof.CommonI
import Idealize.ShloMosaic.Lib.Transfers
import Idealize.ShloMosaic.Lib.Writes
import Idealize.ShloMosaic.Lib.Affine
import proofs.«212721_g4020089389465_cont_8to1_b_1189_16_alg».proof.Proof.RowBuffer
import proofs.«212721_g4020089389465_cont_8to1_b_1189_16_alg».proof.Proof.RowsI
import proofs.«212721_g4020089389465_cont_8to1_b_1189_16_alg».proof.Proof.PeelI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)
variable [FloatOps F]

section Tile

variable (d : Dev nD) (L : grid0.Coords)

abbrev cV (L : grid0.Coords) : Fin τ.nSC := (L 0).castLE hcore0
abbrev jV (L : grid0.Coords) : Fin τ.nSub := (L 1).castLE hsub0
/-- The worker number of the place `L`. -/
def widL (L : grid0.Coords) : Fin 32 :=
  ⟨2 * (L 1).val + (L 0).val, by have h0 : (L 0).val < 2 := (L 0).isLt; have h1 : (L 1).val < 16 := (L 1).isLt; omega⟩

abbrev cS3 (d : Dev nD) (c : Fin τ.nSC) (i : Fin τ.nSub) : GSem nD τ sig := (V d c i, .dma cc0_scratch3.sem)
abbrev cS4 (d : Dev nD) (c : Fin τ.nSC) (i : Fin τ.nSub) : GSem nD τ sig := (V d c i, .dma cc0_scratch4.sem)
abbrev cS0 (d : Dev nD) (c : Fin τ.nSC) (i : Fin τ.nSub) : GSem nD τ sig := (V d c i, .dma cc0_scoped0.sem)

omit [FloatOps F] in
theorem ownSems0_V :
    (ownSems0 (V d (cV L) (jV L)) : sProp 𝕄)
      = iprop(semVal (cS3 d (cV L) (jV L)) 0 ∗ semVal (cS4 d (cV L) (jV L)) 0 ∗ semVal (cS0 d (cV L) (jV L)) 0
          ∗ bigSep ((((ownCells (V d (cV L) (jV L))).erase (cS3 d (cV L) (jV L))).erase (cS4 d (cV L) (jV L))).erase (cS0 d (cV L) (jV L)))
              fun g => semVal g 0) := by
  unfold SparseCore.Cfg.ownSems0
  rw [SparseCore.bigSep_erase' ((mem_ownCells (g := cS3 d (cV L) (jV L))).mpr ⟨rfl, by
      show (SemLoc.dma cc0_scratch3.sem : SemLoc sig).isScoped .scVector = true; decide⟩),
    SparseCore.bigSep_erase' (Finset.mem_erase.mpr ⟨by simp [cS3, cS4]; decide, (mem_ownCells (g := cS4 d (cV L) (jV L))).mpr ⟨rfl, by
      show (SemLoc.dma cc0_scratch4.sem : SemLoc sig).isScoped .scVector = true; decide⟩⟩),
    SparseCore.bigSep_erase' (Finset.mem_erase.mpr ⟨by simp [cS4, cS0]; decide, Finset.mem_erase.mpr ⟨by simp [cS3, cS0]; decide,
      (mem_ownCells (g := cS0 d (cV L) (jV L))).mpr ⟨rfl, by show (SemLoc.dma cc0_scoped0.sem : SemLoc sig).isScoped .scVector = true; decide⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- The place's 128 columns of `xt`, as the task slices them. -/
abbrev xtCols (L : grid0.Coords) : Memref sig .scVector .hbm S200x128 .i32 :=
  (xtV : Memref sig .scVector .hbm S200x4096 .i32).slice (Rect.unit (s := S200x4096) (k0_off1 L) S200x128.size (k0_off1_inb L)) (fun _ => rfl)

omit [FloatOps F] in
theorem colRect_eq : Rect.unit (s := S200x4096) (k0_off1 L) S200x128.size (k0_off1_inb L) = colRect (widL L) := by
  unfold colRect Rect.part Rect.block
  congr 1 <;> funext a
  · rw [k0_off1_eq]
    match a with
    | 0 => simp [Shape.partIx, Shape.partSize]
    | 1 => simp [Shape.partIx, Shape.partSize, widL]; omega
  · match a with
    | 0 => simp [Shape.partSize]
    | 1 => simp [Shape.partSize]

omit [FloatOps F] in
theorem set_xtCols : (xtCols L).view.set = colSet (widL L) := by
  show ((xtV : Memref sig .scVector .hbm S200x4096 .i32).view.slice (Rect.unit (s := S200x4096) (k0_off1 L) S200x128.size (k0_off1_inb L))).set
    = ((xtV : Memref sig .scVector .hbm S200x4096 .i32).view.slice (colRect (widL L))).set
  rw [colRect_eq]

omit [FloatOps F] in
theorem pts_sX (f : Buf (Elt F) ((V d (cV L) (jV L)).loc cc0_scratch0)) :
    ((sX : Memref sig .scVector .vmem S200x128 .i32).view.loc (V d (cV L) (jV L)) ↦{fullShare} f : sProp 𝕄) = (V d (cV L) (jV L)).loc cc0_scratch0 ↦{fullShare} f := rfl
omit [FloatOps F] in
theorem pts_sB0 (f : Buf (Elt F) ((V d (cV L) (jV L)).loc cc0_scratch1)) :
    ((sB0 : Memref sig .scVector .vmem S200x128 .f32).view.loc (V d (cV L) (jV L)) ↦{fullShare} f : sProp 𝕄) = (V d (cV L) (jV L)).loc cc0_scratch1 ↦{fullShare} f := rfl
omit [FloatOps F] in
theorem pts_sB1 (f : Buf (Elt F) ((V d (cV L) (jV L)).loc cc0_scratch2)) :
    ((sB1 : Memref sig .scVector .vmem S200x128 .f32).view.loc (V d (cV L) (jV L)) ↦{fullShare} f : sProp 𝕄) = (V d (cV L) (jV L)).loc cc0_scratch2 ↦{fullShare} f := rfl

/-! ## The indexed load and store, at whole scratch buffers -/

abbrev thr (d : Dev nD) (L : grid0.Coords) : Thread nD τ := V d (cV L) (jV L)

omit [FloatOps F] in
theorem accX_read (f : Buf (Elt F) (((sX : Memref sig .scVector .vmem S200x128 .i32).access (.whole S200x128)).loc (thr d L))) :
    ((sX : Memref sig .scVector .vmem S200x128 .i32).access (.whole S200x128)).read (Elt F) f = f := by
  funext i
  simp [View.read_apply]
  rfl

/-- Rows below `k` of a row buffer hold 0.0. -/
def ZeroTo (k : ℕ) (f : S200x128.Idx → Elt F .f32) : Prop := ∀ j : S200x128.Idx, (j 0).val < k → f j = zero

def inv1 (k : ℕ) (_ : PUnit) : sProp 𝕄 :=
  iprop(∃ f : Buf (Elt F) ((sB0 : Memref sig .scVector .vmem S200x128 .f32).view.loc (thr d L)), ⌜ZeroTo (F := F) k f⌝ ∗ ((sB0 : Memref sig .scVector .vmem S200x128 .f32).view.loc (thr d L) ↦{fullShare} f))

omit [FloatOps F] in
theorem acc_read_sB0 (f : Buf (Elt F) (((sB0 : Memref sig .scVector .vmem S200x128 .f32).access (.whole S200x128)).loc (thr d L))) :
    ((sB0 : Memref sig .scVector .vmem S200x128 .f32).access (.whole S200x128)).read (Elt F) f = f := by
  funext i
  simp [View.read_apply]
  rfl

omit [FloatOps F] in
theorem acc_write_sB0 (f w : Buf (Elt F) (((sB0 : Memref sig .scVector .vmem S200x128 .f32).access (.whole S200x128)).loc (thr d L))) :
    ((sB0 : Memref sig .scVector .vmem S200x128 .f32).access (.whole S200x128)).write (Elt F) f w Finset.univ = w := by
  funext i
  have h := View.write_emb_of_mem (Val := Elt F) (v := (sB0 : Memref sig .scVector .vmem S200x128 .f32).access (.whole S200x128)) f w (M := Finset.univ) (x := i) (Finset.mem_univ _)
  simp only [View.emb_slice, Memref.view_whole, View.emb_whole, Function.Embedding.trans_apply, Function.Embedding.refl_apply, Rect.emb_whole_apply] at h
  exact h

omit [FloatOps F] in
theorem acc_set_sB0 : ((sB0 : Memref sig .scVector .vmem S200x128 .f32).access (.whole S200x128)).set = Finset.univ := by
  show ((View.whole cc0_scratch1).slice (Rect.whole S200x128)).set = _
  rw [View.set_slice_whole]; exact Rect.set_whole _

theorem wp_store_sB0 {α : Type} {Q : α → sProp 𝕄} {idxs : Fin S200x128.rank → IVec S16 32} {v : Vec F S16 .f32} {mask : IVec S16 1} {add : Bool}
    {h : ∀ a x, (idxs a x).toNat < S200x128.size a} {hs : ((sB0 : Memref sig .scVector .vmem S200x128 .f32).access (.whole S200x128)).Stores Finset.univ}
    {k : PUnit → Prog (TpuEff nD τ sig (Elt F) Λ₀ (thr d L).2) α}
    (f : Buf (Elt F) ((sB0 : Memref sig .scVector .vmem S200x128 .f32).view.loc (thr d L))) :
    ((sB0 : Memref sig .scVector .vmem S200x128 .f32).view.loc (thr d L) ↦{fullShare} f : sProp 𝕄)
      ⊢ iprop((∀ f' : Buf (Elt F) ((sB0 : Memref sig .scVector .vmem S200x128 .f32).view.loc (thr d L)),
            iprop(((sB0 : Memref sig .scVector .vmem S200x128 .f32).view.loc (thr d L) ↦{fullShare} f') ∗ ⌜f' = storeIdx (F := F) (e := .f32) f idxs v mask add h⌝)
            -∗ wp frame (wpE (defs₀ (F := F)) 𝒱₀ (thr d L) none) Set.univ (k ⟨⟩) Q)
        -∗ wp frame (wpE (defs₀ (F := F)) 𝒱₀ (thr d L) none) Set.univ (SparseCore.vectorStoreIdx sB0 idxs v mask add h hs >>= k) Q) := by
  have key := SparseCore.wp_vectorStoreIdx (defs := defs₀ (F := F)) (Q := Q) 𝒱₀ (thr d L) none Set.univ (base := (sB0 : Memref sig .scVector .vmem S200x128 .f32))
    (idxs := idxs) (v := v) (mask := mask) (add := add) (h := h) (hs := hs) (k := k) (f := f)
  rw [acc_set_sB0, acc_read_sB0, acc_write_sB0] at key
  iintro H Hk
  iapply key $$ H
  iintro H
  ispecialize Hk $$ %(storeIdx (F := F) (e := .f32) f idxs v mask add h)
  iapply Hk
  isplitl [H]
  · iexact H
  · ipureintro; rfl

omit [FloatOps F] in
theorem acc_read_sB1 (f : Buf (Elt F) (((sB1 : Memref sig .scVector .vmem S200x128 .f32).access (.whole S200x128)).loc (thr d L))) :
    ((sB1 : Memref sig .scVector .vmem S200x128 .f32).access (.whole S200x128)).read (Elt F) f = f := by
  funext i
  simp [View.read_apply]
  rfl

omit [FloatOps F] in
theorem acc_write_sB1 (f w : Buf (Elt F) (((sB1 : Memref sig .scVector .vmem S200x128 .f32).access (.whole S200x128)).loc (thr d L))) :
    ((sB1 : Memref sig .scVector .vmem S200x128 .f32).access (.whole S200x128)).write (Elt F) f w Finset.univ = w := by
  funext i
  have h := View.write_emb_of_mem (Val := Elt F) (v := (sB1 : Memref sig .scVector .vmem S200x128 .f32).access (.whole S200x128)) f w (M := Finset.univ) (x := i) (Finset.mem_univ _)
  simp only [View.emb_slice, Memref.view_whole, View.emb_whole, Function.Embedding.trans_apply, Function.Embedding.refl_apply, Rect.emb_whole_apply] at h
  exact h

omit [FloatOps F] in
theorem acc_set_sB1 : ((sB1 : Memref sig .scVector .vmem S200x128 .f32).access (.whole S200x128)).set = Finset.univ := by
  show ((View.whole cc0_scratch2).slice (Rect.whole S200x128)).set = _
  rw [View.set_slice_whole]; exact Rect.set_whole _

theorem wp_store_sB1 {α : Type} {Q : α → sProp 𝕄} {idxs : Fin S200x128.rank → IVec S16 32} {v : Vec F S16 .f32} {mask : IVec S16 1} {add : Bool}
    {h : ∀ a x, (idxs a x).toNat < S200x128.size a} {hs : ((sB1 : Memref sig .scVector .vmem S200x128 .f32).access (.whole S200x128)).Stores Finset.univ}
    {k : PUnit → Prog (TpuEff nD τ sig (Elt F) Λ₀ (thr d L).2) α}
    (f : Buf (Elt F) ((sB1 : Memref sig .scVector .vmem S200x128 .f32).view.loc (thr d L))) :
    ((sB1 : Memref sig .scVector .vmem S200x128 .f32).view.loc (thr d L) ↦{fullShare} f : sProp 𝕄)
      ⊢ iprop((∀ f' : Buf (Elt F) ((sB1 : Memref sig .scVector .vmem S200x128 .f32).view.loc (thr d L)),
            iprop(((sB1 : Memref sig .scVector .vmem S200x128 .f32).view.loc (thr d L) ↦{fullShare} f') ∗ ⌜f' = storeIdx (F := F) (e := .f32) f idxs v mask add h⌝)
            -∗ wp frame (wpE (defs₀ (F := F)) 𝒱₀ (thr d L) none) Set.univ (k ⟨⟩) Q)
        -∗ wp frame (wpE (defs₀ (F := F)) 𝒱₀ (thr d L) none) Set.univ (SparseCore.vectorStoreIdx sB1 idxs v mask add h hs >>= k) Q) := by
  have key := SparseCore.wp_vectorStoreIdx (defs := defs₀ (F := F)) (Q := Q) 𝒱₀ (thr d L) none Set.univ (base := (sB1 : Memref sig .scVector .vmem S200x128 .f32))
    (idxs := idxs) (v := v) (mask := mask) (add := add) (h := h) (hs := hs) (k := k) (f := f)
  rw [acc_set_sB1, acc_read_sB1, acc_write_sB1] at key
  iintro H Hk
  iapply key $$ H
  iintro H
  ispecialize Hk $$ %(storeIdx (F := F) (e := .f32) f idxs v mask add h)
  iapply Hk
  isplitl [H]
  · iexact H
  · ipureintro; rfl

theorem wp_loadX {α : Type} {Q : α → sProp 𝕄} {idxs : Fin S200x128.rank → IVec S16 32}
    {h : ∀ a x, (idxs a x).toNat < S200x128.size a} {hl : (sX : Memref sig .scVector .vmem S200x128 .i32).view.Loads}
    {k : Vec F S16 .i32 → Prog (TpuEff nD τ sig (Elt F) Λ₀ (thr d L).2) α}
    (X : Buf (Elt F) ((sX : Memref sig .scVector .vmem S200x128 .i32).view.loc (thr d L))) :
    ((sX : Memref sig .scVector .vmem S200x128 .i32).view.loc (thr d L) ↦{fullShare} X : sProp 𝕄)
      ⊢ iprop((∀ v : Vec F S16 .i32,
            iprop(((sX : Memref sig .scVector .vmem S200x128 .i32).view.loc (thr d L) ↦{fullShare} X) ∗ ⌜v = loadIdx (F := F) (e := .i32) X idxs h⌝)
            -∗ wp frame (wpE (defs₀ (F := F)) 𝒱₀ (thr d L) none) Set.univ (k v) Q)
        -∗ wp frame (wpE (defs₀ (F := F)) 𝒱₀ (thr d L) none) Set.univ (SparseCore.vectorLoadIdx sX idxs h hl >>= k) Q) := by
  have key := SparseCore.wp_vectorLoadIdx (defs := defs₀ (F := F)) (Q := Q) 𝒱₀ (thr d L) none Set.univ (base := (sX : Memref sig .scVector .vmem S200x128 .i32))
    (idxs := idxs) (h := h) (hl := hl) (k := k) (S := Finset.univ) (q := fullShare) (f := X) (Finset.subset_univ _)
  rw [accX_read] at key
  iintro H Hk
  iapply key $$ H
  iintro H
  ispecialize Hk $$ %(loadIdx (F := F) (e := .i32) X idxs h)
  iapply Hk
  isplitl [H]
  · iexact H
  · ipureintro; rfl

/-- The token numbers and the row number of a chunk, in one spelling. -/
abbrev lvc (o : BitVec 32) : IVec S16 32 := addi (iota .scVector S16 32 [0] iota_S16_d0_w32_scVector) (broadcast S16 o)
abbrev rvc (r : BitVec 32) : IVec S16 32 := addi (muli (iota .scVector S16 32 [0] iota_S16_d0_w32_scVector) (broadcast S16 0#32)) (broadcast S16 r)
omit [FloatOps F] in
theorem lvc_toNat (o : BitVec 32) (off : ℕ) (ho : o.toNat = off) (h : off + 16 ≤ 4294967296) (x : S16.Idx) : (lvc o x).toNat = off + (x 0).val :=
  Cert.OneHot.Pure.lvec_toNat _ o off ho h x
omit [FloatOps F] in
theorem rvc_toNat (r : BitVec 32) (x : S16.Idx) : (rvc r x).toNat = r.toNat := by
  rw [show rvc r x = r from Cert.OneHot.Pure.rvec_eq _ r x]

theorem zero_row_sB0 (k : Fin k0_t1_loop.trips) (f : Buf (Elt F) ((sB0 : Memref sig .scVector .vmem S200x128 .f32).view.loc (thr d L)))
    (hf : ZeroTo (F := F) k.val f) (pay : S1x16.Idx → Elt F .f32) (hpay : ∀ x, pay x = zero)
    (h2 : ∀ a, (k0_off2 k) a + S1x16.size a ≤ S200x128.size a) (h3 : ∀ a, (k0_off3 k) a + S1x16.size a ≤ S200x128.size a) (h4 : ∀ a, (k0_off4 k) a + S1x16.size a ≤ S200x128.size a) (h5 : ∀ a, (k0_off5 k) a + S1x16.size a ≤ S200x128.size a) (h6 : ∀ a, (k0_off6 k) a + S1x16.size a ≤ S200x128.size a) (h7 : ∀ a, (k0_off7 k) a + S1x16.size a ≤ S200x128.size a) (h8 : ∀ a, (k0_off8 k) a + S1x16.size a ≤ S200x128.size a) (h9 : ∀ a, (k0_off9 k) a + S1x16.size a ≤ S200x128.size a) :
    ZeroTo (F := F) (k.val + 1) ((sB0 : Memref sig .scVector .vmem S200x128 .f32).view.writes (Elt F) f
      [⟨Rect.unit (s := S200x128) (k0_off9 k) S1x16.size h9, pay⟩,
        ⟨Rect.unit (s := S200x128) (k0_off8 k) S1x16.size h8, pay⟩,
        ⟨Rect.unit (s := S200x128) (k0_off7 k) S1x16.size h7, pay⟩,
        ⟨Rect.unit (s := S200x128) (k0_off6 k) S1x16.size h6, pay⟩,
        ⟨Rect.unit (s := S200x128) (k0_off5 k) S1x16.size h5, pay⟩,
        ⟨Rect.unit (s := S200x128) (k0_off4 k) S1x16.size h4, pay⟩,
        ⟨Rect.unit (s := S200x128) (k0_off3 k) S1x16.size h3, pay⟩,
        ⟨Rect.unit (s := S200x128) (k0_off2 k) S1x16.size h2, pay⟩]) := by
  intro j hj
  have hj1 : (j 1).val < 128 := (j 1).isLt
  have key : ∀ G : Buf (Elt F) ((sB0 : Memref sig .scVector .vmem S200x128 .f32).view.loc (thr d L)), View.read (Elt F) (sB0 : Memref sig .scVector .vmem S200x128 .f32).view G j = G j := fun _ => rfl
  by_cases hk : (j 0).val = k.val
  · refine (key _).symm.trans ?_
    refine (View.read_writes_apply_of_pieces (Val := Elt F) (sB0 : Memref sig .scVector .vmem S200x128 .f32).view f (fun _ => zero) _ ?_ j ?_)
    · intro p hp x
      simp only [List.mem_cons, List.not_mem_nil, or_false] at hp
      rcases hp with rfl | rfl | rfl | rfl | rfl | rfl | rfl | rfl <;> exact hpay x
    · obtain ⟨q, hq1, hq2⟩ : ∃ q : Fin 8, 16 * q.val ≤ (j 1).val ∧ (j 1).val < 16 * q.val + 16 := ⟨⟨(j 1).val / 16, by omega⟩, by show 16 * ((j 1).val / 16) ≤ _; omega, by show _ < 16 * ((j 1).val / 16) + 16; omega⟩
      fin_cases q
      · refine ⟨⟨Rect.unit (s := S200x128) (k0_off2 k) S1x16.size h2, pay⟩, by simp, ?_⟩
        rw [Rect.mem_set_unit]; intro a; rw [k0_off2_eq]
        fin_cases a
        · simp; omega
        · simp at hq1 hq2 ⊢; omega
      · refine ⟨⟨Rect.unit (s := S200x128) (k0_off3 k) S1x16.size h3, pay⟩, by simp, ?_⟩
        rw [Rect.mem_set_unit]; intro a; rw [k0_off3_eq]
        fin_cases a
        · simp; omega
        · simp at hq1 hq2 ⊢; omega
      · refine ⟨⟨Rect.unit (s := S200x128) (k0_off4 k) S1x16.size h4, pay⟩, by simp, ?_⟩
        rw [Rect.mem_set_unit]; intro a; rw [k0_off4_eq]
        fin_cases a
        · simp; omega
        · simp at hq1 hq2 ⊢; omega
      · refine ⟨⟨Rect.unit (s := S200x128) (k0_off5 k) S1x16.size h5, pay⟩, by simp, ?_⟩
        rw [Rect.mem_set_unit]; intro a; rw [k0_off5_eq]
        fin_cases a
        · simp; omega
        · simp at hq1 hq2 ⊢; omega
      · refine ⟨⟨Rect.unit (s := S200x128) (k0_off6 k) S1x16.size h6, pay⟩, by simp, ?_⟩
        rw [Rect.mem_set_unit]; intro a; rw [k0_off6_eq]
        fin_cases a
        · simp; omega
        · simp at hq1 hq2 ⊢; omega
      · refine ⟨⟨Rect.unit (s := S200x128) (k0_off7 k) S1x16.size h7, pay⟩, by simp, ?_⟩
        rw [Rect.mem_set_unit]; intro a; rw [k0_off7_eq]
        fin_cases a
        · simp; omega
        · simp at hq1 hq2 ⊢; omega
      · refine ⟨⟨Rect.unit (s := S200x128) (k0_off8 k) S1x16.size h8, pay⟩, by simp, ?_⟩
        rw [Rect.mem_set_unit]; intro a; rw [k0_off8_eq]
        fin_cases a
        · simp; omega
        · simp at hq1 hq2 ⊢; omega
      · refine ⟨⟨Rect.unit (s := S200x128) (k0_off9 k) S1x16.size h9, pay⟩, by simp, ?_⟩
        rw [Rect.mem_set_unit]; intro a; rw [k0_off9_eq]
        fin_cases a
        · simp; omega
        · simp at hq1 hq2 ⊢; omega
  · have hlt : (j 0).val < k.val := by omega
    refine (key _).symm.trans ?_
    refine (View.read_writes_apply_of_forall_not_mem (Val := Elt F) (sB0 : Memref sig .scVector .vmem S200x128 .f32).view f j _ ?_).trans (hf j hlt)
    intro p hp hmem
    simp only [List.mem_cons, List.not_mem_nil, or_false] at hp
    rcases hp with rfl | rfl | rfl | rfl | rfl | rfl | rfl | rfl
    · rw [Rect.mem_set_unit] at hmem; have := hmem 0; rw [k0_off9_eq] at this; simp at this; omega
    · rw [Rect.mem_set_unit] at hmem; have := hmem 0; rw [k0_off8_eq] at this; simp at this; omega
    · rw [Rect.mem_set_unit] at hmem; have := hmem 0; rw [k0_off7_eq] at this; simp at this; omega
    · rw [Rect.mem_set_unit] at hmem; have := hmem 0; rw [k0_off6_eq] at this; simp at this; omega
    · rw [Rect.mem_set_unit] at hmem; have := hmem 0; rw [k0_off5_eq] at this; simp at this; omega
    · rw [Rect.mem_set_unit] at hmem; have := hmem 0; rw [k0_off4_eq] at this; simp at this; omega
    · rw [Rect.mem_set_unit] at hmem; have := hmem 0; rw [k0_off3_eq] at this; simp at this; omega
    · rw [Rect.mem_set_unit] at hmem; have := hmem 0; rw [k0_off2_eq] at this; simp at this; omega

theorem zero_row_sB1 (k : Fin k0_t2_loop.trips) (f : Buf (Elt F) ((sB1 : Memref sig .scVector .vmem S200x128 .f32).view.loc (thr d L)))
    (hf : ZeroTo (F := F) k.val f) (pay : S1x16.Idx → Elt F .f32) (hpay : ∀ x, pay x = zero)
    (h11 : ∀ a, (k0_off11 k) a + S1x16.size a ≤ S200x128.size a) (h12 : ∀ a, (k0_off12 k) a + S1x16.size a ≤ S200x128.size a) (h13 : ∀ a, (k0_off13 k) a + S1x16.size a ≤ S200x128.size a) (h14 : ∀ a, (k0_off14 k) a + S1x16.size a ≤ S200x128.size a) (h15 : ∀ a, (k0_off15 k) a + S1x16.size a ≤ S200x128.size a) (h16 : ∀ a, (k0_off16 k) a + S1x16.size a ≤ S200x128.size a) (h17 : ∀ a, (k0_off17 k) a + S1x16.size a ≤ S200x128.size a) (h18 : ∀ a, (k0_off18 k) a + S1x16.size a ≤ S200x128.size a) :
    ZeroTo (F := F) (k.val + 1) ((sB1 : Memref sig .scVector .vmem S200x128 .f32).view.writes (Elt F) f
      [⟨Rect.unit (s := S200x128) (k0_off18 k) S1x16.size h18, pay⟩,
        ⟨Rect.unit (s := S200x128) (k0_off17 k) S1x16.size h17, pay⟩,
        ⟨Rect.unit (s := S200x128) (k0_off16 k) S1x16.size h16, pay⟩,
        ⟨Rect.unit (s := S200x128) (k0_off15 k) S1x16.size h15, pay⟩,
        ⟨Rect.unit (s := S200x128) (k0_off14 k) S1x16.size h14, pay⟩,
        ⟨Rect.unit (s := S200x128) (k0_off13 k) S1x16.size h13, pay⟩,
        ⟨Rect.unit (s := S200x128) (k0_off12 k) S1x16.size h12, pay⟩,
        ⟨Rect.unit (s := S200x128) (k0_off11 k) S1x16.size h11, pay⟩]) := by
  intro j hj
  have hj1 : (j 1).val < 128 := (j 1).isLt
  have key : ∀ G : Buf (Elt F) ((sB1 : Memref sig .scVector .vmem S200x128 .f32).view.loc (thr d L)), View.read (Elt F) (sB1 : Memref sig .scVector .vmem S200x128 .f32).view G j = G j := fun _ => rfl
  by_cases hk : (j 0).val = k.val
  · refine (key _).symm.trans ?_
    refine (View.read_writes_apply_of_pieces (Val := Elt F) (sB1 : Memref sig .scVector .vmem S200x128 .f32).view f (fun _ => zero) _ ?_ j ?_)
    · intro p hp x
      simp only [List.mem_cons, List.not_mem_nil, or_false] at hp
      rcases hp with rfl | rfl | rfl | rfl | rfl | rfl | rfl | rfl <;> exact hpay x
    · obtain ⟨q, hq1, hq2⟩ : ∃ q : Fin 8, 16 * q.val ≤ (j 1).val ∧ (j 1).val < 16 * q.val + 16 := ⟨⟨(j 1).val / 16, by omega⟩, by show 16 * ((j 1).val / 16) ≤ _; omega, by show _ < 16 * ((j 1).val / 16) + 16; omega⟩
      fin_cases q
      · refine ⟨⟨Rect.unit (s := S200x128) (k0_off11 k) S1x16.size h11, pay⟩, by simp, ?_⟩
        rw [Rect.mem_set_unit]; intro a; rw [k0_off11_eq]
        fin_cases a
        · simp; omega
        · simp at hq1 hq2 ⊢; omega
      · refine ⟨⟨Rect.unit (s := S200x128) (k0_off12 k) S1x16.size h12, pay⟩, by simp, ?_⟩
        rw [Rect.mem_set_unit]; intro a; rw [k0_off12_eq]
        fin_cases a
        · simp; omega
        · simp at hq1 hq2 ⊢; omega
      · refine ⟨⟨Rect.unit (s := S200x128) (k0_off13 k) S1x16.size h13, pay⟩, by simp, ?_⟩
        rw [Rect.mem_set_unit]; intro a; rw [k0_off13_eq]
        fin_cases a
        · simp; omega
        · simp at hq1 hq2 ⊢; omega
      · refine ⟨⟨Rect.unit (s := S200x128) (k0_off14 k) S1x16.size h14, pay⟩, by simp, ?_⟩
        rw [Rect.mem_set_unit]; intro a; rw [k0_off14_eq]
        fin_cases a
        · simp; omega
        · simp at hq1 hq2 ⊢; omega
      · refine ⟨⟨Rect.unit (s := S200x128) (k0_off15 k) S1x16.size h15, pay⟩, by simp, ?_⟩
        rw [Rect.mem_set_unit]; intro a; rw [k0_off15_eq]
        fin_cases a
        · simp; omega
        · simp at hq1 hq2 ⊢; omega
      · refine ⟨⟨Rect.unit (s := S200x128) (k0_off16 k) S1x16.size h16, pay⟩, by simp, ?_⟩
        rw [Rect.mem_set_unit]; intro a; rw [k0_off16_eq]
        fin_cases a
        · simp; omega
        · simp at hq1 hq2 ⊢; omega
      · refine ⟨⟨Rect.unit (s := S200x128) (k0_off17 k) S1x16.size h17, pay⟩, by simp, ?_⟩
        rw [Rect.mem_set_unit]; intro a; rw [k0_off17_eq]
        fin_cases a
        · simp; omega
        · simp at hq1 hq2 ⊢; omega
      · refine ⟨⟨Rect.unit (s := S200x128) (k0_off18 k) S1x16.size h18, pay⟩, by simp, ?_⟩
        rw [Rect.mem_set_unit]; intro a; rw [k0_off18_eq]
        fin_cases a
        · simp; omega
        · simp at hq1 hq2 ⊢; omega
  · have hlt : (j 0).val < k.val := by omega
    refine (key _).symm.trans ?_
    refine (View.read_writes_apply_of_forall_not_mem (Val := Elt F) (sB1 : Memref sig .scVector .vmem S200x128 .f32).view f j _ ?_).trans (hf j hlt)
    intro p hp hmem
    simp only [List.mem_cons, List.not_mem_nil, or_false] at hp
    rcases hp with rfl | rfl | rfl | rfl | rfl | rfl | rfl | rfl
    · rw [Rect.mem_set_unit] at hmem; have := hmem 0; rw [k0_off18_eq] at this; simp at this; omega
    · rw [Rect.mem_set_unit] at hmem; have := hmem 0; rw [k0_off17_eq] at this; simp at this; omega
    · rw [Rect.mem_set_unit] at hmem; have := hmem 0; rw [k0_off16_eq] at this; simp at this; omega
    · rw [Rect.mem_set_unit] at hmem; have := hmem 0; rw [k0_off15_eq] at this; simp at this; omega
    · rw [Rect.mem_set_unit] at hmem; have := hmem 0; rw [k0_off14_eq] at this; simp at this; omega
    · rw [Rect.mem_set_unit] at hmem; have := hmem 0; rw [k0_off13_eq] at this; simp at this; omega
    · rw [Rect.mem_set_unit] at hmem; have := hmem 0; rw [k0_off12_eq] at this; simp at this; omega
    · rw [Rect.mem_set_unit] at hmem; have := hmem 0; rw [k0_off11_eq] at this; simp at this; omega

/-! ## From a row buffer to a row of the tiles' array -/

omit [FloatOps F] in
theorem emb_xtCols (l : Fin 200) (r : Fin 128) :
    (xtCols L).view.emb (ix2 l r) = (ix2 l (rowOf (widL L) r) : S200x4096.Idx) := by
  funext a
  apply Fin.ext
  simp only [View.emb_slice, Memref.view_whole, View.emb_whole, Function.Embedding.trans_apply, Function.Embedding.refl_apply]
  show (Rect.unit (s := S200x4096) (k0_off1 L) S200x128.size (k0_off1_inb L)).off a + 1 * ((ix2 l r : S200x128.Idx) a).val = _
  show k0_off1 L a + 1 * ((ix2 l r : S200x128.Idx) a).val = _
  rw [congrFun (k0_off1_eq L) a]
  match a with
  | 0 => show (![0, 256 * (L 1).val + 128 * (L 0).val] : Fin 2 → ℕ) 0 + 1 * l.val = l.val; simp
  | 1 => show (![0, 256 * (L 1).val + 128 * (L 0).val] : Fin 2 → ℕ) 1 + 1 * r.val = 128 * (2 * (L 1).val + (L 0).val) + r.val; simp; omega

/-- A row buffer that encodes local row `r` holds, entry by entry, row `128 w + r` of the one-hot array. -/
theorem pay_of_rowIs (X : IVec S200x128 32)
    (hXdef : ∀ j, X j = (xtVal m d : (⟨S200x4096, .i32⟩ : BufTy).Contents (Elt F)) ((xtCols L).view.emb j))
    (r : Fin 128) (g : S200x128.Idx → Elt F .f32) (hg : Cert.OneHot.Pure.RowIs (F := F) (Cert.OneHot.Pure.col X r.val) g) (j : S200x128.Idx) :
    g j = if ((xtVal m d : (⟨S200x4096, .i32⟩ : BufTy).Contents (Elt F)) (ix2 (j 0) (rowOf (widL L) r))).toNat = (j 1).val then one else zero := by
  rw [hg j]
  have e : Cert.OneHot.Pure.col X r.val (j 0).val = ((xtVal m d : (⟨S200x4096, .i32⟩ : BufTy).Contents (Elt F)) (ix2 (j 0) (rowOf (widL L) r))).toNat := by
    unfold Cert.OneHot.Pure.col
    rw [dif_pos (show (j 0).val < 200 ∧ r.val < 128 from ⟨(j 0).isLt, r.isLt⟩)]
    show (X (ix2 (j 0) r)).toNat = _
    rw [hXdef]
    exact congrArg (fun i => BitVec.toNat ((xtVal m d : (⟨S200x4096, .i32⟩ : BufTy).Contents (Elt F)) i)) (emb_xtCols L (j 0) r)
  rw [e]
  by_cases h : ((xtVal m d : (⟨S200x4096, .i32⟩ : BufTy).Contents (Elt F)) (ix2 (j 0) (rowOf (widL L) r))).toNat = (j 1).val
  · rw [if_pos h, if_pos h.symm]
  · rw [if_neg h, if_neg (fun h' => h h'.symm)]

/-- The row a copy writes, once the copy has landed, in the spelling of the whole array. -/
theorem row_landed (X : IVec S200x128 32)
    (hXdef : ∀ j, X j = (xtVal m d : (⟨S200x4096, .i32⟩ : BufTy).Contents (Elt F)) ((xtCols L).view.emb j))
    (r : Fin 128) (off : Fin 3 → Nat) (h : ∀ a, off a + S1x200x128.size a ≤ S4096x200x128.size a)
    (hoff : off 0 = (rowOf (widL L) r).val ∧ off 1 = 0 ∧ off 2 = 0)
    (f : Buf (Elt F) (oLoc d)) (pay : S200x128.Idx → Elt F .f32) (hpay : Cert.OneHot.Pure.RowIs (F := F) (Cert.OneHot.Pure.col X r.val) pay) :
    ((oRowM off h).view.loc (thr d L) ↦[(oRowM off h).view.set]{fullShare}
        (oRowM off h).view.writes (Elt F) f [⟨Rect.whole S200x128, pay⟩] : sProp 𝕄)
      = (oLoc d ↦[row1Set (rowOf (widL L) r)]{fullShare} outVal m d) := by
  rw [show (oRowM off h).view.writes (Elt F) f [⟨Rect.whole S200x128, pay⟩] = (oRowM off h).view.write (Elt F) f pay Finset.univ from
    (View.write_univ_eq_writes_whole (Val := Elt F) (oRowM off h).view f [] pay).symm, set_oRowM (rowOf (widL L) r) off h hoff]
  exact row_done m d (rowOf (widL L) r) off h hoff f pay (fun j => pay_of_rowIs m d L X hXdef r pay hpay j)

omit [FloatOps F] in
/-- A row still to be written, in the task's spelling of it. -/
theorem row_todo (r : Fin 128) (off : Fin 3 → Nat) (h : ∀ a, off a + S1x200x128.size a ≤ S4096x200x128.size a)
    (hoff : off 0 = (rowOf (widL L) r).val ∧ off 1 = 0 ∧ off 2 = 0) (f : Buf (Elt F) (oLoc d)) :
    (oLoc d ↦[row1Set (rowOf (widL L) r)]{fullShare} f : sProp 𝕄)
      = ((oRowM off h).view.loc (thr d L) ↦[(oRowM off h).view.set]{fullShare} f) := by
  rw [set_oRowM (rowOf (widL L) r) off h hoff]

def inv2 (k : ℕ) (_ : PUnit) : sProp 𝕄 :=
  iprop(∃ f : Buf (Elt F) ((sB1 : Memref sig .scVector .vmem S200x128 .f32).view.loc (thr d L)), ⌜ZeroTo (F := F) k f⌝ ∗ ((sB1 : Memref sig .scVector .vmem S200x128 .f32).view.loc (thr d L) ↦{fullShare} f))

/-- Local row `r` of the place: still at its launch contents, or at the one-hot array. -/
abbrev todoRow (r : Fin 128) : sProp 𝕄 := oLoc d ↦[row1Set (rowOf (widL L) r)]{fullShare} m (oLoc d)
abbrev doneRow (r : Fin 128) : sProp 𝕄 := oLoc d ↦[row1Set (rowOf (widL L) r)]{fullShare} outVal m d

abbrev r0 : Fin 128 := ⟨0, by omega⟩
abbrev r1 : Fin 128 := ⟨1, by omega⟩

omit [FloatOps F] in
theorem todo_split :
    (oLoc d ↦[rowSet (widL L)]{fullShare} m (oLoc d) : sProp 𝕄)
      = iprop(todoRow m d L r0 ∗ todoRow m d L r1 ∗ bigSep (Finset.univ.filter fun r : Fin 128 => 2 ≤ r.val) (todoRow m d L)) := by
  rw [oRows_split (F := F) d (widL L) (m (oLoc d)), ← bigSep_from_zero (F := F) (todoRow m d L), bigSep_from_succ (F := F) (todoRow m d L) 0 (by omega),
    bigSep_from_succ (F := F) (todoRow m d L) 1 (by omega)]

omit [FloatOps F] in
theorem hoff10 : k0_off10 L 0 = (rowOf (widL L) r0).val ∧ k0_off10 L 1 = 0 ∧ k0_off10 L 2 = 0 := by
  rw [k0_off10_eq]; refine ⟨?_, rfl, rfl⟩
  show 256 * (L 1).val + 128 * (L 0).val = 128 * (2 * (L 1).val + (L 0).val) + 0; omega
omit [FloatOps F] in
theorem hoff19 : k0_off19 L 0 = (rowOf (widL L) r1).val ∧ k0_off19 L 1 = 0 ∧ k0_off19 L 2 = 0 := by
  rw [k0_off19_eq]; refine ⟨?_, rfl, rfl⟩
  show 256 * (L 1).val + 128 * (L 0).val + 1 = 128 * (2 * (L 1).val + (L 0).val) + 1; omega

/-! ## The main loop: trip `k` finishes rows `2 k` and `2 k + 1` and starts rows `2 k + 2` and `2 k + 3` -/

/-- The local row number `n`, as an index. -/
def fr (n : ℕ) : Fin 128 := ⟨n % 128, Nat.mod_lt _ (by omega)⟩
omit [FloatOps F] in
theorem fr_val {n : ℕ} (h : n < 128) : (fr n).val = n := Nat.mod_eq_of_lt h
omit [FloatOps F] in
theorem fr_eq {n : ℕ} (h : n < 128) : fr n = ⟨n, h⟩ := Fin.ext (Nat.mod_eq_of_lt h)

abbrev bv115 (k : Fin k0_t3_loop.trips) : BitVec 32 := Scalar.muli (Scalar.addi 1#32 (Scalar.muli (Scf.iv 0#32 1#32 k) 1#32)) 2#32

omit [FloatOps F] in
theorem bv_facts (k : Fin k0_t3_loop.trips) :
    k.val < 63 ∧ (bv115 k).toNat = 2 * k.val + 2 ∧ (Scalar.subi (bv115 k) 2#32).toNat = 2 * k.val
      ∧ (Scalar.addi (bv115 k) 1#32).toNat = 2 * k.val + 3 ∧ (Scalar.subi (Scalar.addi (bv115 k) 1#32) 2#32).toNat = 2 * k.val + 1 := by
  have r_k : k.val < 63 := Nat.lt_of_lt_of_le k.isLt k0_t3_abs.2.1
  have h0 : Affine.IsInt 0#32 (0) := Affine.ofNat _ (by omega)
  have h1 : Affine.IsInt 1#32 (1) := Affine.ofNat _ (by omega)
  have h2 : Affine.IsInt 2#32 (2) := Affine.ofNat _ (by omega)
  have h_iv : Affine.IsInt _ ((k.val : Int)) := Affine.iv h0 h1 k.val (by omega)
  have h_113 : Affine.IsInt _ ((k.val : Int)) := Affine.muli h_iv h1 (by omega)
  have h_114 : Affine.IsInt _ ((k.val : Int) + 1) := Affine.addi h1 h_113 (by omega)
  have h_115 : Affine.IsInt (bv115 k) (2 * (k.val : Int) + 2) := Affine.muli h_114 h2 (by omega)
  have h_121 : Affine.IsInt (Scalar.subi (bv115 k) 2#32) (2 * (k.val : Int)) := Affine.subi h_115 h2 (by omega)
  have h_116 : Affine.IsInt (Scalar.addi (bv115 k) 1#32) (2 * (k.val : Int) + 3) := Affine.addi h_115 h1 (by omega)
  have h_217 : Affine.IsInt (Scalar.subi (Scalar.addi (bv115 k) 1#32) 2#32) (2 * (k.val : Int) + 1) := Affine.subi h_116 h2 (by omega)
  have e1 := Affine.toNat_of h_115 (by omega)
  have e2 := Affine.toNat_of h_121 (by omega)
  have e3 := Affine.toNat_of h_116 (by omega)
  have e4 := Affine.toNat_of h_217 (by omega)
  refine ⟨r_k, by omega, by omega, by omega, by omega⟩

omit [FloatOps F] in
theorem hoff21 (k : Fin k0_t3_loop.trips) : k0_off21 L k 0 = (rowOf (widL L) (fr (2 * k.val + 2))).val ∧ k0_off21 L k 1 = 0 ∧ k0_off21 L k 2 = 0 := by
  have hk : k.val < 63 := (bv_facts k).1
  rw [k0_off21_eq]; refine ⟨?_, rfl, rfl⟩
  show 256 * (L 1).val + 128 * (L 0).val + 2 * k.val + 2 = 128 * (2 * (L 1).val + (L 0).val) + (fr (2 * k.val + 2)).val
  rw [fr_val (by omega)]; omega
omit [FloatOps F] in
theorem hoff23 (k : Fin k0_t3_loop.trips) : k0_off23 L k 0 = (rowOf (widL L) (fr (2 * k.val + 3))).val ∧ k0_off23 L k 1 = 0 ∧ k0_off23 L k 2 = 0 := by
  have hk : k.val < 63 := (bv_facts k).1
  rw [k0_off23_eq]; refine ⟨?_, rfl, rfl⟩
  show 256 * (L 1).val + 128 * (L 0).val + 2 * k.val + 3 = 128 * (2 * (L 1).val + (L 0).val) + (fr (2 * k.val + 3)).val
  rw [fr_val (by omega)]; omega

/-- A row copy under way from a row buffer: landed, local row `r` holds the one-hot array and the buffer comes back. -/
abbrev flightOf (sm : DmaSem sig) (sb : Memref sig .scVector .vmem S200x128 .f32) (r : Fin 128) (g : Buf (Elt F) (sb.view.loc (thr d L))) : sProp 𝕄 :=
  Transfers.Flight countersEmb (thr d L) (SemLoc.dma sm) (default : HIx 1) 819200
    iprop((doneRow m d L r) ∗ (sb.view.loc (thr d L) ↦[sb.view.set]{fullShare} g))

def inv3 (X : IVec S200x128 32) (O : CellTallies nD τ sig (HIx 1)) (W : Waits sig (HIx 1)) (k : ℕ) (_ : PUnit) : sProp 𝕄 :=
  iprop(Transfers.MayWaits (thr d L) (none : HIx 1) O
    ∗ ((sX : Memref sig .scVector .vmem S200x128 .i32).view.loc (thr d L) ↦{fullShare} X)
    ∗ (∃ gA : Buf (Elt F) ((sB0 : Memref sig .scVector .vmem S200x128 .f32).view.loc (thr d L)),
        ⌜Cert.OneHot.Pure.RowIs (F := F) (Cert.OneHot.Pure.col X (2 * k)) gA⌝
        ∗ flightOf m d L cc0_scratch3.sem sB0 (fr (2 * k)) gA
        ∗ ((sB0 : Memref sig .scVector .vmem S200x128 .f32).view.loc (thr d L) ↦[Finset.univ \ (sB0 : Memref sig .scVector .vmem S200x128 .f32).view.set]{fullShare} gA))
    ∗ (∃ gB : Buf (Elt F) ((sB1 : Memref sig .scVector .vmem S200x128 .f32).view.loc (thr d L)),
        ⌜Cert.OneHot.Pure.RowIs (F := F) (Cert.OneHot.Pure.col X (2 * k + 1)) gB⌝
        ∗ flightOf m d L cc0_scratch4.sem sB1 (fr (2 * k + 1)) gB
        ∗ ((sB1 : Memref sig .scVector .vmem S200x128 .f32).view.loc (thr d L) ↦[Finset.univ \ (sB1 : Memref sig .scVector .vmem S200x128 .f32).view.set]{fullShare} gB))
    ∗ bigSep (Finset.univ.filter fun r : Fin 128 => r.val < 2 * k) (doneRow m d L)
    ∗ bigSep (Finset.univ.filter fun r : Fin 128 => 2 * k + 2 ≤ r.val) (todoRow m d L)
    ∗ ∃ W', ⌜∀ p ∈ W', p ∈ W ∨ p.2 = none⌝ ∗ owes (thr d L) O W')

set_option maxHeartbeats 4000000 in
/-- One trip of the main loop. -/
theorem trip3 (O : CellTallies nD τ sig (HIx 1)) (X : IVec S200x128 32)
    (hXdef : ∀ j, X j = (xtVal m d : (⟨S200x4096, .i32⟩ : BufTy).Contents (Elt F)) ((xtCols L).view.emb j))
    (hXr : ∀ j, (X j).toNat < 128) (hO : ∀ g, O g none = 0)
    (W : Waits sig (HIx 1)) (v2 : BitVec 32) (k : Fin k0_t3_loop.trips) (acc : PUnit) :
    inv3 (F := F) m d L X O W k.val acc
      ⊢ wp frame (wpE (defs₀ (F := F)) 𝒱₀ (thr d L) none) Set.univ
          (k0_t3_body L xtV (Memref.isWhole_whole _) oV (Memref.isWhole_whole _) sX (Memref.isWhole_whole _) sB0 (Memref.isWhole_whole _)
            sB1 (Memref.isWhole_whole _) cc0_scratch3 cc0_scratch4 cc0_scoped0 v2 k0_pay58 k0_pay59
            (iota .scVector S16 32 [0] iota_S16_d0_w32_scVector) k acc)
          (inv3 (F := F) m d L X O W (k.val + 1)) := by
  unfold inv3 flightOf
  iintro ⟨#Hmw, Hsx', ⟨%gA, %hA, Hs3, Hb0⟩, ⟨%gB, %hB, Hs4, Hb1⟩, Hdone, Htodo, %W', %hW', HO⟩
  obtain ⟨hk, e115, e121, e116, e217⟩ := bv_facts k
  ihave Ht := (Entails.of_eq (bigSep_from_succ (F := F) (todoRow m d L) (2 * k.val + 2) (by omega))) $$ Htodo
  icases Ht with ⟨HrA, Htodo⟩
  ihave Ht := (Entails.of_eq (bigSep_from_succ (F := F) (todoRow m d L) (2 * k.val + 2 + 1) (by omega))) $$ Htodo
  icases Ht with ⟨HrB, Htodo⟩
  unfold k0_t3_body

  -- the copy of row 2 k has landed: the first row buffer comes back; row 2 k is cleared out of it
  have hrz : ∀ x : S16.Idx, (rvc (Scalar.subi (bv115 k) 2#32) x).toNat = 2 * k.val := fun x => (rvc_toNat _ x).trans e121
  have z0 := Cert.OneHot.Pure.ScatTo.zero (F := F) (Cert.OneHot.Pure.col X (2 * k.val)) zero gA

  -- tokens 0 .. 15
  sl_exec (disch := exact Cert.OneHot.Pure.chk_load _ _ 0 (2 * k.val) (lvc_toNat 0#32 0 rfl (by omega)) hrz (by omega) (by omega))
  iapply (wp_loadX (F := F) d L _) $$ Hsx'
  iintro %v101 ⟨Hsx', %hv101⟩
  have hc101 : ∀ x : S16.Idx, ((v101 : IVec S16 32) x).toNat = Cert.OneHot.Pure.col X (2 * k.val) (0 + (x 0).val) := fun x => by
    rw [hv101]; exact Cert.OneHot.Pure.loadIdx_col (F := F) X _ _ _ 0 (2 * k.val) (lvc_toNat 0#32 0 rfl (by omega)) hrz x
  sl_exec (disch := exact Cert.OneHot.Pure.chk_store _ _ 0 (lvc_toNat 0#32 0 rfl (by omega)) (fun x => by rw [hc101 x]; exact Cert.OneHot.Pure.col_lt hXr _ _) (by omega))
  iapply (wp_store_sB0 (F := F) d L _) $$ Hb0
  iintro %g101 ⟨Hb0, %hg101⟩
  have s101 := Cert.OneHot.Pure.ScatTo.step (f' := g101) 0 z0 (by omega) (by omega) (fun j => by
    rw [hg101]; exact Cert.OneHot.Pure.storeIdx_const (F := F) _ _ _ zero _ 0 (Cert.OneHot.Pure.col X (2 * k.val)) (lvc_toNat 0#32 0 rfl (by omega)) hc101 j)
  clear hv101 hg101
  -- tokens 16 .. 31
  sl_exec (disch := exact Cert.OneHot.Pure.chk_load _ _ 16 (2 * k.val) (lvc_toNat 16#32 16 rfl (by omega)) hrz (by omega) (by omega))
  iapply (wp_loadX (F := F) d L _) $$ Hsx'
  iintro %v102 ⟨Hsx', %hv102⟩
  have hc102 : ∀ x : S16.Idx, ((v102 : IVec S16 32) x).toNat = Cert.OneHot.Pure.col X (2 * k.val) (16 + (x 0).val) := fun x => by
    rw [hv102]; exact Cert.OneHot.Pure.loadIdx_col (F := F) X _ _ _ 16 (2 * k.val) (lvc_toNat 16#32 16 rfl (by omega)) hrz x
  sl_exec (disch := exact Cert.OneHot.Pure.chk_store _ _ 16 (lvc_toNat 16#32 16 rfl (by omega)) (fun x => by rw [hc102 x]; exact Cert.OneHot.Pure.col_lt hXr _ _) (by omega))
  iapply (wp_store_sB0 (F := F) d L _) $$ Hb0
  iintro %g102 ⟨Hb0, %hg102⟩
  have s102 := Cert.OneHot.Pure.ScatTo.step (f' := g102) 16 s101 (by omega) (by omega) (fun j => by
    rw [hg102]; exact Cert.OneHot.Pure.storeIdx_const (F := F) _ _ _ zero _ 16 (Cert.OneHot.Pure.col X (2 * k.val)) (lvc_toNat 16#32 16 rfl (by omega)) hc102 j)
  clear hv102 hg102
  -- tokens 32 .. 47
  sl_exec (disch := exact Cert.OneHot.Pure.chk_load _ _ 32 (2 * k.val) (lvc_toNat 32#32 32 rfl (by omega)) hrz (by omega) (by omega))
  iapply (wp_loadX (F := F) d L _) $$ Hsx'
  iintro %v103 ⟨Hsx', %hv103⟩
  have hc103 : ∀ x : S16.Idx, ((v103 : IVec S16 32) x).toNat = Cert.OneHot.Pure.col X (2 * k.val) (32 + (x 0).val) := fun x => by
    rw [hv103]; exact Cert.OneHot.Pure.loadIdx_col (F := F) X _ _ _ 32 (2 * k.val) (lvc_toNat 32#32 32 rfl (by omega)) hrz x
  sl_exec (disch := exact Cert.OneHot.Pure.chk_store _ _ 32 (lvc_toNat 32#32 32 rfl (by omega)) (fun x => by rw [hc103 x]; exact Cert.OneHot.Pure.col_lt hXr _ _) (by omega))
  iapply (wp_store_sB0 (F := F) d L _) $$ Hb0
  iintro %g103 ⟨Hb0, %hg103⟩
  have s103 := Cert.OneHot.Pure.ScatTo.step (f' := g103) 32 s102 (by omega) (by omega) (fun j => by
    rw [hg103]; exact Cert.OneHot.Pure.storeIdx_const (F := F) _ _ _ zero _ 32 (Cert.OneHot.Pure.col X (2 * k.val)) (lvc_toNat 32#32 32 rfl (by omega)) hc103 j)
  clear hv103 hg103
  -- tokens 48 .. 63
  sl_exec (disch := exact Cert.OneHot.Pure.chk_load _ _ 48 (2 * k.val) (lvc_toNat 48#32 48 rfl (by omega)) hrz (by omega) (by omega))
  iapply (wp_loadX (F := F) d L _) $$ Hsx'
  iintro %v104 ⟨Hsx', %hv104⟩
  have hc104 : ∀ x : S16.Idx, ((v104 : IVec S16 32) x).toNat = Cert.OneHot.Pure.col X (2 * k.val) (48 + (x 0).val) := fun x => by
    rw [hv104]; exact Cert.OneHot.Pure.loadIdx_col (F := F) X _ _ _ 48 (2 * k.val) (lvc_toNat 48#32 48 rfl (by omega)) hrz x
  sl_exec (disch := exact Cert.OneHot.Pure.chk_store _ _ 48 (lvc_toNat 48#32 48 rfl (by omega)) (fun x => by rw [hc104 x]; exact Cert.OneHot.Pure.col_lt hXr _ _) (by omega))
  iapply (wp_store_sB0 (F := F) d L _) $$ Hb0
  iintro %g104 ⟨Hb0, %hg104⟩
  have s104 := Cert.OneHot.Pure.ScatTo.step (f' := g104) 48 s103 (by omega) (by omega) (fun j => by
    rw [hg104]; exact Cert.OneHot.Pure.storeIdx_const (F := F) _ _ _ zero _ 48 (Cert.OneHot.Pure.col X (2 * k.val)) (lvc_toNat 48#32 48 rfl (by omega)) hc104 j)
  clear hv104 hg104
  -- tokens 64 .. 79
  sl_exec (disch := exact Cert.OneHot.Pure.chk_load _ _ 64 (2 * k.val) (lvc_toNat 64#32 64 rfl (by omega)) hrz (by omega) (by omega))
  iapply (wp_loadX (F := F) d L _) $$ Hsx'
  iintro %v105 ⟨Hsx', %hv105⟩
  have hc105 : ∀ x : S16.Idx, ((v105 : IVec S16 32) x).toNat = Cert.OneHot.Pure.col X (2 * k.val) (64 + (x 0).val) := fun x => by
    rw [hv105]; exact Cert.OneHot.Pure.loadIdx_col (F := F) X _ _ _ 64 (2 * k.val) (lvc_toNat 64#32 64 rfl (by omega)) hrz x
  sl_exec (disch := exact Cert.OneHot.Pure.chk_store _ _ 64 (lvc_toNat 64#32 64 rfl (by omega)) (fun x => by rw [hc105 x]; exact Cert.OneHot.Pure.col_lt hXr _ _) (by omega))
  iapply (wp_store_sB0 (F := F) d L _) $$ Hb0
  iintro %g105 ⟨Hb0, %hg105⟩
  have s105 := Cert.OneHot.Pure.ScatTo.step (f' := g105) 64 s104 (by omega) (by omega) (fun j => by
    rw [hg105]; exact Cert.OneHot.Pure.storeIdx_const (F := F) _ _ _ zero _ 64 (Cert.OneHot.Pure.col X (2 * k.val)) (lvc_toNat 64#32 64 rfl (by omega)) hc105 j)
  clear hv105 hg105
  -- tokens 80 .. 95
  sl_exec (disch := exact Cert.OneHot.Pure.chk_load _ _ 80 (2 * k.val) (lvc_toNat 80#32 80 rfl (by omega)) hrz (by omega) (by omega))
  iapply (wp_loadX (F := F) d L _) $$ Hsx'
  iintro %v106 ⟨Hsx', %hv106⟩
  have hc106 : ∀ x : S16.Idx, ((v106 : IVec S16 32) x).toNat = Cert.OneHot.Pure.col X (2 * k.val) (80 + (x 0).val) := fun x => by
    rw [hv106]; exact Cert.OneHot.Pure.loadIdx_col (F := F) X _ _ _ 80 (2 * k.val) (lvc_toNat 80#32 80 rfl (by omega)) hrz x
  sl_exec (disch := exact Cert.OneHot.Pure.chk_store _ _ 80 (lvc_toNat 80#32 80 rfl (by omega)) (fun x => by rw [hc106 x]; exact Cert.OneHot.Pure.col_lt hXr _ _) (by omega))
  iapply (wp_store_sB0 (F := F) d L _) $$ Hb0
  iintro %g106 ⟨Hb0, %hg106⟩
  have s106 := Cert.OneHot.Pure.ScatTo.step (f' := g106) 80 s105 (by omega) (by omega) (fun j => by
    rw [hg106]; exact Cert.OneHot.Pure.storeIdx_const (F := F) _ _ _ zero _ 80 (Cert.OneHot.Pure.col X (2 * k.val)) (lvc_toNat 80#32 80 rfl (by omega)) hc106 j)
  clear hv106 hg106
  -- tokens 96 .. 111
  sl_exec (disch := exact Cert.OneHot.Pure.chk_load _ _ 96 (2 * k.val) (lvc_toNat 96#32 96 rfl (by omega)) hrz (by omega) (by omega))
  iapply (wp_loadX (F := F) d L _) $$ Hsx'
  iintro %v107 ⟨Hsx', %hv107⟩
  have hc107 : ∀ x : S16.Idx, ((v107 : IVec S16 32) x).toNat = Cert.OneHot.Pure.col X (2 * k.val) (96 + (x 0).val) := fun x => by
    rw [hv107]; exact Cert.OneHot.Pure.loadIdx_col (F := F) X _ _ _ 96 (2 * k.val) (lvc_toNat 96#32 96 rfl (by omega)) hrz x
  sl_exec (disch := exact Cert.OneHot.Pure.chk_store _ _ 96 (lvc_toNat 96#32 96 rfl (by omega)) (fun x => by rw [hc107 x]; exact Cert.OneHot.Pure.col_lt hXr _ _) (by omega))
  iapply (wp_store_sB0 (F := F) d L _) $$ Hb0
  iintro %g107 ⟨Hb0, %hg107⟩
  have s107 := Cert.OneHot.Pure.ScatTo.step (f' := g107) 96 s106 (by omega) (by omega) (fun j => by
    rw [hg107]; exact Cert.OneHot.Pure.storeIdx_const (F := F) _ _ _ zero _ 96 (Cert.OneHot.Pure.col X (2 * k.val)) (lvc_toNat 96#32 96 rfl (by omega)) hc107 j)
  clear hv107 hg107
  -- tokens 112 .. 127
  sl_exec (disch := exact Cert.OneHot.Pure.chk_load _ _ 112 (2 * k.val) (lvc_toNat 112#32 112 rfl (by omega)) hrz (by omega) (by omega))
  iapply (wp_loadX (F := F) d L _) $$ Hsx'
  iintro %v108 ⟨Hsx', %hv108⟩
  have hc108 : ∀ x : S16.Idx, ((v108 : IVec S16 32) x).toNat = Cert.OneHot.Pure.col X (2 * k.val) (112 + (x 0).val) := fun x => by
    rw [hv108]; exact Cert.OneHot.Pure.loadIdx_col (F := F) X _ _ _ 112 (2 * k.val) (lvc_toNat 112#32 112 rfl (by omega)) hrz x
  sl_exec (disch := exact Cert.OneHot.Pure.chk_store _ _ 112 (lvc_toNat 112#32 112 rfl (by omega)) (fun x => by rw [hc108 x]; exact Cert.OneHot.Pure.col_lt hXr _ _) (by omega))
  iapply (wp_store_sB0 (F := F) d L _) $$ Hb0
  iintro %g108 ⟨Hb0, %hg108⟩
  have s108 := Cert.OneHot.Pure.ScatTo.step (f' := g108) 112 s107 (by omega) (by omega) (fun j => by
    rw [hg108]; exact Cert.OneHot.Pure.storeIdx_const (F := F) _ _ _ zero _ 112 (Cert.OneHot.Pure.col X (2 * k.val)) (lvc_toNat 112#32 112 rfl (by omega)) hc108 j)
  clear hv108 hg108
  -- tokens 128 .. 143
  sl_exec (disch := exact Cert.OneHot.Pure.chk_load _ _ 128 (2 * k.val) (lvc_toNat 128#32 128 rfl (by omega)) hrz (by omega) (by omega))
  iapply (wp_loadX (F := F) d L _) $$ Hsx'
  iintro %v109 ⟨Hsx', %hv109⟩
  have hc109 : ∀ x : S16.Idx, ((v109 : IVec S16 32) x).toNat = Cert.OneHot.Pure.col X (2 * k.val) (128 + (x 0).val) := fun x => by
    rw [hv109]; exact Cert.OneHot.Pure.loadIdx_col (F := F) X _ _ _ 128 (2 * k.val) (lvc_toNat 128#32 128 rfl (by omega)) hrz x
  sl_exec (disch := exact Cert.OneHot.Pure.chk_store _ _ 128 (lvc_toNat 128#32 128 rfl (by omega)) (fun x => by rw [hc109 x]; exact Cert.OneHot.Pure.col_lt hXr _ _) (by omega))
  iapply (wp_store_sB0 (F := F) d L _) $$ Hb0
  iintro %g109 ⟨Hb0, %hg109⟩
  have s109 := Cert.OneHot.Pure.ScatTo.step (f' := g109) 128 s108 (by omega) (by omega) (fun j => by
    rw [hg109]; exact Cert.OneHot.Pure.storeIdx_const (F := F) _ _ _ zero _ 128 (Cert.OneHot.Pure.col X (2 * k.val)) (lvc_toNat 128#32 128 rfl (by omega)) hc109 j)
  clear hv109 hg109
  -- tokens 144 .. 159
  sl_exec (disch := exact Cert.OneHot.Pure.chk_load _ _ 144 (2 * k.val) (lvc_toNat 144#32 144 rfl (by omega)) hrz (by omega) (by omega))
  iapply (wp_loadX (F := F) d L _) $$ Hsx'
  iintro %v110 ⟨Hsx', %hv110⟩
  have hc110 : ∀ x : S16.Idx, ((v110 : IVec S16 32) x).toNat = Cert.OneHot.Pure.col X (2 * k.val) (144 + (x 0).val) := fun x => by
    rw [hv110]; exact Cert.OneHot.Pure.loadIdx_col (F := F) X _ _ _ 144 (2 * k.val) (lvc_toNat 144#32 144 rfl (by omega)) hrz x
  sl_exec (disch := exact Cert.OneHot.Pure.chk_store _ _ 144 (lvc_toNat 144#32 144 rfl (by omega)) (fun x => by rw [hc110 x]; exact Cert.OneHot.Pure.col_lt hXr _ _) (by omega))
  iapply (wp_store_sB0 (F := F) d L _) $$ Hb0
  iintro %g110 ⟨Hb0, %hg110⟩
  have s110 := Cert.OneHot.Pure.ScatTo.step (f' := g110) 144 s109 (by omega) (by omega) (fun j => by
    rw [hg110]; exact Cert.OneHot.Pure.storeIdx_const (F := F) _ _ _ zero _ 144 (Cert.OneHot.Pure.col X (2 * k.val)) (lvc_toNat 144#32 144 rfl (by omega)) hc110 j)
  clear hv110 hg110
  -- tokens 160 .. 175
  sl_exec (disch := exact Cert.OneHot.Pure.chk_load _ _ 160 (2 * k.val) (lvc_toNat 160#32 160 rfl (by omega)) hrz (by omega) (by omega))
  iapply (wp_loadX (F := F) d L _) $$ Hsx'
  iintro %v111 ⟨Hsx', %hv111⟩
  have hc111 : ∀ x : S16.Idx, ((v111 : IVec S16 32) x).toNat = Cert.OneHot.Pure.col X (2 * k.val) (160 + (x 0).val) := fun x => by
    rw [hv111]; exact Cert.OneHot.Pure.loadIdx_col (F := F) X _ _ _ 160 (2 * k.val) (lvc_toNat 160#32 160 rfl (by omega)) hrz x
  sl_exec (disch := exact Cert.OneHot.Pure.chk_store _ _ 160 (lvc_toNat 160#32 160 rfl (by omega)) (fun x => by rw [hc111 x]; exact Cert.OneHot.Pure.col_lt hXr _ _) (by omega))
  iapply (wp_store_sB0 (F := F) d L _) $$ Hb0
  iintro %g111 ⟨Hb0, %hg111⟩
  have s111 := Cert.OneHot.Pure.ScatTo.step (f' := g111) 160 s110 (by omega) (by omega) (fun j => by
    rw [hg111]; exact Cert.OneHot.Pure.storeIdx_const (F := F) _ _ _ zero _ 160 (Cert.OneHot.Pure.col X (2 * k.val)) (lvc_toNat 160#32 160 rfl (by omega)) hc111 j)
  clear hv111 hg111
  -- tokens 176 .. 191
  sl_exec (disch := exact Cert.OneHot.Pure.chk_load _ _ 176 (2 * k.val) (lvc_toNat 176#32 176 rfl (by omega)) hrz (by omega) (by omega))
  iapply (wp_loadX (F := F) d L _) $$ Hsx'
  iintro %v112 ⟨Hsx', %hv112⟩
  have hc112 : ∀ x : S16.Idx, ((v112 : IVec S16 32) x).toNat = Cert.OneHot.Pure.col X (2 * k.val) (176 + (x 0).val) := fun x => by
    rw [hv112]; exact Cert.OneHot.Pure.loadIdx_col (F := F) X _ _ _ 176 (2 * k.val) (lvc_toNat 176#32 176 rfl (by omega)) hrz x
  sl_exec (disch := exact Cert.OneHot.Pure.chk_store _ _ 176 (lvc_toNat 176#32 176 rfl (by omega)) (fun x => by rw [hc112 x]; exact Cert.OneHot.Pure.col_lt hXr _ _) (by omega))
  iapply (wp_store_sB0 (F := F) d L _) $$ Hb0
  iintro %g112 ⟨Hb0, %hg112⟩
  have s112 := Cert.OneHot.Pure.ScatTo.step (f' := g112) 176 s111 (by omega) (by omega) (fun j => by
    rw [hg112]; exact Cert.OneHot.Pure.storeIdx_const (F := F) _ _ _ zero _ 176 (Cert.OneHot.Pure.col X (2 * k.val)) (lvc_toNat 176#32 176 rfl (by omega)) hc112 j)
  clear hv112 hg112
  -- tokens 184 .. 199
  sl_exec (disch := exact Cert.OneHot.Pure.chk_load _ _ 184 (2 * k.val) (lvc_toNat 184#32 184 rfl (by omega)) hrz (by omega) (by omega))
  iapply (wp_loadX (F := F) d L _) $$ Hsx'
  iintro %v113 ⟨Hsx', %hv113⟩
  have hc113 : ∀ x : S16.Idx, ((v113 : IVec S16 32) x).toNat = Cert.OneHot.Pure.col X (2 * k.val) (184 + (x 0).val) := fun x => by
    rw [hv113]; exact Cert.OneHot.Pure.loadIdx_col (F := F) X _ _ _ 184 (2 * k.val) (lvc_toNat 184#32 184 rfl (by omega)) hrz x
  sl_exec (disch := exact Cert.OneHot.Pure.chk_store _ _ 184 (lvc_toNat 184#32 184 rfl (by omega)) (fun x => by rw [hc113 x]; exact Cert.OneHot.Pure.col_lt hXr _ _) (by omega))
  iapply (wp_store_sB0 (F := F) d L _) $$ Hb0
  iintro %g113 ⟨Hb0, %hg113⟩
  have s113 := Cert.OneHot.Pure.ScatTo.step (f' := g113) 184 s112 (by omega) (by omega) (fun j => by
    rw [hg113]; exact Cert.OneHot.Pure.storeIdx_const (F := F) _ _ _ zero _ 184 (Cert.OneHot.Pure.col X (2 * k.val)) (lvc_toNat 184#32 184 rfl (by omega)) hc113 j)
  clear hv113 hg113
  have hzA : ∀ j, g113 j = zero := Cert.OneHot.Pure.RowIs.cleared hA (Cert.OneHot.Pure.ScatTo.done s113)
  clear z0 s101 s102 s103 s104 s105 s106 s107 s108 s109 s110 s111 s112 s113 hc101 hc102 hc103 hc104 hc105 hc106 hc107 hc108 hc109 hc110 hc111 hc112 hc113
  -- and row 2 k + 2 is encoded into it
  have hro : ∀ x : S16.Idx, (rvc (bv115 k) x).toNat = 2 * k.val + 2 := fun x => (rvc_toNat _ x).trans e115
  have o0 := Cert.OneHot.Pure.ScatTo.zero (F := F) (Cert.OneHot.Pure.col X (2 * k.val + 2)) one g113

  -- tokens 0 .. 15
  sl_exec (disch := exact Cert.OneHot.Pure.chk_load _ _ 0 (2 * k.val + 2) (lvc_toNat 0#32 0 rfl (by omega)) hro (by omega) (by omega))
  iapply (wp_loadX (F := F) d L _) $$ Hsx'
  iintro %v121 ⟨Hsx', %hv121⟩
  have hc121 : ∀ x : S16.Idx, ((v121 : IVec S16 32) x).toNat = Cert.OneHot.Pure.col X (2 * k.val + 2) (0 + (x 0).val) := fun x => by
    rw [hv121]; exact Cert.OneHot.Pure.loadIdx_col (F := F) X _ _ _ 0 (2 * k.val + 2) (lvc_toNat 0#32 0 rfl (by omega)) hro x
  sl_exec (disch := exact Cert.OneHot.Pure.chk_store _ _ 0 (lvc_toNat 0#32 0 rfl (by omega)) (fun x => by rw [hc121 x]; exact Cert.OneHot.Pure.col_lt hXr _ _) (by omega))
  iapply (wp_store_sB0 (F := F) d L _) $$ Hb0
  iintro %g121 ⟨Hb0, %hg121⟩
  have s121 := Cert.OneHot.Pure.ScatTo.step (f' := g121) 0 o0 (by omega) (by omega) (fun j => by
    rw [hg121]; exact Cert.OneHot.Pure.storeIdx_const (F := F) _ _ _ one _ 0 (Cert.OneHot.Pure.col X (2 * k.val + 2)) (lvc_toNat 0#32 0 rfl (by omega)) hc121 j)
  clear hv121 hg121
  -- tokens 16 .. 31
  sl_exec (disch := exact Cert.OneHot.Pure.chk_load _ _ 16 (2 * k.val + 2) (lvc_toNat 16#32 16 rfl (by omega)) hro (by omega) (by omega))
  iapply (wp_loadX (F := F) d L _) $$ Hsx'
  iintro %v122 ⟨Hsx', %hv122⟩
  have hc122 : ∀ x : S16.Idx, ((v122 : IVec S16 32) x).toNat = Cert.OneHot.Pure.col X (2 * k.val + 2) (16 + (x 0).val) := fun x => by
    rw [hv122]; exact Cert.OneHot.Pure.loadIdx_col (F := F) X _ _ _ 16 (2 * k.val + 2) (lvc_toNat 16#32 16 rfl (by omega)) hro x
  sl_exec (disch := exact Cert.OneHot.Pure.chk_store _ _ 16 (lvc_toNat 16#32 16 rfl (by omega)) (fun x => by rw [hc122 x]; exact Cert.OneHot.Pure.col_lt hXr _ _) (by omega))
  iapply (wp_store_sB0 (F := F) d L _) $$ Hb0
  iintro %g122 ⟨Hb0, %hg122⟩
  have s122 := Cert.OneHot.Pure.ScatTo.step (f' := g122) 16 s121 (by omega) (by omega) (fun j => by
    rw [hg122]; exact Cert.OneHot.Pure.storeIdx_const (F := F) _ _ _ one _ 16 (Cert.OneHot.Pure.col X (2 * k.val + 2)) (lvc_toNat 16#32 16 rfl (by omega)) hc122 j)
  clear hv122 hg122
  -- tokens 32 .. 47
  sl_exec (disch := exact Cert.OneHot.Pure.chk_load _ _ 32 (2 * k.val + 2) (lvc_toNat 32#32 32 rfl (by omega)) hro (by omega) (by omega))
  iapply (wp_loadX (F := F) d L _) $$ Hsx'
  iintro %v123 ⟨Hsx', %hv123⟩
  have hc123 : ∀ x : S16.Idx, ((v123 : IVec S16 32) x).toNat = Cert.OneHot.Pure.col X (2 * k.val + 2) (32 + (x 0).val) := fun x => by
    rw [hv123]; exact Cert.OneHot.Pure.loadIdx_col (F := F) X _ _ _ 32 (2 * k.val + 2) (lvc_toNat 32#32 32 rfl (by omega)) hro x
  sl_exec (disch := exact Cert.OneHot.Pure.chk_store _ _ 32 (lvc_toNat 32#32 32 rfl (by omega)) (fun x => by rw [hc123 x]; exact Cert.OneHot.Pure.col_lt hXr _ _) (by omega))
  iapply (wp_store_sB0 (F := F) d L _) $$ Hb0
  iintro %g123 ⟨Hb0, %hg123⟩
  have s123 := Cert.OneHot.Pure.ScatTo.step (f' := g123) 32 s122 (by omega) (by omega) (fun j => by
    rw [hg123]; exact Cert.OneHot.Pure.storeIdx_const (F := F) _ _ _ one _ 32 (Cert.OneHot.Pure.col X (2 * k.val + 2)) (lvc_toNat 32#32 32 rfl (by omega)) hc123 j)
  clear hv123 hg123
  -- tokens 48 .. 63
  sl_exec (disch := exact Cert.OneHot.Pure.chk_load _ _ 48 (2 * k.val + 2) (lvc_toNat 48#32 48 rfl (by omega)) hro (by omega) (by omega))
  iapply (wp_loadX (F := F) d L _) $$ Hsx'
  iintro %v124 ⟨Hsx', %hv124⟩
  have hc124 : ∀ x : S16.Idx, ((v124 : IVec S16 32) x).toNat = Cert.OneHot.Pure.col X (2 * k.val + 2) (48 + (x 0).val) := fun x => by
    rw [hv124]; exact Cert.OneHot.Pure.loadIdx_col (F := F) X _ _ _ 48 (2 * k.val + 2) (lvc_toNat 48#32 48 rfl (by omega)) hro x
  sl_exec (disch := exact Cert.OneHot.Pure.chk_store _ _ 48 (lvc_toNat 48#32 48 rfl (by omega)) (fun x => by rw [hc124 x]; exact Cert.OneHot.Pure.col_lt hXr _ _) (by omega))
  iapply (wp_store_sB0 (F := F) d L _) $$ Hb0
  iintro %g124 ⟨Hb0, %hg124⟩
  have s124 := Cert.OneHot.Pure.ScatTo.step (f' := g124) 48 s123 (by omega) (by omega) (fun j => by
    rw [hg124]; exact Cert.OneHot.Pure.storeIdx_const (F := F) _ _ _ one _ 48 (Cert.OneHot.Pure.col X (2 * k.val + 2)) (lvc_toNat 48#32 48 rfl (by omega)) hc124 j)
  clear hv124 hg124
  -- tokens 64 .. 79
  sl_exec (disch := exact Cert.OneHot.Pure.chk_load _ _ 64 (2 * k.val + 2) (lvc_toNat 64#32 64 rfl (by omega)) hro (by omega) (by omega))
  iapply (wp_loadX (F := F) d L _) $$ Hsx'
  iintro %v125 ⟨Hsx', %hv125⟩
  have hc125 : ∀ x : S16.Idx, ((v125 : IVec S16 32) x).toNat = Cert.OneHot.Pure.col X (2 * k.val + 2) (64 + (x 0).val) := fun x => by
    rw [hv125]; exact Cert.OneHot.Pure.loadIdx_col (F := F) X _ _ _ 64 (2 * k.val + 2) (lvc_toNat 64#32 64 rfl (by omega)) hro x
  sl_exec (disch := exact Cert.OneHot.Pure.chk_store _ _ 64 (lvc_toNat 64#32 64 rfl (by omega)) (fun x => by rw [hc125 x]; exact Cert.OneHot.Pure.col_lt hXr _ _) (by omega))
  iapply (wp_store_sB0 (F := F) d L _) $$ Hb0
  iintro %g125 ⟨Hb0, %hg125⟩
  have s125 := Cert.OneHot.Pure.ScatTo.step (f' := g125) 64 s124 (by omega) (by omega) (fun j => by
    rw [hg125]; exact Cert.OneHot.Pure.storeIdx_const (F := F) _ _ _ one _ 64 (Cert.OneHot.Pure.col X (2 * k.val + 2)) (lvc_toNat 64#32 64 rfl (by omega)) hc125 j)
  clear hv125 hg125
  -- tokens 80 .. 95
  sl_exec (disch := exact Cert.OneHot.Pure.chk_load _ _ 80 (2 * k.val + 2) (lvc_toNat 80#32 80 rfl (by omega)) hro (by omega) (by omega))
  iapply (wp_loadX (F := F) d L _) $$ Hsx'
  iintro %v126 ⟨Hsx', %hv126⟩
  have hc126 : ∀ x : S16.Idx, ((v126 : IVec S16 32) x).toNat = Cert.OneHot.Pure.col X (2 * k.val + 2) (80 + (x 0).val) := fun x => by
    rw [hv126]; exact Cert.OneHot.Pure.loadIdx_col (F := F) X _ _ _ 80 (2 * k.val + 2) (lvc_toNat 80#32 80 rfl (by omega)) hro x
  sl_exec (disch := exact Cert.OneHot.Pure.chk_store _ _ 80 (lvc_toNat 80#32 80 rfl (by omega)) (fun x => by rw [hc126 x]; exact Cert.OneHot.Pure.col_lt hXr _ _) (by omega))
  iapply (wp_store_sB0 (F := F) d L _) $$ Hb0
  iintro %g126 ⟨Hb0, %hg126⟩
  have s126 := Cert.OneHot.Pure.ScatTo.step (f' := g126) 80 s125 (by omega) (by omega) (fun j => by
    rw [hg126]; exact Cert.OneHot.Pure.storeIdx_const (F := F) _ _ _ one _ 80 (Cert.OneHot.Pure.col X (2 * k.val + 2)) (lvc_toNat 80#32 80 rfl (by omega)) hc126 j)
  clear hv126 hg126
  -- tokens 96 .. 111
  sl_exec (disch := exact Cert.OneHot.Pure.chk_load _ _ 96 (2 * k.val + 2) (lvc_toNat 96#32 96 rfl (by omega)) hro (by omega) (by omega))
  iapply (wp_loadX (F := F) d L _) $$ Hsx'
  iintro %v127 ⟨Hsx', %hv127⟩
  have hc127 : ∀ x : S16.Idx, ((v127 : IVec S16 32) x).toNat = Cert.OneHot.Pure.col X (2 * k.val + 2) (96 + (x 0).val) := fun x => by
    rw [hv127]; exact Cert.OneHot.Pure.loadIdx_col (F := F) X _ _ _ 96 (2 * k.val + 2) (lvc_toNat 96#32 96 rfl (by omega)) hro x
  sl_exec (disch := exact Cert.OneHot.Pure.chk_store _ _ 96 (lvc_toNat 96#32 96 rfl (by omega)) (fun x => by rw [hc127 x]; exact Cert.OneHot.Pure.col_lt hXr _ _) (by omega))
  iapply (wp_store_sB0 (F := F) d L _) $$ Hb0
  iintro %g127 ⟨Hb0, %hg127⟩
  have s127 := Cert.OneHot.Pure.ScatTo.step (f' := g127) 96 s126 (by omega) (by omega) (fun j => by
    rw [hg127]; exact Cert.OneHot.Pure.storeIdx_const (F := F) _ _ _ one _ 96 (Cert.OneHot.Pure.col X (2 * k.val + 2)) (lvc_toNat 96#32 96 rfl (by omega)) hc127 j)
  clear hv127 hg127
  -- tokens 112 .. 127
  sl_exec (disch := exact Cert.OneHot.Pure.chk_load _ _ 112 (2 * k.val + 2) (lvc_toNat 112#32 112 rfl (by omega)) hro (by omega) (by omega))
  iapply (wp_loadX (F := F) d L _) $$ Hsx'
  iintro %v128 ⟨Hsx', %hv128⟩
  have hc128 : ∀ x : S16.Idx, ((v128 : IVec S16 32) x).toNat = Cert.OneHot.Pure.col X (2 * k.val + 2) (112 + (x 0).val) := fun x => by
    rw [hv128]; exact Cert.OneHot.Pure.loadIdx_col (F := F) X _ _ _ 112 (2 * k.val + 2) (lvc_toNat 112#32 112 rfl (by omega)) hro x
  sl_exec (disch := exact Cert.OneHot.Pure.chk_store _ _ 112 (lvc_toNat 112#32 112 rfl (by omega)) (fun x => by rw [hc128 x]; exact Cert.OneHot.Pure.col_lt hXr _ _) (by omega))
  iapply (wp_store_sB0 (F := F) d L _) $$ Hb0
  iintro %g128 ⟨Hb0, %hg128⟩
  have s128 := Cert.OneHot.Pure.ScatTo.step (f' := g128) 112 s127 (by omega) (by omega) (fun j => by
    rw [hg128]; exact Cert.OneHot.Pure.storeIdx_const (F := F) _ _ _ one _ 112 (Cert.OneHot.Pure.col X (2 * k.val + 2)) (lvc_toNat 112#32 112 rfl (by omega)) hc128 j)
  clear hv128 hg128
  -- tokens 128 .. 143
  sl_exec (disch := exact Cert.OneHot.Pure.chk_load _ _ 128 (2 * k.val + 2) (lvc_toNat 128#32 128 rfl (by omega)) hro (by omega) (by omega))
  iapply (wp_loadX (F := F) d L _) $$ Hsx'
  iintro %v129 ⟨Hsx', %hv129⟩
  have hc129 : ∀ x : S16.Idx, ((v129 : IVec S16 32) x).toNat = Cert.OneHot.Pure.col X (2 * k.val + 2) (128 + (x 0).val) := fun x => by
    rw [hv129]; exact Cert.OneHot.Pure.loadIdx_col (F := F) X _ _ _ 128 (2 * k.val + 2) (lvc_toNat 128#32 128 rfl (by omega)) hro x
  sl_exec (disch := exact Cert.OneHot.Pure.chk_store _ _ 128 (lvc_toNat 128#32 128 rfl (by omega)) (fun x => by rw [hc129 x]; exact Cert.OneHot.Pure.col_lt hXr _ _) (by omega))
  iapply (wp_store_sB0 (F := F) d L _) $$ Hb0
  iintro %g129 ⟨Hb0, %hg129⟩
  have s129 := Cert.OneHot.Pure.ScatTo.step (f' := g129) 128 s128 (by omega) (by omega) (fun j => by
    rw [hg129]; exact Cert.OneHot.Pure.storeIdx_const (F := F) _ _ _ one _ 128 (Cert.OneHot.Pure.col X (2 * k.val + 2)) (lvc_toNat 128#32 128 rfl (by omega)) hc129 j)
  clear hv129 hg129
  -- tokens 144 .. 159
  sl_exec (disch := exact Cert.OneHot.Pure.chk_load _ _ 144 (2 * k.val + 2) (lvc_toNat 144#32 144 rfl (by omega)) hro (by omega) (by omega))
  iapply (wp_loadX (F := F) d L _) $$ Hsx'
  iintro %v130 ⟨Hsx', %hv130⟩
  have hc130 : ∀ x : S16.Idx, ((v130 : IVec S16 32) x).toNat = Cert.OneHot.Pure.col X (2 * k.val + 2) (144 + (x 0).val) := fun x => by
    rw [hv130]; exact Cert.OneHot.Pure.loadIdx_col (F := F) X _ _ _ 144 (2 * k.val + 2) (lvc_toNat 144#32 144 rfl (by omega)) hro x
  sl_exec (disch := exact Cert.OneHot.Pure.chk_store _ _ 144 (lvc_toNat 144#32 144 rfl (by omega)) (fun x => by rw [hc130 x]; exact Cert.OneHot.Pure.col_lt hXr _ _) (by omega))
  iapply (wp_store_sB0 (F := F) d L _) $$ Hb0
  iintro %g130 ⟨Hb0, %hg130⟩
  have s130 := Cert.OneHot.Pure.ScatTo.step (f' := g130) 144 s129 (by omega) (by omega) (fun j => by
    rw [hg130]; exact Cert.OneHot.Pure.storeIdx_const (F := F) _ _ _ one _ 144 (Cert.OneHot.Pure.col X (2 * k.val + 2)) (lvc_toNat 144#32 144 rfl (by omega)) hc130 j)
  clear hv130 hg130
  -- tokens 160 .. 175
  sl_exec (disch := exact Cert.OneHot.Pure.chk_load _ _ 160 (2 * k.val + 2) (lvc_toNat 160#32 160 rfl (by omega)) hro (by omega) (by omega))
  iapply (wp_loadX (F := F) d L _) $$ Hsx'
  iintro %v131 ⟨Hsx', %hv131⟩
  have hc131 : ∀ x : S16.Idx, ((v131 : IVec S16 32) x).toNat = Cert.OneHot.Pure.col X (2 * k.val + 2) (160 + (x 0).val) := fun x => by
    rw [hv131]; exact Cert.OneHot.Pure.loadIdx_col (F := F) X _ _ _ 160 (2 * k.val + 2) (lvc_toNat 160#32 160 rfl (by omega)) hro x
  sl_exec (disch := exact Cert.OneHot.Pure.chk_store _ _ 160 (lvc_toNat 160#32 160 rfl (by omega)) (fun x => by rw [hc131 x]; exact Cert.OneHot.Pure.col_lt hXr _ _) (by omega))
  iapply (wp_store_sB0 (F := F) d L _) $$ Hb0
  iintro %g131 ⟨Hb0, %hg131⟩
  have s131 := Cert.OneHot.Pure.ScatTo.step (f' := g131) 160 s130 (by omega) (by omega) (fun j => by
    rw [hg131]; exact Cert.OneHot.Pure.storeIdx_const (F := F) _ _ _ one _ 160 (Cert.OneHot.Pure.col X (2 * k.val + 2)) (lvc_toNat 160#32 160 rfl (by omega)) hc131 j)
  clear hv131 hg131
  -- tokens 176 .. 191
  sl_exec (disch := exact Cert.OneHot.Pure.chk_load _ _ 176 (2 * k.val + 2) (lvc_toNat 176#32 176 rfl (by omega)) hro (by omega) (by omega))
  iapply (wp_loadX (F := F) d L _) $$ Hsx'
  iintro %v132 ⟨Hsx', %hv132⟩
  have hc132 : ∀ x : S16.Idx, ((v132 : IVec S16 32) x).toNat = Cert.OneHot.Pure.col X (2 * k.val + 2) (176 + (x 0).val) := fun x => by
    rw [hv132]; exact Cert.OneHot.Pure.loadIdx_col (F := F) X _ _ _ 176 (2 * k.val + 2) (lvc_toNat 176#32 176 rfl (by omega)) hro x
  sl_exec (disch := exact Cert.OneHot.Pure.chk_store _ _ 176 (lvc_toNat 176#32 176 rfl (by omega)) (fun x => by rw [hc132 x]; exact Cert.OneHot.Pure.col_lt hXr _ _) (by omega))
  iapply (wp_store_sB0 (F := F) d L _) $$ Hb0
  iintro %g132 ⟨Hb0, %hg132⟩
  have s132 := Cert.OneHot.Pure.ScatTo.step (f' := g132) 176 s131 (by omega) (by omega) (fun j => by
    rw [hg132]; exact Cert.OneHot.Pure.storeIdx_const (F := F) _ _ _ one _ 176 (Cert.OneHot.Pure.col X (2 * k.val + 2)) (lvc_toNat 176#32 176 rfl (by omega)) hc132 j)
  clear hv132 hg132
  -- tokens 184 .. 199
  sl_exec (disch := exact Cert.OneHot.Pure.chk_load _ _ 184 (2 * k.val + 2) (lvc_toNat 184#32 184 rfl (by omega)) hro (by omega) (by omega))
  iapply (wp_loadX (F := F) d L _) $$ Hsx'
  iintro %v133 ⟨Hsx', %hv133⟩
  have hc133 : ∀ x : S16.Idx, ((v133 : IVec S16 32) x).toNat = Cert.OneHot.Pure.col X (2 * k.val + 2) (184 + (x 0).val) := fun x => by
    rw [hv133]; exact Cert.OneHot.Pure.loadIdx_col (F := F) X _ _ _ 184 (2 * k.val + 2) (lvc_toNat 184#32 184 rfl (by omega)) hro x
  sl_exec (disch := exact Cert.OneHot.Pure.chk_store _ _ 184 (lvc_toNat 184#32 184 rfl (by omega)) (fun x => by rw [hc133 x]; exact Cert.OneHot.Pure.col_lt hXr _ _) (by omega))
  iapply (wp_store_sB0 (F := F) d L _) $$ Hb0
  iintro %g133 ⟨Hb0, %hg133⟩
  have s133 := Cert.OneHot.Pure.ScatTo.step (f' := g133) 184 s132 (by omega) (by omega) (fun j => by
    rw [hg133]; exact Cert.OneHot.Pure.storeIdx_const (F := F) _ _ _ one _ 184 (Cert.OneHot.Pure.col X (2 * k.val + 2)) (lvc_toNat 184#32 184 rfl (by omega)) hc133 j)
  clear hv133 hg133
  have hA' : Cert.OneHot.Pure.RowIs (F := F) (Cert.OneHot.Pure.col X (2 * k.val + 2)) g133 := Cert.OneHot.Pure.RowIs.of_zero hzA (Cert.OneHot.Pure.ScatTo.done s133)
  clear o0 s121 s122 s123 s124 s125 s126 s127 s128 s129 s130 s131 s132 s133 hc121 hc122 hc123 hc124 hc125 hc126 hc127 hc128 hc129 hc130 hc131 hc132 hc133
  have hlt2 : 2 * k.val + 2 < 128 := by omega
  have hlt3 : 2 * k.val + 2 + 1 < 128 := by omega
  ihave HrA' := (Entails.of_eq ((congrArg (todoRow m d L) (fr_eq (n := 2 * k.val + 2) hlt2).symm).trans
    (row_todo (F := F) d L (fr (2 * k.val + 2)) (k0_off21 L k) (k0_off21_inb L k) (hoff21 L k) (m (oLoc d))))) $$ HrA
  sl_exec

  have hpayA : Cert.OneHot.Pure.RowIs (F := F) (Cert.OneHot.Pure.col X (fr (2 * k.val + 2)).val) (trip3.sl.dma0 d L g133) := fun j => by
    rw [fr_val hlt2]; exact hA' j
  ihave Hs3 := (Transfers.Flight_mono countersEmb (thr d L) (sep_mono_l (Entails.of_eq (row_landed m d L X hXdef (fr (2 * k.val + 2)) (k0_off21 L k) (k0_off21_inb L k) (hoff21 L k) (m (oLoc d)) (trip3.sl.dma0 d L g133) hpayA)))) $$ Hs3
  -- the copy of row 2 k + 1 has landed: the second row buffer comes back; row 2 k + 1 is cleared out of it
  have hrzB : ∀ x : S16.Idx, (rvc (Scalar.subi (Scalar.addi (bv115 k) 1#32) 2#32) x).toNat = 2 * k.val + 1 := fun x => (rvc_toNat _ x).trans e217
  have zB0 := Cert.OneHot.Pure.ScatTo.zero (F := F) (Cert.OneHot.Pure.col X (2 * k.val + 1)) zero gB

  -- tokens 0 .. 15
  sl_exec (disch := exact Cert.OneHot.Pure.chk_load _ _ 0 (2 * k.val + 1) (lvc_toNat 0#32 0 rfl (by omega)) hrzB (by omega) (by omega))
  iapply (wp_loadX (F := F) d L _) $$ Hsx'
  iintro %v141 ⟨Hsx', %hv141⟩
  have hc141 : ∀ x : S16.Idx, ((v141 : IVec S16 32) x).toNat = Cert.OneHot.Pure.col X (2 * k.val + 1) (0 + (x 0).val) := fun x => by
    rw [hv141]; exact Cert.OneHot.Pure.loadIdx_col (F := F) X _ _ _ 0 (2 * k.val + 1) (lvc_toNat 0#32 0 rfl (by omega)) hrzB x
  sl_exec (disch := exact Cert.OneHot.Pure.chk_store _ _ 0 (lvc_toNat 0#32 0 rfl (by omega)) (fun x => by rw [hc141 x]; exact Cert.OneHot.Pure.col_lt hXr _ _) (by omega))
  iapply (wp_store_sB1 (F := F) d L _) $$ Hb1
  iintro %g141 ⟨Hb1, %hg141⟩
  have s141 := Cert.OneHot.Pure.ScatTo.step (f' := g141) 0 zB0 (by omega) (by omega) (fun j => by
    rw [hg141]; exact Cert.OneHot.Pure.storeIdx_const (F := F) _ _ _ zero _ 0 (Cert.OneHot.Pure.col X (2 * k.val + 1)) (lvc_toNat 0#32 0 rfl (by omega)) hc141 j)
  clear hv141 hg141
  -- tokens 16 .. 31
  sl_exec (disch := exact Cert.OneHot.Pure.chk_load _ _ 16 (2 * k.val + 1) (lvc_toNat 16#32 16 rfl (by omega)) hrzB (by omega) (by omega))
  iapply (wp_loadX (F := F) d L _) $$ Hsx'
  iintro %v142 ⟨Hsx', %hv142⟩
  have hc142 : ∀ x : S16.Idx, ((v142 : IVec S16 32) x).toNat = Cert.OneHot.Pure.col X (2 * k.val + 1) (16 + (x 0).val) := fun x => by
    rw [hv142]; exact Cert.OneHot.Pure.loadIdx_col (F := F) X _ _ _ 16 (2 * k.val + 1) (lvc_toNat 16#32 16 rfl (by omega)) hrzB x
  sl_exec (disch := exact Cert.OneHot.Pure.chk_store _ _ 16 (lvc_toNat 16#32 16 rfl (by omega)) (fun x => by rw [hc142 x]; exact Cert.OneHot.Pure.col_lt hXr _ _) (by omega))
  iapply (wp_store_sB1 (F := F) d L _) $$ Hb1
  iintro %g142 ⟨Hb1, %hg142⟩
  have s142 := Cert.OneHot.Pure.ScatTo.step (f' := g142) 16 s141 (by omega) (by omega) (fun j => by
    rw [hg142]; exact Cert.OneHot.Pure.storeIdx_const (F := F) _ _ _ zero _ 16 (Cert.OneHot.Pure.col X (2 * k.val + 1)) (lvc_toNat 16#32 16 rfl (by omega)) hc142 j)
  clear hv142 hg142
  -- tokens 32 .. 47
  sl_exec (disch := exact Cert.OneHot.Pure.chk_load _ _ 32 (2 * k.val + 1) (lvc_toNat 32#32 32 rfl (by omega)) hrzB (by omega) (by omega))
  iapply (wp_loadX (F := F) d L _) $$ Hsx'
  iintro %v143 ⟨Hsx', %hv143⟩
  have hc143 : ∀ x : S16.Idx, ((v143 : IVec S16 32) x).toNat = Cert.OneHot.Pure.col X (2 * k.val + 1) (32 + (x 0).val) := fun x => by
    rw [hv143]; exact Cert.OneHot.Pure.loadIdx_col (F := F) X _ _ _ 32 (2 * k.val + 1) (lvc_toNat 32#32 32 rfl (by omega)) hrzB x
  sl_exec (disch := exact Cert.OneHot.Pure.chk_store _ _ 32 (lvc_toNat 32#32 32 rfl (by omega)) (fun x => by rw [hc143 x]; exact Cert.OneHot.Pure.col_lt hXr _ _) (by omega))
  iapply (wp_store_sB1 (F := F) d L _) $$ Hb1
  iintro %g143 ⟨Hb1, %hg143⟩
  have s143 := Cert.OneHot.Pure.ScatTo.step (f' := g143) 32 s142 (by omega) (by omega) (fun j => by
    rw [hg143]; exact Cert.OneHot.Pure.storeIdx_const (F := F) _ _ _ zero _ 32 (Cert.OneHot.Pure.col X (2 * k.val + 1)) (lvc_toNat 32#32 32 rfl (by omega)) hc143 j)
  clear hv143 hg143
  -- tokens 48 .. 63
  sl_exec (disch := exact Cert.OneHot.Pure.chk_load _ _ 48 (2 * k.val + 1) (lvc_toNat 48#32 48 rfl (by omega)) hrzB (by omega) (by omega))
  iapply (wp_loadX (F := F) d L _) $$ Hsx'
  iintro %v144 ⟨Hsx', %hv144⟩
  have hc144 : ∀ x : S16.Idx, ((v144 : IVec S16 32) x).toNat = Cert.OneHot.Pure.col X (2 * k.val + 1) (48 + (x 0).val) := fun x => by
    rw [hv144]; exact Cert.OneHot.Pure.loadIdx_col (F := F) X _ _ _ 48 (2 * k.val + 1) (lvc_toNat 48#32 48 rfl (by omega)) hrzB x
  sl_exec (disch := exact Cert.OneHot.Pure.chk_store _ _ 48 (lvc_toNat 48#32 48 rfl (by omega)) (fun x => by rw [hc144 x]; exact Cert.OneHot.Pure.col_lt hXr _ _) (by omega))
  iapply (wp_store_sB1 (F := F) d L _) $$ Hb1
  iintro %g144 ⟨Hb1, %hg144⟩
  have s144 := Cert.OneHot.Pure.ScatTo.step (f' := g144) 48 s143 (by omega) (by omega) (fun j => by
    rw [hg144]; exact Cert.OneHot.Pure.storeIdx_const (F := F) _ _ _ zero _ 48 (Cert.OneHot.Pure.col X (2 * k.val + 1)) (lvc_toNat 48#32 48 rfl (by omega)) hc144 j)
  clear hv144 hg144
  -- tokens 64 .. 79
  sl_exec (disch := exact Cert.OneHot.Pure.chk_load _ _ 64 (2 * k.val + 1) (lvc_toNat 64#32 64 rfl (by omega)) hrzB (by omega) (by omega))
  iapply (wp_loadX (F := F) d L _) $$ Hsx'
  iintro %v145 ⟨Hsx', %hv145⟩
  have hc145 : ∀ x : S16.Idx, ((v145 : IVec S16 32) x).toNat = Cert.OneHot.Pure.col X (2 * k.val + 1) (64 + (x 0).val) := fun x => by
    rw [hv145]; exact Cert.OneHot.Pure.loadIdx_col (F := F) X _ _ _ 64 (2 * k.val + 1) (lvc_toNat 64#32 64 rfl (by omega)) hrzB x
  sl_exec (disch := exact Cert.OneHot.Pure.chk_store _ _ 64 (lvc_toNat 64#32 64 rfl (by omega)) (fun x => by rw [hc145 x]; exact Cert.OneHot.Pure.col_lt hXr _ _) (by omega))
  iapply (wp_store_sB1 (F := F) d L _) $$ Hb1
  iintro %g145 ⟨Hb1, %hg145⟩
  have s145 := Cert.OneHot.Pure.ScatTo.step (f' := g145) 64 s144 (by omega) (by omega) (fun j => by
    rw [hg145]; exact Cert.OneHot.Pure.storeIdx_const (F := F) _ _ _ zero _ 64 (Cert.OneHot.Pure.col X (2 * k.val + 1)) (lvc_toNat 64#32 64 rfl (by omega)) hc145 j)
  clear hv145 hg145
  -- tokens 80 .. 95
  sl_exec (disch := exact Cert.OneHot.Pure.chk_load _ _ 80 (2 * k.val + 1) (lvc_toNat 80#32 80 rfl (by omega)) hrzB (by omega) (by omega))
  iapply (wp_loadX (F := F) d L _) $$ Hsx'
  iintro %v146 ⟨Hsx', %hv146⟩
  have hc146 : ∀ x : S16.Idx, ((v146 : IVec S16 32) x).toNat = Cert.OneHot.Pure.col X (2 * k.val + 1) (80 + (x 0).val) := fun x => by
    rw [hv146]; exact Cert.OneHot.Pure.loadIdx_col (F := F) X _ _ _ 80 (2 * k.val + 1) (lvc_toNat 80#32 80 rfl (by omega)) hrzB x
  sl_exec (disch := exact Cert.OneHot.Pure.chk_store _ _ 80 (lvc_toNat 80#32 80 rfl (by omega)) (fun x => by rw [hc146 x]; exact Cert.OneHot.Pure.col_lt hXr _ _) (by omega))
  iapply (wp_store_sB1 (F := F) d L _) $$ Hb1
  iintro %g146 ⟨Hb1, %hg146⟩
  have s146 := Cert.OneHot.Pure.ScatTo.step (f' := g146) 80 s145 (by omega) (by omega) (fun j => by
    rw [hg146]; exact Cert.OneHot.Pure.storeIdx_const (F := F) _ _ _ zero _ 80 (Cert.OneHot.Pure.col X (2 * k.val + 1)) (lvc_toNat 80#32 80 rfl (by omega)) hc146 j)
  clear hv146 hg146
  -- tokens 96 .. 111
  sl_exec (disch := exact Cert.OneHot.Pure.chk_load _ _ 96 (2 * k.val + 1) (lvc_toNat 96#32 96 rfl (by omega)) hrzB (by omega) (by omega))
  iapply (wp_loadX (F := F) d L _) $$ Hsx'
  iintro %v147 ⟨Hsx', %hv147⟩
  have hc147 : ∀ x : S16.Idx, ((v147 : IVec S16 32) x).toNat = Cert.OneHot.Pure.col X (2 * k.val + 1) (96 + (x 0).val) := fun x => by
    rw [hv147]; exact Cert.OneHot.Pure.loadIdx_col (F := F) X _ _ _ 96 (2 * k.val + 1) (lvc_toNat 96#32 96 rfl (by omega)) hrzB x
  sl_exec (disch := exact Cert.OneHot.Pure.chk_store _ _ 96 (lvc_toNat 96#32 96 rfl (by omega)) (fun x => by rw [hc147 x]; exact Cert.OneHot.Pure.col_lt hXr _ _) (by omega))
  iapply (wp_store_sB1 (F := F) d L _) $$ Hb1
  iintro %g147 ⟨Hb1, %hg147⟩
  have s147 := Cert.OneHot.Pure.ScatTo.step (f' := g147) 96 s146 (by omega) (by omega) (fun j => by
    rw [hg147]; exact Cert.OneHot.Pure.storeIdx_const (F := F) _ _ _ zero _ 96 (Cert.OneHot.Pure.col X (2 * k.val + 1)) (lvc_toNat 96#32 96 rfl (by omega)) hc147 j)
  clear hv147 hg147
  -- tokens 112 .. 127
  sl_exec (disch := exact Cert.OneHot.Pure.chk_load _ _ 112 (2 * k.val + 1) (lvc_toNat 112#32 112 rfl (by omega)) hrzB (by omega) (by omega))
  iapply (wp_loadX (F := F) d L _) $$ Hsx'
  iintro %v148 ⟨Hsx', %hv148⟩
  have hc148 : ∀ x : S16.Idx, ((v148 : IVec S16 32) x).toNat = Cert.OneHot.Pure.col X (2 * k.val + 1) (112 + (x 0).val) := fun x => by
    rw [hv148]; exact Cert.OneHot.Pure.loadIdx_col (F := F) X _ _ _ 112 (2 * k.val + 1) (lvc_toNat 112#32 112 rfl (by omega)) hrzB x
  sl_exec (disch := exact Cert.OneHot.Pure.chk_store _ _ 112 (lvc_toNat 112#32 112 rfl (by omega)) (fun x => by rw [hc148 x]; exact Cert.OneHot.Pure.col_lt hXr _ _) (by omega))
  iapply (wp_store_sB1 (F := F) d L _) $$ Hb1
  iintro %g148 ⟨Hb1, %hg148⟩
  have s148 := Cert.OneHot.Pure.ScatTo.step (f' := g148) 112 s147 (by omega) (by omega) (fun j => by
    rw [hg148]; exact Cert.OneHot.Pure.storeIdx_const (F := F) _ _ _ zero _ 112 (Cert.OneHot.Pure.col X (2 * k.val + 1)) (lvc_toNat 112#32 112 rfl (by omega)) hc148 j)
  clear hv148 hg148
  -- tokens 128 .. 143
  sl_exec (disch := exact Cert.OneHot.Pure.chk_load _ _ 128 (2 * k.val + 1) (lvc_toNat 128#32 128 rfl (by omega)) hrzB (by omega) (by omega))
  iapply (wp_loadX (F := F) d L _) $$ Hsx'
  iintro %v149 ⟨Hsx', %hv149⟩
  have hc149 : ∀ x : S16.Idx, ((v149 : IVec S16 32) x).toNat = Cert.OneHot.Pure.col X (2 * k.val + 1) (128 + (x 0).val) := fun x => by
    rw [hv149]; exact Cert.OneHot.Pure.loadIdx_col (F := F) X _ _ _ 128 (2 * k.val + 1) (lvc_toNat 128#32 128 rfl (by omega)) hrzB x
  sl_exec (disch := exact Cert.OneHot.Pure.chk_store _ _ 128 (lvc_toNat 128#32 128 rfl (by omega)) (fun x => by rw [hc149 x]; exact Cert.OneHot.Pure.col_lt hXr _ _) (by omega))
  iapply (wp_store_sB1 (F := F) d L _) $$ Hb1
  iintro %g149 ⟨Hb1, %hg149⟩
  have s149 := Cert.OneHot.Pure.ScatTo.step (f' := g149) 128 s148 (by omega) (by omega) (fun j => by
    rw [hg149]; exact Cert.OneHot.Pure.storeIdx_const (F := F) _ _ _ zero _ 128 (Cert.OneHot.Pure.col X (2 * k.val + 1)) (lvc_toNat 128#32 128 rfl (by omega)) hc149 j)
  clear hv149 hg149
  -- tokens 144 .. 159
  sl_exec (disch := exact Cert.OneHot.Pure.chk_load _ _ 144 (2 * k.val + 1) (lvc_toNat 144#32 144 rfl (by omega)) hrzB (by omega) (by omega))
  iapply (wp_loadX (F := F) d L _) $$ Hsx'
  iintro %v150 ⟨Hsx', %hv150⟩
  have hc150 : ∀ x : S16.Idx, ((v150 : IVec S16 32) x).toNat = Cert.OneHot.Pure.col X (2 * k.val + 1) (144 + (x 0).val) := fun x => by
    rw [hv150]; exact Cert.OneHot.Pure.loadIdx_col (F := F) X _ _ _ 144 (2 * k.val + 1) (lvc_toNat 144#32 144 rfl (by omega)) hrzB x
  sl_exec (disch := exact Cert.OneHot.Pure.chk_store _ _ 144 (lvc_toNat 144#32 144 rfl (by omega)) (fun x => by rw [hc150 x]; exact Cert.OneHot.Pure.col_lt hXr _ _) (by omega))
  iapply (wp_store_sB1 (F := F) d L _) $$ Hb1
  iintro %g150 ⟨Hb1, %hg150⟩
  have s150 := Cert.OneHot.Pure.ScatTo.step (f' := g150) 144 s149 (by omega) (by omega) (fun j => by
    rw [hg150]; exact Cert.OneHot.Pure.storeIdx_const (F := F) _ _ _ zero _ 144 (Cert.OneHot.Pure.col X (2 * k.val + 1)) (lvc_toNat 144#32 144 rfl (by omega)) hc150 j)
  clear hv150 hg150
  -- tokens 160 .. 175
  sl_exec (disch := exact Cert.OneHot.Pure.chk_load _ _ 160 (2 * k.val + 1) (lvc_toNat 160#32 160 rfl (by omega)) hrzB (by omega) (by omega))
  iapply (wp_loadX (F := F) d L _) $$ Hsx'
  iintro %v151 ⟨Hsx', %hv151⟩
  have hc151 : ∀ x : S16.Idx, ((v151 : IVec S16 32) x).toNat = Cert.OneHot.Pure.col X (2 * k.val + 1) (160 + (x 0).val) := fun x => by
    rw [hv151]; exact Cert.OneHot.Pure.loadIdx_col (F := F) X _ _ _ 160 (2 * k.val + 1) (lvc_toNat 160#32 160 rfl (by omega)) hrzB x
  sl_exec (disch := exact Cert.OneHot.Pure.chk_store _ _ 160 (lvc_toNat 160#32 160 rfl (by omega)) (fun x => by rw [hc151 x]; exact Cert.OneHot.Pure.col_lt hXr _ _) (by omega))
  iapply (wp_store_sB1 (F := F) d L _) $$ Hb1
  iintro %g151 ⟨Hb1, %hg151⟩
  have s151 := Cert.OneHot.Pure.ScatTo.step (f' := g151) 160 s150 (by omega) (by omega) (fun j => by
    rw [hg151]; exact Cert.OneHot.Pure.storeIdx_const (F := F) _ _ _ zero _ 160 (Cert.OneHot.Pure.col X (2 * k.val + 1)) (lvc_toNat 160#32 160 rfl (by omega)) hc151 j)
  clear hv151 hg151
  -- tokens 176 .. 191
  sl_exec (disch := exact Cert.OneHot.Pure.chk_load _ _ 176 (2 * k.val + 1) (lvc_toNat 176#32 176 rfl (by omega)) hrzB (by omega) (by omega))
  iapply (wp_loadX (F := F) d L _) $$ Hsx'
  iintro %v152 ⟨Hsx', %hv152⟩
  have hc152 : ∀ x : S16.Idx, ((v152 : IVec S16 32) x).toNat = Cert.OneHot.Pure.col X (2 * k.val + 1) (176 + (x 0).val) := fun x => by
    rw [hv152]; exact Cert.OneHot.Pure.loadIdx_col (F := F) X _ _ _ 176 (2 * k.val + 1) (lvc_toNat 176#32 176 rfl (by omega)) hrzB x
  sl_exec (disch := exact Cert.OneHot.Pure.chk_store _ _ 176 (lvc_toNat 176#32 176 rfl (by omega)) (fun x => by rw [hc152 x]; exact Cert.OneHot.Pure.col_lt hXr _ _) (by omega))
  iapply (wp_store_sB1 (F := F) d L _) $$ Hb1
  iintro %g152 ⟨Hb1, %hg152⟩
  have s152 := Cert.OneHot.Pure.ScatTo.step (f' := g152) 176 s151 (by omega) (by omega) (fun j => by
    rw [hg152]; exact Cert.OneHot.Pure.storeIdx_const (F := F) _ _ _ zero _ 176 (Cert.OneHot.Pure.col X (2 * k.val + 1)) (lvc_toNat 176#32 176 rfl (by omega)) hc152 j)
  clear hv152 hg152
  -- tokens 184 .. 199
  sl_exec (disch := exact Cert.OneHot.Pure.chk_load _ _ 184 (2 * k.val + 1) (lvc_toNat 184#32 184 rfl (by omega)) hrzB (by omega) (by omega))
  iapply (wp_loadX (F := F) d L _) $$ Hsx'
  iintro %v153 ⟨Hsx', %hv153⟩
  have hc153 : ∀ x : S16.Idx, ((v153 : IVec S16 32) x).toNat = Cert.OneHot.Pure.col X (2 * k.val + 1) (184 + (x 0).val) := fun x => by
    rw [hv153]; exact Cert.OneHot.Pure.loadIdx_col (F := F) X _ _ _ 184 (2 * k.val + 1) (lvc_toNat 184#32 184 rfl (by omega)) hrzB x
  sl_exec (disch := exact Cert.OneHot.Pure.chk_store _ _ 184 (lvc_toNat 184#32 184 rfl (by omega)) (fun x => by rw [hc153 x]; exact Cert.OneHot.Pure.col_lt hXr _ _) (by omega))
  iapply (wp_store_sB1 (F := F) d L _) $$ Hb1
  iintro %g153 ⟨Hb1, %hg153⟩
  have s153 := Cert.OneHot.Pure.ScatTo.step (f' := g153) 184 s152 (by omega) (by omega) (fun j => by
    rw [hg153]; exact Cert.OneHot.Pure.storeIdx_const (F := F) _ _ _ zero _ 184 (Cert.OneHot.Pure.col X (2 * k.val + 1)) (lvc_toNat 184#32 184 rfl (by omega)) hc153 j)
  clear hv153 hg153
  have hzB : ∀ j, g153 j = zero := Cert.OneHot.Pure.RowIs.cleared hB (Cert.OneHot.Pure.ScatTo.done s153)
  clear zB0 s141 s142 s143 s144 s145 s146 s147 s148 s149 s150 s151 s152 s153 hc141 hc142 hc143 hc144 hc145 hc146 hc147 hc148 hc149 hc150 hc151 hc152 hc153
  -- and row 2 k + 3 is encoded into it
  have hroB : ∀ x : S16.Idx, (rvc (Scalar.addi (bv115 k) 1#32) x).toNat = 2 * k.val + 3 := fun x => (rvc_toNat _ x).trans e116
  have oB0 := Cert.OneHot.Pure.ScatTo.zero (F := F) (Cert.OneHot.Pure.col X (2 * k.val + 3)) one g153

  -- tokens 0 .. 15
  sl_exec (disch := exact Cert.OneHot.Pure.chk_load _ _ 0 (2 * k.val + 3) (lvc_toNat 0#32 0 rfl (by omega)) hroB (by omega) (by omega))
  iapply (wp_loadX (F := F) d L _) $$ Hsx'
  iintro %v161 ⟨Hsx', %hv161⟩
  have hc161 : ∀ x : S16.Idx, ((v161 : IVec S16 32) x).toNat = Cert.OneHot.Pure.col X (2 * k.val + 3) (0 + (x 0).val) := fun x => by
    rw [hv161]; exact Cert.OneHot.Pure.loadIdx_col (F := F) X _ _ _ 0 (2 * k.val + 3) (lvc_toNat 0#32 0 rfl (by omega)) hroB x
  sl_exec (disch := exact Cert.OneHot.Pure.chk_store _ _ 0 (lvc_toNat 0#32 0 rfl (by omega)) (fun x => by rw [hc161 x]; exact Cert.OneHot.Pure.col_lt hXr _ _) (by omega))
  iapply (wp_store_sB1 (F := F) d L _) $$ Hb1
  iintro %g161 ⟨Hb1, %hg161⟩
  have s161 := Cert.OneHot.Pure.ScatTo.step (f' := g161) 0 oB0 (by omega) (by omega) (fun j => by
    rw [hg161]; exact Cert.OneHot.Pure.storeIdx_const (F := F) _ _ _ one _ 0 (Cert.OneHot.Pure.col X (2 * k.val + 3)) (lvc_toNat 0#32 0 rfl (by omega)) hc161 j)
  clear hv161 hg161
  -- tokens 16 .. 31
  sl_exec (disch := exact Cert.OneHot.Pure.chk_load _ _ 16 (2 * k.val + 3) (lvc_toNat 16#32 16 rfl (by omega)) hroB (by omega) (by omega))
  iapply (wp_loadX (F := F) d L _) $$ Hsx'
  iintro %v162 ⟨Hsx', %hv162⟩
  have hc162 : ∀ x : S16.Idx, ((v162 : IVec S16 32) x).toNat = Cert.OneHot.Pure.col X (2 * k.val + 3) (16 + (x 0).val) := fun x => by
    rw [hv162]; exact Cert.OneHot.Pure.loadIdx_col (F := F) X _ _ _ 16 (2 * k.val + 3) (lvc_toNat 16#32 16 rfl (by omega)) hroB x
  sl_exec (disch := exact Cert.OneHot.Pure.chk_store _ _ 16 (lvc_toNat 16#32 16 rfl (by omega)) (fun x => by rw [hc162 x]; exact Cert.OneHot.Pure.col_lt hXr _ _) (by omega))
  iapply (wp_store_sB1 (F := F) d L _) $$ Hb1
  iintro %g162 ⟨Hb1, %hg162⟩
  have s162 := Cert.OneHot.Pure.ScatTo.step (f' := g162) 16 s161 (by omega) (by omega) (fun j => by
    rw [hg162]; exact Cert.OneHot.Pure.storeIdx_const (F := F) _ _ _ one _ 16 (Cert.OneHot.Pure.col X (2 * k.val + 3)) (lvc_toNat 16#32 16 rfl (by omega)) hc162 j)
  clear hv162 hg162
  -- tokens 32 .. 47
  sl_exec (disch := exact Cert.OneHot.Pure.chk_load _ _ 32 (2 * k.val + 3) (lvc_toNat 32#32 32 rfl (by omega)) hroB (by omega) (by omega))
  iapply (wp_loadX (F := F) d L _) $$ Hsx'
  iintro %v163 ⟨Hsx', %hv163⟩
  have hc163 : ∀ x : S16.Idx, ((v163 : IVec S16 32) x).toNat = Cert.OneHot.Pure.col X (2 * k.val + 3) (32 + (x 0).val) := fun x => by
    rw [hv163]; exact Cert.OneHot.Pure.loadIdx_col (F := F) X _ _ _ 32 (2 * k.val + 3) (lvc_toNat 32#32 32 rfl (by omega)) hroB x
  sl_exec (disch := exact Cert.OneHot.Pure.chk_store _ _ 32 (lvc_toNat 32#32 32 rfl (by omega)) (fun x => by rw [hc163 x]; exact Cert.OneHot.Pure.col_lt hXr _ _) (by omega))
  iapply (wp_store_sB1 (F := F) d L _) $$ Hb1
  iintro %g163 ⟨Hb1, %hg163⟩
  have s163 := Cert.OneHot.Pure.ScatTo.step (f' := g163) 32 s162 (by omega) (by omega) (fun j => by
    rw [hg163]; exact Cert.OneHot.Pure.storeIdx_const (F := F) _ _ _ one _ 32 (Cert.OneHot.Pure.col X (2 * k.val + 3)) (lvc_toNat 32#32 32 rfl (by omega)) hc163 j)
  clear hv163 hg163
  -- tokens 48 .. 63
  sl_exec (disch := exact Cert.OneHot.Pure.chk_load _ _ 48 (2 * k.val + 3) (lvc_toNat 48#32 48 rfl (by omega)) hroB (by omega) (by omega))
  iapply (wp_loadX (F := F) d L _) $$ Hsx'
  iintro %v164 ⟨Hsx', %hv164⟩
  have hc164 : ∀ x : S16.Idx, ((v164 : IVec S16 32) x).toNat = Cert.OneHot.Pure.col X (2 * k.val + 3) (48 + (x 0).val) := fun x => by
    rw [hv164]; exact Cert.OneHot.Pure.loadIdx_col (F := F) X _ _ _ 48 (2 * k.val + 3) (lvc_toNat 48#32 48 rfl (by omega)) hroB x
  sl_exec (disch := exact Cert.OneHot.Pure.chk_store _ _ 48 (lvc_toNat 48#32 48 rfl (by omega)) (fun x => by rw [hc164 x]; exact Cert.OneHot.Pure.col_lt hXr _ _) (by omega))
  iapply (wp_store_sB1 (F := F) d L _) $$ Hb1
  iintro %g164 ⟨Hb1, %hg164⟩
  have s164 := Cert.OneHot.Pure.ScatTo.step (f' := g164) 48 s163 (by omega) (by omega) (fun j => by
    rw [hg164]; exact Cert.OneHot.Pure.storeIdx_const (F := F) _ _ _ one _ 48 (Cert.OneHot.Pure.col X (2 * k.val + 3)) (lvc_toNat 48#32 48 rfl (by omega)) hc164 j)
  clear hv164 hg164
  -- tokens 64 .. 79
  sl_exec (disch := exact Cert.OneHot.Pure.chk_load _ _ 64 (2 * k.val + 3) (lvc_toNat 64#32 64 rfl (by omega)) hroB (by omega) (by omega))
  iapply (wp_loadX (F := F) d L _) $$ Hsx'
  iintro %v165 ⟨Hsx', %hv165⟩
  have hc165 : ∀ x : S16.Idx, ((v165 : IVec S16 32) x).toNat = Cert.OneHot.Pure.col X (2 * k.val + 3) (64 + (x 0).val) := fun x => by
    rw [hv165]; exact Cert.OneHot.Pure.loadIdx_col (F := F) X _ _ _ 64 (2 * k.val + 3) (lvc_toNat 64#32 64 rfl (by omega)) hroB x
  sl_exec (disch := exact Cert.OneHot.Pure.chk_store _ _ 64 (lvc_toNat 64#32 64 rfl (by omega)) (fun x => by rw [hc165 x]; exact Cert.OneHot.Pure.col_lt hXr _ _) (by omega))
  iapply (wp_store_sB1 (F := F) d L _) $$ Hb1
  iintro %g165 ⟨Hb1, %hg165⟩
  have s165 := Cert.OneHot.Pure.ScatTo.step (f' := g165) 64 s164 (by omega) (by omega) (fun j => by
    rw [hg165]; exact Cert.OneHot.Pure.storeIdx_const (F := F) _ _ _ one _ 64 (Cert.OneHot.Pure.col X (2 * k.val + 3)) (lvc_toNat 64#32 64 rfl (by omega)) hc165 j)
  clear hv165 hg165
  -- tokens 80 .. 95
  sl_exec (disch := exact Cert.OneHot.Pure.chk_load _ _ 80 (2 * k.val + 3) (lvc_toNat 80#32 80 rfl (by omega)) hroB (by omega) (by omega))
  iapply (wp_loadX (F := F) d L _) $$ Hsx'
  iintro %v166 ⟨Hsx', %hv166⟩
  have hc166 : ∀ x : S16.Idx, ((v166 : IVec S16 32) x).toNat = Cert.OneHot.Pure.col X (2 * k.val + 3) (80 + (x 0).val) := fun x => by
    rw [hv166]; exact Cert.OneHot.Pure.loadIdx_col (F := F) X _ _ _ 80 (2 * k.val + 3) (lvc_toNat 80#32 80 rfl (by omega)) hroB x
  sl_exec (disch := exact Cert.OneHot.Pure.chk_store _ _ 80 (lvc_toNat 80#32 80 rfl (by omega)) (fun x => by rw [hc166 x]; exact Cert.OneHot.Pure.col_lt hXr _ _) (by omega))
  iapply (wp_store_sB1 (F := F) d L _) $$ Hb1
  iintro %g166 ⟨Hb1, %hg166⟩
  have s166 := Cert.OneHot.Pure.ScatTo.step (f' := g166) 80 s165 (by omega) (by omega) (fun j => by
    rw [hg166]; exact Cert.OneHot.Pure.storeIdx_const (F := F) _ _ _ one _ 80 (Cert.OneHot.Pure.col X (2 * k.val + 3)) (lvc_toNat 80#32 80 rfl (by omega)) hc166 j)
  clear hv166 hg166
  -- tokens 96 .. 111
  sl_exec (disch := exact Cert.OneHot.Pure.chk_load _ _ 96 (2 * k.val + 3) (lvc_toNat 96#32 96 rfl (by omega)) hroB (by omega) (by omega))
  iapply (wp_loadX (F := F) d L _) $$ Hsx'
  iintro %v167 ⟨Hsx', %hv167⟩
  have hc167 : ∀ x : S16.Idx, ((v167 : IVec S16 32) x).toNat = Cert.OneHot.Pure.col X (2 * k.val + 3) (96 + (x 0).val) := fun x => by
    rw [hv167]; exact Cert.OneHot.Pure.loadIdx_col (F := F) X _ _ _ 96 (2 * k.val + 3) (lvc_toNat 96#32 96 rfl (by omega)) hroB x
  sl_exec (disch := exact Cert.OneHot.Pure.chk_store _ _ 96 (lvc_toNat 96#32 96 rfl (by omega)) (fun x => by rw [hc167 x]; exact Cert.OneHot.Pure.col_lt hXr _ _) (by omega))
  iapply (wp_store_sB1 (F := F) d L _) $$ Hb1
  iintro %g167 ⟨Hb1, %hg167⟩
  have s167 := Cert.OneHot.Pure.ScatTo.step (f' := g167) 96 s166 (by omega) (by omega) (fun j => by
    rw [hg167]; exact Cert.OneHot.Pure.storeIdx_const (F := F) _ _ _ one _ 96 (Cert.OneHot.Pure.col X (2 * k.val + 3)) (lvc_toNat 96#32 96 rfl (by omega)) hc167 j)
  clear hv167 hg167
  -- tokens 112 .. 127
  sl_exec (disch := exact Cert.OneHot.Pure.chk_load _ _ 112 (2 * k.val + 3) (lvc_toNat 112#32 112 rfl (by omega)) hroB (by omega) (by omega))
  iapply (wp_loadX (F := F) d L _) $$ Hsx'
  iintro %v168 ⟨Hsx', %hv168⟩
  have hc168 : ∀ x : S16.Idx, ((v168 : IVec S16 32) x).toNat = Cert.OneHot.Pure.col X (2 * k.val + 3) (112 + (x 0).val) := fun x => by
    rw [hv168]; exact Cert.OneHot.Pure.loadIdx_col (F := F) X _ _ _ 112 (2 * k.val + 3) (lvc_toNat 112#32 112 rfl (by omega)) hroB x
  sl_exec (disch := exact Cert.OneHot.Pure.chk_store _ _ 112 (lvc_toNat 112#32 112 rfl (by omega)) (fun x => by rw [hc168 x]; exact Cert.OneHot.Pure.col_lt hXr _ _) (by omega))
  iapply (wp_store_sB1 (F := F) d L _) $$ Hb1
  iintro %g168 ⟨Hb1, %hg168⟩
  have s168 := Cert.OneHot.Pure.ScatTo.step (f' := g168) 112 s167 (by omega) (by omega) (fun j => by
    rw [hg168]; exact Cert.OneHot.Pure.storeIdx_const (F := F) _ _ _ one _ 112 (Cert.OneHot.Pure.col X (2 * k.val + 3)) (lvc_toNat 112#32 112 rfl (by omega)) hc168 j)
  clear hv168 hg168
  -- tokens 128 .. 143
  sl_exec (disch := exact Cert.OneHot.Pure.chk_load _ _ 128 (2 * k.val + 3) (lvc_toNat 128#32 128 rfl (by omega)) hroB (by omega) (by omega))
  iapply (wp_loadX (F := F) d L _) $$ Hsx'
  iintro %v169 ⟨Hsx', %hv169⟩
  have hc169 : ∀ x : S16.Idx, ((v169 : IVec S16 32) x).toNat = Cert.OneHot.Pure.col X (2 * k.val + 3) (128 + (x 0).val) := fun x => by
    rw [hv169]; exact Cert.OneHot.Pure.loadIdx_col (F := F) X _ _ _ 128 (2 * k.val + 3) (lvc_toNat 128#32 128 rfl (by omega)) hroB x
  sl_exec (disch := exact Cert.OneHot.Pure.chk_store _ _ 128 (lvc_toNat 128#32 128 rfl (by omega)) (fun x => by rw [hc169 x]; exact Cert.OneHot.Pure.col_lt hXr _ _) (by omega))
  iapply (wp_store_sB1 (F := F) d L _) $$ Hb1
  iintro %g169 ⟨Hb1, %hg169⟩
  have s169 := Cert.OneHot.Pure.ScatTo.step (f' := g169) 128 s168 (by omega) (by omega) (fun j => by
    rw [hg169]; exact Cert.OneHot.Pure.storeIdx_const (F := F) _ _ _ one _ 128 (Cert.OneHot.Pure.col X (2 * k.val + 3)) (lvc_toNat 128#32 128 rfl (by omega)) hc169 j)
  clear hv169 hg169
  -- tokens 144 .. 159
  sl_exec (disch := exact Cert.OneHot.Pure.chk_load _ _ 144 (2 * k.val + 3) (lvc_toNat 144#32 144 rfl (by omega)) hroB (by omega) (by omega))
  iapply (wp_loadX (F := F) d L _) $$ Hsx'
  iintro %v170 ⟨Hsx', %hv170⟩
  have hc170 : ∀ x : S16.Idx, ((v170 : IVec S16 32) x).toNat = Cert.OneHot.Pure.col X (2 * k.val + 3) (144 + (x 0).val) := fun x => by
    rw [hv170]; exact Cert.OneHot.Pure.loadIdx_col (F := F) X _ _ _ 144 (2 * k.val + 3) (lvc_toNat 144#32 144 rfl (by omega)) hroB x
  sl_exec (disch := exact Cert.OneHot.Pure.chk_store _ _ 144 (lvc_toNat 144#32 144 rfl (by omega)) (fun x => by rw [hc170 x]; exact Cert.OneHot.Pure.col_lt hXr _ _) (by omega))
  iapply (wp_store_sB1 (F := F) d L _) $$ Hb1
  iintro %g170 ⟨Hb1, %hg170⟩
  have s170 := Cert.OneHot.Pure.ScatTo.step (f' := g170) 144 s169 (by omega) (by omega) (fun j => by
    rw [hg170]; exact Cert.OneHot.Pure.storeIdx_const (F := F) _ _ _ one _ 144 (Cert.OneHot.Pure.col X (2 * k.val + 3)) (lvc_toNat 144#32 144 rfl (by omega)) hc170 j)
  clear hv170 hg170
  -- tokens 160 .. 175
  sl_exec (disch := exact Cert.OneHot.Pure.chk_load _ _ 160 (2 * k.val + 3) (lvc_toNat 160#32 160 rfl (by omega)) hroB (by omega) (by omega))
  iapply (wp_loadX (F := F) d L _) $$ Hsx'
  iintro %v171 ⟨Hsx', %hv171⟩
  have hc171 : ∀ x : S16.Idx, ((v171 : IVec S16 32) x).toNat = Cert.OneHot.Pure.col X (2 * k.val + 3) (160 + (x 0).val) := fun x => by
    rw [hv171]; exact Cert.OneHot.Pure.loadIdx_col (F := F) X _ _ _ 160 (2 * k.val + 3) (lvc_toNat 160#32 160 rfl (by omega)) hroB x
  sl_exec (disch := exact Cert.OneHot.Pure.chk_store _ _ 160 (lvc_toNat 160#32 160 rfl (by omega)) (fun x => by rw [hc171 x]; exact Cert.OneHot.Pure.col_lt hXr _ _) (by omega))
  iapply (wp_store_sB1 (F := F) d L _) $$ Hb1
  iintro %g171 ⟨Hb1, %hg171⟩
  have s171 := Cert.OneHot.Pure.ScatTo.step (f' := g171) 160 s170 (by omega) (by omega) (fun j => by
    rw [hg171]; exact Cert.OneHot.Pure.storeIdx_const (F := F) _ _ _ one _ 160 (Cert.OneHot.Pure.col X (2 * k.val + 3)) (lvc_toNat 160#32 160 rfl (by omega)) hc171 j)
  clear hv171 hg171
  -- tokens 176 .. 191
  sl_exec (disch := exact Cert.OneHot.Pure.chk_load _ _ 176 (2 * k.val + 3) (lvc_toNat 176#32 176 rfl (by omega)) hroB (by omega) (by omega))
  iapply (wp_loadX (F := F) d L _) $$ Hsx'
  iintro %v172 ⟨Hsx', %hv172⟩
  have hc172 : ∀ x : S16.Idx, ((v172 : IVec S16 32) x).toNat = Cert.OneHot.Pure.col X (2 * k.val + 3) (176 + (x 0).val) := fun x => by
    rw [hv172]; exact Cert.OneHot.Pure.loadIdx_col (F := F) X _ _ _ 176 (2 * k.val + 3) (lvc_toNat 176#32 176 rfl (by omega)) hroB x
  sl_exec (disch := exact Cert.OneHot.Pure.chk_store _ _ 176 (lvc_toNat 176#32 176 rfl (by omega)) (fun x => by rw [hc172 x]; exact Cert.OneHot.Pure.col_lt hXr _ _) (by omega))
  iapply (wp_store_sB1 (F := F) d L _) $$ Hb1
  iintro %g172 ⟨Hb1, %hg172⟩
  have s172 := Cert.OneHot.Pure.ScatTo.step (f' := g172) 176 s171 (by omega) (by omega) (fun j => by
    rw [hg172]; exact Cert.OneHot.Pure.storeIdx_const (F := F) _ _ _ one _ 176 (Cert.OneHot.Pure.col X (2 * k.val + 3)) (lvc_toNat 176#32 176 rfl (by omega)) hc172 j)
  clear hv172 hg172
  -- tokens 184 .. 199
  sl_exec (disch := exact Cert.OneHot.Pure.chk_load _ _ 184 (2 * k.val + 3) (lvc_toNat 184#32 184 rfl (by omega)) hroB (by omega) (by omega))
  iapply (wp_loadX (F := F) d L _) $$ Hsx'
  iintro %v173 ⟨Hsx', %hv173⟩
  have hc173 : ∀ x : S16.Idx, ((v173 : IVec S16 32) x).toNat = Cert.OneHot.Pure.col X (2 * k.val + 3) (184 + (x 0).val) := fun x => by
    rw [hv173]; exact Cert.OneHot.Pure.loadIdx_col (F := F) X _ _ _ 184 (2 * k.val + 3) (lvc_toNat 184#32 184 rfl (by omega)) hroB x
  sl_exec (disch := exact Cert.OneHot.Pure.chk_store _ _ 184 (lvc_toNat 184#32 184 rfl (by omega)) (fun x => by rw [hc173 x]; exact Cert.OneHot.Pure.col_lt hXr _ _) (by omega))
  iapply (wp_store_sB1 (F := F) d L _) $$ Hb1
  iintro %g173 ⟨Hb1, %hg173⟩
  have s173 := Cert.OneHot.Pure.ScatTo.step (f' := g173) 184 s172 (by omega) (by omega) (fun j => by
    rw [hg173]; exact Cert.OneHot.Pure.storeIdx_const (F := F) _ _ _ one _ 184 (Cert.OneHot.Pure.col X (2 * k.val + 3)) (lvc_toNat 184#32 184 rfl (by omega)) hc173 j)
  clear hv173 hg173
  have hB' : Cert.OneHot.Pure.RowIs (F := F) (Cert.OneHot.Pure.col X (2 * k.val + 3)) g173 := Cert.OneHot.Pure.RowIs.of_zero hzB (Cert.OneHot.Pure.ScatTo.done s173)
  clear oB0 s161 s162 s163 s164 s165 s166 s167 s168 s169 s170 s171 s172 s173 hc161 hc162 hc163 hc164 hc165 hc166 hc167 hc168 hc169 hc170 hc171 hc172 hc173
  ihave HrB' := (Entails.of_eq ((congrArg (todoRow m d L) (fr_eq (n := 2 * k.val + 3) hlt3).symm).trans
    (row_todo (F := F) d L (fr (2 * k.val + 3)) (k0_off23 L k) (k0_off23_inb L k) (hoff23 L k) (m (oLoc d))))) $$ HrB
  sl_exec

  have hlt3' : 2 * k.val + 3 < 128 := by omega
  have hlt0 : 2 * k.val < 128 := by omega
  have hlt1 : 2 * k.val + 1 < 128 := by omega
  have hpayB : Cert.OneHot.Pure.RowIs (F := F) (Cert.OneHot.Pure.col X (fr (2 * k.val + 3)).val) (trip3.sl.dma0_1 d L g173) := fun j => by
    rw [fr_val hlt3']; exact hB' j
  ihave Hs4 := (Transfers.Flight_mono countersEmb (thr d L) (sep_mono_l (Entails.of_eq (row_landed m d L X hXdef (fr (2 * k.val + 3)) (k0_off23 L k) (k0_off23_inb L k) (hoff23 L k) (m (oLoc d)) (trip3.sl.dma0_1 d L g173) hpayB)))) $$ Hs4
  rw [show 2 * (k.val + 1) = 2 * k.val + 2 from by omega]
  sl_step
  isplitr; · iexact Hmw
  isplitl [Hsx']; · iexact Hsx'
  isplitl [Hs3 Hb0]
  · iexists g133
    isplitr; · ipureintro; exact hA'
    isplitl [Hs3]; · iexact Hs3
    iexact Hb0
  isplitl [Hs4 Hb1]
  · iexists g173
    isplitr; · ipureintro; exact hB'
    isplitl [Hs4]; · iexact Hs4
    iexact Hb1
  isplitl [Hdone Hs3_dst Hs4_dst]
  · ihave Hd1 := (Entails.of_eq (congrArg (doneRow m d L) (fr_eq (n := 2 * k.val) hlt0))) $$ Hs3_dst
    ihave Hd := (Entails.of_eq (bigSep_below_succ (F := F) (doneRow m d L) (2 * k.val) hlt0).symm) $$ [Hdone Hd1]
    · isplitl [Hdone]; · iexact Hdone
      iexact Hd1
    ihave Hd2 := (Entails.of_eq (congrArg (doneRow m d L) (fr_eq (n := 2 * k.val + 1) hlt1))) $$ Hs4_dst
    ihave Hd' := (Entails.of_eq (bigSep_below_succ (F := F) (doneRow m d L) (2 * k.val + 1) hlt1).symm) $$ [Hd Hd2]
    · isplitl [Hd]; · iexact Hd
      iexact Hd2
    iexact Hd'
  isplitl [Htodo]; · iexact Htodo
  iexists (insert (SemLoc.dma cc0_scratch4.sem, (default : HIx 1)) (insert (SemLoc.dma cc0_scratch3.sem, (default : HIx 1)) W')); isplitr
  · ipureintro; intro p hp
    rcases Finset.mem_insert.mp hp with rfl | hp
    · exact .inr rfl
    rcases Finset.mem_insert.mp hp with rfl | hp
    · exact .inr rfl
    · exact hW' p hp
  iexact HO

set_option maxHeartbeats 4000000 in
/-- The task at the place `L`: from the worker's columns of `xt` and its rows of the tiles' array at their launch contents,
    to the same columns and the rows at the one-hot array. -/
theorem tile_body (hF : (K (F := F)).Facts) (hpre : ∀ i, ((xtVal m d : (⟨S200x4096, .i32⟩ : BufTy).Contents (Elt F)) i).toNat < 128) (O : CellTallies nD τ sig (HIx 1)) (W : Waits sig (HIx 1)) (hO : ∀ g, O g none = 0) :
    iprop(levAts (K (F := F)).L (K (F := F)).lev ∗ emp ∗ goRes m d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__onehot_sc L xtV (Memref.isWhole_whole _) oV (Memref.isWhole_whole _)
            sX (Memref.isWhole_whole _) sB0 (Memref.isWhole_whole _) sB1 (Memref.isWhole_whole _) cc0_scratch3 cc0_scratch4 cc0_scoped0)
          fun _ => iprop(tdRes m d (widL L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold goRes
  iintro ⟨#Hlv, -, ⟨Hxt, Ho⟩, ⟨⟨%fx, Hsx⟩, ⟨%f0, Hb0⟩, ⟨%f1, Hb1⟩, Hbufs⟩, ⟨Hs3, Hs4, Hs0, Hsems⟩, HO⟩
  ihave Hrows := (Entails.of_eq (todo_split (F := F) m d L)) $$ Ho
  icases Hrows with ⟨Hr0, Hr1, Htodo⟩
  ihave Hmw := ((K (F := F)).mayWaits_none (thr := V d (cV L) (jV L)) hO) $$ Hlv
  ihave Hxt' := (Entails.of_eq (show ((xtLoc d ↦[colSet (widL L)]{fullShare} xtVal m d : sProp 𝕄)) = ((xtCols L).view.loc (V d (cV L) (jV L)) ↦[(xtCols L).view.set]{fullShare} xtVal m d) from by rw [set_xtCols])) $$ Hxt
  ihave Hsx' := (Entails.of_eq (pts_sX (F := F) d L _).symm) $$ Hsx
  ihave Hb0' := (Entails.of_eq (pts_sB0 (F := F) d L _).symm) $$ Hb0
  ihave Hb1' := (Entails.of_eq (pts_sB1 (F := F) d L _).symm) $$ Hb1
  sl_exec
  have hXdef : ∀ j, (View.write (Elt F) (sX : Memref sig .scVector .vmem S200x128 .i32).view fx (tile_body.sl.dma0 m d L) Finset.univ) j
      = (xtVal m d : (⟨S200x4096, .i32⟩ : BufTy).Contents (Elt F)) ((xtCols L).view.emb j) := by
    intro j
    refine (congrFun (View.write_whole_univ (Val := Elt F) cc0_scratch0 fx (tile_body.sl.dma0 m d L)) j).trans ?_
    unfold tile_body.sl.dma0
    exact (View.read_apply _ _).trans (cast_eq _ _)
  generalize (View.write (Elt F) (sX : Memref sig .scVector .vmem S200x128 .i32).view fx (tile_body.sl.dma0 m d L) Finset.univ) = X at hXdef ⊢
  have hXr : ∀ j, ((X : IVec S200x128 32) j).toNat < 128 := fun j => by rw [hXdef]; exact hpre _
  sl_for (inv1 (F := F) d L) $$ [Hb0']
  case region =>
    intro k _
    unfold inv1
    iintro ⟨%f, %hf, Hb⟩
    sl_exec
    sl_step
    iexists _
    isplitr
    · ipureintro
      exact zero_row_sB0 d L k f hf _ (fun x => rfl) (k0_off2_inb k) (k0_off3_inb k) (k0_off4_inb k) (k0_off5_inb k) (k0_off6_inb k) (k0_off7_inb k) (k0_off8_inb k) (k0_off9_inb k)
    · iexact Hb
  · unfold inv1
    iexists f0
    isplitr
    · ipureintro; intro j hj; exact absurd hj (Nat.not_lt_zero _)
    · iexact Hb0'
  iintro %_ HI
  unfold inv1
  icases HI with ⟨%g0, %hg0, Hb0⟩

  have hr0 : ∀ x : S16.Idx, (rvc 0#32 x).toNat = 0 := fun x => rvc_toNat 0#32 x
  have s0 := Cert.OneHot.Pure.ScatTo.zero (F := F) (Cert.OneHot.Pure.col X 0) one g0

  -- tokens 0 .. 15
  sl_exec (disch := exact Cert.OneHot.Pure.chk_load _ _ 0 (0) (lvc_toNat 0#32 0 rfl (by omega)) hr0 (by omega) (by omega))
  iapply (wp_loadX (F := F) d L _) $$ Hsx'
  iintro %v1 ⟨Hsx', %hv1⟩
  have hc1 : ∀ x : S16.Idx, ((v1 : IVec S16 32) x).toNat = Cert.OneHot.Pure.col X (0) (0 + (x 0).val) := fun x => by
    rw [hv1]; exact Cert.OneHot.Pure.loadIdx_col (F := F) X _ _ _ 0 (0) (lvc_toNat 0#32 0 rfl (by omega)) hr0 x
  sl_exec (disch := exact Cert.OneHot.Pure.chk_store _ _ 0 (lvc_toNat 0#32 0 rfl (by omega)) (fun x => by rw [hc1 x]; exact Cert.OneHot.Pure.col_lt hXr _ _) (by omega))
  iapply (wp_store_sB0 (F := F) d L _) $$ Hb0
  iintro %g1 ⟨Hb0, %hg1⟩
  have s1 := Cert.OneHot.Pure.ScatTo.step (f' := g1) 0 s0 (by omega) (by omega) (fun j => by
    rw [hg1]; exact Cert.OneHot.Pure.storeIdx_const (F := F) _ _ _ one _ 0 (Cert.OneHot.Pure.col X (0)) (lvc_toNat 0#32 0 rfl (by omega)) hc1 j)
  clear hv1 hg1
  -- tokens 16 .. 31
  sl_exec (disch := exact Cert.OneHot.Pure.chk_load _ _ 16 (0) (lvc_toNat 16#32 16 rfl (by omega)) hr0 (by omega) (by omega))
  iapply (wp_loadX (F := F) d L _) $$ Hsx'
  iintro %v2 ⟨Hsx', %hv2⟩
  have hc2 : ∀ x : S16.Idx, ((v2 : IVec S16 32) x).toNat = Cert.OneHot.Pure.col X (0) (16 + (x 0).val) := fun x => by
    rw [hv2]; exact Cert.OneHot.Pure.loadIdx_col (F := F) X _ _ _ 16 (0) (lvc_toNat 16#32 16 rfl (by omega)) hr0 x
  sl_exec (disch := exact Cert.OneHot.Pure.chk_store _ _ 16 (lvc_toNat 16#32 16 rfl (by omega)) (fun x => by rw [hc2 x]; exact Cert.OneHot.Pure.col_lt hXr _ _) (by omega))
  iapply (wp_store_sB0 (F := F) d L _) $$ Hb0
  iintro %g2 ⟨Hb0, %hg2⟩
  have s2 := Cert.OneHot.Pure.ScatTo.step (f' := g2) 16 s1 (by omega) (by omega) (fun j => by
    rw [hg2]; exact Cert.OneHot.Pure.storeIdx_const (F := F) _ _ _ one _ 16 (Cert.OneHot.Pure.col X (0)) (lvc_toNat 16#32 16 rfl (by omega)) hc2 j)
  clear hv2 hg2
  -- tokens 32 .. 47
  sl_exec (disch := exact Cert.OneHot.Pure.chk_load _ _ 32 (0) (lvc_toNat 32#32 32 rfl (by omega)) hr0 (by omega) (by omega))
  iapply (wp_loadX (F := F) d L _) $$ Hsx'
  iintro %v3 ⟨Hsx', %hv3⟩
  have hc3 : ∀ x : S16.Idx, ((v3 : IVec S16 32) x).toNat = Cert.OneHot.Pure.col X (0) (32 + (x 0).val) := fun x => by
    rw [hv3]; exact Cert.OneHot.Pure.loadIdx_col (F := F) X _ _ _ 32 (0) (lvc_toNat 32#32 32 rfl (by omega)) hr0 x
  sl_exec (disch := exact Cert.OneHot.Pure.chk_store _ _ 32 (lvc_toNat 32#32 32 rfl (by omega)) (fun x => by rw [hc3 x]; exact Cert.OneHot.Pure.col_lt hXr _ _) (by omega))
  iapply (wp_store_sB0 (F := F) d L _) $$ Hb0
  iintro %g3 ⟨Hb0, %hg3⟩
  have s3 := Cert.OneHot.Pure.ScatTo.step (f' := g3) 32 s2 (by omega) (by omega) (fun j => by
    rw [hg3]; exact Cert.OneHot.Pure.storeIdx_const (F := F) _ _ _ one _ 32 (Cert.OneHot.Pure.col X (0)) (lvc_toNat 32#32 32 rfl (by omega)) hc3 j)
  clear hv3 hg3
  -- tokens 48 .. 63
  sl_exec (disch := exact Cert.OneHot.Pure.chk_load _ _ 48 (0) (lvc_toNat 48#32 48 rfl (by omega)) hr0 (by omega) (by omega))
  iapply (wp_loadX (F := F) d L _) $$ Hsx'
  iintro %v4 ⟨Hsx', %hv4⟩
  have hc4 : ∀ x : S16.Idx, ((v4 : IVec S16 32) x).toNat = Cert.OneHot.Pure.col X (0) (48 + (x 0).val) := fun x => by
    rw [hv4]; exact Cert.OneHot.Pure.loadIdx_col (F := F) X _ _ _ 48 (0) (lvc_toNat 48#32 48 rfl (by omega)) hr0 x
  sl_exec (disch := exact Cert.OneHot.Pure.chk_store _ _ 48 (lvc_toNat 48#32 48 rfl (by omega)) (fun x => by rw [hc4 x]; exact Cert.OneHot.Pure.col_lt hXr _ _) (by omega))
  iapply (wp_store_sB0 (F := F) d L _) $$ Hb0
  iintro %g4 ⟨Hb0, %hg4⟩
  have s4 := Cert.OneHot.Pure.ScatTo.step (f' := g4) 48 s3 (by omega) (by omega) (fun j => by
    rw [hg4]; exact Cert.OneHot.Pure.storeIdx_const (F := F) _ _ _ one _ 48 (Cert.OneHot.Pure.col X (0)) (lvc_toNat 48#32 48 rfl (by omega)) hc4 j)
  clear hv4 hg4
  -- tokens 64 .. 79
  sl_exec (disch := exact Cert.OneHot.Pure.chk_load _ _ 64 (0) (lvc_toNat 64#32 64 rfl (by omega)) hr0 (by omega) (by omega))
  iapply (wp_loadX (F := F) d L _) $$ Hsx'
  iintro %v5 ⟨Hsx', %hv5⟩
  have hc5 : ∀ x : S16.Idx, ((v5 : IVec S16 32) x).toNat = Cert.OneHot.Pure.col X (0) (64 + (x 0).val) := fun x => by
    rw [hv5]; exact Cert.OneHot.Pure.loadIdx_col (F := F) X _ _ _ 64 (0) (lvc_toNat 64#32 64 rfl (by omega)) hr0 x
  sl_exec (disch := exact Cert.OneHot.Pure.chk_store _ _ 64 (lvc_toNat 64#32 64 rfl (by omega)) (fun x => by rw [hc5 x]; exact Cert.OneHot.Pure.col_lt hXr _ _) (by omega))
  iapply (wp_store_sB0 (F := F) d L _) $$ Hb0
  iintro %g5 ⟨Hb0, %hg5⟩
  have s5 := Cert.OneHot.Pure.ScatTo.step (f' := g5) 64 s4 (by omega) (by omega) (fun j => by
    rw [hg5]; exact Cert.OneHot.Pure.storeIdx_const (F := F) _ _ _ one _ 64 (Cert.OneHot.Pure.col X (0)) (lvc_toNat 64#32 64 rfl (by omega)) hc5 j)
  clear hv5 hg5
  -- tokens 80 .. 95
  sl_exec (disch := exact Cert.OneHot.Pure.chk_load _ _ 80 (0) (lvc_toNat 80#32 80 rfl (by omega)) hr0 (by omega) (by omega))
  iapply (wp_loadX (F := F) d L _) $$ Hsx'
  iintro %v6 ⟨Hsx', %hv6⟩
  have hc6 : ∀ x : S16.Idx, ((v6 : IVec S16 32) x).toNat = Cert.OneHot.Pure.col X (0) (80 + (x 0).val) := fun x => by
    rw [hv6]; exact Cert.OneHot.Pure.loadIdx_col (F := F) X _ _ _ 80 (0) (lvc_toNat 80#32 80 rfl (by omega)) hr0 x
  sl_exec (disch := exact Cert.OneHot.Pure.chk_store _ _ 80 (lvc_toNat 80#32 80 rfl (by omega)) (fun x => by rw [hc6 x]; exact Cert.OneHot.Pure.col_lt hXr _ _) (by omega))
  iapply (wp_store_sB0 (F := F) d L _) $$ Hb0
  iintro %g6 ⟨Hb0, %hg6⟩
  have s6 := Cert.OneHot.Pure.ScatTo.step (f' := g6) 80 s5 (by omega) (by omega) (fun j => by
    rw [hg6]; exact Cert.OneHot.Pure.storeIdx_const (F := F) _ _ _ one _ 80 (Cert.OneHot.Pure.col X (0)) (lvc_toNat 80#32 80 rfl (by omega)) hc6 j)
  clear hv6 hg6
  -- tokens 96 .. 111
  sl_exec (disch := exact Cert.OneHot.Pure.chk_load _ _ 96 (0) (lvc_toNat 96#32 96 rfl (by omega)) hr0 (by omega) (by omega))
  iapply (wp_loadX (F := F) d L _) $$ Hsx'
  iintro %v7 ⟨Hsx', %hv7⟩
  have hc7 : ∀ x : S16.Idx, ((v7 : IVec S16 32) x).toNat = Cert.OneHot.Pure.col X (0) (96 + (x 0).val) := fun x => by
    rw [hv7]; exact Cert.OneHot.Pure.loadIdx_col (F := F) X _ _ _ 96 (0) (lvc_toNat 96#32 96 rfl (by omega)) hr0 x
  sl_exec (disch := exact Cert.OneHot.Pure.chk_store _ _ 96 (lvc_toNat 96#32 96 rfl (by omega)) (fun x => by rw [hc7 x]; exact Cert.OneHot.Pure.col_lt hXr _ _) (by omega))
  iapply (wp_store_sB0 (F := F) d L _) $$ Hb0
  iintro %g7 ⟨Hb0, %hg7⟩
  have s7 := Cert.OneHot.Pure.ScatTo.step (f' := g7) 96 s6 (by omega) (by omega) (fun j => by
    rw [hg7]; exact Cert.OneHot.Pure.storeIdx_const (F := F) _ _ _ one _ 96 (Cert.OneHot.Pure.col X (0)) (lvc_toNat 96#32 96 rfl (by omega)) hc7 j)
  clear hv7 hg7
  -- tokens 112 .. 127
  sl_exec (disch := exact Cert.OneHot.Pure.chk_load _ _ 112 (0) (lvc_toNat 112#32 112 rfl (by omega)) hr0 (by omega) (by omega))
  iapply (wp_loadX (F := F) d L _) $$ Hsx'
  iintro %v8 ⟨Hsx', %hv8⟩
  have hc8 : ∀ x : S16.Idx, ((v8 : IVec S16 32) x).toNat = Cert.OneHot.Pure.col X (0) (112 + (x 0).val) := fun x => by
    rw [hv8]; exact Cert.OneHot.Pure.loadIdx_col (F := F) X _ _ _ 112 (0) (lvc_toNat 112#32 112 rfl (by omega)) hr0 x
  sl_exec (disch := exact Cert.OneHot.Pure.chk_store _ _ 112 (lvc_toNat 112#32 112 rfl (by omega)) (fun x => by rw [hc8 x]; exact Cert.OneHot.Pure.col_lt hXr _ _) (by omega))
  iapply (wp_store_sB0 (F := F) d L _) $$ Hb0
  iintro %g8 ⟨Hb0, %hg8⟩
  have s8 := Cert.OneHot.Pure.ScatTo.step (f' := g8) 112 s7 (by omega) (by omega) (fun j => by
    rw [hg8]; exact Cert.OneHot.Pure.storeIdx_const (F := F) _ _ _ one _ 112 (Cert.OneHot.Pure.col X (0)) (lvc_toNat 112#32 112 rfl (by omega)) hc8 j)
  clear hv8 hg8
  -- tokens 128 .. 143
  sl_exec (disch := exact Cert.OneHot.Pure.chk_load _ _ 128 (0) (lvc_toNat 128#32 128 rfl (by omega)) hr0 (by omega) (by omega))
  iapply (wp_loadX (F := F) d L _) $$ Hsx'
  iintro %v9 ⟨Hsx', %hv9⟩
  have hc9 : ∀ x : S16.Idx, ((v9 : IVec S16 32) x).toNat = Cert.OneHot.Pure.col X (0) (128 + (x 0).val) := fun x => by
    rw [hv9]; exact Cert.OneHot.Pure.loadIdx_col (F := F) X _ _ _ 128 (0) (lvc_toNat 128#32 128 rfl (by omega)) hr0 x
  sl_exec (disch := exact Cert.OneHot.Pure.chk_store _ _ 128 (lvc_toNat 128#32 128 rfl (by omega)) (fun x => by rw [hc9 x]; exact Cert.OneHot.Pure.col_lt hXr _ _) (by omega))
  iapply (wp_store_sB0 (F := F) d L _) $$ Hb0
  iintro %g9 ⟨Hb0, %hg9⟩
  have s9 := Cert.OneHot.Pure.ScatTo.step (f' := g9) 128 s8 (by omega) (by omega) (fun j => by
    rw [hg9]; exact Cert.OneHot.Pure.storeIdx_const (F := F) _ _ _ one _ 128 (Cert.OneHot.Pure.col X (0)) (lvc_toNat 128#32 128 rfl (by omega)) hc9 j)
  clear hv9 hg9
  -- tokens 144 .. 159
  sl_exec (disch := exact Cert.OneHot.Pure.chk_load _ _ 144 (0) (lvc_toNat 144#32 144 rfl (by omega)) hr0 (by omega) (by omega))
  iapply (wp_loadX (F := F) d L _) $$ Hsx'
  iintro %v10 ⟨Hsx', %hv10⟩
  have hc10 : ∀ x : S16.Idx, ((v10 : IVec S16 32) x).toNat = Cert.OneHot.Pure.col X (0) (144 + (x 0).val) := fun x => by
    rw [hv10]; exact Cert.OneHot.Pure.loadIdx_col (F := F) X _ _ _ 144 (0) (lvc_toNat 144#32 144 rfl (by omega)) hr0 x
  sl_exec (disch := exact Cert.OneHot.Pure.chk_store _ _ 144 (lvc_toNat 144#32 144 rfl (by omega)) (fun x => by rw [hc10 x]; exact Cert.OneHot.Pure.col_lt hXr _ _) (by omega))
  iapply (wp_store_sB0 (F := F) d L _) $$ Hb0
  iintro %g10 ⟨Hb0, %hg10⟩
  have s10 := Cert.OneHot.Pure.ScatTo.step (f' := g10) 144 s9 (by omega) (by omega) (fun j => by
    rw [hg10]; exact Cert.OneHot.Pure.storeIdx_const (F := F) _ _ _ one _ 144 (Cert.OneHot.Pure.col X (0)) (lvc_toNat 144#32 144 rfl (by omega)) hc10 j)
  clear hv10 hg10
  -- tokens 160 .. 175
  sl_exec (disch := exact Cert.OneHot.Pure.chk_load _ _ 160 (0) (lvc_toNat 160#32 160 rfl (by omega)) hr0 (by omega) (by omega))
  iapply (wp_loadX (F := F) d L _) $$ Hsx'
  iintro %v11 ⟨Hsx', %hv11⟩
  have hc11 : ∀ x : S16.Idx, ((v11 : IVec S16 32) x).toNat = Cert.OneHot.Pure.col X (0) (160 + (x 0).val) := fun x => by
    rw [hv11]; exact Cert.OneHot.Pure.loadIdx_col (F := F) X _ _ _ 160 (0) (lvc_toNat 160#32 160 rfl (by omega)) hr0 x
  sl_exec (disch := exact Cert.OneHot.Pure.chk_store _ _ 160 (lvc_toNat 160#32 160 rfl (by omega)) (fun x => by rw [hc11 x]; exact Cert.OneHot.Pure.col_lt hXr _ _) (by omega))
  iapply (wp_store_sB0 (F := F) d L _) $$ Hb0
  iintro %g11 ⟨Hb0, %hg11⟩
  have s11 := Cert.OneHot.Pure.ScatTo.step (f' := g11) 160 s10 (by omega) (by omega) (fun j => by
    rw [hg11]; exact Cert.OneHot.Pure.storeIdx_const (F := F) _ _ _ one _ 160 (Cert.OneHot.Pure.col X (0)) (lvc_toNat 160#32 160 rfl (by omega)) hc11 j)
  clear hv11 hg11
  -- tokens 176 .. 191
  sl_exec (disch := exact Cert.OneHot.Pure.chk_load _ _ 176 (0) (lvc_toNat 176#32 176 rfl (by omega)) hr0 (by omega) (by omega))
  iapply (wp_loadX (F := F) d L _) $$ Hsx'
  iintro %v12 ⟨Hsx', %hv12⟩
  have hc12 : ∀ x : S16.Idx, ((v12 : IVec S16 32) x).toNat = Cert.OneHot.Pure.col X (0) (176 + (x 0).val) := fun x => by
    rw [hv12]; exact Cert.OneHot.Pure.loadIdx_col (F := F) X _ _ _ 176 (0) (lvc_toNat 176#32 176 rfl (by omega)) hr0 x
  sl_exec (disch := exact Cert.OneHot.Pure.chk_store _ _ 176 (lvc_toNat 176#32 176 rfl (by omega)) (fun x => by rw [hc12 x]; exact Cert.OneHot.Pure.col_lt hXr _ _) (by omega))
  iapply (wp_store_sB0 (F := F) d L _) $$ Hb0
  iintro %g12 ⟨Hb0, %hg12⟩
  have s12 := Cert.OneHot.Pure.ScatTo.step (f' := g12) 176 s11 (by omega) (by omega) (fun j => by
    rw [hg12]; exact Cert.OneHot.Pure.storeIdx_const (F := F) _ _ _ one _ 176 (Cert.OneHot.Pure.col X (0)) (lvc_toNat 176#32 176 rfl (by omega)) hc12 j)
  clear hv12 hg12
  -- tokens 184 .. 199
  sl_exec (disch := exact Cert.OneHot.Pure.chk_load _ _ 184 (0) (lvc_toNat 184#32 184 rfl (by omega)) hr0 (by omega) (by omega))
  iapply (wp_loadX (F := F) d L _) $$ Hsx'
  iintro %v13 ⟨Hsx', %hv13⟩
  have hc13 : ∀ x : S16.Idx, ((v13 : IVec S16 32) x).toNat = Cert.OneHot.Pure.col X (0) (184 + (x 0).val) := fun x => by
    rw [hv13]; exact Cert.OneHot.Pure.loadIdx_col (F := F) X _ _ _ 184 (0) (lvc_toNat 184#32 184 rfl (by omega)) hr0 x
  sl_exec (disch := exact Cert.OneHot.Pure.chk_store _ _ 184 (lvc_toNat 184#32 184 rfl (by omega)) (fun x => by rw [hc13 x]; exact Cert.OneHot.Pure.col_lt hXr _ _) (by omega))
  iapply (wp_store_sB0 (F := F) d L _) $$ Hb0
  iintro %g13 ⟨Hb0, %hg13⟩
  have s13 := Cert.OneHot.Pure.ScatTo.step (f' := g13) 184 s12 (by omega) (by omega) (fun j => by
    rw [hg13]; exact Cert.OneHot.Pure.storeIdx_const (F := F) _ _ _ one _ 184 (Cert.OneHot.Pure.col X (0)) (lvc_toNat 184#32 184 rfl (by omega)) hc13 j)
  clear hv13 hg13
  have htr1 : Scf.trips k0_t1_loop.lb k0_t1_loop.ub k0_t1_loop.st = 200 := by decide
  have hrow0 : Cert.OneHot.Pure.RowIs (F := F) (Cert.OneHot.Pure.col X r0.val) g13 :=
    Cert.OneHot.Pure.RowIs.of_zero (base := g0) (fun j => hg0 j (by have hj : (j 0).val < 200 := (j 0).isLt; omega)) (Cert.OneHot.Pure.ScatTo.done s13)
  ihave Hr0' := (Entails.of_eq (row_todo (F := F) d L r0 (k0_off10 L) (k0_off10_inb L) (hoff10 L) (m (oLoc d)))) $$ Hr0
  sl_exec
  have hpay0 : Cert.OneHot.Pure.RowIs (F := F) (Cert.OneHot.Pure.col X r0.val) (tile_body.sl.dma0_1 d L g13) := fun j => hrow0 j
  ihave Hs3 := (Transfers.Flight_mono countersEmb (thr d L) (sep_mono_l (Entails.of_eq (row_landed m d L X hXdef r0 (k0_off10 L) (k0_off10_inb L) (hoff10 L) (m (oLoc d)) (tile_body.sl.dma0_1 d L g13) hpay0)))) $$ Hs3
  clear s0 s1 s2 s3 s4 s5 s6 s7 s8 s9 s10 s11 s12 hc1 hc2 hc3 hc4 hc5 hc6 hc7 hc8 hc9 hc10 hc11 hc12 hc13
  -- the second row buffer is cleared
  sl_for (inv2 (F := F) d L) $$ [Hb1']
  case region =>
    intro k _
    unfold inv2
    iintro ⟨%f, %hf, Hb⟩
    sl_exec
    sl_step
    iexists _
    isplitr
    · ipureintro
      exact zero_row_sB1 d L k f hf _ (fun x => rfl) (k0_off11_inb k) (k0_off12_inb k) (k0_off13_inb k) (k0_off14_inb k) (k0_off15_inb k) (k0_off16_inb k) (k0_off17_inb k) (k0_off18_inb k)
    · iexact Hb
  · unfold inv2
    iexists f1
    isplitr
    · ipureintro; intro j hj; exact absurd hj (Nat.not_lt_zero _)
    · iexact Hb1'
  iintro %_ HI
  unfold inv2
  icases HI with ⟨%h0, %hh0, Hb1⟩
  have htr2 : Scf.trips k0_t2_loop.lb k0_t2_loop.ub k0_t2_loop.st = 200 := by decide

  have hr1 : ∀ x : S16.Idx, (rvc 1#32 x).toNat = 1 := fun x => rvc_toNat 1#32 x
  have t0 := Cert.OneHot.Pure.ScatTo.zero (F := F) (Cert.OneHot.Pure.col X 1) one h0

  -- tokens 0 .. 15
  sl_exec (disch := exact Cert.OneHot.Pure.chk_load _ _ 0 (1) (lvc_toNat 0#32 0 rfl (by omega)) hr1 (by omega) (by omega))
  iapply (wp_loadX (F := F) d L _) $$ Hsx'
  iintro %v21 ⟨Hsx', %hv21⟩
  have hc21 : ∀ x : S16.Idx, ((v21 : IVec S16 32) x).toNat = Cert.OneHot.Pure.col X (1) (0 + (x 0).val) := fun x => by
    rw [hv21]; exact Cert.OneHot.Pure.loadIdx_col (F := F) X _ _ _ 0 (1) (lvc_toNat 0#32 0 rfl (by omega)) hr1 x
  sl_exec (disch := exact Cert.OneHot.Pure.chk_store _ _ 0 (lvc_toNat 0#32 0 rfl (by omega)) (fun x => by rw [hc21 x]; exact Cert.OneHot.Pure.col_lt hXr _ _) (by omega))
  iapply (wp_store_sB1 (F := F) d L _) $$ Hb1
  iintro %g21 ⟨Hb1, %hg21⟩
  have s21 := Cert.OneHot.Pure.ScatTo.step (f' := g21) 0 t0 (by omega) (by omega) (fun j => by
    rw [hg21]; exact Cert.OneHot.Pure.storeIdx_const (F := F) _ _ _ one _ 0 (Cert.OneHot.Pure.col X (1)) (lvc_toNat 0#32 0 rfl (by omega)) hc21 j)
  clear hv21 hg21
  -- tokens 16 .. 31
  sl_exec (disch := exact Cert.OneHot.Pure.chk_load _ _ 16 (1) (lvc_toNat 16#32 16 rfl (by omega)) hr1 (by omega) (by omega))
  iapply (wp_loadX (F := F) d L _) $$ Hsx'
  iintro %v22 ⟨Hsx', %hv22⟩
  have hc22 : ∀ x : S16.Idx, ((v22 : IVec S16 32) x).toNat = Cert.OneHot.Pure.col X (1) (16 + (x 0).val) := fun x => by
    rw [hv22]; exact Cert.OneHot.Pure.loadIdx_col (F := F) X _ _ _ 16 (1) (lvc_toNat 16#32 16 rfl (by omega)) hr1 x
  sl_exec (disch := exact Cert.OneHot.Pure.chk_store _ _ 16 (lvc_toNat 16#32 16 rfl (by omega)) (fun x => by rw [hc22 x]; exact Cert.OneHot.Pure.col_lt hXr _ _) (by omega))
  iapply (wp_store_sB1 (F := F) d L _) $$ Hb1
  iintro %g22 ⟨Hb1, %hg22⟩
  have s22 := Cert.OneHot.Pure.ScatTo.step (f' := g22) 16 s21 (by omega) (by omega) (fun j => by
    rw [hg22]; exact Cert.OneHot.Pure.storeIdx_const (F := F) _ _ _ one _ 16 (Cert.OneHot.Pure.col X (1)) (lvc_toNat 16#32 16 rfl (by omega)) hc22 j)
  clear hv22 hg22
  -- tokens 32 .. 47
  sl_exec (disch := exact Cert.OneHot.Pure.chk_load _ _ 32 (1) (lvc_toNat 32#32 32 rfl (by omega)) hr1 (by omega) (by omega))
  iapply (wp_loadX (F := F) d L _) $$ Hsx'
  iintro %v23 ⟨Hsx', %hv23⟩
  have hc23 : ∀ x : S16.Idx, ((v23 : IVec S16 32) x).toNat = Cert.OneHot.Pure.col X (1) (32 + (x 0).val) := fun x => by
    rw [hv23]; exact Cert.OneHot.Pure.loadIdx_col (F := F) X _ _ _ 32 (1) (lvc_toNat 32#32 32 rfl (by omega)) hr1 x
  sl_exec (disch := exact Cert.OneHot.Pure.chk_store _ _ 32 (lvc_toNat 32#32 32 rfl (by omega)) (fun x => by rw [hc23 x]; exact Cert.OneHot.Pure.col_lt hXr _ _) (by omega))
  iapply (wp_store_sB1 (F := F) d L _) $$ Hb1
  iintro %g23 ⟨Hb1, %hg23⟩
  have s23 := Cert.OneHot.Pure.ScatTo.step (f' := g23) 32 s22 (by omega) (by omega) (fun j => by
    rw [hg23]; exact Cert.OneHot.Pure.storeIdx_const (F := F) _ _ _ one _ 32 (Cert.OneHot.Pure.col X (1)) (lvc_toNat 32#32 32 rfl (by omega)) hc23 j)
  clear hv23 hg23
  -- tokens 48 .. 63
  sl_exec (disch := exact Cert.OneHot.Pure.chk_load _ _ 48 (1) (lvc_toNat 48#32 48 rfl (by omega)) hr1 (by omega) (by omega))
  iapply (wp_loadX (F := F) d L _) $$ Hsx'
  iintro %v24 ⟨Hsx', %hv24⟩
  have hc24 : ∀ x : S16.Idx, ((v24 : IVec S16 32) x).toNat = Cert.OneHot.Pure.col X (1) (48 + (x 0).val) := fun x => by
    rw [hv24]; exact Cert.OneHot.Pure.loadIdx_col (F := F) X _ _ _ 48 (1) (lvc_toNat 48#32 48 rfl (by omega)) hr1 x
  sl_exec (disch := exact Cert.OneHot.Pure.chk_store _ _ 48 (lvc_toNat 48#32 48 rfl (by omega)) (fun x => by rw [hc24 x]; exact Cert.OneHot.Pure.col_lt hXr _ _) (by omega))
  iapply (wp_store_sB1 (F := F) d L _) $$ Hb1
  iintro %g24 ⟨Hb1, %hg24⟩
  have s24 := Cert.OneHot.Pure.ScatTo.step (f' := g24) 48 s23 (by omega) (by omega) (fun j => by
    rw [hg24]; exact Cert.OneHot.Pure.storeIdx_const (F := F) _ _ _ one _ 48 (Cert.OneHot.Pure.col X (1)) (lvc_toNat 48#32 48 rfl (by omega)) hc24 j)
  clear hv24 hg24
  -- tokens 64 .. 79
  sl_exec (disch := exact Cert.OneHot.Pure.chk_load _ _ 64 (1) (lvc_toNat 64#32 64 rfl (by omega)) hr1 (by omega) (by omega))
  iapply (wp_loadX (F := F) d L _) $$ Hsx'
  iintro %v25 ⟨Hsx', %hv25⟩
  have hc25 : ∀ x : S16.Idx, ((v25 : IVec S16 32) x).toNat = Cert.OneHot.Pure.col X (1) (64 + (x 0).val) := fun x => by
    rw [hv25]; exact Cert.OneHot.Pure.loadIdx_col (F := F) X _ _ _ 64 (1) (lvc_toNat 64#32 64 rfl (by omega)) hr1 x
  sl_exec (disch := exact Cert.OneHot.Pure.chk_store _ _ 64 (lvc_toNat 64#32 64 rfl (by omega)) (fun x => by rw [hc25 x]; exact Cert.OneHot.Pure.col_lt hXr _ _) (by omega))
  iapply (wp_store_sB1 (F := F) d L _) $$ Hb1
  iintro %g25 ⟨Hb1, %hg25⟩
  have s25 := Cert.OneHot.Pure.ScatTo.step (f' := g25) 64 s24 (by omega) (by omega) (fun j => by
    rw [hg25]; exact Cert.OneHot.Pure.storeIdx_const (F := F) _ _ _ one _ 64 (Cert.OneHot.Pure.col X (1)) (lvc_toNat 64#32 64 rfl (by omega)) hc25 j)
  clear hv25 hg25
  -- tokens 80 .. 95
  sl_exec (disch := exact Cert.OneHot.Pure.chk_load _ _ 80 (1) (lvc_toNat 80#32 80 rfl (by omega)) hr1 (by omega) (by omega))
  iapply (wp_loadX (F := F) d L _) $$ Hsx'
  iintro %v26 ⟨Hsx', %hv26⟩
  have hc26 : ∀ x : S16.Idx, ((v26 : IVec S16 32) x).toNat = Cert.OneHot.Pure.col X (1) (80 + (x 0).val) := fun x => by
    rw [hv26]; exact Cert.OneHot.Pure.loadIdx_col (F := F) X _ _ _ 80 (1) (lvc_toNat 80#32 80 rfl (by omega)) hr1 x
  sl_exec (disch := exact Cert.OneHot.Pure.chk_store _ _ 80 (lvc_toNat 80#32 80 rfl (by omega)) (fun x => by rw [hc26 x]; exact Cert.OneHot.Pure.col_lt hXr _ _) (by omega))
  iapply (wp_store_sB1 (F := F) d L _) $$ Hb1
  iintro %g26 ⟨Hb1, %hg26⟩
  have s26 := Cert.OneHot.Pure.ScatTo.step (f' := g26) 80 s25 (by omega) (by omega) (fun j => by
    rw [hg26]; exact Cert.OneHot.Pure.storeIdx_const (F := F) _ _ _ one _ 80 (Cert.OneHot.Pure.col X (1)) (lvc_toNat 80#32 80 rfl (by omega)) hc26 j)
  clear hv26 hg26
  -- tokens 96 .. 111
  sl_exec (disch := exact Cert.OneHot.Pure.chk_load _ _ 96 (1) (lvc_toNat 96#32 96 rfl (by omega)) hr1 (by omega) (by omega))
  iapply (wp_loadX (F := F) d L _) $$ Hsx'
  iintro %v27 ⟨Hsx', %hv27⟩
  have hc27 : ∀ x : S16.Idx, ((v27 : IVec S16 32) x).toNat = Cert.OneHot.Pure.col X (1) (96 + (x 0).val) := fun x => by
    rw [hv27]; exact Cert.OneHot.Pure.loadIdx_col (F := F) X _ _ _ 96 (1) (lvc_toNat 96#32 96 rfl (by omega)) hr1 x
  sl_exec (disch := exact Cert.OneHot.Pure.chk_store _ _ 96 (lvc_toNat 96#32 96 rfl (by omega)) (fun x => by rw [hc27 x]; exact Cert.OneHot.Pure.col_lt hXr _ _) (by omega))
  iapply (wp_store_sB1 (F := F) d L _) $$ Hb1
  iintro %g27 ⟨Hb1, %hg27⟩
  have s27 := Cert.OneHot.Pure.ScatTo.step (f' := g27) 96 s26 (by omega) (by omega) (fun j => by
    rw [hg27]; exact Cert.OneHot.Pure.storeIdx_const (F := F) _ _ _ one _ 96 (Cert.OneHot.Pure.col X (1)) (lvc_toNat 96#32 96 rfl (by omega)) hc27 j)
  clear hv27 hg27
  -- tokens 112 .. 127
  sl_exec (disch := exact Cert.OneHot.Pure.chk_load _ _ 112 (1) (lvc_toNat 112#32 112 rfl (by omega)) hr1 (by omega) (by omega))
  iapply (wp_loadX (F := F) d L _) $$ Hsx'
  iintro %v28 ⟨Hsx', %hv28⟩
  have hc28 : ∀ x : S16.Idx, ((v28 : IVec S16 32) x).toNat = Cert.OneHot.Pure.col X (1) (112 + (x 0).val) := fun x => by
    rw [hv28]; exact Cert.OneHot.Pure.loadIdx_col (F := F) X _ _ _ 112 (1) (lvc_toNat 112#32 112 rfl (by omega)) hr1 x
  sl_exec (disch := exact Cert.OneHot.Pure.chk_store _ _ 112 (lvc_toNat 112#32 112 rfl (by omega)) (fun x => by rw [hc28 x]; exact Cert.OneHot.Pure.col_lt hXr _ _) (by omega))
  iapply (wp_store_sB1 (F := F) d L _) $$ Hb1
  iintro %g28 ⟨Hb1, %hg28⟩
  have s28 := Cert.OneHot.Pure.ScatTo.step (f' := g28) 112 s27 (by omega) (by omega) (fun j => by
    rw [hg28]; exact Cert.OneHot.Pure.storeIdx_const (F := F) _ _ _ one _ 112 (Cert.OneHot.Pure.col X (1)) (lvc_toNat 112#32 112 rfl (by omega)) hc28 j)
  clear hv28 hg28
  -- tokens 128 .. 143
  sl_exec (disch := exact Cert.OneHot.Pure.chk_load _ _ 128 (1) (lvc_toNat 128#32 128 rfl (by omega)) hr1 (by omega) (by omega))
  iapply (wp_loadX (F := F) d L _) $$ Hsx'
  iintro %v29 ⟨Hsx', %hv29⟩
  have hc29 : ∀ x : S16.Idx, ((v29 : IVec S16 32) x).toNat = Cert.OneHot.Pure.col X (1) (128 + (x 0).val) := fun x => by
    rw [hv29]; exact Cert.OneHot.Pure.loadIdx_col (F := F) X _ _ _ 128 (1) (lvc_toNat 128#32 128 rfl (by omega)) hr1 x
  sl_exec (disch := exact Cert.OneHot.Pure.chk_store _ _ 128 (lvc_toNat 128#32 128 rfl (by omega)) (fun x => by rw [hc29 x]; exact Cert.OneHot.Pure.col_lt hXr _ _) (by omega))
  iapply (wp_store_sB1 (F := F) d L _) $$ Hb1
  iintro %g29 ⟨Hb1, %hg29⟩
  have s29 := Cert.OneHot.Pure.ScatTo.step (f' := g29) 128 s28 (by omega) (by omega) (fun j => by
    rw [hg29]; exact Cert.OneHot.Pure.storeIdx_const (F := F) _ _ _ one _ 128 (Cert.OneHot.Pure.col X (1)) (lvc_toNat 128#32 128 rfl (by omega)) hc29 j)
  clear hv29 hg29
  -- tokens 144 .. 159
  sl_exec (disch := exact Cert.OneHot.Pure.chk_load _ _ 144 (1) (lvc_toNat 144#32 144 rfl (by omega)) hr1 (by omega) (by omega))
  iapply (wp_loadX (F := F) d L _) $$ Hsx'
  iintro %v30 ⟨Hsx', %hv30⟩
  have hc30 : ∀ x : S16.Idx, ((v30 : IVec S16 32) x).toNat = Cert.OneHot.Pure.col X (1) (144 + (x 0).val) := fun x => by
    rw [hv30]; exact Cert.OneHot.Pure.loadIdx_col (F := F) X _ _ _ 144 (1) (lvc_toNat 144#32 144 rfl (by omega)) hr1 x
  sl_exec (disch := exact Cert.OneHot.Pure.chk_store _ _ 144 (lvc_toNat 144#32 144 rfl (by omega)) (fun x => by rw [hc30 x]; exact Cert.OneHot.Pure.col_lt hXr _ _) (by omega))
  iapply (wp_store_sB1 (F := F) d L _) $$ Hb1
  iintro %g30 ⟨Hb1, %hg30⟩
  have s30 := Cert.OneHot.Pure.ScatTo.step (f' := g30) 144 s29 (by omega) (by omega) (fun j => by
    rw [hg30]; exact Cert.OneHot.Pure.storeIdx_const (F := F) _ _ _ one _ 144 (Cert.OneHot.Pure.col X (1)) (lvc_toNat 144#32 144 rfl (by omega)) hc30 j)
  clear hv30 hg30
  -- tokens 160 .. 175
  sl_exec (disch := exact Cert.OneHot.Pure.chk_load _ _ 160 (1) (lvc_toNat 160#32 160 rfl (by omega)) hr1 (by omega) (by omega))
  iapply (wp_loadX (F := F) d L _) $$ Hsx'
  iintro %v31 ⟨Hsx', %hv31⟩
  have hc31 : ∀ x : S16.Idx, ((v31 : IVec S16 32) x).toNat = Cert.OneHot.Pure.col X (1) (160 + (x 0).val) := fun x => by
    rw [hv31]; exact Cert.OneHot.Pure.loadIdx_col (F := F) X _ _ _ 160 (1) (lvc_toNat 160#32 160 rfl (by omega)) hr1 x
  sl_exec (disch := exact Cert.OneHot.Pure.chk_store _ _ 160 (lvc_toNat 160#32 160 rfl (by omega)) (fun x => by rw [hc31 x]; exact Cert.OneHot.Pure.col_lt hXr _ _) (by omega))
  iapply (wp_store_sB1 (F := F) d L _) $$ Hb1
  iintro %g31 ⟨Hb1, %hg31⟩
  have s31 := Cert.OneHot.Pure.ScatTo.step (f' := g31) 160 s30 (by omega) (by omega) (fun j => by
    rw [hg31]; exact Cert.OneHot.Pure.storeIdx_const (F := F) _ _ _ one _ 160 (Cert.OneHot.Pure.col X (1)) (lvc_toNat 160#32 160 rfl (by omega)) hc31 j)
  clear hv31 hg31
  -- tokens 176 .. 191
  sl_exec (disch := exact Cert.OneHot.Pure.chk_load _ _ 176 (1) (lvc_toNat 176#32 176 rfl (by omega)) hr1 (by omega) (by omega))
  iapply (wp_loadX (F := F) d L _) $$ Hsx'
  iintro %v32 ⟨Hsx', %hv32⟩
  have hc32 : ∀ x : S16.Idx, ((v32 : IVec S16 32) x).toNat = Cert.OneHot.Pure.col X (1) (176 + (x 0).val) := fun x => by
    rw [hv32]; exact Cert.OneHot.Pure.loadIdx_col (F := F) X _ _ _ 176 (1) (lvc_toNat 176#32 176 rfl (by omega)) hr1 x
  sl_exec (disch := exact Cert.OneHot.Pure.chk_store _ _ 176 (lvc_toNat 176#32 176 rfl (by omega)) (fun x => by rw [hc32 x]; exact Cert.OneHot.Pure.col_lt hXr _ _) (by omega))
  iapply (wp_store_sB1 (F := F) d L _) $$ Hb1
  iintro %g32 ⟨Hb1, %hg32⟩
  have s32 := Cert.OneHot.Pure.ScatTo.step (f' := g32) 176 s31 (by omega) (by omega) (fun j => by
    rw [hg32]; exact Cert.OneHot.Pure.storeIdx_const (F := F) _ _ _ one _ 176 (Cert.OneHot.Pure.col X (1)) (lvc_toNat 176#32 176 rfl (by omega)) hc32 j)
  clear hv32 hg32
  -- tokens 184 .. 199
  sl_exec (disch := exact Cert.OneHot.Pure.chk_load _ _ 184 (1) (lvc_toNat 184#32 184 rfl (by omega)) hr1 (by omega) (by omega))
  iapply (wp_loadX (F := F) d L _) $$ Hsx'
  iintro %v33 ⟨Hsx', %hv33⟩
  have hc33 : ∀ x : S16.Idx, ((v33 : IVec S16 32) x).toNat = Cert.OneHot.Pure.col X (1) (184 + (x 0).val) := fun x => by
    rw [hv33]; exact Cert.OneHot.Pure.loadIdx_col (F := F) X _ _ _ 184 (1) (lvc_toNat 184#32 184 rfl (by omega)) hr1 x
  sl_exec (disch := exact Cert.OneHot.Pure.chk_store _ _ 184 (lvc_toNat 184#32 184 rfl (by omega)) (fun x => by rw [hc33 x]; exact Cert.OneHot.Pure.col_lt hXr _ _) (by omega))
  iapply (wp_store_sB1 (F := F) d L _) $$ Hb1
  iintro %g33 ⟨Hb1, %hg33⟩
  have s33 := Cert.OneHot.Pure.ScatTo.step (f' := g33) 184 s32 (by omega) (by omega) (fun j => by
    rw [hg33]; exact Cert.OneHot.Pure.storeIdx_const (F := F) _ _ _ one _ 184 (Cert.OneHot.Pure.col X (1)) (lvc_toNat 184#32 184 rfl (by omega)) hc33 j)
  clear hv33 hg33
  have hrow1 : Cert.OneHot.Pure.RowIs (F := F) (Cert.OneHot.Pure.col X r1.val) g33 :=
    Cert.OneHot.Pure.RowIs.of_zero (base := h0) (fun j => hh0 j (by have hj : (j 0).val < 200 := (j 0).isLt; omega)) (Cert.OneHot.Pure.ScatTo.done s33)
  ihave Hr1' := (Entails.of_eq (row_todo (F := F) d L r1 (k0_off19 L) (k0_off19_inb L) (hoff19 L) (m (oLoc d)))) $$ Hr1
  sl_exec
  have hpay1 : Cert.OneHot.Pure.RowIs (F := F) (Cert.OneHot.Pure.col X r1.val) (tile_body.sl.dma0_2 d L g33) := fun j => hrow1 j
  ihave Hs4 := (Transfers.Flight_mono countersEmb (thr d L) (sep_mono_l (Entails.of_eq (row_landed m d L X hXdef r1 (k0_off19 L) (k0_off19_inb L) (hoff19 L) (m (oLoc d)) (tile_body.sl.dma0_2 d L g33) hpay1)))) $$ Hs4
  -- the main loop
  sl_for (inv3 (F := F) m d L X O (insert (SemLoc.dma cc0_scoped0.sem, (default : HIx 1)) W)) $$ [Hmw Hsx' Hs3 Hb0 Hs4 Hb1 Htodo HO]
  case region =>
    intro k acc
    exact trip3 m d L O X hXdef hXr hO _ (tile_body.sl.v2 L) k acc
  · unfold inv3 flightOf
    isplitr; · iexact Hmw
    isplitl [Hsx']; · iexact Hsx'
    isplitl [Hs3 Hb0]
    · iexists g13
      isplitr; · ipureintro; exact hrow0
      isplitl [Hs3]; · iexact Hs3
      iexact Hb0
    isplitl [Hs4 Hb1]
    · iexists g33
      isplitr; · ipureintro; exact hrow1
      isplitl [Hs4]; · iexact Hs4
      iexact Hb1
    isplitr; · rw [show (2 * 0 : ℕ) = 0 from rfl, bigSep_below_zero (F := F) (doneRow m d L)]; iempintro
    isplitl [Htodo]; · iexact Htodo
    iexists (insert (SemLoc.dma cc0_scoped0.sem, (default : HIx 1)) W); isplitr
    · ipureintro; exact fun p hp => .inl hp
    iexact HO
  iintro %_ HI

  have htr3 : Scf.trips k0_t3_loop.lb k0_t3_loop.ub k0_t3_loop.st = 63 := by decide
  unfold inv3 flightOf
  rw [htr3]
  icases HI with ⟨-, Hsx', ⟨%gA, %hA, Hs3, Hb0⟩, ⟨%gB, %hB, Hs4, Hb1⟩, Hdone, Htodo, %W', %hW', HO⟩
  -- the last two copies land
  sl_exec
  sl_step
  have h126 : 2 * 63 < 128 := by omega
  have h127 : 2 * 63 + 1 < 128 := by omega
  isplitl [Hxt' Hdone Hs3_dst Hs4_dst]
  · unfold tdRes
    isplitl [Hxt']
    · iapply (Entails.of_eq (show ((xtCols L).view.loc (V d (cV L) (jV L)) ↦[(xtCols L).view.set]{fullShare} xtVal m d : sProp 𝕄) = (xtLoc d ↦[colSet (widL L)]{fullShare} xtVal m d) from by rw [set_xtCols]))
      iexact Hxt'
    · ihave Hd1 := (Entails.of_eq (congrArg (doneRow m d L) (fr_eq (n := 2 * 63) h126))) $$ Hs3_dst
      ihave Hd := (Entails.of_eq (bigSep_below_succ (F := F) (doneRow m d L) (2 * 63) h126).symm) $$ [Hdone Hd1]
      · isplitl [Hdone]; · iexact Hdone
        iexact Hd1
      ihave Hd2 := (Entails.of_eq (congrArg (doneRow m d L) (fr_eq (n := 2 * 63 + 1) h127))) $$ Hs4_dst
      ihave Hd' := (Entails.of_eq (bigSep_below_succ (F := F) (doneRow m d L) (2 * 63 + 1) h127).symm) $$ [Hd Hd2]
      · isplitl [Hd]; · iexact Hd
        iexact Hd2
      ihave Hall := (Entails.of_eq ((show bigSep (Finset.univ.filter fun r : Fin 128 => r.val < 2 * 63 + 1 + 1) (doneRow (F := F) m d L)
          = bigSep (Finset.univ.filter fun r : Fin 128 => r.val < 128) (doneRow (F := F) m d L) from rfl).trans
        ((bigSep_below_all (F := F) (doneRow m d L)).trans (oRows_split (F := F) d (widL L) (outVal m d)).symm))) $$ Hd'
      iexact Hall
  isplitl [Hsx' Hb0 Hb1 Hbufs]
  · isplitl [Hsx']; · iexists _; iexact Hsx'
    isplitl [Hb0]; · iexists _; iexact Hb0
    isplitl [Hb1]; · iexists _; iexact Hb1
    iexact Hbufs
  isplitl [Hs3 Hs4 Hs0 Hsems]
  · isplitl [Hs3]; · iexact Hs3
    isplitl [Hs4]; · iexact Hs4
    isplitl [Hs0]; · iexact Hs0
    iexact Hsems
  iexists (insert (SemLoc.dma cc0_scratch4.sem, (default : HIx 1)) (insert (SemLoc.dma cc0_scratch3.sem, (default : HIx 1)) W')); isplitr
  · ipureintro; intro p hp
    rcases Finset.mem_insert.mp hp with rfl | hp
    · exact .inr rfl
    rcases Finset.mem_insert.mp hp with rfl | hp
    · exact .inr rfl
    rcases hW' p hp with h | h
    · rcases Finset.mem_insert.mp h with rfl | h
      · exact .inr rfl
      · exact .inl h
    · exact .inr h
  iexact HO

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__onehot_sc (coordsV c s)
          xtV (Memref.isWhole_whole _) oV (Memref.isWhole_whole _) sX (Memref.isWhole_whole _) sB0 (Memref.isWhole_whole _) sB1 (Memref.isWhole_whole _)
          cc0_scratch3 cc0_scratch4 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What the proof asks of the launch memory: every class number of the transposed table is below 128. -/
def PreOK : Prop := ∀ (d : Dev nD) i, ((xtVal m d : (⟨S200x4096, .i32⟩ : BufTy).Contents (Elt F)) i).toNat < 128

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF (hpre d) O W hO).trans (wp_mono frame _ _ fun _ => obl_post)

end Cert.Proof.KI

end
-- ==== Proof.LaunchI.lean ====
/-
  The launch of the one-hot program: how the sparse cores' operands split among the 32 workers and join again,
  the host's two transposes around the call, and the run of the whole family of threads from the workers' obligation.
-/
import proofs.«212721_g4020089389465_cont_8to1_b_1189_16_alg».proof.Proof.CommonI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## What the call carries, as equations -/

theorem P_st (d : Dev nD) (c : Fin ((K (F := F)).nCore 0)) :
    (P (F := F) m).st 0 d c = bigSep Finset.univ fun s : Fin 16 => goRes m d (wid (Fin.cast nCore_zero c) s) := rfl
theorem P_dn (d : Dev nD) (c : Fin ((K (F := F)).nCore 0)) :
    (P (F := F) m).dn 0 d c = bigSep Finset.univ fun s : Fin 16 => tdRes m d (wid (Fin.cast nCore_zero c) s) := rfl
theorem P_go (d : Dev nD) (c : Fin ((K (F := F)).nCore 0)) (i : Fin ((K (F := F)).nSub 0)) :
    (P (F := F) m).go 0 d c i = goRes m d (wid (Fin.cast nCore_zero c) (Fin.cast nSub_zero i)) := rfl
theorem P_td (d : Dev nD) (c : Fin ((K (F := F)).nCore 0)) (i : Fin ((K (F := F)).nSub 0)) :
    (P (F := F) m).td 0 d c i = tdRes m d (wid (Fin.cast nCore_zero c) (Fin.cast nSub_zero i)) := rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A sparse core's operands are its sixteen workers' parts, and so are its results. -/
theorem vecSplit : (K (F := F)).VecSplit' (P m) 0 := by
  intro d c
  simp only [P_st, P_dn, P_go, P_td]
  rw [bigSep_tasks (F := F) (fun s => goRes m d (wid (Fin.cast nCore_zero c) s)),
    bigSep_tasks (F := F) (fun s => tdRes m d (wid (Fin.cast nCore_zero c) s))]
  iintro H; imodintro
  isplitl [H]; · iexact H
  iintro H; iexact H

/-! ## The launch element: the handshakes' rounds; the transfers' counters are not used -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = iprop(emp) from by
    show (bigSep Finset.univ fun _ : Thread nD τ => bigSep Finset.univ fun _ : Fin 1 => (iprop(emp) : sProp 𝕄)) = iprop(emp)
    rw [bigSep_congr fun _ _ => bigSep_emp' _, bigSep_emp']]
  iempintro

/-! ## The arrays split among the 32 workers -/

omit [FloatOps F] in
theorem colSet_eq (w : Fin 32) : colSet w = (colRect w).set := by
  show ((View.whole (main_v0_scv : Ref sig .scVector)).slice (colRect w)).set = _
  rw [View.set_slice]; exact Finset.map_refl
omit [FloatOps F] in
theorem rowSet_eq (w : Fin 32) : rowSet w = (rowRect w).set := by
  show ((View.whole (main_v1_scv : Ref sig .scVector)).slice (rowRect w)).set = _
  rw [View.set_slice]; exact Finset.map_refl
omit [FloatOps F] in
theorem cols_disjoint : ∀ i ∈ (Finset.univ : Finset (Fin 32)), ∀ j ∈ (Finset.univ : Finset (Fin 32)), i ≠ j → Disjoint (colSet i) (colSet j) :=
  fun i _ j _ h => by rw [colSet_eq, colSet_eq]; exact Rect.part_disjoint hdivX h
omit [FloatOps F] in
theorem rows_disjoint : ∀ i ∈ (Finset.univ : Finset (Fin 32)), ∀ j ∈ (Finset.univ : Finset (Fin 32)), i ≠ j → Disjoint (rowSet i) (rowSet j) :=
  fun i _ j _ h => by rw [rowSet_eq, rowSet_eq]; exact Rect.part_disjoint hdivO h
omit [FloatOps F] in
theorem cols_cover : (Finset.univ : Finset (Fin 32)).biUnion colSet = Finset.univ :=
  (Finset.biUnion_congr rfl fun i _ => colSet_eq i).trans (Rect.biUnion_part hdivX)
omit [FloatOps F] in
theorem rows_cover : (Finset.univ : Finset (Fin 32)).biUnion rowSet = Finset.univ :=
  (Finset.biUnion_congr rfl fun i _ => rowSet_eq i).trans (Rect.biUnion_part hdivO)

omit [FloatOps F] in
/-- `xt` whole is the 32 workers' columns of it. -/
theorem xt_cols (d : Dev nD) (f : Buf (Elt F) (xtLoc d)) :
    (xtLoc d ↦{fullShare} f : sProp 𝕄) = bigSep Finset.univ fun w : Fin 32 => xtLoc d ↦[colSet w]{fullShare} f := by
  rw [← pointsTo_biUnion Finset.univ (ℓ := xtLoc d) colSet cols_disjoint, cols_cover]; try rfl
omit [FloatOps F] in
/-- The tiles' array whole is the 32 workers' rows of it. -/
theorem o_rows (d : Dev nD) (f : Buf (Elt F) (oLoc d)) :
    (oLoc d ↦{fullShare} f : sProp 𝕄) = bigSep Finset.univ fun w : Fin 32 => oLoc d ↦[rowSet w]{fullShare} f := by
  rw [← pointsTo_biUnion Finset.univ (ℓ := oLoc d) rowSet rows_disjoint, rows_cover]; try rfl

/-- Worker `2 s + c` is subcore `s` of sparse core `c`: the workers are the pairs. -/
def widEquiv : Fin 2 × Fin 16 ≃ Fin 32 where
  toFun p := wid p.1 p.2
  invFun w := (⟨w.val % 2, Nat.mod_lt _ (by decide)⟩, ⟨w.val / 2, by omega⟩)
  left_inv p := by
    rcases p with ⟨c, s⟩
    refine Prod.ext (Fin.ext ?_) (Fin.ext ?_)
    · show (2 * s.val + c.val) % 2 = c.val; omega
    · show (2 * s.val + c.val) / 2 = s.val; omega
  right_inv w := by
    refine Fin.ext ?_
    show 2 * (w.val / 2) + w.val % 2 = w.val; omega

omit [FloatOps F] in
/-- Something of every worker is, per sparse core, something of each of its sixteen subcores. -/
theorem bigSep_workers (Φ : Fin 32 → sProp 𝕄) :
    bigSep Finset.univ Φ
      = bigSep Finset.univ fun c : Fin ((K (F := F)).nCore 0) => bigSep Finset.univ fun s : Fin 16 => Φ (wid (Fin.cast nCore_zero c) s) := by
  rw [BI.bigSep_univ_equiv widEquiv Φ, BI.bigSep_univ_prod]
  exact bigSep_congr fun _ _ => rfl

/-- What the call takes: `xt` at the transposed table and the tiles' array, whole. -/
theorem st0_eq (d : Dev nD) :
    (bigSep Finset.univ fun c : Fin ((K (F := F)).nCore 0) => (P m).st 0 d c)
      = iprop((xtLoc d ↦{fullShare} xtVal m d) ∗ (oLoc d ↦{fullShare} m (oLoc d))) := by
  simp only [P_st]
  rw [← bigSep_workers (F := F) (fun w => goRes m d w)]
  unfold goRes
  rw [bigSep_sep', ← xt_cols, ← o_rows]
/-- What it brings back: `xt` unchanged, the tiles' array at the one-hot array. -/
theorem dn0_eq (d : Dev nD) :
    (bigSep Finset.univ fun c : Fin ((K (F := F)).nCore 0) => (P m).dn 0 d c)
      = iprop((xtLoc d ↦{fullShare} xtVal m d) ∗ (oLoc d ↦{fullShare} outVal m d)) := by
  simp only [P_dn]
  rw [← bigSep_workers (F := F) (fun w => tdRes m d w)]
  unfold tdRes
  rw [bigSep_sep', ← xt_cols, ← o_rows]

/-! ## The host's two transposes -/

abbrev a' : DevRef τ sig := Proc.devRef .tc (main_arg0 : Ref sig .tc)
abbrev xt' : DevRef τ sig := Proc.devRef .tc (main_v0 : Ref sig .tc)
abbrev o' : DevRef τ sig := Proc.devRef .tc (main_v1 : Ref sig .tc)
abbrev r' : DevRef τ sig := Proc.devRef .tc (main_v2 : Ref sig .tc)

abbrev opX : HloOp τ sig (Elt F) :=
  StableHlo.unary main_arg0 main_v0 ((transpose S200x4096 [1, 0] · transposes_S4096x200_S200x4096_1_0) : (⟨S4096x200, .i32⟩ : BufTy).Contents (Elt F) → (⟨S200x4096, .i32⟩ : BufTy).Contents (Elt F))
abbrev opR : HloOp τ sig (Elt F) :=
  StableHlo.unary main_v1 main_v2 ((transpose S4096x128x200 [0, 2, 1] · transposes_S4096x200x128_S4096x128x200_0_2_1) : (⟨S4096x200x128, .f32⟩ : BufTy).Contents (Elt F) → (⟨S4096x128x200, .f32⟩ : BufTy).Contents (Elt F))

/-- The TensorCore's arrays, all unscoped: `x`, `xt`, the tiles' array, the result. -/
abbrev S4 : Finset (DevRef τ sig) := {a', xt', o', r'}

omit [FloatOps F] in
theorem held_S4 (d : Dev nD) (W : Valuation τ sig (Elt F)) :
    (held (T d) S4 W : sProp 𝕄)
      = iprop((aLoc d ↦{fullShare} W a') ∗ (xtLoc d ↦{fullShare} W xt') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (xtLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The launch valuation; and the one after the call: `xt` at the transposed table, the tiles' array at the one-hot array. -/
def V0 (d : Dev nD) : Valuation τ sig (Elt F) := fun b => m (d, b)
def V1 (d : Dev nD) : Valuation τ sig (Elt F) := Function.update (Function.update (V0 m d) xt' (xtVal m d)) o' (outVal m d)

omit [FloatOps F] in
theorem unscoped_held (d : Dev nD) : (unscopedBufs d (fun b => m ((SparseCore.T d).loc b)) : sProp 𝕄) = held (T d) S4 (V0 m d) := by
  rw [unscopedBufs_eq, held_S4]; rfl

theorem V1_a (d : Dev nD) : V1 m d a' = m (aLoc d) :=
  (Function.update_of_ne (show a' ≠ o' by decide) _ _).trans (Function.update_of_ne (show a' ≠ xt' by decide) _ _)
theorem V1_xt (d : Dev nD) : V1 m d xt' = xtVal m d :=
  (Function.update_of_ne (show xt' ≠ o' by decide) _ _).trans (Function.update_self _ _ _)
theorem V1_o (d : Dev nD) : V1 m d o' = outVal m d := Function.update_self _ _ _
theorem V1_r (d : Dev nD) : V1 m d r' = m (rLoc d) :=
  (Function.update_of_ne (show r' ≠ o' by decide) _ _).trans (Function.update_of_ne (show r' ≠ xt' by decide) _ _)

theorem hopX : (opX (F := F)).bufs ⊆ S4 := show ({a', xt'} : Finset (DevRef τ sig)) ⊆ S4 by decide
theorem hopR : (opR (F := F)).bufs ⊆ S4 := show ({o', r'} : Finset (DevRef τ sig)) ⊆ S4 by decide

/-- After the first transpose: `xt` at the transposed table, the rest as launched. -/
theorem held_X (d : Dev nD) :
    (held (T d) S4 ((opX (F := F)).result (V0 m d)) : sProp 𝕄)
      = iprop((aLoc d ↦{fullShare} m (aLoc d)) ∗ (xtLoc d ↦{fullShare} xtVal m d) ∗ (oLoc d ↦{fullShare} m (oLoc d)) ∗ rLoc d ↦{fullShare} m (rLoc d)) := by
  rw [held_S4,
    (opX (F := F)).result_of_not_mem (V0 m d) (b := Proc.devRef .tc (main_arg0 : Ref sig .tc)) (show Proc.devRef .tc (main_arg0 : Ref sig .tc) ∉ ({xt'} : Finset (DevRef τ sig)) by decide),
    (opX (F := F)).result_of_not_mem (V0 m d) (b := Proc.devRef .tc (main_v1 : Ref sig .tc)) (show Proc.devRef .tc (main_v1 : Ref sig .tc) ∉ ({xt'} : Finset (DevRef τ sig)) by decide),
    (opX (F := F)).result_of_not_mem (V0 m d) (b := Proc.devRef .tc (main_v2 : Ref sig .tc)) (show Proc.devRef .tc (main_v2 : Ref sig .tc) ∉ ({xt'} : Finset (DevRef τ sig)) by decide),
    (opX (F := F)).result_of_mem (V0 m d) (b := xt') (Finset.mem_singleton_self _)]
  rfl

/-- After the second: the result at the one-hot array's transpose. -/
theorem held_R (d : Dev nD) :
    (held (T d) S4 ((opR (F := F)).result (V1 m d)) : sProp 𝕄)
      = iprop((aLoc d ↦{fullShare} m (aLoc d)) ∗ (xtLoc d ↦{fullShare} xtVal m d) ∗ (oLoc d ↦{fullShare} outVal m d) ∗ rLoc d ↦{fullShare} resVal m d) := by
  rw [held_S4,
    (opR (F := F)).result_of_not_mem (V1 m d) (b := Proc.devRef .tc (main_arg0 : Ref sig .tc)) (show Proc.devRef .tc (main_arg0 : Ref sig .tc) ∉ ({r'} : Finset (DevRef τ sig)) by decide),
    (opR (F := F)).result_of_not_mem (V1 m d) (b := Proc.devRef .tc (main_v0 : Ref sig .tc)) (show Proc.devRef .tc (main_v0 : Ref sig .tc) ∉ ({r'} : Finset (DevRef τ sig)) by decide),
    (opR (F := F)).result_of_not_mem (V1 m d) (b := Proc.devRef .tc (main_v1 : Ref sig .tc)) (show Proc.devRef .tc (main_v1 : Ref sig .tc) ∉ ({r'} : Finset (DevRef τ sig)) by decide),
    (opR (F := F)).result_of_mem (V1 m d) (b := r') (Finset.mem_singleton_self _), V1_a, V1_xt, V1_o]
  rfl

/-! ## @main on the TensorCore -/

abbrev FIN (d : Dev nD) : sProp 𝕄 := iprop((aLoc d ↦{fullShare} m (aLoc d)) ∗ (rLoc d ↦{fullShare} resVal m d))

/-- @main on device `d`'s TensorCore: the transpose of `x`, the one call, the exchange of the tiles' array's last two axes. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the first transpose, over the four arrays
  iapply (wp_hlo_within 𝒱 (SparseCore.T d) none Set.univ (op := opX) (S := S4) hopX (V := V0 m d)) $$ [Hb Hheld]
  · isplitl [Hb]; · iexact Hb
    iexact Hheld
  iintro ⟨Hb, Hheld⟩
  ihave Hh := (Entails.of_eq (held_X (F := F) m d)) $$ Hheld
  icases Hh with ⟨Ha, Hxt, Ho, Hr⟩
  rw [wp_ret]; imodintro
  -- the call: `xt` and the tiles' array to the 32 workers and back
  iapply ((K (F := F)).wp_run (D (F := F)) 𝒱 (EH := EH) (P := P m) κ d 0) $$ [Hst Hxt Ho Hb Ha Hr]
  isplitr; · iexact Hctx
  isplitl [Hst]; · iexact Hst
  isplitl [Hxt Ho]
  · rw [st0_eq]
    isplitl [Hxt]; · iexact Hxt
    iexact Ho
  iintro ⟨Hst, Hdn⟩
  ihave Hdn' := (Entails.of_eq (dn0_eq m d)) $$ Hdn
  icases Hdn' with ⟨Hxt, Ho⟩
  -- the second transpose
  iapply (wp_hlo_within 𝒱 (SparseCore.T d) none Set.univ (op := opR) (S := S4) hopR (V := V1 m d)) $$ [Hb Ha Hxt Ho Hr]
  · isplitl [Hb]; · iexact Hb
    rw [held_S4, V1_a, V1_xt, V1_o, V1_r]
    isplitl [Ha]; · iexact Ha
    isplitl [Hxt]; · iexact Hxt
    isplitl [Ho]; · iexact Ho
    iexact Hr
  iintro ⟨Hb, Hheld⟩
  ihave Hh := (Entails.of_eq (held_R (F := F) m d)) $$ Hheld
  icases Hh with ⟨Ha, -, -, Hr⟩
  rw [wp_ret]; imodintro; imodintro
  isplitl [Hst]; · iexact Hst
  isplitl [Ha]; · iexact Ha
  iexact Hr

/-! ## What the final memory says -/

def fq (d : Dev nD) (s' : Phys nD τ sig (Elt F)) : Prop := s'.mem.mem (rLoc d) = resVal m d ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := resVal m d)) $$ [HSI Hr]
  · isplitl [HSI] <;> iassumption
  icases H with %h2
  ipureintro; exact ⟨funext fun i => h2 i (Finset.mem_univ i), funext fun i => h1 i (Finset.mem_univ i)⟩

/-! ## The program's run -/

def QC : PUnit × MemSt nD τ sig (Elt F) → Prop := fun r => ∀ c : Dev nD, r.2.mem (rLoc c) = resVal m c ∧ r.2.mem (aLoc c) = m (aLoc c)

/-- From the workers' obligation: every weakly fair execution of the threads ends, nothing faulting, the result at
    the transposed one-hot array and `x` unchanged. -/
theorem run_main [∀ e, Nonempty (Elt F e)] (hobl : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hobl)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.OneHotSpec.lean ====
/-
  The one-hot array, stated once for both programs.  For a table of class numbers `x[b, l]` (4096 rows of
  200 tokens, each a class in 0..127) the result has a 1.0 at `(b, c, l)` exactly when `x[b, l] = c`
  and 0.0 elsewhere.  Both literals stay as their binary words: neither program does arithmetic on them.
-/
import Idealize.ShloMosaic.PureOps
import Idealize.ShloMosaic.Lib.ValueIdx

noncomputable section

namespace Cert.OneHot

open Idealize.ShloMosaic Idealize.ShloMosaic.ValueIdx

/-- Entry `(b, c, l)` of the one-hot array of `x`: the word of 1.0 when token `x[b, l]` is class `c`,
    the word of 0.0 otherwise. -/
def oneHot {F : FTy → Type} [FloatOps F] (x : IVec (⟨2, ![4096, 200]⟩ : Shape) 32) :
    FVec F (⟨3, ![4096, 128, 200]⟩ : Shape) .f32 :=
  fun i => if (x (ix2 (i 0) (i 2))).toNat = (i 1).val then FloatOps.ofBits .f32 0x3F800000#32
    else FloatOps.ofBits .f32 0x00000000#32

/-- The same array with the class axis last, `(b, l, c)`: what the tiles write before the final transpose. -/
def oneHotT {F : FTy → Type} [FloatOps F] (x : IVec (⟨2, ![4096, 200]⟩ : Shape) 32) :
    FVec F (⟨3, ![4096, 200, 128]⟩ : Shape) .f32 :=
  fun i => if (x (ix2 (i 0) (i 1))).toNat = (i 2).val then FloatOps.ofBits .f32 0x3F800000#32
    else FloatOps.ofBits .f32 0x00000000#32

end Cert.OneHot

end
-- ==== Proof.ResValueI.lean ====
/-
  The result's value: the transposed one-hot array of the transposed table is the one-hot array of the table.
-/
import proofs.«212721_g4020089389465_cont_8to1_b_1189_16_alg».proof.Proof.CommonI
import proofs.«212721_g4020089389465_cont_8to1_b_1189_16_alg».proof.Proof.OneHotSpec
import Idealize.ShloMosaic.Lib.Pipeline.Value

noncomputable section

namespace Cert.Proof.KI

open Cert.KernelIdeal Cert.KernelIdeal.Gen

open Idealize.ShloMosaic
open Idealize.ShloMosaic.ValueIdx

variable {F : FTy → Type}
variable (m : (ℓ : Loc nD τ sig) → Buf (Elt F) ℓ)
variable [FloatOps F]

/-- `xt[l, b] = x[b, l]`. -/
theorem xtVal_apply (d : Dev nD) (l : Fin 200) (b : Fin 4096) :
    (xtVal m d : (⟨S200x4096, .i32⟩ : BufTy).Contents (Elt F)) (ix2 l b)
      = (m (aLoc d) : (⟨S4096x200, .i32⟩ : BufTy).Contents (Elt F)) (ix2 b l) := by
  unfold xtVal
  refine transpose_apply _ _ _ _ _ fun a => ?_
  match a with
  | ⟨0, _⟩ => rfl
  | ⟨1, _⟩ => rfl

/-- Entry `(b, c, l)` of the result is entry `(b, l, c)` of the tiles' array, which reads `xt[l, b] = x[b, l]`. -/
theorem resVal_eq (d : Dev nD) :
    resVal m d
      = (Cert.OneHot.oneHot (F := F) (m (aLoc d) : (⟨S4096x200, .i32⟩ : BufTy).Contents (Elt F)) : (⟨S4096x128x200, .f32⟩ : BufTy).Contents (Elt F)) := by
  funext (i : S4096x128x200.Idx)
  have h1 : (resVal m d : (⟨S4096x128x200, .f32⟩ : BufTy).Contents (Elt F)) i
      = (outVal m d : (⟨S4096x200x128, .f32⟩ : BufTy).Contents (Elt F)) (ix3 (i 0) (i 2) (i 1)) := by
    unfold resVal
    refine transpose_apply _ _ _ _ _ fun a => ?_
    match a with
    | ⟨0, _⟩ => rfl
    | ⟨1, _⟩ => rfl
    | ⟨2, _⟩ => rfl
  refine h1.trans ?_
  unfold outVal Cert.OneHot.oneHot
  show (if ((xtVal m d : (⟨S200x4096, .i32⟩ : BufTy).Contents (Elt F)) (ix2 (i 2) (i 0))).toNat = (i 1).val then one else zero) = _
  rw [show (xtVal m d : (⟨S200x4096, .i32⟩ : BufTy).Contents (Elt F)) (ix2 (i 2) (i 0)) = _ from xtVal_apply m d (i 2) (i 0)]

end Cert.Proof.KI

end
-- ==== Proof.CommonB.lean ====
/-
  The one-hot kernel on the sparse cores: the names both the tile proof and the launch proof speak in.
  The table `x` (4096 rows of 200 class numbers) is transposed on the host to `xt[l, b]`; each of the 32 vector
  subcores (worker `w = 2 * subcore + core`) owns the 128 batch rows `[128 w, 128 w + 128)`: it reads columns
  `[128 w, 128 w + 128)` of `xt` and writes rows `[128 w, 128 w + 128)` of the `[4096, 200, 128]` array, whose
  entry `(b, l, c)` is 1.0 when `xt[l, b] = c` and 0.0 otherwise; the host transposes the last two axes.
-/
import proofs.«212721_g4020089389465_cont_8to1_b_1189_16_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import Idealize.ShloMosaic.Lib.ValueIdx
import proofs.«212721_g4020089389465_cont_8to1_b_1189_16_alg».proof.Proof.Gen.Kernel
import proofs.«212721_g4020089389465_cont_8to1_b_1189_16_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- `x`, `xt`, the tiles' array, the result: as locations of device `d`. -/
abbrev aLoc (d : Dev nD) : Loc nD τ sig := (SparseCore.T d).loc main_arg0
abbrev xtLoc (d : Dev nD) : Loc nD τ sig := (SparseCore.T d).loc main_v0
abbrev oLoc (d : Dev nD) : Loc nD τ sig := (SparseCore.T d).loc main_v1
abbrev rLoc (d : Dev nD) : Loc nD τ sig := (SparseCore.T d).loc main_v2

variable [FloatOps F]

abbrev xtV : Memref sig .scVector .hbm S200x4096 .i32 := Memref.whole main_v0_scv
abbrev oV : Memref sig .scVector .hbm S4096x200x128 .f32 := Memref.whole main_v1_scv
/-- A tile's scratch: its 128 columns of `xt`, and the two row buffers. -/
abbrev sX : Memref sig .scVector .vmem S200x128 .i32 := Memref.whole cc0_scratch0
abbrev sB0 : Memref sig .scVector .vmem S200x128 .f32 := Memref.whole cc0_scratch1
abbrev sB1 : Memref sig .scVector .vmem S200x128 .f32 := Memref.whole cc0_scratch2

/-- The words of 1.0 and 0.0. -/
abbrev one : Elt F .f32 := FloatOps.ofBits .f32 0x3F800000#32
abbrev zero : Elt F .f32 := FloatOps.ofBits .f32 0x00000000#32

/-- `xt`: the host's transpose of the launch contents of `x`. -/
def xtVal (d : Dev nD) : Buf (Elt F) (xtLoc d) :=
  (transpose S200x4096 [1, 0] (m (aLoc d)) transposes_S4096x200_S200x4096_1_0 : (⟨S200x4096, .i32⟩ : BufTy).Contents (Elt F))

/-- What the tiles leave: entry `(b, l, c)` is 1.0 when `xt[l, b] = c`, else 0.0. -/
def outVal (d : Dev nD) : Buf (Elt F) (oLoc d) :=
  ((fun i => if ((xtVal m d : (⟨S200x4096, .i32⟩ : BufTy).Contents (Elt F)) (ix2 (i 1) (i 0))).toNat = (i 2).val then one else zero)
    : (⟨S4096x200x128, .f32⟩ : BufTy).Contents (Elt F))

/-- The result: the tiles' array with its last two axes exchanged. -/
def resVal (d : Dev nD) : Buf (Elt F) (rLoc d) :=
  (transpose S4096x128x200 [0, 2, 1] (outVal m d) transposes_S4096x200x128_S4096x128x200_0_2_1 : (⟨S4096x128x200, .f32⟩ : BufTy).Contents (Elt F))

/-! ## The 32 workers' parts -/

theorem hdivX : 32 ∣ S200x4096.size 1 := ⟨128, rfl⟩
theorem hdivO : 32 ∣ S4096x200x128.size 0 := ⟨128, rfl⟩
/-- Worker `w`'s columns of `xt` and rows of the tiles' array. -/
abbrev colRect (w : Fin 32) : Rect S200x4096 := Rect.part (s := S200x4096) (a₀ := 1) hdivX w
abbrev rowRect (w : Fin 32) : Rect S4096x200x128 := Rect.part (s := S4096x200x128) (a₀ := 0) hdivO w
abbrev colSet (w : Fin 32) : Finset S200x4096.Idx := ((xtV : Memref sig .scVector .hbm S200x4096 .i32).view.slice (colRect w)).set
abbrev rowSet (w : Fin 32) : Finset S4096x200x128.Idx := ((oV : Memref sig .scVector .hbm S4096x200x128 .f32).view.slice (rowRect w)).set

/-- The worker number of vector subcore `s` of sparse core `c`. -/
def wid (c : Fin 2) (s : Fin 16) : Fin 32 := ⟨2 * s.val + c.val, by omega⟩

/-- What a worker is handed: its columns of `xt` (at the transposed table) and its rows of the tiles' array. -/
def goRes (d : Dev nD) (w : Fin 32) : sProp 𝕄 :=
  iprop((xtLoc d ↦[colSet w]{fullShare} xtVal m d) ∗ (oLoc d ↦[rowSet w]{fullShare} m (oLoc d)))
/-- What it hands back: the columns unchanged, the rows at the one-hot array. -/
def tdRes (d : Dev nD) (w : Fin 32) : sProp 𝕄 :=
  iprop((xtLoc d ↦[colSet w]{fullShare} xtVal m d) ∗ (oLoc d ↦[rowSet w]{fullShare} outVal m d))

/-- The one call: a sparse core takes its sixteen workers' parts and brings them back. -/
def P : (K (F := F)).Pay (nD := nD) (Val := Elt F) (Name := ℕ) (U := UU) where
  st := fun q d c => match q with | 0 => bigSep Finset.univ fun s : Fin 16 => goRes m d (wid (Fin.cast nCore_zero c) s)
  dn := fun q d c => match q with | 0 => bigSep Finset.univ fun s : Fin 16 => tdRes m d (wid (Fin.cast nCore_zero c) s)
  go := fun q d c i => match q with | 0 => goRes m d (wid (Fin.cast nCore_zero c) (Fin.cast nSub_zero i))
  td := fun q d c i => match q with | 0 => tdRes m d (wid (Fin.cast nCore_zero c) (Fin.cast nSub_zero i))
  x := fun _ _ => iprop(emp)

instance goRes_storable (d : Dev nD) (w : Fin 32) : BI.Storable (upEmb : UEmb _ 𝕄) (goRes m d w) := by unfold goRes; infer_instance
instance tdRes_storable (d : Dev nD) (w : Fin 32) : BI.Storable (upEmb : UEmb _ 𝕄) (tdRes m d w) := by unfold tdRes; infer_instance

instance P_storable : (P (F := F) m).IsStorable where
  st q d c := match q with | 0 => (inferInstance : BI.Storable (upEmb : UEmb _ 𝕄) (bigSep Finset.univ fun s : Fin 16 => goRes m d (wid (Fin.cast nCore_zero c) s)))
  dn q d c := match q with | 0 => (inferInstance : BI.Storable (upEmb : UEmb _ 𝕄) (bigSep Finset.univ fun s : Fin 16 => tdRes m d (wid (Fin.cast nCore_zero c) s)))
  go q d c i := match q with | 0 => (inferInstance : BI.Storable (upEmb : UEmb _ 𝕄) (goRes m d (wid (Fin.cast nCore_zero c) (Fin.cast nSub_zero i))))
  td q d c i := match q with | 0 => (inferInstance : BI.Storable (upEmb : UEmb _ 𝕄) (tdRes m d (wid (Fin.cast nCore_zero c) (Fin.cast nSub_zero i))))

end Cert.Proof.KB

end
-- ==== Proof.RowsB.lean ====
/-
  One worker's 128 rows of the tiles' array, row by row: the elements a task's row memref covers, how the worker's
  part splits into them, and what a copy of a whole row through that memref leaves there.
-/
import proofs.«212721_g4020089389465_cont_8to1_b_1189_16_alg».proof.Proof.CommonB

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type}

local notation "𝕄" => MT nD τ sig (HIx 1) (Elt F) ℕ UU ℕ

variable (m : (ℓ : Loc nD τ sig) → Buf (Elt F) ℓ)
variable [FloatOps F]

/-- Row `off 0` of the tiles' array as a task slices it, squeezed to `[200, 128]`. -/
abbrev oRowM (off : Fin 3 → Nat) (h : ∀ a, off a + S1x200x128.size a ≤ S4096x200x128.size a) : Memref sig .scVector .hbm S200x128 .f32 :=
  ((oV : Memref sig .scVector .hbm S4096x200x128 .f32).slice (Rect.unit (s := S4096x200x128) off S1x200x128.size h) (fun _ => rfl)).squeeze S200x128 squeezes_S1x200x128_S200x128

/-- The elements of row `b`: the indices whose first coordinate is `b`. -/
def row1Set (b : Fin 4096) : Finset S4096x200x128.Idx := Finset.univ.filter fun i => (i 0).val = b.val

omit [FloatOps F] in
theorem mem_row1Set {b : Fin 4096} {i : S4096x200x128.Idx} : i ∈ row1Set b ↔ (i 0).val = b.val := by
  unfold row1Set; rw [Finset.mem_filter]; exact ⟨fun h => h.2, fun h => ⟨Finset.mem_univ _, h⟩⟩

omit [FloatOps F] in
/-- The row memref at offsets `(b, 0, 0)` covers row `b`. -/
theorem set_oRowM (b : Fin 4096) (off : Fin 3 → Nat) (h : ∀ a, off a + S1x200x128.size a ≤ S4096x200x128.size a)
    (hoff : off 0 = b.val ∧ off 1 = 0 ∧ off 2 = 0) : (oRowM off h).view.set = row1Set b := by
  show (((View.whole (main_v1_scv : Ref sig .scVector)).slice (Rect.unit (s := S4096x200x128) off S1x200x128.size h)).reshape S200x128
    squeezes_S1x200x128_S200x128.numel_eq).set = _
  rw [View.set_reshape, View.set_slice_whole]
  ext i
  have h1 : (i 1).val < 200 := (i 1).isLt
  have h2 : (i 2).val < 128 := (i 2).isLt
  obtain ⟨e0, e1, e2⟩ := hoff
  rw [Rect.mem_set_unit, mem_row1Set]
  constructor
  · intro hh
    have := hh 0
    have hs : S1x200x128.size 0 = 1 := rfl
    omega
  · intro hi a
    match a with
    | ⟨0, _⟩ =>
      have hs : S1x200x128.size ⟨0, by decide⟩ = 1 := rfl
      show off 0 ≤ (i 0).val ∧ (i 0).val < off 0 + S1x200x128.size ⟨0, by decide⟩
      omega
    | ⟨1, _⟩ =>
      have hs : S1x200x128.size ⟨1, by decide⟩ = 200 := rfl
      show off 1 ≤ (i 1).val ∧ (i 1).val < off 1 + S1x200x128.size ⟨1, by decide⟩
      omega
    | ⟨2, _⟩ =>
      have hs : S1x200x128.size ⟨2, by decide⟩ = 128 := rfl
      show off 2 ≤ (i 2).val ∧ (i 2).val < off 2 + S1x200x128.size ⟨2, by decide⟩
      omega

/-! ## A worker's part is its 128 rows -/

omit [FloatOps F] in
theorem rowSet_eq_rect (w : Fin 32) : rowSet w = (rowRect w).set := by
  show ((View.whole (main_v1_scv : Ref sig .scVector)).slice (rowRect w)).set = _
  rw [View.set_slice_whole]

omit [FloatOps F] in
/-- Worker `w`'s part: the indices whose first coordinate lies in `[128 w, 128 w + 128)`. -/
theorem mem_rowSet {w : Fin 32} {i : S4096x200x128.Idx} : i ∈ rowSet w ↔ 128 * w.val ≤ (i 0).val ∧ (i 0).val < 128 * w.val + 128 := by
  have h1 : (i 1).val < 200 := (i 1).isLt
  have h2 : (i 2).val < 128 := (i 2).isLt
  rw [rowSet_eq_rect, Rect.mem_set_unit]
  constructor
  · intro hh
    have := hh 0
    simp [Shape.partIx, Shape.partSize] at this
    omega
  · intro hi a
    match a with
    | ⟨0, _⟩ => simp [Shape.partIx, Shape.partSize]; omega
    | ⟨1, _⟩ => simp [Shape.partIx, Shape.partSize]; omega
    | ⟨2, _⟩ => simp [Shape.partIx, Shape.partSize]; omega

/-- Row `r` of worker `w`. -/
abbrev rowOf (w : Fin 32) (r : Fin 128) : Fin 4096 := ⟨128 * w.val + r.val, by omega⟩

omit [FloatOps F] in
theorem rows1_cover (w : Fin 32) : (Finset.univ : Finset (Fin 128)).biUnion (fun r => row1Set (rowOf w r)) = rowSet w := by
  ext i
  simp only [Finset.mem_biUnion, Finset.mem_univ, true_and, mem_row1Set, mem_rowSet]
  constructor
  · rintro ⟨r, hr⟩
    have := r.isLt
    show 128 * w.val ≤ (i 0).val ∧ (i 0).val < 128 * w.val + 128
    have hr' : (i 0).val = 128 * w.val + r.val := hr
    omega
  · intro hi
    exact ⟨⟨(i 0).val - 128 * w.val, by omega⟩, by show (i 0).val = 128 * w.val + ((i 0).val - 128 * w.val); omega⟩

omit [FloatOps F] in
theorem rows1_disjoint (w : Fin 32) :
    ∀ r ∈ (Finset.univ : Finset (Fin 128)), ∀ r' ∈ (Finset.univ : Finset (Fin 128)), r ≠ r' → Disjoint (row1Set (rowOf w r)) (row1Set (rowOf w r')) := by
  intro r _ r' _ hne
  refine Finset.disjoint_left.mpr fun i hi hi' => hne (Fin.ext ?_)
  have e : (i 0).val = 128 * w.val + r.val := mem_row1Set.mp hi
  have e' : (i 0).val = 128 * w.val + r'.val := mem_row1Set.mp hi'
  omega

omit [FloatOps F] in
/-- A worker's part of the tiles' array is its 128 rows. -/
theorem oRows_split (d : Dev nD) (w : Fin 32) (f : Buf (Elt F) (oLoc d)) :
    (oLoc d ↦[rowSet w]{fullShare} f : sProp 𝕄) = bigSep Finset.univ fun r : Fin 128 => oLoc d ↦[row1Set (rowOf w r)]{fullShare} f := by
  rw [← rows1_cover w, pointsTo_biUnion Finset.univ (ℓ := oLoc d) (fun r => row1Set (rowOf w r)) (rows1_disjoint w)]

/-! ## What a copy of a whole row leaves -/

omit [FloatOps F] in
/-- Through the row memref, element `(l, c)` of the row is element `(b, l, c)` of the array. -/
theorem emb_oRowM (b : Fin 4096) (off : Fin 3 → Nat) (h : ∀ a, off a + S1x200x128.size a ≤ S4096x200x128.size a)
    (hoff : off 0 = b.val ∧ off 1 = 0 ∧ off 2 = 0) (i : S4096x200x128.Idx) (hi : i ∈ row1Set b) :
    (oRowM off h).view.emb (ix2 (i 1) (i 2)) = i := by
  obtain ⟨e0, e1, e2⟩ := hoff
  have hb : (i 0).val = b.val := mem_row1Set.mp hi
  have hy : Shape.reshapeEquiv squeezes_S1x200x128_S200x128.numel_eq (ix2 (i 1) (i 2) : S200x128.Idx) = (ix3 0 (i 1) (i 2) : S1x200x128.Idx) := by
    refine Shape.reshapeEquiv_eq_of_rowMajor _ ?_
    rw [Shape.rowMajor_val_three, Shape.rowMajor_val_two]
    show ((0 * 200 + (i 1).val) * 128 + (i 2).val) = (i 1).val * 128 + (i 2).val
    omega
  show (Rect.unit (s := S4096x200x128) off S1x200x128.size h).emb (Shape.reshapeEquiv squeezes_S1x200x128_S200x128.numel_eq (ix2 (i 1) (i 2))) = i
  rw [hy]
  funext a
  refine Fin.ext ?_
  rw [Rect.emb_apply]
  match a with
  | ⟨0, _⟩ => show off 0 + 1 * 0 = (i 0).val; omega
  | ⟨1, _⟩ => show off 1 + 1 * (i 1).val = (i 1).val; omega
  | ⟨2, _⟩ => show off 2 + 1 * (i 2).val = (i 2).val; omega

omit [FloatOps F] in
/-- A row written whole through the row memref: element `(b, l, c)` takes the payload's `(l, c)`. -/
theorem write_oRowM (d : Dev nD) (b : Fin 4096) (off : Fin 3 → Nat) (h : ∀ a, off a + S1x200x128.size a ≤ S4096x200x128.size a)
    (hoff : off 0 = b.val ∧ off 1 = 0 ∧ off 2 = 0) (g : Buf (Elt F) (oLoc d)) (pay : S200x128.Idx → Elt F .f32)
    (i : S4096x200x128.Idx) (hi : i ∈ row1Set b) :
    ((oRowM off h).view.write (Elt F) g pay Finset.univ : (⟨S4096x200x128, .f32⟩ : BufTy).Contents (Elt F)) i = pay (ix2 (i 1) (i 2)) := by
  have hw := View.write_emb_of_mem (v := (oRowM off h).view) (Val := Elt F) g pay (Finset.mem_univ (ix2 (i 1) (i 2)))
  have he := emb_oRowM b off h hoff i hi
  exact (congrArg ((oRowM off h).view.write (Elt F) g pay Finset.univ) he.symm).trans (hw.trans (cast_eq _ _))

/-- If the payload is the one-hot rows of column `b` of `xt`, the row written is the one-hot array's. -/
theorem write_oRowM_outVal (d : Dev nD) (b : Fin 4096) (off : Fin 3 → Nat) (h : ∀ a, off a + S1x200x128.size a ≤ S4096x200x128.size a)
    (hoff : off 0 = b.val ∧ off 1 = 0 ∧ off 2 = 0) (g : Buf (Elt F) (oLoc d)) (pay : S200x128.Idx → Elt F .f32)
    (hpay : ∀ j : S200x128.Idx, pay j = if ((xtVal m d : (⟨S200x4096, .i32⟩ : BufTy).Contents (Elt F)) (ix2 (j 0) b)).toNat = (j 1).val then one else zero)
    (i : S4096x200x128.Idx) (hi : i ∈ row1Set b) :
    ((oRowM off h).view.write (Elt F) g pay Finset.univ : (⟨S4096x200x128, .f32⟩ : BufTy).Contents (Elt F)) i
      = (outVal m d : (⟨S4096x200x128, .f32⟩ : BufTy).Contents (Elt F)) i := by
  rw [write_oRowM d b off h hoff g pay i hi, hpay]
  have hb : i 0 = b := Fin.ext (mem_row1Set.mp hi)
  unfold outVal
  show (if ((xtVal m d : (⟨S200x4096, .i32⟩ : BufTy).Contents (Elt F)) (ix2 (i 1) b)).toNat = (i 2).val then one else zero)
    = if ((xtVal m d : (⟨S200x4096, .i32⟩ : BufTy).Contents (Elt F)) (ix2 (i 1) (i 0))).toNat = (i 2).val then one else zero
  rw [hb]

/-- so row `b`, held at what the copy leaves, is held at the one-hot array. -/
theorem row_done (d : Dev nD) (b : Fin 4096) (off : Fin 3 → Nat) (h : ∀ a, off a + S1x200x128.size a ≤ S4096x200x128.size a)
    (hoff : off 0 = b.val ∧ off 1 = 0 ∧ off 2 = 0) (g : Buf (Elt F) (oLoc d)) (pay : S200x128.Idx → Elt F .f32)
    (hpay : ∀ j : S200x128.Idx, pay j = if ((xtVal m d : (⟨S200x4096, .i32⟩ : BufTy).Contents (Elt F)) (ix2 (j 0) b)).toNat = (j 1).val then one else zero) :
    (oLoc d ↦[row1Set b]{fullShare} ((oRowM off h).view.write (Elt F) g pay Finset.univ) : sProp 𝕄)
      = oLoc d ↦[row1Set b]{fullShare} outVal m d :=
  pointsTo_congr fun i hi => write_oRowM_outVal m d b off h hoff g pay hpay i hi

end Cert.Proof.KB

end
-- ==== Proof.PeelB.lean ====
/-
  Peeling a separating conjunction over the 128 rows: the rows from `n` on, and the rows below `n`, one row at a time.
-/
import proofs.«212721_g4020089389465_cont_8to1_b_1189_16_alg».proof.Proof.CommonB

noncomputable section

namespace Cert.Proof.KB

open Cert.Kernel Cert.Kernel.Gen

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The rows from `n` on are row `n` and the rows from `n + 1` on. -/
theorem bigSep_from_succ (Φ : Fin 128 → sProp 𝕄) (n : ℕ) (h : n < 128) :
    bigSep (Finset.univ.filter fun r : Fin 128 => n ≤ r.val) Φ
      = iprop(Φ ⟨n, h⟩ ∗ bigSep (Finset.univ.filter fun r : Fin 128 => n + 1 ≤ r.val) Φ) := by
  rw [show (Finset.univ.filter fun r : Fin 128 => n ≤ r.val) = insert (⟨n, h⟩ : Fin 128) (Finset.univ.filter fun r : Fin 128 => n + 1 ≤ r.val) from by
      ext r
      simp only [Finset.mem_filter, Finset.mem_univ, true_and, Finset.mem_insert, Fin.ext_iff]
      omega,
    SparseCore.bigSep_insert' (by simp only [Finset.mem_filter, Finset.mem_univ, true_and]; omega)]

/-- The rows below `n + 1` are the rows below `n` and row `n`. -/
theorem bigSep_below_succ (Φ : Fin 128 → sProp 𝕄) (n : ℕ) (h : n < 128) :
    bigSep (Finset.univ.filter fun r : Fin 128 => r.val < n + 1) Φ
      = iprop(bigSep (Finset.univ.filter fun r : Fin 128 => r.val < n) Φ ∗ Φ ⟨n, h⟩) := by
  rw [show (Finset.univ.filter fun r : Fin 128 => r.val < n + 1) = insert (⟨n, h⟩ : Fin 128) (Finset.univ.filter fun r : Fin 128 => r.val < n) from by
      ext r
      simp only [Finset.mem_filter, Finset.mem_univ, true_and, Finset.mem_insert, Fin.ext_iff]
      omega,
    SparseCore.bigSep_insert' (by simp only [Finset.mem_filter, Finset.mem_univ, true_and]; omega)]
  exact BI.Entails.antisymm BI.sep_comm BI.sep_comm

theorem bigSep_from_zero (Φ : Fin 128 → sProp 𝕄) : bigSep (Finset.univ.filter fun r : Fin 128 => 0 ≤ r.val) Φ = bigSep Finset.univ Φ := by
  rw [Finset.filter_true_of_mem fun r _ => Nat.zero_le r.val]

theorem bigSep_below_all (Φ : Fin 128 → sProp 𝕄) : bigSep (Finset.univ.filter fun r : Fin 128 => r.val < 128) Φ = bigSep Finset.univ Φ := by
  rw [Finset.filter_true_of_mem fun r _ => r.isLt]

theorem bigSep_from_end (Φ : Fin 128 → sProp 𝕄) : bigSep (Finset.univ.filter fun r : Fin 128 => 128 ≤ r.val) Φ = iprop(emp) := by
  rw [Finset.filter_false_of_mem fun r _ => by have := r.isLt; omega, bigSep_empty]; rfl

theorem bigSep_below_zero (Φ : Fin 128 → sProp 𝕄) : bigSep (Finset.univ.filter fun r : Fin 128 => r.val < 0) Φ = iprop(emp) := by
  rw [Finset.filter_false_of_mem fun r _ => Nat.not_lt_zero r.val, bigSep_empty]; rfl

end Cert.Proof.KB

end
-- ==== Proof.TileB.lean ====
/-
  One vector subcore's task, run once at a symbolic place `L` (sparse core `L 0`, subcore `L 1`, worker `w = 2 (L 1) + L 0`).
  The task copies its 128 columns of the transposed table into a scratch table, clears its first row buffer, encodes local
  row 0 into it (thirteen indexed stores of 1.0, one per chunk of sixteen tokens, at the places the table names) and starts
  that buffer's copy onto row `128 w` of the tiles' array; the same with the second buffer and local row 1.  Then 63 trips:
  trip `k` waits for the copy of row `2 k`, takes that row's ones back out of the first buffer (thirteen indexed stores of
  0.0 at the same places, which leaves the buffer all zero), encodes row `2 k + 2` and starts its copy; and the same for
  rows `2 k + 1` and `2 k + 3` with the second buffer.  Two last waits.  A buffer is never touched while its copy is under
  way, and each copy has its own semaphore.  What a copy leaves in its row is the one-hot array's row, so at the end the
  worker's 128 rows hold the one-hot array.
-/
import proofs.«212721_g4020089389465_cont_8to1_b_1189_16_alg».proof.Proof.CommonB
import Idealize.ShloMosaic.Lib.Transfers
import Idealize.ShloMosaic.Lib.Writes
import Idealize.ShloMosaic.Lib.Affine
import proofs.«212721_g4020089389465_cont_8to1_b_1189_16_alg».proof.Proof.RowBuffer
import proofs.«212721_g4020089389465_cont_8to1_b_1189_16_alg».proof.Proof.RowsB
import proofs.«212721_g4020089389465_cont_8to1_b_1189_16_alg».proof.Proof.PeelB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

variable (m : (ℓ : Loc nD τ sig) → Buf (Elt F) ℓ)
variable [FloatOps F]

section Tile

variable (d : Dev nD) (L : grid0.Coords)

abbrev cV (L : grid0.Coords) : Fin τ.nSC := (L 0).castLE hcore0
abbrev jV (L : grid0.Coords) : Fin τ.nSub := (L 1).castLE hsub0
/-- The worker number of the place `L`. -/
def widL (L : grid0.Coords) : Fin 32 :=
  ⟨2 * (L 1).val + (L 0).val, by have h0 : (L 0).val < 2 := (L 0).isLt; have h1 : (L 1).val < 16 := (L 1).isLt; omega⟩

abbrev cS3 (d : Dev nD) (c : Fin τ.nSC) (i : Fin τ.nSub) : GSem nD τ sig := (V d c i, .dma cc0_scratch3.sem)
abbrev cS4 (d : Dev nD) (c : Fin τ.nSC) (i : Fin τ.nSub) : GSem nD τ sig := (V d c i, .dma cc0_scratch4.sem)
abbrev cS0 (d : Dev nD) (c : Fin τ.nSC) (i : Fin τ.nSub) : GSem nD τ sig := (V d c i, .dma cc0_scoped0.sem)

omit [FloatOps F] in
theorem ownSems0_V :
    (ownSems0 (V d (cV L) (jV L)) : sProp 𝕄)
      = iprop(semVal (cS3 d (cV L) (jV L)) 0 ∗ semVal (cS4 d (cV L) (jV L)) 0 ∗ semVal (cS0 d (cV L) (jV L)) 0
          ∗ bigSep ((((ownCells (V d (cV L) (jV L))).erase (cS3 d (cV L) (jV L))).erase (cS4 d (cV L) (jV L))).erase (cS0 d (cV L) (jV L)))
              fun g => semVal g 0) := by
  unfold SparseCore.Cfg.ownSems0
  rw [SparseCore.bigSep_erase' ((mem_ownCells (g := cS3 d (cV L) (jV L))).mpr ⟨rfl, by
      show (SemLoc.dma cc0_scratch3.sem : SemLoc sig).isScoped .scVector = true; decide⟩),
    SparseCore.bigSep_erase' (Finset.mem_erase.mpr ⟨by simp [cS3, cS4]; decide, (mem_ownCells (g := cS4 d (cV L) (jV L))).mpr ⟨rfl, by
      show (SemLoc.dma cc0_scratch4.sem : SemLoc sig).isScoped .scVector = true; decide⟩⟩),
    SparseCore.bigSep_erase' (Finset.mem_erase.mpr ⟨by simp [cS4, cS0]; decide, Finset.mem_erase.mpr ⟨by simp [cS3, cS0]; decide,
      (mem_ownCells (g := cS0 d (cV L) (jV L))).mpr ⟨rfl, by show (SemLoc.dma cc0_scoped0.sem : SemLoc sig).isScoped .scVector = true; decide⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- The place's 128 columns of `xt`, as the task slices them. -/
abbrev xtCols (L : grid0.Coords) : Memref sig .scVector .hbm S200x128 .i32 :=
  (xtV : Memref sig .scVector .hbm S200x4096 .i32).slice (Rect.unit (s := S200x4096) (k0_off1 L) S200x128.size (k0_off1_inb L)) (fun _ => rfl)

omit [FloatOps F] in
theorem colRect_eq : Rect.unit (s := S200x4096) (k0_off1 L) S200x128.size (k0_off1_inb L) = colRect (widL L) := by
  unfold colRect Rect.part Rect.block
  congr 1 <;> funext a
  · rw [k0_off1_eq]
    match a with
    | 0 => simp [Shape.partIx, Shape.partSize]
    | 1 => simp [Shape.partIx, Shape.partSize, widL]; omega
  · match a with
    | 0 => simp [Shape.partSize]
    | 1 => simp [Shape.partSize]

omit [FloatOps F] in
theorem set_xtCols : (xtCols L).view.set = colSet (widL L) := by
  show ((xtV : Memref sig .scVector .hbm S200x4096 .i32).view.slice (Rect.unit (s := S200x4096) (k0_off1 L) S200x128.size (k0_off1_inb L))).set
    = ((xtV : Memref sig .scVector .hbm S200x4096 .i32).view.slice (colRect (widL L))).set
  rw [colRect_eq]

omit [FloatOps F] in
theorem pts_sX (f : Buf (Elt F) ((V d (cV L) (jV L)).loc cc0_scratch0)) :
    ((sX : Memref sig .scVector .vmem S200x128 .i32).view.loc (V d (cV L) (jV L)) ↦{fullShare} f : sProp 𝕄) = (V d (cV L) (jV L)).loc cc0_scratch0 ↦{fullShare} f := rfl
omit [FloatOps F] in
theorem pts_sB0 (f : Buf (Elt F) ((V d (cV L) (jV L)).loc cc0_scratch1)) :
    ((sB0 : Memref sig .scVector .vmem S200x128 .f32).view.loc (V d (cV L) (jV L)) ↦{fullShare} f : sProp 𝕄) = (V d (cV L) (jV L)).loc cc0_scratch1 ↦{fullShare} f := rfl
omit [FloatOps F] in
theorem pts_sB1 (f : Buf (Elt F) ((V d (cV L) (jV L)).loc cc0_scratch2)) :
    ((sB1 : Memref sig .scVector .vmem S200x128 .f32).view.loc (V d (cV L) (jV L)) ↦{fullShare} f : sProp 𝕄) = (V d (cV L) (jV L)).loc cc0_scratch2 ↦{fullShare} f := rfl

/-! ## The indexed load and store, at whole scratch buffers -/

abbrev thr (d : Dev nD) (L : grid0.Coords) : Thread nD τ := V d (cV L) (jV L)

omit [FloatOps F] in
theorem accX_read (f : Buf (Elt F) (((sX : Memref sig .scVector .vmem S200x128 .i32).access (.whole S200x128)).loc (thr d L))) :
    ((sX : Memref sig .scVector .vmem S200x128 .i32).access (.whole S200x128)).read (Elt F) f = f := by
  funext i
  simp [View.read_apply]
  rfl

/-- Rows below `k` of a row buffer hold 0.0. -/
def ZeroTo (k : ℕ) (f : S200x128.Idx → Elt F .f32) : Prop := ∀ j : S200x128.Idx, (j 0).val < k → f j = zero

def inv1 (k : ℕ) (_ : PUnit) : sProp 𝕄 :=
  iprop(∃ f : Buf (Elt F) ((sB0 : Memref sig .scVector .vmem S200x128 .f32).view.loc (thr d L)), ⌜ZeroTo (F := F) k f⌝ ∗ ((sB0 : Memref sig .scVector .vmem S200x128 .f32).view.loc (thr d L) ↦{fullShare} f))

omit [FloatOps F] in
theorem acc_read_sB0 (f : Buf (Elt F) (((sB0 : Memref sig .scVector .vmem S200x128 .f32).access (.whole S200x128)).loc (thr d L))) :
    ((sB0 : Memref sig .scVector .vmem S200x128 .f32).access (.whole S200x128)).read (Elt F) f = f := by
  funext i
  simp [View.read_apply]
  rfl

omit [FloatOps F] in
theorem acc_write_sB0 (f w : Buf (Elt F) (((sB0 : Memref sig .scVector .vmem S200x128 .f32).access (.whole S200x128)).loc (thr d L))) :
    ((sB0 : Memref sig .scVector .vmem S200x128 .f32).access (.whole S200x128)).write (Elt F) f w Finset.univ = w := by
  funext i
  have h := View.write_emb_of_mem (Val := Elt F) (v := (sB0 : Memref sig .scVector .vmem S200x128 .f32).access (.whole S200x128)) f w (M := Finset.univ) (x := i) (Finset.mem_univ _)
  simp only [View.emb_slice, Memref.view_whole, View.emb_whole, Function.Embedding.trans_apply, Function.Embedding.refl_apply, Rect.emb_whole_apply] at h
  exact h

omit [FloatOps F] in
theorem acc_set_sB0 : ((sB0 : Memref sig .scVector .vmem S200x128 .f32).access (.whole S200x128)).set = Finset.univ := by
  show ((View.whole cc0_scratch1).slice (Rect.whole S200x128)).set = _
  rw [View.set_slice_whole]; exact Rect.set_whole _

theorem wp_store_sB0 {α : Type} {Q : α → sProp 𝕄} {idxs : Fin S200x128.rank → IVec S16 32} {v : Vec F S16 .f32} {mask : IVec S16 1} {add : Bool}
    {h : ∀ a x, (idxs a x).toNat < S200x128.size a} {hs : ((sB0 : Memref sig .scVector .vmem S200x128 .f32).access (.whole S200x128)).Stores Finset.univ}
    {k : PUnit → Prog (TpuEff nD τ sig (Elt F) Λ₀ (thr d L).2) α}
    (f : Buf (Elt F) ((sB0 : Memref sig .scVector .vmem S200x128 .f32).view.loc (thr d L))) :
    ((sB0 : Memref sig .scVector .vmem S200x128 .f32).view.loc (thr d L) ↦{fullShare} f : sProp 𝕄)
      ⊢ iprop((∀ f' : Buf (Elt F) ((sB0 : Memref sig .scVector .vmem S200x128 .f32).view.loc (thr d L)),
            iprop(((sB0 : Memref sig .scVector .vmem S200x128 .f32).view.loc (thr d L) ↦{fullShare} f') ∗ ⌜f' = storeIdx (F := F) (e := .f32) f idxs v mask add h⌝)
            -∗ wp frame (wpE (defs₀ (F := F)) 𝒱₀ (thr d L) none) Set.univ (k ⟨⟩) Q)
        -∗ wp frame (wpE (defs₀ (F := F)) 𝒱₀ (thr d L) none) Set.univ (SparseCore.vectorStoreIdx sB0 idxs v mask add h hs >>= k) Q) := by
  have key := SparseCore.wp_vectorStoreIdx (defs := defs₀ (F := F)) (Q := Q) 𝒱₀ (thr d L) none Set.univ (base := (sB0 : Memref sig .scVector .vmem S200x128 .f32))
    (idxs := idxs) (v := v) (mask := mask) (add := add) (h := h) (hs := hs) (k := k) (f := f)
  rw [acc_set_sB0, acc_read_sB0, acc_write_sB0] at key
  iintro H Hk
  iapply key $$ H
  iintro H
  ispecialize Hk $$ %(storeIdx (F := F) (e := .f32) f idxs v mask add h)
  iapply Hk
  isplitl [H]
  · iexact H
  · ipureintro; rfl

omit [FloatOps F] in
theorem acc_read_sB1 (f : Buf (Elt F) (((sB1 : Memref sig .scVector .vmem S200x128 .f32).access (.whole S200x128)).loc (thr d L))) :
    ((sB1 : Memref sig .scVector .vmem S200x128 .f32).access (.whole S200x128)).read (Elt F) f = f := by
  funext i
  simp [View.read_apply]
  rfl

omit [FloatOps F] in
theorem acc_write_sB1 (f w : Buf (Elt F) (((sB1 : Memref sig .scVector .vmem S200x128 .f32).access (.whole S200x128)).loc (thr d L))) :
    ((sB1 : Memref sig .scVector .vmem S200x128 .f32).access (.whole S200x128)).write (Elt F) f w Finset.univ = w := by
  funext i
  have h := View.write_emb_of_mem (Val := Elt F) (v := (sB1 : Memref sig .scVector .vmem S200x128 .f32).access (.whole S200x128)) f w (M := Finset.univ) (x := i) (Finset.mem_univ _)
  simp only [View.emb_slice, Memref.view_whole, View.emb_whole, Function.Embedding.trans_apply, Function.Embedding.refl_apply, Rect.emb_whole_apply] at h
  exact h

omit [FloatOps F] in
theorem acc_set_sB1 : ((sB1 : Memref sig .scVector .vmem S200x128 .f32).access (.whole S200x128)).set = Finset.univ := by
  show ((View.whole cc0_scratch2).slice (Rect.whole S200x128)).set = _
  rw [View.set_slice_whole]; exact Rect.set_whole _

theorem wp_store_sB1 {α : Type} {Q : α → sProp 𝕄} {idxs : Fin S200x128.rank → IVec S16 32} {v : Vec F S16 .f32} {mask : IVec S16 1} {add : Bool}
    {h : ∀ a x, (idxs a x).toNat < S200x128.size a} {hs : ((sB1 : Memref sig .scVector .vmem S200x128 .f32).access (.whole S200x128)).Stores Finset.univ}
    {k : PUnit → Prog (TpuEff nD τ sig (Elt F) Λ₀ (thr d L).2) α}
    (f : Buf (Elt F) ((sB1 : Memref sig .scVector .vmem S200x128 .f32).view.loc (thr d L))) :
    ((sB1 : Memref sig .scVector .vmem S200x128 .f32).view.loc (thr d L) ↦{fullShare} f : sProp 𝕄)
      ⊢ iprop((∀ f' : Buf (Elt F) ((sB1 : Memref sig .scVector .vmem S200x128 .f32).view.loc (thr d L)),
            iprop(((sB1 : Memref sig .scVector .vmem S200x128 .f32).view.loc (thr d L) ↦{fullShare} f') ∗ ⌜f' = storeIdx (F := F) (e := .f32) f idxs v mask add h⌝)
            -∗ wp frame (wpE (defs₀ (F := F)) 𝒱₀ (thr d L) none) Set.univ (k ⟨⟩) Q)
        -∗ wp frame (wpE (defs₀ (F := F)) 𝒱₀ (thr d L) none) Set.univ (SparseCore.vectorStoreIdx sB1 idxs v mask add h hs >>= k) Q) := by
  have key := SparseCore.wp_vectorStoreIdx (defs := defs₀ (F := F)) (Q := Q) 𝒱₀ (thr d L) none Set.univ (base := (sB1 : Memref sig .scVector .vmem S200x128 .f32))
    (idxs := idxs) (v := v) (mask := mask) (add := add) (h := h) (hs := hs) (k := k) (f := f)
  rw [acc_set_sB1, acc_read_sB1, acc_write_sB1] at key
  iintro H Hk
  iapply key $$ H
  iintro H
  ispecialize Hk $$ %(storeIdx (F := F) (e := .f32) f idxs v mask add h)
  iapply Hk
  isplitl [H]
  · iexact H
  · ipureintro; rfl

theorem wp_loadX {α : Type} {Q : α → sProp 𝕄} {idxs : Fin S200x128.rank → IVec S16 32}
    {h : ∀ a x, (idxs a x).toNat < S200x128.size a} {hl : (sX : Memref sig .scVector .vmem S200x128 .i32).view.Loads}
    {k : Vec F S16 .i32 → Prog (TpuEff nD τ sig (Elt F) Λ₀ (thr d L).2) α}
    (X : Buf (Elt F) ((sX : Memref sig .scVector .vmem S200x128 .i32).view.loc (thr d L))) :
    ((sX : Memref sig .scVector .vmem S200x128 .i32).view.loc (thr d L) ↦{fullShare} X : sProp 𝕄)
      ⊢ iprop((∀ v : Vec F S16 .i32,
            iprop(((sX : Memref sig .scVector .vmem S200x128 .i32).view.loc (thr d L) ↦{fullShare} X) ∗ ⌜v = loadIdx (F := F) (e := .i32) X idxs h⌝)
            -∗ wp frame (wpE (defs₀ (F := F)) 𝒱₀ (thr d L) none) Set.univ (k v) Q)
        -∗ wp frame (wpE (defs₀ (F := F)) 𝒱₀ (thr d L) none) Set.univ (SparseCore.vectorLoadIdx sX idxs h hl >>= k) Q) := by
  have key := SparseCore.wp_vectorLoadIdx (defs := defs₀ (F := F)) (Q := Q) 𝒱₀ (thr d L) none Set.univ (base := (sX : Memref sig .scVector .vmem S200x128 .i32))
    (idxs := idxs) (h := h) (hl := hl) (k := k) (S := Finset.univ) (q := fullShare) (f := X) (Finset.subset_univ _)
  rw [accX_read] at key
  iintro H Hk
  iapply key $$ H
  iintro H
  ispecialize Hk $$ %(loadIdx (F := F) (e := .i32) X idxs h)
  iapply Hk
  isplitl [H]
  · iexact H
  · ipureintro; rfl

/-- The token numbers and the row number of a chunk, in one spelling. -/
abbrev lvc (o : BitVec 32) : IVec S16 32 := addi (iota .scVector S16 32 [0] iota_S16_d0_w32_scVector) (broadcast S16 o)
abbrev rvc (r : BitVec 32) : IVec S16 32 := addi (muli (iota .scVector S16 32 [0] iota_S16_d0_w32_scVector) (broadcast S16 0#32)) (broadcast S16 r)
omit [FloatOps F] in
theorem lvc_toNat (o : BitVec 32) (off : ℕ) (ho : o.toNat = off) (h : off + 16 ≤ 4294967296) (x : S16.Idx) : (lvc o x).toNat = off + (x 0).val :=
  Cert.OneHot.Pure.lvec_toNat _ o off ho h x
omit [FloatOps F] in
theorem rvc_toNat (r : BitVec 32) (x : S16.Idx) : (rvc r x).toNat = r.toNat := by
  rw [show rvc r x = r from Cert.OneHot.Pure.rvec_eq _ r x]

theorem zero_row_sB0 (k : Fin k0_t1_loop.trips) (f : Buf (Elt F) ((sB0 : Memref sig .scVector .vmem S200x128 .f32).view.loc (thr d L)))
    (hf : ZeroTo (F := F) k.val f) (pay : S1x16.Idx → Elt F .f32) (hpay : ∀ x, pay x = zero)
    (h2 : ∀ a, (k0_off2 k) a + S1x16.size a ≤ S200x128.size a) (h3 : ∀ a, (k0_off3 k) a + S1x16.size a ≤ S200x128.size a) (h4 : ∀ a, (k0_off4 k) a + S1x16.size a ≤ S200x128.size a) (h5 : ∀ a, (k0_off5 k) a + S1x16.size a ≤ S200x128.size a) (h6 : ∀ a, (k0_off6 k) a + S1x16.size a ≤ S200x128.size a) (h7 : ∀ a, (k0_off7 k) a + S1x16.size a ≤ S200x128.size a) (h8 : ∀ a, (k0_off8 k) a + S1x16.size a ≤ S200x128.size a) (h9 : ∀ a, (k0_off9 k) a + S1x16.size a ≤ S200x128.size a) :
    ZeroTo (F := F) (k.val + 1) ((sB0 : Memref sig .scVector .vmem S200x128 .f32).view.writes (Elt F) f
      [⟨Rect.unit (s := S200x128) (k0_off9 k) S1x16.size h9, pay⟩,
        ⟨Rect.unit (s := S200x128) (k0_off8 k) S1x16.size h8, pay⟩,
        ⟨Rect.unit (s := S200x128) (k0_off7 k) S1x16.size h7, pay⟩,
        ⟨Rect.unit (s := S200x128) (k0_off6 k) S1x16.size h6, pay⟩,
        ⟨Rect.unit (s := S200x128) (k0_off5 k) S1x16.size h5, pay⟩,
        ⟨Rect.unit (s := S200x128) (k0_off4 k) S1x16.size h4, pay⟩,
        ⟨Rect.unit (s := S200x128) (k0_off3 k) S1x16.size h3, pay⟩,
        ⟨Rect.unit (s := S200x128) (k0_off2 k) S1x16.size h2, pay⟩]) := by
  intro j hj
  have hj1 : (j 1).val < 128 := (j 1).isLt
  have key : ∀ G : Buf (Elt F) ((sB0 : Memref sig .scVector .vmem S200x128 .f32).view.loc (thr d L)), View.read (Elt F) (sB0 : Memref sig .scVector .vmem S200x128 .f32).view G j = G j := fun _ => rfl
  by_cases hk : (j 0).val = k.val
  · refine (key _).symm.trans ?_
    refine (View.read_writes_apply_of_pieces (Val := Elt F) (sB0 : Memref sig .scVector .vmem S200x128 .f32).view f (fun _ => zero) _ ?_ j ?_)
    · intro p hp x
      simp only [List.mem_cons, List.not_mem_nil, or_false] at hp
      rcases hp with rfl | rfl | rfl | rfl | rfl | rfl | rfl | rfl <;> exact hpay x
    · obtain ⟨q, hq1, hq2⟩ : ∃ q : Fin 8, 16 * q.val ≤ (j 1).val ∧ (j 1).val < 16 * q.val + 16 := ⟨⟨(j 1).val / 16, by omega⟩, by show 16 * ((j 1).val / 16) ≤ _; omega, by show _ < 16 * ((j 1).val / 16) + 16; omega⟩
      fin_cases q
      · refine ⟨⟨Rect.unit (s := S200x128) (k0_off2 k) S1x16.size h2, pay⟩, by simp, ?_⟩
        rw [Rect.mem_set_unit]; intro a; rw [k0_off2_eq]
        fin_cases a
        · simp; omega
        · simp at hq1 hq2 ⊢; omega
      · refine ⟨⟨Rect.unit (s := S200x128) (k0_off3 k) S1x16.size h3, pay⟩, by simp, ?_⟩
        rw [Rect.mem_set_unit]; intro a; rw [k0_off3_eq]
        fin_cases a
        · simp; omega
        · simp at hq1 hq2 ⊢; omega
      · refine ⟨⟨Rect.unit (s := S200x128) (k0_off4 k) S1x16.size h4, pay⟩, by simp, ?_⟩
        rw [Rect.mem_set_unit]; intro a; rw [k0_off4_eq]
        fin_cases a
        · simp; omega
        · simp at hq1 hq2 ⊢; omega
      · refine ⟨⟨Rect.unit (s := S200x128) (k0_off5 k) S1x16.size h5, pay⟩, by simp, ?_⟩
        rw [Rect.mem_set_unit]; intro a; rw [k0_off5_eq]
        fin_cases a
        · simp; omega
        · simp at hq1 hq2 ⊢; omega
      · refine ⟨⟨Rect.unit (s := S200x128) (k0_off6 k) S1x16.size h6, pay⟩, by simp, ?_⟩
        rw [Rect.mem_set_unit]; intro a; rw [k0_off6_eq]
        fin_cases a
        · simp; omega
        · simp at hq1 hq2 ⊢; omega
      · refine ⟨⟨Rect.unit (s := S200x128) (k0_off7 k) S1x16.size h7, pay⟩, by simp, ?_⟩
        rw [Rect.mem_set_unit]; intro a; rw [k0_off7_eq]
        fin_cases a
        · simp; omega
        · simp at hq1 hq2 ⊢; omega
      · refine ⟨⟨Rect.unit (s := S200x128) (k0_off8 k) S1x16.size h8, pay⟩, by simp, ?_⟩
        rw [Rect.mem_set_unit]; intro a; rw [k0_off8_eq]
        fin_cases a
        · simp; omega
        · simp at hq1 hq2 ⊢; omega
      · refine ⟨⟨Rect.unit (s := S200x128) (k0_off9 k) S1x16.size h9, pay⟩, by simp, ?_⟩
        rw [Rect.mem_set_unit]; intro a; rw [k0_off9_eq]
        fin_cases a
        · simp; omega
        · simp at hq1 hq2 ⊢; omega
  · have hlt : (j 0).val < k.val := by omega
    refine (key _).symm.trans ?_
    refine (View.read_writes_apply_of_forall_not_mem (Val := Elt F) (sB0 : Memref sig .scVector .vmem S200x128 .f32).view f j _ ?_).trans (hf j hlt)
    intro p hp hmem
    simp only [List.mem_cons, List.not_mem_nil, or_false] at hp
    rcases hp with rfl | rfl | rfl | rfl | rfl | rfl | rfl | rfl
    · rw [Rect.mem_set_unit] at hmem; have := hmem 0; rw [k0_off9_eq] at this; simp at this; omega
    · rw [Rect.mem_set_unit] at hmem; have := hmem 0; rw [k0_off8_eq] at this; simp at this; omega
    · rw [Rect.mem_set_unit] at hmem; have := hmem 0; rw [k0_off7_eq] at this; simp at this; omega
    · rw [Rect.mem_set_unit] at hmem; have := hmem 0; rw [k0_off6_eq] at this; simp at this; omega
    · rw [Rect.mem_set_unit] at hmem; have := hmem 0; rw [k0_off5_eq] at this; simp at this; omega
    · rw [Rect.mem_set_unit] at hmem; have := hmem 0; rw [k0_off4_eq] at this; simp at this; omega
    · rw [Rect.mem_set_unit] at hmem; have := hmem 0; rw [k0_off3_eq] at this; simp at this; omega
    · rw [Rect.mem_set_unit] at hmem; have := hmem 0; rw [k0_off2_eq] at this; simp at this; omega

theorem zero_row_sB1 (k : Fin k0_t2_loop.trips) (f : Buf (Elt F) ((sB1 : Memref sig .scVector .vmem S200x128 .f32).view.loc (thr d L)))
    (hf : ZeroTo (F := F) k.val f) (pay : S1x16.Idx → Elt F .f32) (hpay : ∀ x, pay x = zero)
    (h11 : ∀ a, (k0_off11 k) a + S1x16.size a ≤ S200x128.size a) (h12 : ∀ a, (k0_off12 k) a + S1x16.size a ≤ S200x128.size a) (h13 : ∀ a, (k0_off13 k) a + S1x16.size a ≤ S200x128.size a) (h14 : ∀ a, (k0_off14 k) a + S1x16.size a ≤ S200x128.size a) (h15 : ∀ a, (k0_off15 k) a + S1x16.size a ≤ S200x128.size a) (h16 : ∀ a, (k0_off16 k) a + S1x16.size a ≤ S200x128.size a) (h17 : ∀ a, (k0_off17 k) a + S1x16.size a ≤ S200x128.size a) (h18 : ∀ a, (k0_off18 k) a + S1x16.size a ≤ S200x128.size a) :
    ZeroTo (F := F) (k.val + 1) ((sB1 : Memref sig .scVector .vmem S200x128 .f32).view.writes (Elt F) f
      [⟨Rect.unit (s := S200x128) (k0_off18 k) S1x16.size h18, pay⟩,
        ⟨Rect.unit (s := S200x128) (k0_off17 k) S1x16.size h17, pay⟩,
        ⟨Rect.unit (s := S200x128) (k0_off16 k) S1x16.size h16, pay⟩,
        ⟨Rect.unit (s := S200x128) (k0_off15 k) S1x16.size h15, pay⟩,
        ⟨Rect.unit (s := S200x128) (k0_off14 k) S1x16.size h14, pay⟩,
        ⟨Rect.unit (s := S200x128) (k0_off13 k) S1x16.size h13, pay⟩,
        ⟨Rect.unit (s := S200x128) (k0_off12 k) S1x16.size h12, pay⟩,
        ⟨Rect.unit (s := S200x128) (k0_off11 k) S1x16.size h11, pay⟩]) := by
  intro j hj
  have hj1 : (j 1).val < 128 := (j 1).isLt
  have key : ∀ G : Buf (Elt F) ((sB1 : Memref sig .scVector .vmem S200x128 .f32).view.loc (thr d L)), View.read (Elt F) (sB1 : Memref sig .scVector .vmem S200x128 .f32).view G j = G j := fun _ => rfl
  by_cases hk : (j 0).val = k.val
  · refine (key _).symm.trans ?_
    refine (View.read_writes_apply_of_pieces (Val := Elt F) (sB1 : Memref sig .scVector .vmem S200x128 .f32).view f (fun _ => zero) _ ?_ j ?_)
    · intro p hp x
      simp only [List.mem_cons, List.not_mem_nil, or_false] at hp
      rcases hp with rfl | rfl | rfl | rfl | rfl | rfl | rfl | rfl <;> exact hpay x
    · obtain ⟨q, hq1, hq2⟩ : ∃ q : Fin 8, 16 * q.val ≤ (j 1).val ∧ (j 1).val < 16 * q.val + 16 := ⟨⟨(j 1).val / 16, by omega⟩, by show 16 * ((j 1).val / 16) ≤ _; omega, by show _ < 16 * ((j 1).val / 16) + 16; omega⟩
      fin_cases q
      · refine ⟨⟨Rect.unit (s := S200x128) (k0_off11 k) S1x16.size h11, pay⟩, by simp, ?_⟩
        rw [Rect.mem_set_unit]; intro a; rw [k0_off11_eq]
        fin_cases a
        · simp; omega
        · simp at hq1 hq2 ⊢; omega
      · refine ⟨⟨Rect.unit (s := S200x128) (k0_off12 k) S1x16.size h12, pay⟩, by simp, ?_⟩
        rw [Rect.mem_set_unit]; intro a; rw [k0_off12_eq]
        fin_cases a
        · simp; omega
        · simp at hq1 hq2 ⊢; omega
      · refine ⟨⟨Rect.unit (s := S200x128) (k0_off13 k) S1x16.size h13, pay⟩, by simp, ?_⟩
        rw [Rect.mem_set_unit]; intro a; rw [k0_off13_eq]
        fin_cases a
        · simp; omega
        · simp at hq1 hq2 ⊢; omega
      · refine ⟨⟨Rect.unit (s := S200x128) (k0_off14 k) S1x16.size h14, pay⟩, by simp, ?_⟩
        rw [Rect.mem_set_unit]; intro a; rw [k0_off14_eq]
        fin_cases a
        · simp; omega
        · simp at hq1 hq2 ⊢; omega
      · refine ⟨⟨Rect.unit (s := S200x128) (k0_off15 k) S1x16.size h15, pay⟩, by simp, ?_⟩
        rw [Rect.mem_set_unit]; intro a; rw [k0_off15_eq]
        fin_cases a
        · simp; omega
        · simp at hq1 hq2 ⊢; omega
      · refine ⟨⟨Rect.unit (s := S200x128) (k0_off16 k) S1x16.size h16, pay⟩, by simp, ?_⟩
        rw [Rect.mem_set_unit]; intro a; rw [k0_off16_eq]
        fin_cases a
        · simp; omega
        · simp at hq1 hq2 ⊢; omega
      · refine ⟨⟨Rect.unit (s := S200x128) (k0_off17 k) S1x16.size h17, pay⟩, by simp, ?_⟩
        rw [Rect.mem_set_unit]; intro a; rw [k0_off17_eq]
        fin_cases a
        · simp; omega
        · simp at hq1 hq2 ⊢; omega
      · refine ⟨⟨Rect.unit (s := S200x128) (k0_off18 k) S1x16.size h18, pay⟩, by simp, ?_⟩
        rw [Rect.mem_set_unit]; intro a; rw [k0_off18_eq]
        fin_cases a
        · simp; omega
        · simp at hq1 hq2 ⊢; omega
  · have hlt : (j 0).val < k.val := by omega
    refine (key _).symm.trans ?_
    refine (View.read_writes_apply_of_forall_not_mem (Val := Elt F) (sB1 : Memref sig .scVector .vmem S200x128 .f32).view f j _ ?_).trans (hf j hlt)
    intro p hp hmem
    simp only [List.mem_cons, List.not_mem_nil, or_false] at hp
    rcases hp with rfl | rfl | rfl | rfl | rfl | rfl | rfl | rfl
    · rw [Rect.mem_set_unit] at hmem; have := hmem 0; rw [k0_off18_eq] at this; simp at this; omega
    · rw [Rect.mem_set_unit] at hmem; have := hmem 0; rw [k0_off17_eq] at this; simp at this; omega
    · rw [Rect.mem_set_unit] at hmem; have := hmem 0; rw [k0_off16_eq] at this; simp at this; omega
    · rw [Rect.mem_set_unit] at hmem; have := hmem 0; rw [k0_off15_eq] at this; simp at this; omega
    · rw [Rect.mem_set_unit] at hmem; have := hmem 0; rw [k0_off14_eq] at this; simp at this; omega
    · rw [Rect.mem_set_unit] at hmem; have := hmem 0; rw [k0_off13_eq] at this; simp at this; omega
    · rw [Rect.mem_set_unit] at hmem; have := hmem 0; rw [k0_off12_eq] at this; simp at this; omega
    · rw [Rect.mem_set_unit] at hmem; have := hmem 0; rw [k0_off11_eq] at this; simp at this; omega

/-! ## From a row buffer to a row of the tiles' array -/

omit [FloatOps F] in
theorem emb_xtCols (l : Fin 200) (r : Fin 128) :
    (xtCols L).view.emb (ix2 l r) = (ix2 l (rowOf (widL L) r) : S200x4096.Idx) := by
  funext a
  apply Fin.ext
  simp only [View.emb_slice, Memref.view_whole, View.emb_whole, Function.Embedding.trans_apply, Function.Embedding.refl_apply]
  show (Rect.unit (s := S200x4096) (k0_off1 L) S200x128.size (k0_off1_inb L)).off a + 1 * ((ix2 l r : S200x128.Idx) a).val = _
  show k0_off1 L a + 1 * ((ix2 l r : S200x128.Idx) a).val = _
  rw [congrFun (k0_off1_eq L) a]
  match a with
  | 0 => show (![0, 256 * (L 1).val + 128 * (L 0).val] : Fin 2 → ℕ) 0 + 1 * l.val = l.val; simp
  | 1 => show (![0, 256 * (L 1).val + 128 * (L 0).val] : Fin 2 → ℕ) 1 + 1 * r.val = 128 * (2 * (L 1).val + (L 0).val) + r.val; simp; omega

/-- A row buffer that encodes local row `r` holds, entry by entry, row `128 w + r` of the one-hot array. -/
theorem pay_of_rowIs (X : IVec S200x128 32)
    (hXdef : ∀ j, X j = (xtVal m d : (⟨S200x4096, .i32⟩ : BufTy).Contents (Elt F)) ((xtCols L).view.emb j))
    (r : Fin 128) (g : S200x128.Idx → Elt F .f32) (hg : Cert.OneHot.Pure.RowIs (F := F) (Cert.OneHot.Pure.col X r.val) g) (j : S200x128.Idx) :
    g j = if ((xtVal m d : (⟨S200x4096, .i32⟩ : BufTy).Contents (Elt F)) (ix2 (j 0) (rowOf (widL L) r))).toNat = (j 1).val then one else zero := by
  rw [hg j]
  have e : Cert.OneHot.Pure.col X r.val (j 0).val = ((xtVal m d : (⟨S200x4096, .i32⟩ : BufTy).Contents (Elt F)) (ix2 (j 0) (rowOf (widL L) r))).toNat := by
    unfold Cert.OneHot.Pure.col
    rw [dif_pos (show (j 0).val < 200 ∧ r.val < 128 from ⟨(j 0).isLt, r.isLt⟩)]
    show (X (ix2 (j 0) r)).toNat = _
    rw [hXdef]
    exact congrArg (fun i => BitVec.toNat ((xtVal m d : (⟨S200x4096, .i32⟩ : BufTy).Contents (Elt F)) i)) (emb_xtCols L (j 0) r)
  rw [e]
  by_cases h : ((xtVal m d : (⟨S200x4096, .i32⟩ : BufTy).Contents (Elt F)) (ix2 (j 0) (rowOf (widL L) r))).toNat = (j 1).val
  · rw [if_pos h, if_pos h.symm]
  · rw [if_neg h, if_neg (fun h' => h h'.symm)]

/-- The row a copy writes, once the copy has landed, in the spelling of the whole array. -/
theorem row_landed (X : IVec S200x128 32)
    (hXdef : ∀ j, X j = (xtVal m d : (⟨S200x4096, .i32⟩ : BufTy).Contents (Elt F)) ((xtCols L).view.emb j))
    (r : Fin 128) (off : Fin 3 → Nat) (h : ∀ a, off a + S1x200x128.size a ≤ S4096x200x128.size a)
    (hoff : off 0 = (rowOf (widL L) r).val ∧ off 1 = 0 ∧ off 2 = 0)
    (f : Buf (Elt F) (oLoc d)) (pay : S200x128.Idx → Elt F .f32) (hpay : Cert.OneHot.Pure.RowIs (F := F) (Cert.OneHot.Pure.col X r.val) pay) :
    ((oRowM off h).view.loc (thr d L) ↦[(oRowM off h).view.set]{fullShare}
        (oRowM off h).view.writes (Elt F) f [⟨Rect.whole S200x128, pay⟩] : sProp 𝕄)
      = (oLoc d ↦[row1Set (rowOf (widL L) r)]{fullShare} outVal m d) := by
  rw [show (oRowM off h).view.writes (Elt F) f [⟨Rect.whole S200x128, pay⟩] = (oRowM off h).view.write (Elt F) f pay Finset.univ from
    (View.write_univ_eq_writes_whole (Val := Elt F) (oRowM off h).view f [] pay).symm, set_oRowM (rowOf (widL L) r) off h hoff]
  exact row_done m d (rowOf (widL L) r) off h hoff f pay (fun j => pay_of_rowIs m d L X hXdef r pay hpay j)

omit [FloatOps F] in
/-- A row still to be written, in the task's spelling of it. -/
theorem row_todo (r : Fin 128) (off : Fin 3 → Nat) (h : ∀ a, off a + S1x200x128.size a ≤ S4096x200x128.size a)
    (hoff : off 0 = (rowOf (widL L) r).val ∧ off 1 = 0 ∧ off 2 = 0) (f : Buf (Elt F) (oLoc d)) :
    (oLoc d ↦[row1Set (rowOf (widL L) r)]{fullShare} f : sProp 𝕄)
      = ((oRowM off h).view.loc (thr d L) ↦[(oRowM off h).view.set]{fullShare} f) := by
  rw [set_oRowM (rowOf (widL L) r) off h hoff]

def inv2 (k : ℕ) (_ : PUnit) : sProp 𝕄 :=
  iprop(∃ f : Buf (Elt F) ((sB1 : Memref sig .scVector .vmem S200x128 .f32).view.loc (thr d L)), ⌜ZeroTo (F := F) k f⌝ ∗ ((sB1 : Memref sig .scVector .vmem S200x128 .f32).view.loc (thr d L) ↦{fullShare} f))

/-- Local row `r` of the place: still at its launch contents, or at the one-hot array. -/
abbrev todoRow (r : Fin 128) : sProp 𝕄 := oLoc d ↦[row1Set (rowOf (widL L) r)]{fullShare} m (oLoc d)
abbrev doneRow (r : Fin 128) : sProp 𝕄 := oLoc d ↦[row1Set (rowOf (widL L) r)]{fullShare} outVal m d

abbrev r0 : Fin 128 := ⟨0, by omega⟩
abbrev r1 : Fin 128 := ⟨1, by omega⟩

omit [FloatOps F] in
theorem todo_split :
    (oLoc d ↦[rowSet (widL L)]{fullShare} m (oLoc d) : sProp 𝕄)
      = iprop(todoRow m d L r0 ∗ todoRow m d L r1 ∗ bigSep (Finset.univ.filter fun r : Fin 128 => 2 ≤ r.val) (todoRow m d L)) := by
  rw [oRows_split (F := F) d (widL L) (m (oLoc d)), ← bigSep_from_zero (F := F) (todoRow m d L), bigSep_from_succ (F := F) (todoRow m d L) 0 (by omega),
    bigSep_from_succ (F := F) (todoRow m d L) 1 (by omega)]

omit [FloatOps F] in
theorem hoff10 : k0_off10 L 0 = (rowOf (widL L) r0).val ∧ k0_off10 L 1 = 0 ∧ k0_off10 L 2 = 0 := by
  rw [k0_off10_eq]; refine ⟨?_, rfl, rfl⟩
  show 256 * (L 1).val + 128 * (L 0).val = 128 * (2 * (L 1).val + (L 0).val) + 0; omega
omit [FloatOps F] in
theorem hoff19 : k0_off19 L 0 = (rowOf (widL L) r1).val ∧ k0_off19 L 1 = 0 ∧ k0_off19 L 2 = 0 := by
  rw [k0_off19_eq]; refine ⟨?_, rfl, rfl⟩
  show 256 * (L 1).val + 128 * (L 0).val + 1 = 128 * (2 * (L 1).val + (L 0).val) + 1; omega

/-! ## The main loop: trip `k` finishes rows `2 k` and `2 k + 1` and starts rows `2 k + 2` and `2 k + 3` -/

/-- The local row number `n`, as an index. -/
def fr (n : ℕ) : Fin 128 := ⟨n % 128, Nat.mod_lt _ (by omega)⟩
omit [FloatOps F] in
theorem fr_val {n : ℕ} (h : n < 128) : (fr n).val = n := Nat.mod_eq_of_lt h
omit [FloatOps F] in
theorem fr_eq {n : ℕ} (h : n < 128) : fr n = ⟨n, h⟩ := Fin.ext (Nat.mod_eq_of_lt h)

abbrev bv115 (k : Fin k0_t3_loop.trips) : BitVec 32 := Scalar.muli (Scalar.addi 1#32 (Scalar.muli (Scf.iv 0#32 1#32 k) 1#32)) 2#32

omit [FloatOps F] in
theorem bv_facts (k : Fin k0_t3_loop.trips) :
    k.val < 63 ∧ (bv115 k).toNat = 2 * k.val + 2 ∧ (Scalar.subi (bv115 k) 2#32).toNat = 2 * k.val
      ∧ (Scalar.addi (bv115 k) 1#32).toNat = 2 * k.val + 3 ∧ (Scalar.subi (Scalar.addi (bv115 k) 1#32) 2#32).toNat = 2 * k.val + 1 := by
  have r_k : k.val < 63 := Nat.lt_of_lt_of_le k.isLt k0_t3_abs.2.1
  have h0 : Affine.IsInt 0#32 (0) := Affine.ofNat _ (by omega)
  have h1 : Affine.IsInt 1#32 (1) := Affine.ofNat _ (by omega)
  have h2 : Affine.IsInt 2#32 (2) := Affine.ofNat _ (by omega)
  have h_iv : Affine.IsInt _ ((k.val : Int)) := Affine.iv h0 h1 k.val (by omega)
  have h_113 : Affine.IsInt _ ((k.val : Int)) := Affine.muli h_iv h1 (by omega)
  have h_114 : Affine.IsInt _ ((k.val : Int) + 1) := Affine.addi h1 h_113 (by omega)
  have h_115 : Affine.IsInt (bv115 k) (2 * (k.val : Int) + 2) := Affine.muli h_114 h2 (by omega)
  have h_121 : Affine.IsInt (Scalar.subi (bv115 k) 2#32) (2 * (k.val : Int)) := Affine.subi h_115 h2 (by omega)
  have h_116 : Affine.IsInt (Scalar.addi (bv115 k) 1#32) (2 * (k.val : Int) + 3) := Affine.addi h_115 h1 (by omega)
  have h_217 : Affine.IsInt (Scalar.subi (Scalar.addi (bv115 k) 1#32) 2#32) (2 * (k.val : Int) + 1) := Affine.subi h_116 h2 (by omega)
  have e1 := Affine.toNat_of h_115 (by omega)
  have e2 := Affine.toNat_of h_121 (by omega)
  have e3 := Affine.toNat_of h_116 (by omega)
  have e4 := Affine.toNat_of h_217 (by omega)
  refine ⟨r_k, by omega, by omega, by omega, by omega⟩

omit [FloatOps F] in
theorem hoff21 (k : Fin k0_t3_loop.trips) : k0_off21 L k 0 = (rowOf (widL L) (fr (2 * k.val + 2))).val ∧ k0_off21 L k 1 = 0 ∧ k0_off21 L k 2 = 0 := by
  have hk : k.val < 63 := (bv_facts k).1
  rw [k0_off21_eq]; refine ⟨?_, rfl, rfl⟩
  show 256 * (L 1).val + 128 * (L 0).val + 2 * k.val + 2 = 128 * (2 * (L 1).val + (L 0).val) + (fr (2 * k.val + 2)).val
  rw [fr_val (by omega)]; omega
omit [FloatOps F] in
theorem hoff23 (k : Fin k0_t3_loop.trips) : k0_off23 L k 0 = (rowOf (widL L) (fr (2 * k.val + 3))).val ∧ k0_off23 L k 1 = 0 ∧ k0_off23 L k 2 = 0 := by
  have hk : k.val < 63 := (bv_facts k).1
  rw [k0_off23_eq]; refine ⟨?_, rfl, rfl⟩
  show 256 * (L 1).val + 128 * (L 0).val + 2 * k.val + 3 = 128 * (2 * (L 1).val + (L 0).val) + (fr (2 * k.val + 3)).val
  rw [fr_val (by omega)]; omega

/-- A row copy under way from a row buffer: landed, local row `r` holds the one-hot array and the buffer comes back. -/
abbrev flightOf (sm : DmaSem sig) (sb : Memref sig .scVector .vmem S200x128 .f32) (r : Fin 128) (g : Buf (Elt F) (sb.view.loc (thr d L))) : sProp 𝕄 :=
  Transfers.Flight countersEmb (thr d L) (SemLoc.dma sm) (default : HIx 1) 819200
    iprop((doneRow m d L r) ∗ (sb.view.loc (thr d L) ↦[sb.view.set]{fullShare} g))

def inv3 (X : IVec S200x128 32) (O : CellTallies nD τ sig (HIx 1)) (W : Waits sig (HIx 1)) (k : ℕ) (_ : PUnit) : sProp 𝕄 :=
  iprop(Transfers.MayWaits (thr d L) (none : HIx 1) O
    ∗ ((sX : Memref sig .scVector .vmem S200x128 .i32).view.loc (thr d L) ↦{fullShare} X)
    ∗ (∃ gA : Buf (Elt F) ((sB0 : Memref sig .scVector .vmem S200x128 .f32).view.loc (thr d L)),
        ⌜Cert.OneHot.Pure.RowIs (F := F) (Cert.OneHot.Pure.col X (2 * k)) gA⌝
        ∗ flightOf m d L cc0_scratch3.sem sB0 (fr (2 * k)) gA
        ∗ ((sB0 : Memref sig .scVector .vmem S200x128 .f32).view.loc (thr d L) ↦[Finset.univ \ (sB0 : Memref sig .scVector .vmem S200x128 .f32).view.set]{fullShare} gA))
    ∗ (∃ gB : Buf (Elt F) ((sB1 : Memref sig .scVector .vmem S200x128 .f32).view.loc (thr d L)),
        ⌜Cert.OneHot.Pure.RowIs (F := F) (Cert.OneHot.Pure.col X (2 * k + 1)) gB⌝
        ∗ flightOf m d L cc0_scratch4.sem sB1 (fr (2 * k + 1)) gB
        ∗ ((sB1 : Memref sig .scVector .vmem S200x128 .f32).view.loc (thr d L) ↦[Finset.univ \ (sB1 : Memref sig .scVector .vmem S200x128 .f32).view.set]{fullShare} gB))
    ∗ bigSep (Finset.univ.filter fun r : Fin 128 => r.val < 2 * k) (doneRow m d L)
    ∗ bigSep (Finset.univ.filter fun r : Fin 128 => 2 * k + 2 ≤ r.val) (todoRow m d L)
    ∗ ∃ W', ⌜∀ p ∈ W', p ∈ W ∨ p.2 = none⌝ ∗ owes (thr d L) O W')

set_option maxHeartbeats 4000000 in
/-- One trip of the main loop. -/
theorem trip3 (O : CellTallies nD τ sig (HIx 1)) (X : IVec S200x128 32)
    (hXdef : ∀ j, X j = (xtVal m d : (⟨S200x4096, .i32⟩ : BufTy).Contents (Elt F)) ((xtCols L).view.emb j))
    (hXr : ∀ j, (X j).toNat < 128) (hO : ∀ g, O g none = 0)
    (W : Waits sig (HIx 1)) (v2 : BitVec 32) (k : Fin k0_t3_loop.trips) (acc : PUnit) :
    inv3 (F := F) m d L X O W k.val acc
      ⊢ wp frame (wpE (defs₀ (F := F)) 𝒱₀ (thr d L) none) Set.univ
          (k0_t3_body L xtV (Memref.isWhole_whole _) oV (Memref.isWhole_whole _) sX (Memref.isWhole_whole _) sB0 (Memref.isWhole_whole _)
            sB1 (Memref.isWhole_whole _) cc0_scratch3 cc0_scratch4 cc0_scoped0 v2 k0_pay58 k0_pay59
            (iota .scVector S16 32 [0] iota_S16_d0_w32_scVector) k acc)
          (inv3 (F := F) m d L X O W (k.val + 1)) := by
  unfold inv3 flightOf
  iintro ⟨#Hmw, Hsx', ⟨%gA, %hA, Hs3, Hb0⟩, ⟨%gB, %hB, Hs4, Hb1⟩, Hdone, Htodo, %W', %hW', HO⟩
  obtain ⟨hk, e115, e121, e116, e217⟩ := bv_facts k
  ihave Ht := (Entails.of_eq (bigSep_from_succ (F := F) (todoRow m d L) (2 * k.val + 2) (by omega))) $$ Htodo
  icases Ht with ⟨HrA, Htodo⟩
  ihave Ht := (Entails.of_eq (bigSep_from_succ (F := F) (todoRow m d L) (2 * k.val + 2 + 1) (by omega))) $$ Htodo
  icases Ht with ⟨HrB, Htodo⟩
  unfold k0_t3_body

  -- the copy of row 2 k has landed: the first row buffer comes back; row 2 k is cleared out of it
  have hrz : ∀ x : S16.Idx, (rvc (Scalar.subi (bv115 k) 2#32) x).toNat = 2 * k.val := fun x => (rvc_toNat _ x).trans e121
  have z0 := Cert.OneHot.Pure.ScatTo.zero (F := F) (Cert.OneHot.Pure.col X (2 * k.val)) zero gA

  -- tokens 0 .. 15
  sl_exec (disch := exact Cert.OneHot.Pure.chk_load _ _ 0 (2 * k.val) (lvc_toNat 0#32 0 rfl (by omega)) hrz (by omega) (by omega))
  iapply (wp_loadX (F := F) d L _) $$ Hsx'
  iintro %v101 ⟨Hsx', %hv101⟩
  have hc101 : ∀ x : S16.Idx, ((v101 : IVec S16 32) x).toNat = Cert.OneHot.Pure.col X (2 * k.val) (0 + (x 0).val) := fun x => by
    rw [hv101]; exact Cert.OneHot.Pure.loadIdx_col (F := F) X _ _ _ 0 (2 * k.val) (lvc_toNat 0#32 0 rfl (by omega)) hrz x
  sl_exec (disch := exact Cert.OneHot.Pure.chk_store _ _ 0 (lvc_toNat 0#32 0 rfl (by omega)) (fun x => by rw [hc101 x]; exact Cert.OneHot.Pure.col_lt hXr _ _) (by omega))
  iapply (wp_store_sB0 (F := F) d L _) $$ Hb0
  iintro %g101 ⟨Hb0, %hg101⟩
  have s101 := Cert.OneHot.Pure.ScatTo.step (f' := g101) 0 z0 (by omega) (by omega) (fun j => by
    rw [hg101]; exact Cert.OneHot.Pure.storeIdx_const (F := F) _ _ _ zero _ 0 (Cert.OneHot.Pure.col X (2 * k.val)) (lvc_toNat 0#32 0 rfl (by omega)) hc101 j)
  clear hv101 hg101
  -- tokens 16 .. 31
  sl_exec (disch := exact Cert.OneHot.Pure.chk_load _ _ 16 (2 * k.val) (lvc_toNat 16#32 16 rfl (by omega)) hrz (by omega) (by omega))
  iapply (wp_loadX (F := F) d L _) $$ Hsx'
  iintro %v102 ⟨Hsx', %hv102⟩
  have hc102 : ∀ x : S16.Idx, ((v102 : IVec S16 32) x).toNat = Cert.OneHot.Pure.col X (2 * k.val) (16 + (x 0).val) := fun x => by
    rw [hv102]; exact Cert.OneHot.Pure.loadIdx_col (F := F) X _ _ _ 16 (2 * k.val) (lvc_toNat 16#32 16 rfl (by omega)) hrz x
  sl_exec (disch := exact Cert.OneHot.Pure.chk_store _ _ 16 (lvc_toNat 16#32 16 rfl (by omega)) (fun x => by rw [hc102 x]; exact Cert.OneHot.Pure.col_lt hXr _ _) (by omega))
  iapply (wp_store_sB0 (F := F) d L _) $$ Hb0
  iintro %g102 ⟨Hb0, %hg102⟩
  have s102 := Cert.OneHot.Pure.ScatTo.step (f' := g102) 16 s101 (by omega) (by omega) (fun j => by
    rw [hg102]; exact Cert.OneHot.Pure.storeIdx_const (F := F) _ _ _ zero _ 16 (Cert.OneHot.Pure.col X (2 * k.val)) (lvc_toNat 16#32 16 rfl (by omega)) hc102 j)
  clear hv102 hg102
  -- tokens 32 .. 47
  sl_exec (disch := exact Cert.OneHot.Pure.chk_load _ _ 32 (2 * k.val) (lvc_toNat 32#32 32 rfl (by omega)) hrz (by omega) (by omega))
  iapply (wp_loadX (F := F) d L _) $$ Hsx'
  iintro %v103 ⟨Hsx', %hv103⟩
  have hc103 : ∀ x : S16.Idx, ((v103 : IVec S16 32) x).toNat = Cert.OneHot.Pure.col X (2 * k.val) (32 + (x 0).val) := fun x => by
    rw [hv103]; exact Cert.OneHot.Pure.loadIdx_col (F := F) X _ _ _ 32 (2 * k.val) (lvc_toNat 32#32 32 rfl (by omega)) hrz x
  sl_exec (disch := exact Cert.OneHot.Pure.chk_store _ _ 32 (lvc_toNat 32#32 32 rfl (by omega)) (fun x => by rw [hc103 x]; exact Cert.OneHot.Pure.col_lt hXr _ _) (by omega))
  iapply (wp_store_sB0 (F := F) d L _) $$ Hb0
  iintro %g103 ⟨Hb0, %hg103⟩
  have s103 := Cert.OneHot.Pure.ScatTo.step (f' := g103) 32 s102 (by omega) (by omega) (fun j => by
    rw [hg103]; exact Cert.OneHot.Pure.storeIdx_const (F := F) _ _ _ zero _ 32 (Cert.OneHot.Pure.col X (2 * k.val)) (lvc_toNat 32#32 32 rfl (by omega)) hc103 j)
  clear hv103 hg103
  -- tokens 48 .. 63
  sl_exec (disch := exact Cert.OneHot.Pure.chk_load _ _ 48 (2 * k.val) (lvc_toNat 48#32 48 rfl (by omega)) hrz (by omega) (by omega))
  iapply (wp_loadX (F := F) d L _) $$ Hsx'
  iintro %v104 ⟨Hsx', %hv104⟩
  have hc104 : ∀ x : S16.Idx, ((v104 : IVec S16 32) x).toNat = Cert.OneHot.Pure.col X (2 * k.val) (48 + (x 0).val) := fun x => by
    rw [hv104]; exact Cert.OneHot.Pure.loadIdx_col (F := F) X _ _ _ 48 (2 * k.val) (lvc_toNat 48#32 48 rfl (by omega)) hrz x
  sl_exec (disch := exact Cert.OneHot.Pure.chk_store _ _ 48 (lvc_toNat 48#32 48 rfl (by omega)) (fun x => by rw [hc104 x]; exact Cert.OneHot.Pure.col_lt hXr _ _) (by omega))
  iapply (wp_store_sB0 (F := F) d L _) $$ Hb0
  iintro %g104 ⟨Hb0, %hg104⟩
  have s104 := Cert.OneHot.Pure.ScatTo.step (f' := g104) 48 s103 (by omega) (by omega) (fun j => by
    rw [hg104]; exact Cert.OneHot.Pure.storeIdx_const (F := F) _ _ _ zero _ 48 (Cert.OneHot.Pure.col X (2 * k.val)) (lvc_toNat 48#32 48 rfl (by omega)) hc104 j)
  clear hv104 hg104
  -- tokens 64 .. 79
  sl_exec (disch := exact Cert.OneHot.Pure.chk_load _ _ 64 (2 * k.val) (lvc_toNat 64#32 64 rfl (by omega)) hrz (by omega) (by omega))
  iapply (wp_loadX (F := F) d L _) $$ Hsx'
  iintro %v105 ⟨Hsx', %hv105⟩
  have hc105 : ∀ x : S16.Idx, ((v105 : IVec S16 32) x).toNat = Cert.OneHot.Pure.col X (2 * k.val) (64 + (x 0).val) := fun x => by
    rw [hv105]; exact Cert.OneHot.Pure.loadIdx_col (F := F) X _ _ _ 64 (2 * k.val) (lvc_toNat 64#32 64 rfl (by omega)) hrz x
  sl_exec (disch := exact Cert.OneHot.Pure.chk_store _ _ 64 (lvc_toNat 64#32 64 rfl (by omega)) (fun x => by rw [hc105 x]; exact Cert.OneHot.Pure.col_lt hXr _ _) (by omega))
  iapply (wp_store_sB0 (F := F) d L _) $$ Hb0
  iintro %g105 ⟨Hb0, %hg105⟩
  have s105 := Cert.OneHot.Pure.ScatTo.step (f' := g105) 64 s104 (by omega) (by omega) (fun j => by
    rw [hg105]; exact Cert.OneHot.Pure.storeIdx_const (F := F) _ _ _ zero _ 64 (Cert.OneHot.Pure.col X (2 * k.val)) (lvc_toNat 64#32 64 rfl (by omega)) hc105 j)
  clear hv105 hg105
  -- tokens 80 .. 95
  sl_exec (disch := exact Cert.OneHot.Pure.chk_load _ _ 80 (2 * k.val) (lvc_toNat 80#32 80 rfl (by omega)) hrz (by omega) (by omega))
  iapply (wp_loadX (F := F) d L _) $$ Hsx'
  iintro %v106 ⟨Hsx', %hv106⟩
  have hc106 : ∀ x : S16.Idx, ((v106 : IVec S16 32) x).toNat = Cert.OneHot.Pure.col X (2 * k.val) (80 + (x 0).val) := fun x => by
    rw [hv106]; exact Cert.OneHot.Pure.loadIdx_col (F := F) X _ _ _ 80 (2 * k.val) (lvc_toNat 80#32 80 rfl (by omega)) hrz x
  sl_exec (disch := exact Cert.OneHot.Pure.chk_store _ _ 80 (lvc_toNat 80#32 80 rfl (by omega)) (fun x => by rw [hc106 x]; exact Cert.OneHot.Pure.col_lt hXr _ _) (by omega))
  iapply (wp_store_sB0 (F := F) d L _) $$ Hb0
  iintro %g106 ⟨Hb0, %hg106⟩
  have s106 := Cert.OneHot.Pure.ScatTo.step (f' := g106) 80 s105 (by omega) (by omega) (fun j => by
    rw [hg106]; exact Cert.OneHot.Pure.storeIdx_const (F := F) _ _ _ zero _ 80 (Cert.OneHot.Pure.col X (2 * k.val)) (lvc_toNat 80#32 80 rfl (by omega)) hc106 j)
  clear hv106 hg106
  -- tokens 96 .. 111
  sl_exec (disch := exact Cert.OneHot.Pure.chk_load _ _ 96 (2 * k.val) (lvc_toNat 96#32 96 rfl (by omega)) hrz (by omega) (by omega))
  iapply (wp_loadX (F := F) d L _) $$ Hsx'
  iintro %v107 ⟨Hsx', %hv107⟩
  have hc107 : ∀ x : S16.Idx, ((v107 : IVec S16 32) x).toNat = Cert.OneHot.Pure.col X (2 * k.val) (96 + (x 0).val) := fun x => by
    rw [hv107]; exact Cert.OneHot.Pure.loadIdx_col (F := F) X _ _ _ 96 (2 * k.val) (lvc_toNat 96#32 96 rfl (by omega)) hrz x
  sl_exec (disch := exact Cert.OneHot.Pure.chk_store _ _ 96 (lvc_toNat 96#32 96 rfl (by omega)) (fun x => by rw [hc107 x]; exact Cert.OneHot.Pure.col_lt hXr _ _) (by omega))
  iapply (wp_store_sB0 (F := F) d L _) $$ Hb0
  iintro %g107 ⟨Hb0, %hg107⟩
  have s107 := Cert.OneHot.Pure.ScatTo.step (f' := g107) 96 s106 (by omega) (by omega) (fun j => by
    rw [hg107]; exact Cert.OneHot.Pure.storeIdx_const (F := F) _ _ _ zero _ 96 (Cert.OneHot.Pure.col X (2 * k.val)) (lvc_toNat 96#32 96 rfl (by omega)) hc107 j)
  clear hv107 hg107
  -- tokens 112 .. 127
  sl_exec (disch := exact Cert.OneHot.Pure.chk_load _ _ 112 (2 * k.val) (lvc_toNat 112#32 112 rfl (by omega)) hrz (by omega) (by omega))
  iapply (wp_loadX (F := F) d L _) $$ Hsx'
  iintro %v108 ⟨Hsx', %hv108⟩
  have hc108 : ∀ x : S16.Idx, ((v108 : IVec S16 32) x).toNat = Cert.OneHot.Pure.col X (2 * k.val) (112 + (x 0).val) := fun x => by
    rw [hv108]; exact Cert.OneHot.Pure.loadIdx_col (F := F) X _ _ _ 112 (2 * k.val) (lvc_toNat 112#32 112 rfl (by omega)) hrz x
  sl_exec (disch := exact Cert.OneHot.Pure.chk_store _ _ 112 (lvc_toNat 112#32 112 rfl (by omega)) (fun x => by rw [hc108 x]; exact Cert.OneHot.Pure.col_lt hXr _ _) (by omega))
  iapply (wp_store_sB0 (F := F) d L _) $$ Hb0
  iintro %g108 ⟨Hb0, %hg108⟩
  have s108 := Cert.OneHot.Pure.ScatTo.step (f' := g108) 112 s107 (by omega) (by omega) (fun j => by
    rw [hg108]; exact Cert.OneHot.Pure.storeIdx_const (F := F) _ _ _ zero _ 112 (Cert.OneHot.Pure.col X (2 * k.val)) (lvc_toNat 112#32 112 rfl (by omega)) hc108 j)
  clear hv108 hg108
  -- tokens 128 .. 143
  sl_exec (disch := exact Cert.OneHot.Pure.chk_load _ _ 128 (2 * k.val) (lvc_toNat 128#32 128 rfl (by omega)) hrz (by omega) (by omega))
  iapply (wp_loadX (F := F) d L _) $$ Hsx'
  iintro %v109 ⟨Hsx', %hv109⟩
  have hc109 : ∀ x : S16.Idx, ((v109 : IVec S16 32) x).toNat = Cert.OneHot.Pure.col X (2 * k.val) (128 + (x 0).val) := fun x => by
    rw [hv109]; exact Cert.OneHot.Pure.loadIdx_col (F := F) X _ _ _ 128 (2 * k.val) (lvc_toNat 128#32 128 rfl (by omega)) hrz x
  sl_exec (disch := exact Cert.OneHot.Pure.chk_store _ _ 128 (lvc_toNat 128#32 128 rfl (by omega)) (fun x => by rw [hc109 x]; exact Cert.OneHot.Pure.col_lt hXr _ _) (by omega))
  iapply (wp_store_sB0 (F := F) d L _) $$ Hb0
  iintro %g109 ⟨Hb0, %hg109⟩
  have s109 := Cert.OneHot.Pure.ScatTo.step (f' := g109) 128 s108 (by omega) (by omega) (fun j => by
    rw [hg109]; exact Cert.OneHot.Pure.storeIdx_const (F := F) _ _ _ zero _ 128 (Cert.OneHot.Pure.col X (2 * k.val)) (lvc_toNat 128#32 128 rfl (by omega)) hc109 j)
  clear hv109 hg109
  -- tokens 144 .. 159
  sl_exec (disch := exact Cert.OneHot.Pure.chk_load _ _ 144 (2 * k.val) (lvc_toNat 144#32 144 rfl (by omega)) hrz (by omega) (by omega))
  iapply (wp_loadX (F := F) d L _) $$ Hsx'
  iintro %v110 ⟨Hsx', %hv110⟩
  have hc110 : ∀ x : S16.Idx, ((v110 : IVec S16 32) x).toNat = Cert.OneHot.Pure.col X (2 * k.val) (144 + (x 0).val) := fun x => by
    rw [hv110]; exact Cert.OneHot.Pure.loadIdx_col (F := F) X _ _ _ 144 (2 * k.val) (lvc_toNat 144#32 144 rfl (by omega)) hrz x
  sl_exec (disch := exact Cert.OneHot.Pure.chk_store _ _ 144 (lvc_toNat 144#32 144 rfl (by omega)) (fun x => by rw [hc110 x]; exact Cert.OneHot.Pure.col_lt hXr _ _) (by omega))
  iapply (wp_store_sB0 (F := F) d L _) $$ Hb0
  iintro %g110 ⟨Hb0, %hg110⟩
  have s110 := Cert.OneHot.Pure.ScatTo.step (f' := g110) 144 s109 (by omega) (by omega) (fun j => by
    rw [hg110]; exact Cert.OneHot.Pure.storeIdx_const (F := F) _ _ _ zero _ 144 (Cert.OneHot.Pure.col X (2 * k.val)) (lvc_toNat 144#32 144 rfl (by omega)) hc110 j)
  clear hv110 hg110
  -- tokens 160 .. 175
  sl_exec (disch := exact Cert.OneHot.Pure.chk_load _ _ 160 (2 * k.val) (lvc_toNat 160#32 160 rfl (by omega)) hrz (by omega) (by omega))
  iapply (wp_loadX (F := F) d L _) $$ Hsx'
  iintro %v111 ⟨Hsx', %hv111⟩
  have hc111 : ∀ x : S16.Idx, ((v111 : IVec S16 32) x).toNat = Cert.OneHot.Pure.col X (2 * k.val) (160 + (x 0).val) := fun x => by
    rw [hv111]; exact Cert.OneHot.Pure.loadIdx_col (F := F) X _ _ _ 160 (2 * k.val) (lvc_toNat 160#32 160 rfl (by omega)) hrz x
  sl_exec (disch := exact Cert.OneHot.Pure.chk_store _ _ 160 (lvc_toNat 160#32 160 rfl (by omega)) (fun x => by rw [hc111 x]; exact Cert.OneHot.Pure.col_lt hXr _ _) (by omega))
  iapply (wp_store_sB0 (F := F) d L _) $$ Hb0
  iintro %g111 ⟨Hb0, %hg111⟩
  have s111 := Cert.OneHot.Pure.ScatTo.step (f' := g111) 160 s110 (by omega) (by omega) (fun j => by
    rw [hg111]; exact Cert.OneHot.Pure.storeIdx_const (F := F) _ _ _ zero _ 160 (Cert.OneHot.Pure.col X (2 * k.val)) (lvc_toNat 160#32 160 rfl (by omega)) hc111 j)
  clear hv111 hg111
  -- tokens 176 .. 191
  sl_exec (disch := exact Cert.OneHot.Pure.chk_load _ _ 176 (2 * k.val) (lvc_toNat 176#32 176 rfl (by omega)) hrz (by omega) (by omega))
  iapply (wp_loadX (F := F) d L _) $$ Hsx'
  iintro %v112 ⟨Hsx', %hv112⟩
  have hc112 : ∀ x : S16.Idx, ((v112 : IVec S16 32) x).toNat = Cert.OneHot.Pure.col X (2 * k.val) (176 + (x 0).val) := fun x => by
    rw [hv112]; exact Cert.OneHot.Pure.loadIdx_col (F := F) X _ _ _ 176 (2 * k.val) (lvc_toNat 176#32 176 rfl (by omega)) hrz x
  sl_exec (disch := exact Cert.OneHot.Pure.chk_store _ _ 176 (lvc_toNat 176#32 176 rfl (by omega)) (fun x => by rw [hc112 x]; exact Cert.OneHot.Pure.col_lt hXr _ _) (by omega))
  iapply (wp_store_sB0 (F := F) d L _) $$ Hb0
  iintro %g112 ⟨Hb0, %hg112⟩
  have s112 := Cert.OneHot.Pure.ScatTo.step (f' := g112) 176 s111 (by omega) (by omega) (fun j => by
    rw [hg112]; exact Cert.OneHot.Pure.storeIdx_const (F := F) _ _ _ zero _ 176 (Cert.OneHot.Pure.col X (2 * k.val)) (lvc_toNat 176#32 176 rfl (by omega)) hc112 j)
  clear hv112 hg112
  -- tokens 184 .. 199
  sl_exec (disch := exact Cert.OneHot.Pure.chk_load _ _ 184 (2 * k.val) (lvc_toNat 184#32 184 rfl (by omega)) hrz (by omega) (by omega))
  iapply (wp_loadX (F := F) d L _) $$ Hsx'
  iintro %v113 ⟨Hsx', %hv113⟩
  have hc113 : ∀ x : S16.Idx, ((v113 : IVec S16 32) x).toNat = Cert.OneHot.Pure.col X (2 * k.val) (184 + (x 0).val) := fun x => by
    rw [hv113]; exact Cert.OneHot.Pure.loadIdx_col (F := F) X _ _ _ 184 (2 * k.val) (lvc_toNat 184#32 184 rfl (by omega)) hrz x
  sl_exec (disch := exact Cert.OneHot.Pure.chk_store _ _ 184 (lvc_toNat 184#32 184 rfl (by omega)) (fun x => by rw [hc113 x]; exact Cert.OneHot.Pure.col_lt hXr _ _) (by omega))
  iapply (wp_store_sB0 (F := F) d L _) $$ Hb0
  iintro %g113 ⟨Hb0, %hg113⟩
  have s113 := Cert.OneHot.Pure.ScatTo.step (f' := g113) 184 s112 (by omega) (by omega) (fun j => by
    rw [hg113]; exact Cert.OneHot.Pure.storeIdx_const (F := F) _ _ _ zero _ 184 (Cert.OneHot.Pure.col X (2 * k.val)) (lvc_toNat 184#32 184 rfl (by omega)) hc113 j)
  clear hv113 hg113
  have hzA : ∀ j, g113 j = zero := Cert.OneHot.Pure.RowIs.cleared hA (Cert.OneHot.Pure.ScatTo.done s113)
  clear z0 s101 s102 s103 s104 s105 s106 s107 s108 s109 s110 s111 s112 s113 hc101 hc102 hc103 hc104 hc105 hc106 hc107 hc108 hc109 hc110 hc111 hc112 hc113
  -- and row 2 k + 2 is encoded into it
  have hro : ∀ x : S16.Idx, (rvc (bv115 k) x).toNat = 2 * k.val + 2 := fun x => (rvc_toNat _ x).trans e115
  have o0 := Cert.OneHot.Pure.ScatTo.zero (F := F) (Cert.OneHot.Pure.col X (2 * k.val + 2)) one g113

  -- tokens 0 .. 15
  sl_exec (disch := exact Cert.OneHot.Pure.chk_load _ _ 0 (2 * k.val + 2) (lvc_toNat 0#32 0 rfl (by omega)) hro (by omega) (by omega))
  iapply (wp_loadX (F := F) d L _) $$ Hsx'
  iintro %v121 ⟨Hsx', %hv121⟩
  have hc121 : ∀ x : S16.Idx, ((v121 : IVec S16 32) x).toNat = Cert.OneHot.Pure.col X (2 * k.val + 2) (0 + (x 0).val) := fun x => by
    rw [hv121]; exact Cert.OneHot.Pure.loadIdx_col (F := F) X _ _ _ 0 (2 * k.val + 2) (lvc_toNat 0#32 0 rfl (by omega)) hro x
  sl_exec (disch := exact Cert.OneHot.Pure.chk_store _ _ 0 (lvc_toNat 0#32 0 rfl (by omega)) (fun x => by rw [hc121 x]; exact Cert.OneHot.Pure.col_lt hXr _ _) (by omega))
  iapply (wp_store_sB0 (F := F) d L _) $$ Hb0
  iintro %g121 ⟨Hb0, %hg121⟩
  have s121 := Cert.OneHot.Pure.ScatTo.step (f' := g121) 0 o0 (by omega) (by omega) (fun j => by
    rw [hg121]; exact Cert.OneHot.Pure.storeIdx_const (F := F) _ _ _ one _ 0 (Cert.OneHot.Pure.col X (2 * k.val + 2)) (lvc_toNat 0#32 0 rfl (by omega)) hc121 j)
  clear hv121 hg121
  -- tokens 16 .. 31
  sl_exec (disch := exact Cert.OneHot.Pure.chk_load _ _ 16 (2 * k.val + 2) (lvc_toNat 16#32 16 rfl (by omega)) hro (by omega) (by omega))
  iapply (wp_loadX (F := F) d L _) $$ Hsx'
  iintro %v122 ⟨Hsx', %hv122⟩
  have hc122 : ∀ x : S16.Idx, ((v122 : IVec S16 32) x).toNat = Cert.OneHot.Pure.col X (2 * k.val + 2) (16 + (x 0).val) := fun x => by
    rw [hv122]; exact Cert.OneHot.Pure.loadIdx_col (F := F) X _ _ _ 16 (2 * k.val + 2) (lvc_toNat 16#32 16 rfl (by omega)) hro x
  sl_exec (disch := exact Cert.OneHot.Pure.chk_store _ _ 16 (lvc_toNat 16#32 16 rfl (by omega)) (fun x => by rw [hc122 x]; exact Cert.OneHot.Pure.col_lt hXr _ _) (by omega))
  iapply (wp_store_sB0 (F := F) d L _) $$ Hb0
  iintro %g122 ⟨Hb0, %hg122⟩
  have s122 := Cert.OneHot.Pure.ScatTo.step (f' := g122) 16 s121 (by omega) (by omega) (fun j => by
    rw [hg122]; exact Cert.OneHot.Pure.storeIdx_const (F := F) _ _ _ one _ 16 (Cert.OneHot.Pure.col X (2 * k.val + 2)) (lvc_toNat 16#32 16 rfl (by omega)) hc122 j)
  clear hv122 hg122
  -- tokens 32 .. 47
  sl_exec (disch := exact Cert.OneHot.Pure.chk_load _ _ 32 (2 * k.val + 2) (lvc_toNat 32#32 32 rfl (by omega)) hro (by omega) (by omega))
  iapply (wp_loadX (F := F) d L _) $$ Hsx'
  iintro %v123 ⟨Hsx', %hv123⟩
  have hc123 : ∀ x : S16.Idx, ((v123 : IVec S16 32) x).toNat = Cert.OneHot.Pure.col X (2 * k.val + 2) (32 + (x 0).val) := fun x => by
    rw [hv123]; exact Cert.OneHot.Pure.loadIdx_col (F := F) X _ _ _ 32 (2 * k.val + 2) (lvc_toNat 32#32 32 rfl (by omega)) hro x
  sl_exec (disch := exact Cert.OneHot.Pure.chk_store _ _ 32 (lvc_toNat 32#32 32 rfl (by omega)) (fun x => by rw [hc123 x]; exact Cert.OneHot.Pure.col_lt hXr _ _) (by omega))
  iapply (wp_store_sB0 (F := F) d L _) $$ Hb0
  iintro %g123 ⟨Hb0, %hg123⟩
  have s123 := Cert.OneHot.Pure.ScatTo.step (f' := g123) 32 s122 (by omega) (by omega) (fun j => by
    rw [hg123]; exact Cert.OneHot.Pure.storeIdx_const (F := F) _ _ _ one _ 32 (Cert.OneHot.Pure.col X (2 * k.val + 2)) (lvc_toNat 32#32 32 rfl (by omega)) hc123 j)
  clear hv123 hg123
  -- tokens 48 .. 63
  sl_exec (disch := exact Cert.OneHot.Pure.chk_load _ _ 48 (2 * k.val + 2) (lvc_toNat 48#32 48 rfl (by omega)) hro (by omega) (by omega))
  iapply (wp_loadX (F := F) d L _) $$ Hsx'
  iintro %v124 ⟨Hsx', %hv124⟩
  have hc124 : ∀ x : S16.Idx, ((v124 : IVec S16 32) x).toNat = Cert.OneHot.Pure.col X (2 * k.val + 2) (48 + (x 0).val) := fun x => by
    rw [hv124]; exact Cert.OneHot.Pure.loadIdx_col (F := F) X _ _ _ 48 (2 * k.val + 2) (lvc_toNat 48#32 48 rfl (by omega)) hro x
  sl_exec (disch := exact Cert.OneHot.Pure.chk_store _ _ 48 (lvc_toNat 48#32 48 rfl (by omega)) (fun x => by rw [hc124 x]; exact Cert.OneHot.Pure.col_lt hXr _ _) (by omega))
  iapply (wp_store_sB0 (F := F) d L _) $$ Hb0
  iintro %g124 ⟨Hb0, %hg124⟩
  have s124 := Cert.OneHot.Pure.ScatTo.step (f' := g124) 48 s123 (by omega) (by omega) (fun j => by
    rw [hg124]; exact Cert.OneHot.Pure.storeIdx_const (F := F) _ _ _ one _ 48 (Cert.OneHot.Pure.col X (2 * k.val + 2)) (lvc_toNat 48#32 48 rfl (by omega)) hc124 j)
  clear hv124 hg124
  -- tokens 64 .. 79
  sl_exec (disch := exact Cert.OneHot.Pure.chk_load _ _ 64 (2 * k.val + 2) (lvc_toNat 64#32 64 rfl (by omega)) hro (by omega) (by omega))
  iapply (wp_loadX (F := F) d L _) $$ Hsx'
  iintro %v125 ⟨Hsx', %hv125⟩
  have hc125 : ∀ x : S16.Idx, ((v125 : IVec S16 32) x).toNat = Cert.OneHot.Pure.col X (2 * k.val + 2) (64 + (x 0).val) := fun x => by
    rw [hv125]; exact Cert.OneHot.Pure.loadIdx_col (F := F) X _ _ _ 64 (2 * k.val + 2) (lvc_toNat 64#32 64 rfl (by omega)) hro x
  sl_exec (disch := exact Cert.OneHot.Pure.chk_store _ _ 64 (lvc_toNat 64#32 64 rfl (by omega)) (fun x => by rw [hc125 x]; exact Cert.OneHot.Pure.col_lt hXr _ _) (by omega))
  iapply (wp_store_sB0 (F := F) d L _) $$ Hb0
  iintro %g125 ⟨Hb0, %hg125⟩
  have s125 := Cert.OneHot.Pure.ScatTo.step (f' := g125) 64 s124 (by omega) (by omega) (fun j => by
    rw [hg125]; exact Cert.OneHot.Pure.storeIdx_const (F := F) _ _ _ one _ 64 (Cert.OneHot.Pure.col X (2 * k.val + 2)) (lvc_toNat 64#32 64 rfl (by omega)) hc125 j)
  clear hv125 hg125
  -- tokens 80 .. 95
  sl_exec (disch := exact Cert.OneHot.Pure.chk_load _ _ 80 (2 * k.val + 2) (lvc_toNat 80#32 80 rfl (by omega)) hro (by omega) (by omega))
  iapply (wp_loadX (F := F) d L _) $$ Hsx'
  iintro %v126 ⟨Hsx', %hv126⟩
  have hc126 : ∀ x : S16.Idx, ((v126 : IVec S16 32) x).toNat = Cert.OneHot.Pure.col X (2 * k.val + 2) (80 + (x 0).val) := fun x => by
    rw [hv126]; exact Cert.OneHot.Pure.loadIdx_col (F := F) X _ _ _ 80 (2 * k.val + 2) (lvc_toNat 80#32 80 rfl (by omega)) hro x
  sl_exec (disch := exact Cert.OneHot.Pure.chk_store _ _ 80 (lvc_toNat 80#32 80 rfl (by omega)) (fun x => by rw [hc126 x]; exact Cert.OneHot.Pure.col_lt hXr _ _) (by omega))
  iapply (wp_store_sB0 (F := F) d L _) $$ Hb0
  iintro %g126 ⟨Hb0, %hg126⟩
  have s126 := Cert.OneHot.Pure.ScatTo.step (f' := g126) 80 s125 (by omega) (by omega) (fun j => by
    rw [hg126]; exact Cert.OneHot.Pure.storeIdx_const (F := F) _ _ _ one _ 80 (Cert.OneHot.Pure.col X (2 * k.val + 2)) (lvc_toNat 80#32 80 rfl (by omega)) hc126 j)
  clear hv126 hg126
  -- tokens 96 .. 111
  sl_exec (disch := exact Cert.OneHot.Pure.chk_load _ _ 96 (2 * k.val + 2) (lvc_toNat 96#32 96 rfl (by omega)) hro (by omega) (by omega))
  iapply (wp_loadX (F := F) d L _) $$ Hsx'
  iintro %v127 ⟨Hsx', %hv127⟩
  have hc127 : ∀ x : S16.Idx, ((v127 : IVec S16 32) x).toNat = Cert.OneHot.Pure.col X (2 * k.val + 2) (96 + (x 0).val) := fun x => by
    rw [hv127]; exact Cert.OneHot.Pure.loadIdx_col (F := F) X _ _ _ 96 (2 * k.val + 2) (lvc_toNat 96#32 96 rfl (by omega)) hro x
  sl_exec (disch := exact Cert.OneHot.Pure.chk_store _ _ 96 (lvc_toNat 96#32 96 rfl (by omega)) (fun x => by rw [hc127 x]; exact Cert.OneHot.Pure.col_lt hXr _ _) (by omega))
  iapply (wp_store_sB0 (F := F) d L _) $$ Hb0
  iintro %g127 ⟨Hb0, %hg127⟩
  have s127 := Cert.OneHot.Pure.ScatTo.step (f' := g127) 96 s126 (by omega) (by omega) (fun j => by
    rw [hg127]; exact Cert.OneHot.Pure.storeIdx_const (F := F) _ _ _ one _ 96 (Cert.OneHot.Pure.col X (2 * k.val + 2)) (lvc_toNat 96#32 96 rfl (by omega)) hc127 j)
  clear hv127 hg127
  -- tokens 112 .. 127
  sl_exec (disch := exact Cert.OneHot.Pure.chk_load _ _ 112 (2 * k.val + 2) (lvc_toNat 112#32 112 rfl (by omega)) hro (by omega) (by omega))
  iapply (wp_loadX (F := F) d L _) $$ Hsx'
  iintro %v128 ⟨Hsx', %hv128⟩
  have hc128 : ∀ x : S16.Idx, ((v128 : IVec S16 32) x).toNat = Cert.OneHot.Pure.col X (2 * k.val + 2) (112 + (x 0).val) := fun x => by
    rw [hv128]; exact Cert.OneHot.Pure.loadIdx_col (F := F) X _ _ _ 112 (2 * k.val + 2) (lvc_toNat 112#32 112 rfl (by omega)) hro x
  sl_exec (disch := exact Cert.OneHot.Pure.chk_store _ _ 112 (lvc_toNat 112#32 112 rfl (by omega)) (fun x => by rw [hc128 x]; exact Cert.OneHot.Pure.col_lt hXr _ _) (by omega))
  iapply (wp_store_sB0 (F := F) d L _) $$ Hb0
  iintro %g128 ⟨Hb0, %hg128⟩
  have s128 := Cert.OneHot.Pure.ScatTo.step (f' := g128) 112 s127 (by omega) (by omega) (fun j => by
    rw [hg128]; exact Cert.OneHot.Pure.storeIdx_const (F := F) _ _ _ one _ 112 (Cert.OneHot.Pure.col X (2 * k.val + 2)) (lvc_toNat 112#32 112 rfl (by omega)) hc128 j)
  clear hv128 hg128
  -- tokens 128 .. 143
  sl_exec (disch := exact Cert.OneHot.Pure.chk_load _ _ 128 (2 * k.val + 2) (lvc_toNat 128#32 128 rfl (by omega)) hro (by omega) (by omega))
  iapply (wp_loadX (F := F) d L _) $$ Hsx'
  iintro %v129 ⟨Hsx', %hv129⟩
  have hc129 : ∀ x : S16.Idx, ((v129 : IVec S16 32) x).toNat = Cert.OneHot.Pure.col X (2 * k.val + 2) (128 + (x 0).val) := fun x => by
    rw [hv129]; exact Cert.OneHot.Pure.loadIdx_col (F := F) X _ _ _ 128 (2 * k.val + 2) (lvc_toNat 128#32 128 rfl (by omega)) hro x
  sl_exec (disch := exact Cert.OneHot.Pure.chk_store _ _ 128 (lvc_toNat 128#32 128 rfl (by omega)) (fun x => by rw [hc129 x]; exact Cert.OneHot.Pure.col_lt hXr _ _) (by omega))
  iapply (wp_store_sB0 (F := F) d L _) $$ Hb0
  iintro %g129 ⟨Hb0, %hg129⟩
  have s129 := Cert.OneHot.Pure.ScatTo.step (f' := g129) 128 s128 (by omega) (by omega) (fun j => by
    rw [hg129]; exact Cert.OneHot.Pure.storeIdx_const (F := F) _ _ _ one _ 128 (Cert.OneHot.Pure.col X (2 * k.val + 2)) (lvc_toNat 128#32 128 rfl (by omega)) hc129 j)
  clear hv129 hg129
  -- tokens 144 .. 159
  sl_exec (disch := exact Cert.OneHot.Pure.chk_load _ _ 144 (2 * k.val + 2) (lvc_toNat 144#32 144 rfl (by omega)) hro (by omega) (by omega))
  iapply (wp_loadX (F := F) d L _) $$ Hsx'
  iintro %v130 ⟨Hsx', %hv130⟩
  have hc130 : ∀ x : S16.Idx, ((v130 : IVec S16 32) x).toNat = Cert.OneHot.Pure.col X (2 * k.val + 2) (144 + (x 0).val) := fun x => by
    rw [hv130]; exact Cert.OneHot.Pure.loadIdx_col (F := F) X _ _ _ 144 (2 * k.val + 2) (lvc_toNat 144#32 144 rfl (by omega)) hro x
  sl_exec (disch := exact Cert.OneHot.Pure.chk_store _ _ 144 (lvc_toNat 144#32 144 rfl (by omega)) (fun x => by rw [hc130 x]; exact Cert.OneHot.Pure.col_lt hXr _ _) (by omega))
  iapply (wp_store_sB0 (F := F) d L _) $$ Hb0
  iintro %g130 ⟨Hb0, %hg130⟩
  have s130 := Cert.OneHot.Pure.ScatTo.step (f' := g130) 144 s129 (by omega) (by omega) (fun j => by
    rw [hg130]; exact Cert.OneHot.Pure.storeIdx_const (F := F) _ _ _ one _ 144 (Cert.OneHot.Pure.col X (2 * k.val + 2)) (lvc_toNat 144#32 144 rfl (by omega)) hc130 j)
  clear hv130 hg130
  -- tokens 160 .. 175
  sl_exec (disch := exact Cert.OneHot.Pure.chk_load _ _ 160 (2 * k.val + 2) (lvc_toNat 160#32 160 rfl (by omega)) hro (by omega) (by omega))
  iapply (wp_loadX (F := F) d L _) $$ Hsx'
  iintro %v131 ⟨Hsx', %hv131⟩
  have hc131 : ∀ x : S16.Idx, ((v131 : IVec S16 32) x).toNat = Cert.OneHot.Pure.col X (2 * k.val + 2) (160 + (x 0).val) := fun x => by
    rw [hv131]; exact Cert.OneHot.Pure.loadIdx_col (F := F) X _ _ _ 160 (2 * k.val + 2) (lvc_toNat 160#32 160 rfl (by omega)) hro x
  sl_exec (disch := exact Cert.OneHot.Pure.chk_store _ _ 160 (lvc_toNat 160#32 160 rfl (by omega)) (fun x => by rw [hc131 x]; exact Cert.OneHot.Pure.col_lt hXr _ _) (by omega))
  iapply (wp_store_sB0 (F := F) d L _) $$ Hb0
  iintro %g131 ⟨Hb0, %hg131⟩
  have s131 := Cert.OneHot.Pure.ScatTo.step (f' := g131) 160 s130 (by omega) (by omega) (fun j => by
    rw [hg131]; exact Cert.OneHot.Pure.storeIdx_const (F := F) _ _ _ one _ 160 (Cert.OneHot.Pure.col X (2 * k.val + 2)) (lvc_toNat 160#32 160 rfl (by omega)) hc131 j)
  clear hv131 hg131
  -- tokens 176 .. 191
  sl_exec (disch := exact Cert.OneHot.Pure.chk_load _ _ 176 (2 * k.val + 2) (lvc_toNat 176#32 176 rfl (by omega)) hro (by omega) (by omega))
  iapply (wp_loadX (F := F) d L _) $$ Hsx'
  iintro %v132 ⟨Hsx', %hv132⟩
  have hc132 : ∀ x : S16.Idx, ((v132 : IVec S16 32) x).toNat = Cert.OneHot.Pure.col X (2 * k.val + 2) (176 + (x 0).val) := fun x => by
    rw [hv132]; exact Cert.OneHot.Pure.loadIdx_col (F := F) X _ _ _ 176 (2 * k.val + 2) (lvc_toNat 176#32 176 rfl (by omega)) hro x
  sl_exec (disch := exact Cert.OneHot.Pure.chk_store _ _ 176 (lvc_toNat 176#32 176 rfl (by omega)) (fun x => by rw [hc132 x]; exact Cert.OneHot.Pure.col_lt hXr _ _) (by omega))
  iapply (wp_store_sB0 (F := F) d L _) $$ Hb0
  iintro %g132 ⟨Hb0, %hg132⟩
  have s132 := Cert.OneHot.Pure.ScatTo.step (f' := g132) 176 s131 (by omega) (by omega) (fun j => by
    rw [hg132]; exact Cert.OneHot.Pure.storeIdx_const (F := F) _ _ _ one _ 176 (Cert.OneHot.Pure.col X (2 * k.val + 2)) (lvc_toNat 176#32 176 rfl (by omega)) hc132 j)
  clear hv132 hg132
  -- tokens 184 .. 199
  sl_exec (disch := exact Cert.OneHot.Pure.chk_load _ _ 184 (2 * k.val + 2) (lvc_toNat 184#32 184 rfl (by omega)) hro (by omega) (by omega))
  iapply (wp_loadX (F := F) d L _) $$ Hsx'
  iintro %v133 ⟨Hsx', %hv133⟩
  have hc133 : ∀ x : S16.Idx, ((v133 : IVec S16 32) x).toNat = Cert.OneHot.Pure.col X (2 * k.val + 2) (184 + (x 0).val) := fun x => by
    rw [hv133]; exact Cert.OneHot.Pure.loadIdx_col (F := F) X _ _ _ 184 (2 * k.val + 2) (lvc_toNat 184#32 184 rfl (by omega)) hro x
  sl_exec (disch := exact Cert.OneHot.Pure.chk_store _ _ 184 (lvc_toNat 184#32 184 rfl (by omega)) (fun x => by rw [hc133 x]; exact Cert.OneHot.Pure.col_lt hXr _ _) (by omega))
  iapply (wp_store_sB0 (F := F) d L _) $$ Hb0
  iintro %g133 ⟨Hb0, %hg133⟩
  have s133 := Cert.OneHot.Pure.ScatTo.step (f' := g133) 184 s132 (by omega) (by omega) (fun j => by
    rw [hg133]; exact Cert.OneHot.Pure.storeIdx_const (F := F) _ _ _ one _ 184 (Cert.OneHot.Pure.col X (2 * k.val + 2)) (lvc_toNat 184#32 184 rfl (by omega)) hc133 j)
  clear hv133 hg133
  have hA' : Cert.OneHot.Pure.RowIs (F := F) (Cert.OneHot.Pure.col X (2 * k.val + 2)) g133 := Cert.OneHot.Pure.RowIs.of_zero hzA (Cert.OneHot.Pure.ScatTo.done s133)
  clear o0 s121 s122 s123 s124 s125 s126 s127 s128 s129 s130 s131 s132 s133 hc121 hc122 hc123 hc124 hc125 hc126 hc127 hc128 hc129 hc130 hc131 hc132 hc133
  have hlt2 : 2 * k.val + 2 < 128 := by omega
  have hlt3 : 2 * k.val + 2 + 1 < 128 := by omega
  ihave HrA' := (Entails.of_eq ((congrArg (todoRow m d L) (fr_eq (n := 2 * k.val + 2) hlt2).symm).trans
    (row_todo (F := F) d L (fr (2 * k.val + 2)) (k0_off21 L k) (k0_off21_inb L k) (hoff21 L k) (m (oLoc d))))) $$ HrA
  sl_exec

  have hpayA : Cert.OneHot.Pure.RowIs (F := F) (Cert.OneHot.Pure.col X (fr (2 * k.val + 2)).val) (trip3.sl.dma0 d L g133) := fun j => by
    rw [fr_val hlt2]; exact hA' j
  ihave Hs3 := (Transfers.Flight_mono countersEmb (thr d L) (sep_mono_l (Entails.of_eq (row_landed m d L X hXdef (fr (2 * k.val + 2)) (k0_off21 L k) (k0_off21_inb L k) (hoff21 L k) (m (oLoc d)) (trip3.sl.dma0 d L g133) hpayA)))) $$ Hs3
  -- the copy of row 2 k + 1 has landed: the second row buffer comes back; row 2 k + 1 is cleared out of it
  have hrzB : ∀ x : S16.Idx, (rvc (Scalar.subi (Scalar.addi (bv115 k) 1#32) 2#32) x).toNat = 2 * k.val + 1 := fun x => (rvc_toNat _ x).trans e217
  have zB0 := Cert.OneHot.Pure.ScatTo.zero (F := F) (Cert.OneHot.Pure.col X (2 * k.val + 1)) zero gB

  -- tokens 0 .. 15
  sl_exec (disch := exact Cert.OneHot.Pure.chk_load _ _ 0 (2 * k.val + 1) (lvc_toNat 0#32 0 rfl (by omega)) hrzB (by omega) (by omega))
  iapply (wp_loadX (F := F) d L _) $$ Hsx'
  iintro %v141 ⟨Hsx', %hv141⟩
  have hc141 : ∀ x : S16.Idx, ((v141 : IVec S16 32) x).toNat = Cert.OneHot.Pure.col X (2 * k.val + 1) (0 + (x 0).val) := fun x => by
    rw [hv141]; exact Cert.OneHot.Pure.loadIdx_col (F := F) X _ _ _ 0 (2 * k.val + 1) (lvc_toNat 0#32 0 rfl (by omega)) hrzB x
  sl_exec (disch := exact Cert.OneHot.Pure.chk_store _ _ 0 (lvc_toNat 0#32 0 rfl (by omega)) (fun x => by rw [hc141 x]; exact Cert.OneHot.Pure.col_lt hXr _ _) (by omega))
  iapply (wp_store_sB1 (F := F) d L _) $$ Hb1
  iintro %g141 ⟨Hb1, %hg141⟩
  have s141 := Cert.OneHot.Pure.ScatTo.step (f' := g141) 0 zB0 (by omega) (by omega) (fun j => by
    rw [hg141]; exact Cert.OneHot.Pure.storeIdx_const (F := F) _ _ _ zero _ 0 (Cert.OneHot.Pure.col X (2 * k.val + 1)) (lvc_toNat 0#32 0 rfl (by omega)) hc141 j)
  clear hv141 hg141
  -- tokens 16 .. 31
  sl_exec (disch := exact Cert.OneHot.Pure.chk_load _ _ 16 (2 * k.val + 1) (lvc_toNat 16#32 16 rfl (by omega)) hrzB (by omega) (by omega))
  iapply (wp_loadX (F := F) d L _) $$ Hsx'
  iintro %v142 ⟨Hsx', %hv142⟩
  have hc142 : ∀ x : S16.Idx, ((v142 : IVec S16 32) x).toNat = Cert.OneHot.Pure.col X (2 * k.val + 1) (16 + (x 0).val) := fun x => by
    rw [hv142]; exact Cert.OneHot.Pure.loadIdx_col (F := F) X _ _ _ 16 (2 * k.val + 1) (lvc_toNat 16#32 16 rfl (by omega)) hrzB x
  sl_exec (disch := exact Cert.OneHot.Pure.chk_store _ _ 16 (lvc_toNat 16#32 16 rfl (by omega)) (fun x => by rw [hc142 x]; exact Cert.OneHot.Pure.col_lt hXr _ _) (by omega))
  iapply (wp_store_sB1 (F := F) d L _) $$ Hb1
  iintro %g142 ⟨Hb1, %hg142⟩
  have s142 := Cert.OneHot.Pure.ScatTo.step (f' := g142) 16 s141 (by omega) (by omega) (fun j => by
    rw [hg142]; exact Cert.OneHot.Pure.storeIdx_const (F := F) _ _ _ zero _ 16 (Cert.OneHot.Pure.col X (2 * k.val + 1)) (lvc_toNat 16#32 16 rfl (by omega)) hc142 j)
  clear hv142 hg142
  -- tokens 32 .. 47
  sl_exec (disch := exact Cert.OneHot.Pure.chk_load _ _ 32 (2 * k.val + 1) (lvc_toNat 32#32 32 rfl (by omega)) hrzB (by omega) (by omega))
  iapply (wp_loadX (F := F) d L _) $$ Hsx'
  iintro %v143 ⟨Hsx', %hv143⟩
  have hc143 : ∀ x : S16.Idx, ((v143 : IVec S16 32) x).toNat = Cert.OneHot.Pure.col X (2 * k.val + 1) (32 + (x 0).val) := fun x => by
    rw [hv143]; exact Cert.OneHot.Pure.loadIdx_col (F := F) X _ _ _ 32 (2 * k.val + 1) (lvc_toNat 32#32 32 rfl (by omega)) hrzB x
  sl_exec (disch := exact Cert.OneHot.Pure.chk_store _ _ 32 (lvc_toNat 32#32 32 rfl (by omega)) (fun x => by rw [hc143 x]; exact Cert.OneHot.Pure.col_lt hXr _ _) (by omega))
  iapply (wp_store_sB1 (F := F) d L _) $$ Hb1
  iintro %g143 ⟨Hb1, %hg143⟩
  have s143 := Cert.OneHot.Pure.ScatTo.step (f' := g143) 32 s142 (by omega) (by omega) (fun j => by
    rw [hg143]; exact Cert.OneHot.Pure.storeIdx_const (F := F) _ _ _ zero _ 32 (Cert.OneHot.Pure.col X (2 * k.val + 1)) (lvc_toNat 32#32 32 rfl (by omega)) hc143 j)
  clear hv143 hg143
  -- tokens 48 .. 63
  sl_exec (disch := exact Cert.OneHot.Pure.chk_load _ _ 48 (2 * k.val + 1) (lvc_toNat 48#32 48 rfl (by omega)) hrzB (by omega) (by omega))
  iapply (wp_loadX (F := F) d L _) $$ Hsx'
  iintro %v144 ⟨Hsx', %hv144⟩
  have hc144 : ∀ x : S16.Idx, ((v144 : IVec S16 32) x).toNat = Cert.OneHot.Pure.col X (2 * k.val + 1) (48 + (x 0).val) := fun x => by
    rw [hv144]; exact Cert.OneHot.Pure.loadIdx_col (F := F) X _ _ _ 48 (2 * k.val + 1) (lvc_toNat 48#32 48 rfl (by omega)) hrzB x
  sl_exec (disch := exact Cert.OneHot.Pure.chk_store _ _ 48 (lvc_toNat 48#32 48 rfl (by omega)) (fun x => by rw [hc144 x]; exact Cert.OneHot.Pure.col_lt hXr _ _) (by omega))
  iapply (wp_store_sB1 (F := F) d L _) $$ Hb1
  iintro %g144 ⟨Hb1, %hg144⟩
  have s144 := Cert.OneHot.Pure.ScatTo.step (f' := g144) 48 s143 (by omega) (by omega) (fun j => by
    rw [hg144]; exact Cert.OneHot.Pure.storeIdx_const (F := F) _ _ _ zero _ 48 (Cert.OneHot.Pure.col X (2 * k.val + 1)) (lvc_toNat 48#32 48 rfl (by omega)) hc144 j)
  clear hv144 hg144
  -- tokens 64 .. 79
  sl_exec (disch := exact Cert.OneHot.Pure.chk_load _ _ 64 (2 * k.val + 1) (lvc_toNat 64#32 64 rfl (by omega)) hrzB (by omega) (by omega))
  iapply (wp_loadX (F := F) d L _) $$ Hsx'
  iintro %v145 ⟨Hsx', %hv145⟩
  have hc145 : ∀ x : S16.Idx, ((v145 : IVec S16 32) x).toNat = Cert.OneHot.Pure.col X (2 * k.val + 1) (64 + (x 0).val) := fun x => by
    rw [hv145]; exact Cert.OneHot.Pure.loadIdx_col (F := F) X _ _ _ 64 (2 * k.val + 1) (lvc_toNat 64#32 64 rfl (by omega)) hrzB x
  sl_exec (disch := exact Cert.OneHot.Pure.chk_store _ _ 64 (lvc_toNat 64#32 64 rfl (by omega)) (fun x => by rw [hc145 x]; exact Cert.OneHot.Pure.col_lt hXr _ _) (by omega))
  iapply (wp_store_sB1 (F := F) d L _) $$ Hb1
  iintro %g145 ⟨Hb1, %hg145⟩
  have s145 := Cert.OneHot.Pure.ScatTo.step (f' := g145) 64 s144 (by omega) (by omega) (fun j => by
    rw [hg145]; exact Cert.OneHot.Pure.storeIdx_const (F := F) _ _ _ zero _ 64 (Cert.OneHot.Pure.col X (2 * k.val + 1)) (lvc_toNat 64#32 64 rfl (by omega)) hc145 j)
  clear hv145 hg145
  -- tokens 80 .. 95
  sl_exec (disch := exact Cert.OneHot.Pure.chk_load _ _ 80 (2 * k.val + 1) (lvc_toNat 80#32 80 rfl (by omega)) hrzB (by omega) (by omega))
  iapply (wp_loadX (F := F) d L _) $$ Hsx'
  iintro %v146 ⟨Hsx', %hv146⟩
  have hc146 : ∀ x : S16.Idx, ((v146 : IVec S16 32) x).toNat = Cert.OneHot.Pure.col X (2 * k.val + 1) (80 + (x 0).val) := fun x => by
    rw [hv146]; exact Cert.OneHot.Pure.loadIdx_col (F := F) X _ _ _ 80 (2 * k.val + 1) (lvc_toNat 80#32 80 rfl (by omega)) hrzB x
  sl_exec (disch := exact Cert.OneHot.Pure.chk_store _ _ 80 (lvc_toNat 80#32 80 rfl (by omega)) (fun x => by rw [hc146 x]; exact Cert.OneHot.Pure.col_lt hXr _ _) (by omega))
  iapply (wp_store_sB1 (F := F) d L _) $$ Hb1
  iintro %g146 ⟨Hb1, %hg146⟩
  have s146 := Cert.OneHot.Pure.ScatTo.step (f' := g146) 80 s145 (by omega) (by omega) (fun j => by
    rw [hg146]; exact Cert.OneHot.Pure.storeIdx_const (F := F) _ _ _ zero _ 80 (Cert.OneHot.Pure.col X (2 * k.val + 1)) (lvc_toNat 80#32 80 rfl (by omega)) hc146 j)
  clear hv146 hg146
  -- tokens 96 .. 111
  sl_exec (disch := exact Cert.OneHot.Pure.chk_load _ _ 96 (2 * k.val + 1) (lvc_toNat 96#32 96 rfl (by omega)) hrzB (by omega) (by omega))
  iapply (wp_loadX (F := F) d L _) $$ Hsx'
  iintro %v147 ⟨Hsx', %hv147⟩
  have hc147 : ∀ x : S16.Idx, ((v147 : IVec S16 32) x).toNat = Cert.OneHot.Pure.col X (2 * k.val + 1) (96 + (x 0).val) := fun x => by
    rw [hv147]; exact Cert.OneHot.Pure.loadIdx_col (F := F) X _ _ _ 96 (2 * k.val + 1) (lvc_toNat 96#32 96 rfl (by omega)) hrzB x
  sl_exec (disch := exact Cert.OneHot.Pure.chk_store _ _ 96 (lvc_toNat 96#32 96 rfl (by omega)) (fun x => by rw [hc147 x]; exact Cert.OneHot.Pure.col_lt hXr _ _) (by omega))
  iapply (wp_store_sB1 (F := F) d L _) $$ Hb1
  iintro %g147 ⟨Hb1, %hg147⟩
  have s147 := Cert.OneHot.Pure.ScatTo.step (f' := g147) 96 s146 (by omega) (by omega) (fun j => by
    rw [hg147]; exact Cert.OneHot.Pure.storeIdx_const (F := F) _ _ _ zero _ 96 (Cert.OneHot.Pure.col X (2 * k.val + 1)) (lvc_toNat 96#32 96 rfl (by omega)) hc147 j)
  clear hv147 hg147
  -- tokens 112 .. 127
  sl_exec (disch := exact Cert.OneHot.Pure.chk_load _ _ 112 (2 * k.val + 1) (lvc_toNat 112#32 112 rfl (by omega)) hrzB (by omega) (by omega))
  iapply (wp_loadX (F := F) d L _) $$ Hsx'
  iintro %v148 ⟨Hsx', %hv148⟩
  have hc148 : ∀ x : S16.Idx, ((v148 : IVec S16 32) x).toNat = Cert.OneHot.Pure.col X (2 * k.val + 1) (112 + (x 0).val) := fun x => by
    rw [hv148]; exact Cert.OneHot.Pure.loadIdx_col (F := F) X _ _ _ 112 (2 * k.val + 1) (lvc_toNat 112#32 112 rfl (by omega)) hrzB x
  sl_exec (disch := exact Cert.OneHot.Pure.chk_store _ _ 112 (lvc_toNat 112#32 112 rfl (by omega)) (fun x => by rw [hc148 x]; exact Cert.OneHot.Pure.col_lt hXr _ _) (by omega))
  iapply (wp_store_sB1 (F := F) d L _) $$ Hb1
  iintro %g148 ⟨Hb1, %hg148⟩
  have s148 := Cert.OneHot.Pure.ScatTo.step (f' := g148) 112 s147 (by omega) (by omega) (fun j => by
    rw [hg148]; exact Cert.OneHot.Pure.storeIdx_const (F := F) _ _ _ zero _ 112 (Cert.OneHot.Pure.col X (2 * k.val + 1)) (lvc_toNat 112#32 112 rfl (by omega)) hc148 j)
  clear hv148 hg148
  -- tokens 128 .. 143
  sl_exec (disch := exact Cert.OneHot.Pure.chk_load _ _ 128 (2 * k.val + 1) (lvc_toNat 128#32 128 rfl (by omega)) hrzB (by omega) (by omega))
  iapply (wp_loadX (F := F) d L _) $$ Hsx'
  iintro %v149 ⟨Hsx', %hv149⟩
  have hc149 : ∀ x : S16.Idx, ((v149 : IVec S16 32) x).toNat = Cert.OneHot.Pure.col X (2 * k.val + 1) (128 + (x 0).val) := fun x => by
    rw [hv149]; exact Cert.OneHot.Pure.loadIdx_col (F := F) X _ _ _ 128 (2 * k.val + 1) (lvc_toNat 128#32 128 rfl (by omega)) hrzB x
  sl_exec (disch := exact Cert.OneHot.Pure.chk_store _ _ 128 (lvc_toNat 128#32 128 rfl (by omega)) (fun x => by rw [hc149 x]; exact Cert.OneHot.Pure.col_lt hXr _ _) (by omega))
  iapply (wp_store_sB1 (F := F) d L _) $$ Hb1
  iintro %g149 ⟨Hb1, %hg149⟩
  have s149 := Cert.OneHot.Pure.ScatTo.step (f' := g149) 128 s148 (by omega) (by omega) (fun j => by
    rw [hg149]; exact Cert.OneHot.Pure.storeIdx_const (F := F) _ _ _ zero _ 128 (Cert.OneHot.Pure.col X (2 * k.val + 1)) (lvc_toNat 128#32 128 rfl (by omega)) hc149 j)
  clear hv149 hg149
  -- tokens 144 .. 159
  sl_exec (disch := exact Cert.OneHot.Pure.chk_load _ _ 144 (2 * k.val + 1) (lvc_toNat 144#32 144 rfl (by omega)) hrzB (by omega) (by omega))
  iapply (wp_loadX (F := F) d L _) $$ Hsx'
  iintro %v150 ⟨Hsx', %hv150⟩
  have hc150 : ∀ x : S16.Idx, ((v150 : IVec S16 32) x).toNat = Cert.OneHot.Pure.col X (2 * k.val + 1) (144 + (x 0).val) := fun x => by
    rw [hv150]; exact Cert.OneHot.Pure.loadIdx_col (F := F) X _ _ _ 144 (2 * k.val + 1) (lvc_toNat 144#32 144 rfl (by omega)) hrzB x
  sl_exec (disch := exact Cert.OneHot.Pure.chk_store _ _ 144 (lvc_toNat 144#32 144 rfl (by omega)) (fun x => by rw [hc150 x]; exact Cert.OneHot.Pure.col_lt hXr _ _) (by omega))
  iapply (wp_store_sB1 (F := F) d L _) $$ Hb1
  iintro %g150 ⟨Hb1, %hg150⟩
  have s150 := Cert.OneHot.Pure.ScatTo.step (f' := g150) 144 s149 (by omega) (by omega) (fun j => by
    rw [hg150]; exact Cert.OneHot.Pure.storeIdx_const (F := F) _ _ _ zero _ 144 (Cert.OneHot.Pure.col X (2 * k.val + 1)) (lvc_toNat 144#32 144 rfl (by omega)) hc150 j)
  clear hv150 hg150
  -- tokens 160 .. 175
  sl_exec (disch := exact Cert.OneHot.Pure.chk_load _ _ 160 (2 * k.val + 1) (lvc_toNat 160#32 160 rfl (by omega)) hrzB (by omega) (by omega))
  iapply (wp_loadX (F := F) d L _) $$ Hsx'
  iintro %v151 ⟨Hsx', %hv151⟩
  have hc151 : ∀ x : S16.Idx, ((v151 : IVec S16 32) x).toNat = Cert.OneHot.Pure.col X (2 * k.val + 1) (160 + (x 0).val) := fun x => by
    rw [hv151]; exact Cert.OneHot.Pure.loadIdx_col (F := F) X _ _ _ 160 (2 * k.val + 1) (lvc_toNat 160#32 160 rfl (by omega)) hrzB x
  sl_exec (disch := exact Cert.OneHot.Pure.chk_store _ _ 160 (lvc_toNat 160#32 160 rfl (by omega)) (fun x => by rw [hc151 x]; exact Cert.OneHot.Pure.col_lt hXr _ _) (by omega))
  iapply (wp_store_sB1 (F := F) d L _) $$ Hb1
  iintro %g151 ⟨Hb1, %hg151⟩
  have s151 := Cert.OneHot.Pure.ScatTo.step (f' := g151) 160 s150 (by omega) (by omega) (fun j => by
    rw [hg151]; exact Cert.OneHot.Pure.storeIdx_const (F := F) _ _ _ zero _ 160 (Cert.OneHot.Pure.col X (2 * k.val + 1)) (lvc_toNat 160#32 160 rfl (by omega)) hc151 j)
  clear hv151 hg151
  -- tokens 176 .. 191
  sl_exec (disch := exact Cert.OneHot.Pure.chk_load _ _ 176 (2 * k.val + 1) (lvc_toNat 176#32 176 rfl (by omega)) hrzB (by omega) (by omega))
  iapply (wp_loadX (F := F) d L _) $$ Hsx'
  iintro %v152 ⟨Hsx', %hv152⟩
  have hc152 : ∀ x : S16.Idx, ((v152 : IVec S16 32) x).toNat = Cert.OneHot.Pure.col X (2 * k.val + 1) (176 + (x 0).val) := fun x => by
    rw [hv152]; exact Cert.OneHot.Pure.loadIdx_col (F := F) X _ _ _ 176 (2 * k.val + 1) (lvc_toNat 176#32 176 rfl (by omega)) hrzB x
  sl_exec (disch := exact Cert.OneHot.Pure.chk_store _ _ 176 (lvc_toNat 176#32 176 rfl (by omega)) (fun x => by rw [hc152 x]; exact Cert.OneHot.Pure.col_lt hXr _ _) (by omega))
  iapply (wp_store_sB1 (F := F) d L _) $$ Hb1
  iintro %g152 ⟨Hb1, %hg152⟩
  have s152 := Cert.OneHot.Pure.ScatTo.step (f' := g152) 176 s151 (by omega) (by omega) (fun j => by
    rw [hg152]; exact Cert.OneHot.Pure.storeIdx_const (F := F) _ _ _ zero _ 176 (Cert.OneHot.Pure.col X (2 * k.val + 1)) (lvc_toNat 176#32 176 rfl (by omega)) hc152 j)
  clear hv152 hg152
  -- tokens 184 .. 199
  sl_exec (disch := exact Cert.OneHot.Pure.chk_load _ _ 184 (2 * k.val + 1) (lvc_toNat 184#32 184 rfl (by omega)) hrzB (by omega) (by omega))
  iapply (wp_loadX (F := F) d L _) $$ Hsx'
  iintro %v153 ⟨Hsx', %hv153⟩
  have hc153 : ∀ x : S16.Idx, ((v153 : IVec S16 32) x).toNat = Cert.OneHot.Pure.col X (2 * k.val + 1) (184 + (x 0).val) := fun x => by
    rw [hv153]; exact Cert.OneHot.Pure.loadIdx_col (F := F) X _ _ _ 184 (2 * k.val + 1) (lvc_toNat 184#32 184 rfl (by omega)) hrzB x
  sl_exec (disch := exact Cert.OneHot.Pure.chk_store _ _ 184 (lvc_toNat 184#32 184 rfl (by omega)) (fun x => by rw [hc153 x]; exact Cert.OneHot.Pure.col_lt hXr _ _) (by omega))
  iapply (wp_store_sB1 (F := F) d L _) $$ Hb1
  iintro %g153 ⟨Hb1, %hg153⟩
  have s153 := Cert.OneHot.Pure.ScatTo.step (f' := g153) 184 s152 (by omega) (by omega) (fun j => by
    rw [hg153]; exact Cert.OneHot.Pure.storeIdx_const (F := F) _ _ _ zero _ 184 (Cert.OneHot.Pure.col X (2 * k.val + 1)) (lvc_toNat 184#32 184 rfl (by omega)) hc153 j)
  clear hv153 hg153
  have hzB : ∀ j, g153 j = zero := Cert.OneHot.Pure.RowIs.cleared hB (Cert.OneHot.Pure.ScatTo.done s153)
  clear zB0 s141 s142 s143 s144 s145 s146 s147 s148 s149 s150 s151 s152 s153 hc141 hc142 hc143 hc144 hc145 hc146 hc147 hc148 hc149 hc150 hc151 hc152 hc153
  -- and row 2 k + 3 is encoded into it
  have hroB : ∀ x : S16.Idx, (rvc (Scalar.addi (bv115 k) 1#32) x).toNat = 2 * k.val + 3 := fun x => (rvc_toNat _ x).trans e116
  have oB0 := Cert.OneHot.Pure.ScatTo.zero (F := F) (Cert.OneHot.Pure.col X (2 * k.val + 3)) one g153

  -- tokens 0 .. 15
  sl_exec (disch := exact Cert.OneHot.Pure.chk_load _ _ 0 (2 * k.val + 3) (lvc_toNat 0#32 0 rfl (by omega)) hroB (by omega) (by omega))
  iapply (wp_loadX (F := F) d L _) $$ Hsx'
  iintro %v161 ⟨Hsx', %hv161⟩
  have hc161 : ∀ x : S16.Idx, ((v161 : IVec S16 32) x).toNat = Cert.OneHot.Pure.col X (2 * k.val + 3) (0 + (x 0).val) := fun x => by
    rw [hv161]; exact Cert.OneHot.Pure.loadIdx_col (F := F) X _ _ _ 0 (2 * k.val + 3) (lvc_toNat 0#32 0 rfl (by omega)) hroB x
  sl_exec (disch := exact Cert.OneHot.Pure.chk_store _ _ 0 (lvc_toNat 0#32 0 rfl (by omega)) (fun x => by rw [hc161 x]; exact Cert.OneHot.Pure.col_lt hXr _ _) (by omega))
  iapply (wp_store_sB1 (F := F) d L _) $$ Hb1
  iintro %g161 ⟨Hb1, %hg161⟩
  have s161 := Cert.OneHot.Pure.ScatTo.step (f' := g161) 0 oB0 (by omega) (by omega) (fun j => by
    rw [hg161]; exact Cert.OneHot.Pure.storeIdx_const (F := F) _ _ _ one _ 0 (Cert.OneHot.Pure.col X (2 * k.val + 3)) (lvc_toNat 0#32 0 rfl (by omega)) hc161 j)
  clear hv161 hg161
  -- tokens 16 .. 31
  sl_exec (disch := exact Cert.OneHot.Pure.chk_load _ _ 16 (2 * k.val + 3) (lvc_toNat 16#32 16 rfl (by omega)) hroB (by omega) (by omega))
  iapply (wp_loadX (F := F) d L _) $$ Hsx'
  iintro %v162 ⟨Hsx', %hv162⟩
  have hc162 : ∀ x : S16.Idx, ((v162 : IVec S16 32) x).toNat = Cert.OneHot.Pure.col X (2 * k.val + 3) (16 + (x 0).val) := fun x => by
    rw [hv162]; exact Cert.OneHot.Pure.loadIdx_col (F := F) X _ _ _ 16 (2 * k.val + 3) (lvc_toNat 16#32 16 rfl (by omega)) hroB x
  sl_exec (disch := exact Cert.OneHot.Pure.chk_store _ _ 16 (lvc_toNat 16#32 16 rfl (by omega)) (fun x => by rw [hc162 x]; exact Cert.OneHot.Pure.col_lt hXr _ _) (by omega))
  iapply (wp_store_sB1 (F := F) d L _) $$ Hb1
  iintro %g162 ⟨Hb1, %hg162⟩
  have s162 := Cert.OneHot.Pure.ScatTo.step (f' := g162) 16 s161 (by omega) (by omega) (fun j => by
    rw [hg162]; exact Cert.OneHot.Pure.storeIdx_const (F := F) _ _ _ one _ 16 (Cert.OneHot.Pure.col X (2 * k.val + 3)) (lvc_toNat 16#32 16 rfl (by omega)) hc162 j)
  clear hv162 hg162
  -- tokens 32 .. 47
  sl_exec (disch := exact Cert.OneHot.Pure.chk_load _ _ 32 (2 * k.val + 3) (lvc_toNat 32#32 32 rfl (by omega)) hroB (by omega) (by omega))
  iapply (wp_loadX (F := F) d L _) $$ Hsx'
  iintro %v163 ⟨Hsx', %hv163⟩
  have hc163 : ∀ x : S16.Idx, ((v163 : IVec S16 32) x).toNat = Cert.OneHot.Pure.col X (2 * k.val + 3) (32 + (x 0).val) := fun x => by
    rw [hv163]; exact Cert.OneHot.Pure.loadIdx_col (F := F) X _ _ _ 32 (2 * k.val + 3) (lvc_toNat 32#32 32 rfl (by omega)) hroB x
  sl_exec (disch := exact Cert.OneHot.Pure.chk_store _ _ 32 (lvc_toNat 32#32 32 rfl (by omega)) (fun x => by rw [hc163 x]; exact Cert.OneHot.Pure.col_lt hXr _ _) (by omega))
  iapply (wp_store_sB1 (F := F) d L _) $$ Hb1
  iintro %g163 ⟨Hb1, %hg163⟩
  have s163 := Cert.OneHot.Pure.ScatTo.step (f' := g163) 32 s162 (by omega) (by omega) (fun j => by
    rw [hg163]; exact Cert.OneHot.Pure.storeIdx_const (F := F) _ _ _ one _ 32 (Cert.OneHot.Pure.col X (2 * k.val + 3)) (lvc_toNat 32#32 32 rfl (by omega)) hc163 j)
  clear hv163 hg163
  -- tokens 48 .. 63
  sl_exec (disch := exact Cert.OneHot.Pure.chk_load _ _ 48 (2 * k.val + 3) (lvc_toNat 48#32 48 rfl (by omega)) hroB (by omega) (by omega))
  iapply (wp_loadX (F := F) d L _) $$ Hsx'
  iintro %v164 ⟨Hsx', %hv164⟩
  have hc164 : ∀ x : S16.Idx, ((v164 : IVec S16 32) x).toNat = Cert.OneHot.Pure.col X (2 * k.val + 3) (48 + (x 0).val) := fun x => by
    rw [hv164]; exact Cert.OneHot.Pure.loadIdx_col (F := F) X _ _ _ 48 (2 * k.val + 3) (lvc_toNat 48#32 48 rfl (by omega)) hroB x
  sl_exec (disch := exact Cert.OneHot.Pure.chk_store _ _ 48 (lvc_toNat 48#32 48 rfl (by omega)) (fun x => by rw [hc164 x]; exact Cert.OneHot.Pure.col_lt hXr _ _) (by omega))
  iapply (wp_store_sB1 (F := F) d L _) $$ Hb1
  iintro %g164 ⟨Hb1, %hg164⟩
  have s164 := Cert.OneHot.Pure.ScatTo.step (f' := g164) 48 s163 (by omega) (by omega) (fun j => by
    rw [hg164]; exact Cert.OneHot.Pure.storeIdx_const (F := F) _ _ _ one _ 48 (Cert.OneHot.Pure.col X (2 * k.val + 3)) (lvc_toNat 48#32 48 rfl (by omega)) hc164 j)
  clear hv164 hg164
  -- tokens 64 .. 79
  sl_exec (disch := exact Cert.OneHot.Pure.chk_load _ _ 64 (2 * k.val + 3) (lvc_toNat 64#32 64 rfl (by omega)) hroB (by omega) (by omega))
  iapply (wp_loadX (F := F) d L _) $$ Hsx'
  iintro %v165 ⟨Hsx', %hv165⟩
  have hc165 : ∀ x : S16.Idx, ((v165 : IVec S16 32) x).toNat = Cert.OneHot.Pure.col X (2 * k.val + 3) (64 + (x 0).val) := fun x => by
    rw [hv165]; exact Cert.OneHot.Pure.loadIdx_col (F := F) X _ _ _ 64 (2 * k.val + 3) (lvc_toNat 64#32 64 rfl (by omega)) hroB x
  sl_exec (disch := exact Cert.OneHot.Pure.chk_store _ _ 64 (lvc_toNat 64#32 64 rfl (by omega)) (fun x => by rw [hc165 x]; exact Cert.OneHot.Pure.col_lt hXr _ _) (by omega))
  iapply (wp_store_sB1 (F := F) d L _) $$ Hb1
  iintro %g165 ⟨Hb1, %hg165⟩
  have s165 := Cert.OneHot.Pure.ScatTo.step (f' := g165) 64 s164 (by omega) (by omega) (fun j => by
    rw [hg165]; exact Cert.OneHot.Pure.storeIdx_const (F := F) _ _ _ one _ 64 (Cert.OneHot.Pure.col X (2 * k.val + 3)) (lvc_toNat 64#32 64 rfl (by omega)) hc165 j)
  clear hv165 hg165
  -- tokens 80 .. 95
  sl_exec (disch := exact Cert.OneHot.Pure.chk_load _ _ 80 (2 * k.val + 3) (lvc_toNat 80#32 80 rfl (by omega)) hroB (by omega) (by omega))
  iapply (wp_loadX (F := F) d L _) $$ Hsx'
  iintro %v166 ⟨Hsx', %hv166⟩
  have hc166 : ∀ x : S16.Idx, ((v166 : IVec S16 32) x).toNat = Cert.OneHot.Pure.col X (2 * k.val + 3) (80 + (x 0).val) := fun x => by
    rw [hv166]; exact Cert.OneHot.Pure.loadIdx_col (F := F) X _ _ _ 80 (2 * k.val + 3) (lvc_toNat 80#32 80 rfl (by omega)) hroB x
  sl_exec (disch := exact Cert.OneHot.Pure.chk_store _ _ 80 (lvc_toNat 80#32 80 rfl (by omega)) (fun x => by rw [hc166 x]; exact Cert.OneHot.Pure.col_lt hXr _ _) (by omega))
  iapply (wp_store_sB1 (F := F) d L _) $$ Hb1
  iintro %g166 ⟨Hb1, %hg166⟩
  have s166 := Cert.OneHot.Pure.ScatTo.step (f' := g166) 80 s165 (by omega) (by omega) (fun j => by
    rw [hg166]; exact Cert.OneHot.Pure.storeIdx_const (F := F) _ _ _ one _ 80 (Cert.OneHot.Pure.col X (2 * k.val + 3)) (lvc_toNat 80#32 80 rfl (by omega)) hc166 j)
  clear hv166 hg166
  -- tokens 96 .. 111
  sl_exec (disch := exact Cert.OneHot.Pure.chk_load _ _ 96 (2 * k.val + 3) (lvc_toNat 96#32 96 rfl (by omega)) hroB (by omega) (by omega))
  iapply (wp_loadX (F := F) d L _) $$ Hsx'
  iintro %v167 ⟨Hsx', %hv167⟩
  have hc167 : ∀ x : S16.Idx, ((v167 : IVec S16 32) x).toNat = Cert.OneHot.Pure.col X (2 * k.val + 3) (96 + (x 0).val) := fun x => by
    rw [hv167]; exact Cert.OneHot.Pure.loadIdx_col (F := F) X _ _ _ 96 (2 * k.val + 3) (lvc_toNat 96#32 96 rfl (by omega)) hroB x
  sl_exec (disch := exact Cert.OneHot.Pure.chk_store _ _ 96 (lvc_toNat 96#32 96 rfl (by omega)) (fun x => by rw [hc167 x]; exact Cert.OneHot.Pure.col_lt hXr _ _) (by omega))
  iapply (wp_store_sB1 (F := F) d L _) $$ Hb1
  iintro %g167 ⟨Hb1, %hg167⟩
  have s167 := Cert.OneHot.Pure.ScatTo.step (f' := g167) 96 s166 (by omega) (by omega) (fun j => by
    rw [hg167]; exact Cert.OneHot.Pure.storeIdx_const (F := F) _ _ _ one _ 96 (Cert.OneHot.Pure.col X (2 * k.val + 3)) (lvc_toNat 96#32 96 rfl (by omega)) hc167 j)
  clear hv167 hg167
  -- tokens 112 .. 127
  sl_exec (disch := exact Cert.OneHot.Pure.chk_load _ _ 112 (2 * k.val + 3) (lvc_toNat 112#32 112 rfl (by omega)) hroB (by omega) (by omega))
  iapply (wp_loadX (F := F) d L _) $$ Hsx'
  iintro %v168 ⟨Hsx', %hv168⟩
  have hc168 : ∀ x : S16.Idx, ((v168 : IVec S16 32) x).toNat = Cert.OneHot.Pure.col X (2 * k.val + 3) (112 + (x 0).val) := fun x => by
    rw [hv168]; exact Cert.OneHot.Pure.loadIdx_col (F := F) X _ _ _ 112 (2 * k.val + 3) (lvc_toNat 112#32 112 rfl (by omega)) hroB x
  sl_exec (disch := exact Cert.OneHot.Pure.chk_store _ _ 112 (lvc_toNat 112#32 112 rfl (by omega)) (fun x => by rw [hc168 x]; exact Cert.OneHot.Pure.col_lt hXr _ _) (by omega))
  iapply (wp_store_sB1 (F := F) d L _) $$ Hb1
  iintro %g168 ⟨Hb1, %hg168⟩
  have s168 := Cert.OneHot.Pure.ScatTo.step (f' := g168) 112 s167 (by omega) (by omega) (fun j => by
    rw [hg168]; exact Cert.OneHot.Pure.storeIdx_const (F := F) _ _ _ one _ 112 (Cert.OneHot.Pure.col X (2 * k.val + 3)) (lvc_toNat 112#32 112 rfl (by omega)) hc168 j)
  clear hv168 hg168
  -- tokens 128 .. 143
  sl_exec (disch := exact Cert.OneHot.Pure.chk_load _ _ 128 (2 * k.val + 3) (lvc_toNat 128#32 128 rfl (by omega)) hroB (by omega) (by omega))
  iapply (wp_loadX (F := F) d L _) $$ Hsx'
  iintro %v169 ⟨Hsx', %hv169⟩
  have hc169 : ∀ x : S16.Idx, ((v169 : IVec S16 32) x).toNat = Cert.OneHot.Pure.col X (2 * k.val + 3) (128 + (x 0).val) := fun x => by
    rw [hv169]; exact Cert.OneHot.Pure.loadIdx_col (F := F) X _ _ _ 128 (2 * k.val + 3) (lvc_toNat 128#32 128 rfl (by omega)) hroB x
  sl_exec (disch := exact Cert.OneHot.Pure.chk_store _ _ 128 (lvc_toNat 128#32 128 rfl (by omega)) (fun x => by rw [hc169 x]; exact Cert.OneHot.Pure.col_lt hXr _ _) (by omega))
  iapply (wp_store_sB1 (F := F) d L _) $$ Hb1
  iintro %g169 ⟨Hb1, %hg169⟩
  have s169 := Cert.OneHot.Pure.ScatTo.step (f' := g169) 128 s168 (by omega) (by omega) (fun j => by
    rw [hg169]; exact Cert.OneHot.Pure.storeIdx_const (F := F) _ _ _ one _ 128 (Cert.OneHot.Pure.col X (2 * k.val + 3)) (lvc_toNat 128#32 128 rfl (by omega)) hc169 j)
  clear hv169 hg169
  -- tokens 144 .. 159
  sl_exec (disch := exact Cert.OneHot.Pure.chk_load _ _ 144 (2 * k.val + 3) (lvc_toNat 144#32 144 rfl (by omega)) hroB (by omega) (by omega))
  iapply (wp_loadX (F := F) d L _) $$ Hsx'
  iintro %v170 ⟨Hsx', %hv170⟩
  have hc170 : ∀ x : S16.Idx, ((v170 : IVec S16 32) x).toNat = Cert.OneHot.Pure.col X (2 * k.val + 3) (144 + (x 0).val) := fun x => by
    rw [hv170]; exact Cert.OneHot.Pure.loadIdx_col (F := F) X _ _ _ 144 (2 * k.val + 3) (lvc_toNat 144#32 144 rfl (by omega)) hroB x
  sl_exec (disch := exact Cert.OneHot.Pure.chk_store _ _ 144 (lvc_toNat 144#32 144 rfl (by omega)) (fun x => by rw [hc170 x]; exact Cert.OneHot.Pure.col_lt hXr _ _) (by omega))
  iapply (wp_store_sB1 (F := F) d L _) $$ Hb1
  iintro %g170 ⟨Hb1, %hg170⟩
  have s170 := Cert.OneHot.Pure.ScatTo.step (f' := g170) 144 s169 (by omega) (by omega) (fun j => by
    rw [hg170]; exact Cert.OneHot.Pure.storeIdx_const (F := F) _ _ _ one _ 144 (Cert.OneHot.Pure.col X (2 * k.val + 3)) (lvc_toNat 144#32 144 rfl (by omega)) hc170 j)
  clear hv170 hg170
  -- tokens 160 .. 175
  sl_exec (disch := exact Cert.OneHot.Pure.chk_load _ _ 160 (2 * k.val + 3) (lvc_toNat 160#32 160 rfl (by omega)) hroB (by omega) (by omega))
  iapply (wp_loadX (F := F) d L _) $$ Hsx'
  iintro %v171 ⟨Hsx', %hv171⟩
  have hc171 : ∀ x : S16.Idx, ((v171 : IVec S16 32) x).toNat = Cert.OneHot.Pure.col X (2 * k.val + 3) (160 + (x 0).val) := fun x => by
    rw [hv171]; exact Cert.OneHot.Pure.loadIdx_col (F := F) X _ _ _ 160 (2 * k.val + 3) (lvc_toNat 160#32 160 rfl (by omega)) hroB x
  sl_exec (disch := exact Cert.OneHot.Pure.chk_store _ _ 160 (lvc_toNat 160#32 160 rfl (by omega)) (fun x => by rw [hc171 x]; exact Cert.OneHot.Pure.col_lt hXr _ _) (by omega))
  iapply (wp_store_sB1 (F := F) d L _) $$ Hb1
  iintro %g171 ⟨Hb1, %hg171⟩
  have s171 := Cert.OneHot.Pure.ScatTo.step (f' := g171) 160 s170 (by omega) (by omega) (fun j => by
    rw [hg171]; exact Cert.OneHot.Pure.storeIdx_const (F := F) _ _ _ one _ 160 (Cert.OneHot.Pure.col X (2 * k.val + 3)) (lvc_toNat 160#32 160 rfl (by omega)) hc171 j)
  clear hv171 hg171
  -- tokens 176 .. 191
  sl_exec (disch := exact Cert.OneHot.Pure.chk_load _ _ 176 (2 * k.val + 3) (lvc_toNat 176#32 176 rfl (by omega)) hroB (by omega) (by omega))
  iapply (wp_loadX (F := F) d L _) $$ Hsx'
  iintro %v172 ⟨Hsx', %hv172⟩
  have hc172 : ∀ x : S16.Idx, ((v172 : IVec S16 32) x).toNat = Cert.OneHot.Pure.col X (2 * k.val + 3) (176 + (x 0).val) := fun x => by
    rw [hv172]; exact Cert.OneHot.Pure.loadIdx_col (F := F) X _ _ _ 176 (2 * k.val + 3) (lvc_toNat 176#32 176 rfl (by omega)) hroB x
  sl_exec (disch := exact Cert.OneHot.Pure.chk_store _ _ 176 (lvc_toNat 176#32 176 rfl (by omega)) (fun x => by rw [hc172 x]; exact Cert.OneHot.Pure.col_lt hXr _ _) (by omega))
  iapply (wp_store_sB1 (F := F) d L _) $$ Hb1
  iintro %g172 ⟨Hb1, %hg172⟩
  have s172 := Cert.OneHot.Pure.ScatTo.step (f' := g172) 176 s171 (by omega) (by omega) (fun j => by
    rw [hg172]; exact Cert.OneHot.Pure.storeIdx_const (F := F) _ _ _ one _ 176 (Cert.OneHot.Pure.col X (2 * k.val + 3)) (lvc_toNat 176#32 176 rfl (by omega)) hc172 j)
  clear hv172 hg172
  -- tokens 184 .. 199
  sl_exec (disch := exact Cert.OneHot.Pure.chk_load _ _ 184 (2 * k.val + 3) (lvc_toNat 184#32 184 rfl (by omega)) hroB (by omega) (by omega))
  iapply (wp_loadX (F := F) d L _) $$ Hsx'
  iintro %v173 ⟨Hsx', %hv173⟩
  have hc173 : ∀ x : S16.Idx, ((v173 : IVec S16 32) x).toNat = Cert.OneHot.Pure.col X (2 * k.val + 3) (184 + (x 0).val) := fun x => by
    rw [hv173]; exact Cert.OneHot.Pure.loadIdx_col (F := F) X _ _ _ 184 (2 * k.val + 3) (lvc_toNat 184#32 184 rfl (by omega)) hroB x
  sl_exec (disch := exact Cert.OneHot.Pure.chk_store _ _ 184 (lvc_toNat 184#32 184 rfl (by omega)) (fun x => by rw [hc173 x]; exact Cert.OneHot.Pure.col_lt hXr _ _) (by omega))
  iapply (wp_store_sB1 (F := F) d L _) $$ Hb1
  iintro %g173 ⟨Hb1, %hg173⟩
  have s173 := Cert.OneHot.Pure.ScatTo.step (f' := g173) 184 s172 (by omega) (by omega) (fun j => by
    rw [hg173]; exact Cert.OneHot.Pure.storeIdx_const (F := F) _ _ _ one _ 184 (Cert.OneHot.Pure.col X (2 * k.val + 3)) (lvc_toNat 184#32 184 rfl (by omega)) hc173 j)
  clear hv173 hg173
  have hB' : Cert.OneHot.Pure.RowIs (F := F) (Cert.OneHot.Pure.col X (2 * k.val + 3)) g173 := Cert.OneHot.Pure.RowIs.of_zero hzB (Cert.OneHot.Pure.ScatTo.done s173)
  clear oB0 s161 s162 s163 s164 s165 s166 s167 s168 s169 s170 s171 s172 s173 hc161 hc162 hc163 hc164 hc165 hc166 hc167 hc168 hc169 hc170 hc171 hc172 hc173
  ihave HrB' := (Entails.of_eq ((congrArg (todoRow m d L) (fr_eq (n := 2 * k.val + 3) hlt3).symm).trans
    (row_todo (F := F) d L (fr (2 * k.val + 3)) (k0_off23 L k) (k0_off23_inb L k) (hoff23 L k) (m (oLoc d))))) $$ HrB
  sl_exec

  have hlt3' : 2 * k.val + 3 < 128 := by omega
  have hlt0 : 2 * k.val < 128 := by omega
  have hlt1 : 2 * k.val + 1 < 128 := by omega
  have hpayB : Cert.OneHot.Pure.RowIs (F := F) (Cert.OneHot.Pure.col X (fr (2 * k.val + 3)).val) (trip3.sl.dma0_1 d L g173) := fun j => by
    rw [fr_val hlt3']; exact hB' j
  ihave Hs4 := (Transfers.Flight_mono countersEmb (thr d L) (sep_mono_l (Entails.of_eq (row_landed m d L X hXdef (fr (2 * k.val + 3)) (k0_off23 L k) (k0_off23_inb L k) (hoff23 L k) (m (oLoc d)) (trip3.sl.dma0_1 d L g173) hpayB)))) $$ Hs4
  rw [show 2 * (k.val + 1) = 2 * k.val + 2 from by omega]
  sl_step
  isplitr; · iexact Hmw
  isplitl [Hsx']; · iexact Hsx'
  isplitl [Hs3 Hb0]
  · iexists g133
    isplitr; · ipureintro; exact hA'
    isplitl [Hs3]; · iexact Hs3
    iexact Hb0
  isplitl [Hs4 Hb1]
  · iexists g173
    isplitr; · ipureintro; exact hB'
    isplitl [Hs4]; · iexact Hs4
    iexact Hb1
  isplitl [Hdone Hs3_dst Hs4_dst]
  · ihave Hd1 := (Entails.of_eq (congrArg (doneRow m d L) (fr_eq (n := 2 * k.val) hlt0))) $$ Hs3_dst
    ihave Hd := (Entails.of_eq (bigSep_below_succ (F := F) (doneRow m d L) (2 * k.val) hlt0).symm) $$ [Hdone Hd1]
    · isplitl [Hdone]; · iexact Hdone
      iexact Hd1
    ihave Hd2 := (Entails.of_eq (congrArg (doneRow m d L) (fr_eq (n := 2 * k.val + 1) hlt1))) $$ Hs4_dst
    ihave Hd' := (Entails.of_eq (bigSep_below_succ (F := F) (doneRow m d L) (2 * k.val + 1) hlt1).symm) $$ [Hd Hd2]
    · isplitl [Hd]; · iexact Hd
      iexact Hd2
    iexact Hd'
  isplitl [Htodo]; · iexact Htodo
  iexists (insert (SemLoc.dma cc0_scratch4.sem, (default : HIx 1)) (insert (SemLoc.dma cc0_scratch3.sem, (default : HIx 1)) W')); isplitr
  · ipureintro; intro p hp
    rcases Finset.mem_insert.mp hp with rfl | hp
    · exact .inr rfl
    rcases Finset.mem_insert.mp hp with rfl | hp
    · exact .inr rfl
    · exact hW' p hp
  iexact HO

set_option maxHeartbeats 4000000 in
/-- The task at the place `L`: from the worker's columns of `xt` and its rows of the tiles' array at their launch contents,
    to the same columns and the rows at the one-hot array. -/
theorem tile_body (hF : (K (F := F)).Facts) (hpre : ∀ i, ((xtVal m d : (⟨S200x4096, .i32⟩ : BufTy).Contents (Elt F)) i).toNat < 128) (O : CellTallies nD τ sig (HIx 1)) (W : Waits sig (HIx 1)) (hO : ∀ g, O g none = 0) :
    iprop(levAts (K (F := F)).L (K (F := F)).lev ∗ emp ∗ goRes m d (widL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__onehot_sc L xtV (Memref.isWhole_whole _) oV (Memref.isWhole_whole _)
            sX (Memref.isWhole_whole _) sB0 (Memref.isWhole_whole _) sB1 (Memref.isWhole_whole _) cc0_scratch3 cc0_scratch4 cc0_scoped0)
          fun _ => iprop(tdRes m d (widL L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [(K (F := F)).scopedBufs_V hF d (cV L) (jV L), SparseCore.Cfg.scopedSems0_V (Val := Elt F) d (cV L) (jV L), ownSems0_V, ownBufs_V]
  unfold goRes
  iintro ⟨#Hlv, -, ⟨Hxt, Ho⟩, ⟨⟨%fx, Hsx⟩, ⟨%f0, Hb0⟩, ⟨%f1, Hb1⟩, Hbufs⟩, ⟨Hs3, Hs4, Hs0, Hsems⟩, HO⟩
  ihave Hrows := (Entails.of_eq (todo_split (F := F) m d L)) $$ Ho
  icases Hrows with ⟨Hr0, Hr1, Htodo⟩
  ihave Hmw := ((K (F := F)).mayWaits_none (thr := V d (cV L) (jV L)) hO) $$ Hlv
  ihave Hxt' := (Entails.of_eq (show ((xtLoc d ↦[colSet (widL L)]{fullShare} xtVal m d : sProp 𝕄)) = ((xtCols L).view.loc (V d (cV L) (jV L)) ↦[(xtCols L).view.set]{fullShare} xtVal m d) from by rw [set_xtCols])) $$ Hxt
  ihave Hsx' := (Entails.of_eq (pts_sX (F := F) d L _).symm) $$ Hsx
  ihave Hb0' := (Entails.of_eq (pts_sB0 (F := F) d L _).symm) $$ Hb0
  ihave Hb1' := (Entails.of_eq (pts_sB1 (F := F) d L _).symm) $$ Hb1
  sl_exec
  have hXdef : ∀ j, (View.write (Elt F) (sX : Memref sig .scVector .vmem S200x128 .i32).view fx (tile_body.sl.dma0 m d L) Finset.univ) j
      = (xtVal m d : (⟨S200x4096, .i32⟩ : BufTy).Contents (Elt F)) ((xtCols L).view.emb j) := by
    intro j
    refine (congrFun (View.write_whole_univ (Val := Elt F) cc0_scratch0 fx (tile_body.sl.dma0 m d L)) j).trans ?_
    unfold tile_body.sl.dma0
    exact (View.read_apply _ _).trans (cast_eq _ _)
  generalize (View.write (Elt F) (sX : Memref sig .scVector .vmem S200x128 .i32).view fx (tile_body.sl.dma0 m d L) Finset.univ) = X at hXdef ⊢
  have hXr : ∀ j, ((X : IVec S200x128 32) j).toNat < 128 := fun j => by rw [hXdef]; exact hpre _
  sl_for (inv1 (F := F) d L) $$ [Hb0']
  case region =>
    intro k _
    unfold inv1
    iintro ⟨%f, %hf, Hb⟩
    sl_exec
    sl_step
    iexists _
    isplitr
    · ipureintro
      exact zero_row_sB0 d L k f hf _ (fun x => rfl) (k0_off2_inb k) (k0_off3_inb k) (k0_off4_inb k) (k0_off5_inb k) (k0_off6_inb k) (k0_off7_inb k) (k0_off8_inb k) (k0_off9_inb k)
    · iexact Hb
  · unfold inv1
    iexists f0
    isplitr
    · ipureintro; intro j hj; exact absurd hj (Nat.not_lt_zero _)
    · iexact Hb0'
  iintro %_ HI
  unfold inv1
  icases HI with ⟨%g0, %hg0, Hb0⟩

  have hr0 : ∀ x : S16.Idx, (rvc 0#32 x).toNat = 0 := fun x => rvc_toNat 0#32 x
  have s0 := Cert.OneHot.Pure.ScatTo.zero (F := F) (Cert.OneHot.Pure.col X 0) one g0

  -- tokens 0 .. 15
  sl_exec (disch := exact Cert.OneHot.Pure.chk_load _ _ 0 (0) (lvc_toNat 0#32 0 rfl (by omega)) hr0 (by omega) (by omega))
  iapply (wp_loadX (F := F) d L _) $$ Hsx'
  iintro %v1 ⟨Hsx', %hv1⟩
  have hc1 : ∀ x : S16.Idx, ((v1 : IVec S16 32) x).toNat = Cert.OneHot.Pure.col X (0) (0 + (x 0).val) := fun x => by
    rw [hv1]; exact Cert.OneHot.Pure.loadIdx_col (F := F) X _ _ _ 0 (0) (lvc_toNat 0#32 0 rfl (by omega)) hr0 x
  sl_exec (disch := exact Cert.OneHot.Pure.chk_store _ _ 0 (lvc_toNat 0#32 0 rfl (by omega)) (fun x => by rw [hc1 x]; exact Cert.OneHot.Pure.col_lt hXr _ _) (by omega))
  iapply (wp_store_sB0 (F := F) d L _) $$ Hb0
  iintro %g1 ⟨Hb0, %hg1⟩
  have s1 := Cert.OneHot.Pure.ScatTo.step (f' := g1) 0 s0 (by omega) (by omega) (fun j => by
    rw [hg1]; exact Cert.OneHot.Pure.storeIdx_const (F := F) _ _ _ one _ 0 (Cert.OneHot.Pure.col X (0)) (lvc_toNat 0#32 0 rfl (by omega)) hc1 j)
  clear hv1 hg1
  -- tokens 16 .. 31
  sl_exec (disch := exact Cert.OneHot.Pure.chk_load _ _ 16 (0) (lvc_toNat 16#32 16 rfl (by omega)) hr0 (by omega) (by omega))
  iapply (wp_loadX (F := F) d L _) $$ Hsx'
  iintro %v2 ⟨Hsx', %hv2⟩
  have hc2 : ∀ x : S16.Idx, ((v2 : IVec S16 32) x).toNat = Cert.OneHot.Pure.col X (0) (16 + (x 0).val) := fun x => by
    rw [hv2]; exact Cert.OneHot.Pure.loadIdx_col (F := F) X _ _ _ 16 (0) (lvc_toNat 16#32 16 rfl (by omega)) hr0 x
  sl_exec (disch := exact Cert.OneHot.Pure.chk_store _ _ 16 (lvc_toNat 16#32 16 rfl (by omega)) (fun x => by rw [hc2 x]; exact Cert.OneHot.Pure.col_lt hXr _ _) (by omega))
  iapply (wp_store_sB0 (F := F) d L _) $$ Hb0
  iintro %g2 ⟨Hb0, %hg2⟩
  have s2 := Cert.OneHot.Pure.ScatTo.step (f' := g2) 16 s1 (by omega) (by omega) (fun j => by
    rw [hg2]; exact Cert.OneHot.Pure.storeIdx_const (F := F) _ _ _ one _ 16 (Cert.OneHot.Pure.col X (0)) (lvc_toNat 16#32 16 rfl (by omega)) hc2 j)
  clear hv2 hg2
  -- tokens 32 .. 47
  sl_exec (disch := exact Cert.OneHot.Pure.chk_load _ _ 32 (0) (lvc_toNat 32#32 32 rfl (by omega)) hr0 (by omega) (by omega))
  iapply (wp_loadX (F := F) d L _) $$ Hsx'
  iintro %v3 ⟨Hsx', %hv3⟩
  have hc3 : ∀ x : S16.Idx, ((v3 : IVec S16 32) x).toNat = Cert.OneHot.Pure.col X (0) (32 + (x 0).val) := fun x => by
    rw [hv3]; exact Cert.OneHot.Pure.loadIdx_col (F := F) X _ _ _ 32 (0) (lvc_toNat 32#32 32 rfl (by omega)) hr0 x
  sl_exec (disch := exact Cert.OneHot.Pure.chk_store _ _ 32 (lvc_toNat 32#32 32 rfl (by omega)) (fun x => by rw [hc3 x]; exact Cert.OneHot.Pure.col_lt hXr _ _) (by omega))
  iapply (wp_store_sB0 (F := F) d L _) $$ Hb0
  iintro %g3 ⟨Hb0, %hg3⟩
  have s3 := Cert.OneHot.Pure.ScatTo.step (f' := g3) 32 s2 (by omega) (by omega) (fun j => by
    rw [hg3]; exact Cert.OneHot.Pure.storeIdx_const (F := F) _ _ _ one _ 32 (Cert.OneHot.Pure.col X (0)) (lvc_toNat 32#32 32 rfl (by omega)) hc3 j)
  clear hv3 hg3
  -- tokens 48 .. 63
  sl_exec (disch := exact Cert.OneHot.Pure.chk_load _ _ 48 (0) (lvc_toNat 48#32 48 rfl (by omega)) hr0 (by omega) (by omega))
  iapply (wp_loadX (F := F) d L _) $$ Hsx'
  iintro %v4 ⟨Hsx', %hv4⟩
  have hc4 : ∀ x : S16.Idx, ((v4 : IVec S16 32) x).toNat = Cert.OneHot.Pure.col X (0) (48 + (x 0).val) := fun x => by
    rw [hv4]; exact Cert.OneHot.Pure.loadIdx_col (F := F) X _ _ _ 48 (0) (lvc_toNat 48#32 48 rfl (by omega)) hr0 x
  sl_exec (disch := exact Cert.OneHot.Pure.chk_store _ _ 48 (lvc_toNat 48#32 48 rfl (by omega)) (fun x => by rw [hc4 x]; exact Cert.OneHot.Pure.col_lt hXr _ _) (by omega))
  iapply (wp_store_sB0 (F := F) d L _) $$ Hb0
  iintro %g4 ⟨Hb0, %hg4⟩
  have s4 := Cert.OneHot.Pure.ScatTo.step (f' := g4) 48 s3 (by omega) (by omega) (fun j => by
    rw [hg4]; exact Cert.OneHot.Pure.storeIdx_const (F := F) _ _ _ one _ 48 (Cert.OneHot.Pure.col X (0)) (lvc_toNat 48#32 48 rfl (by omega)) hc4 j)
  clear hv4 hg4
  -- tokens 64 .. 79
  sl_exec (disch := exact Cert.OneHot.Pure.chk_load _ _ 64 (0) (lvc_toNat 64#32 64 rfl (by omega)) hr0 (by omega) (by omega))
  iapply (wp_loadX (F := F) d L _) $$ Hsx'
  iintro %v5 ⟨Hsx', %hv5⟩
  have hc5 : ∀ x : S16.Idx, ((v5 : IVec S16 32) x).toNat = Cert.OneHot.Pure.col X (0) (64 + (x 0).val) := fun x => by
    rw [hv5]; exact Cert.OneHot.Pure.loadIdx_col (F := F) X _ _ _ 64 (0) (lvc_toNat 64#32 64 rfl (by omega)) hr0 x
  sl_exec (disch := exact Cert.OneHot.Pure.chk_store _ _ 64 (lvc_toNat 64#32 64 rfl (by omega)) (fun x => by rw [hc5 x]; exact Cert.OneHot.Pure.col_lt hXr _ _) (by omega))
  iapply (wp_store_sB0 (F := F) d L _) $$ Hb0
  iintro %g5 ⟨Hb0, %hg5⟩
  have s5 := Cert.OneHot.Pure.ScatTo.step (f' := g5) 64 s4 (by omega) (by omega) (fun j => by
    rw [hg5]; exact Cert.OneHot.Pure.storeIdx_const (F := F) _ _ _ one _ 64 (Cert.OneHot.Pure.col X (0)) (lvc_toNat 64#32 64 rfl (by omega)) hc5 j)
  clear hv5 hg5
  -- tokens 80 .. 95
  sl_exec (disch := exact Cert.OneHot.Pure.chk_load _ _ 80 (0) (lvc_toNat 80#32 80 rfl (by omega)) hr0 (by omega) (by omega))
  iapply (wp_loadX (F := F) d L _) $$ Hsx'
  iintro %v6 ⟨Hsx', %hv6⟩
  have hc6 : ∀ x : S16.Idx, ((v6 : IVec S16 32) x).toNat = Cert.OneHot.Pure.col X (0) (80 + (x 0).val) := fun x => by
    rw [hv6]; exact Cert.OneHot.Pure.loadIdx_col (F := F) X _ _ _ 80 (0) (lvc_toNat 80#32 80 rfl (by omega)) hr0 x
  sl_exec (disch := exact Cert.OneHot.Pure.chk_store _ _ 80 (lvc_toNat 80#32 80 rfl (by omega)) (fun x => by rw [hc6 x]; exact Cert.OneHot.Pure.col_lt hXr _ _) (by omega))
  iapply (wp_store_sB0 (F := F) d L _) $$ Hb0
  iintro %g6 ⟨Hb0, %hg6⟩
  have s6 := Cert.OneHot.Pure.ScatTo.step (f' := g6) 80 s5 (by omega) (by omega) (fun j => by
    rw [hg6]; exact Cert.OneHot.Pure.storeIdx_const (F := F) _ _ _ one _ 80 (Cert.OneHot.Pure.col X (0)) (lvc_toNat 80#32 80 rfl (by omega)) hc6 j)
  clear hv6 hg6
  -- tokens 96 .. 111
  sl_exec (disch := exact Cert.OneHot.Pure.chk_load _ _ 96 (0) (lvc_toNat 96#32 96 rfl (by omega)) hr0 (by omega) (by omega))
  iapply (wp_loadX (F := F) d L _) $$ Hsx'
  iintro %v7 ⟨Hsx', %hv7⟩
  have hc7 : ∀ x : S16.Idx, ((v7 : IVec S16 32) x).toNat = Cert.OneHot.Pure.col X (0) (96 + (x 0).val) := fun x => by
    rw [hv7]; exact Cert.OneHot.Pure.loadIdx_col (F := F) X _ _ _ 96 (0) (lvc_toNat 96#32 96 rfl (by omega)) hr0 x
  sl_exec (disch := exact Cert.OneHot.Pure.chk_store _ _ 96 (lvc_toNat 96#32 96 rfl (by omega)) (fun x => by rw [hc7 x]; exact Cert.OneHot.Pure.col_lt hXr _ _) (by omega))
  iapply (wp_store_sB0 (F := F) d L _) $$ Hb0
  iintro %g7 ⟨Hb0, %hg7⟩
  have s7 := Cert.OneHot.Pure.ScatTo.step (f' := g7) 96 s6 (by omega) (by omega) (fun j => by
    rw [hg7]; exact Cert.OneHot.Pure.storeIdx_const (F := F) _ _ _ one _ 96 (Cert.OneHot.Pure.col X (0)) (lvc_toNat 96#32 96 rfl (by omega)) hc7 j)
  clear hv7 hg7
  -- tokens 112 .. 127
  sl_exec (disch := exact Cert.OneHot.Pure.chk_load _ _ 112 (0) (lvc_toNat 112#32 112 rfl (by omega)) hr0 (by omega) (by omega))
  iapply (wp_loadX (F := F) d L _) $$ Hsx'
  iintro %v8 ⟨Hsx', %hv8⟩
  have hc8 : ∀ x : S16.Idx, ((v8 : IVec S16 32) x).toNat = Cert.OneHot.Pure.col X (0) (112 + (x 0).val) := fun x => by
    rw [hv8]; exact Cert.OneHot.Pure.loadIdx_col (F := F) X _ _ _ 112 (0) (lvc_toNat 112#32 112 rfl (by omega)) hr0 x
  sl_exec (disch := exact Cert.OneHot.Pure.chk_store _ _ 112 (lvc_toNat 112#32 112 rfl (by omega)) (fun x => by rw [hc8 x]; exact Cert.OneHot.Pure.col_lt hXr _ _) (by omega))
  iapply (wp_store_sB0 (F := F) d L _) $$ Hb0
  iintro %g8 ⟨Hb0, %hg8⟩
  have s8 := Cert.OneHot.Pure.ScatTo.step (f' := g8) 112 s7 (by omega) (by omega) (fun j => by
    rw [hg8]; exact Cert.OneHot.Pure.storeIdx_const (F := F) _ _ _ one _ 112 (Cert.OneHot.Pure.col X (0)) (lvc_toNat 112#32 112 rfl (by omega)) hc8 j)
  clear hv8 hg8
  -- tokens 128 .. 143
  sl_exec (disch := exact Cert.OneHot.Pure.chk_load _ _ 128 (0) (lvc_toNat 128#32 128 rfl (by omega)) hr0 (by omega) (by omega))
  iapply (wp_loadX (F := F) d L _) $$ Hsx'
  iintro %v9 ⟨Hsx', %hv9⟩
  have hc9 : ∀ x : S16.Idx, ((v9 : IVec S16 32) x).toNat = Cert.OneHot.Pure.col X (0) (128 + (x 0).val) := fun x => by
    rw [hv9]; exact Cert.OneHot.Pure.loadIdx_col (F := F) X _ _ _ 128 (0) (lvc_toNat 128#32 128 rfl (by omega)) hr0 x
  sl_exec (disch := exact Cert.OneHot.Pure.chk_store _ _ 128 (lvc_toNat 128#32 128 rfl (by omega)) (fun x => by rw [hc9 x]; exact Cert.OneHot.Pure.col_lt hXr _ _) (by omega))
  iapply (wp_store_sB0 (F := F) d L _) $$ Hb0
  iintro %g9 ⟨Hb0, %hg9⟩
  have s9 := Cert.OneHot.Pure.ScatTo.step (f' := g9) 128 s8 (by omega) (by omega) (fun j => by
    rw [hg9]; exact Cert.OneHot.Pure.storeIdx_const (F := F) _ _ _ one _ 128 (Cert.OneHot.Pure.col X (0)) (lvc_toNat 128#32 128 rfl (by omega)) hc9 j)
  clear hv9 hg9
  -- tokens 144 .. 159
  sl_exec (disch := exact Cert.OneHot.Pure.chk_load _ _ 144 (0) (lvc_toNat 144#32 144 rfl (by omega)) hr0 (by omega) (by omega))
  iapply (wp_loadX (F := F) d L _) $$ Hsx'
  iintro %v10 ⟨Hsx', %hv10⟩
  have hc10 : ∀ x : S16.Idx, ((v10 : IVec S16 32) x).toNat = Cert.OneHot.Pure.col X (0) (144 + (x 0).val) := fun x => by
    rw [hv10]; exact Cert.OneHot.Pure.loadIdx_col (F := F) X _ _ _ 144 (0) (lvc_toNat 144#32 144 rfl (by omega)) hr0 x
  sl_exec (disch := exact Cert.OneHot.Pure.chk_store _ _ 144 (lvc_toNat 144#32 144 rfl (by omega)) (fun x => by rw [hc10 x]; exact Cert.OneHot.Pure.col_lt hXr _ _) (by omega))
  iapply (wp_store_sB0 (F := F) d L _) $$ Hb0
  iintro %g10 ⟨Hb0, %hg10⟩
  have s10 := Cert.OneHot.Pure.ScatTo.step (f' := g10) 144 s9 (by omega) (by omega) (fun j => by
    rw [hg10]; exact Cert.OneHot.Pure.storeIdx_const (F := F) _ _ _ one _ 144 (Cert.OneHot.Pure.col X (0)) (lvc_toNat 144#32 144 rfl (by omega)) hc10 j)
  clear hv10 hg10
  -- tokens 160 .. 175
  sl_exec (disch := exact Cert.OneHot.Pure.chk_load _ _ 160 (0) (lvc_toNat 160#32 160 rfl (by omega)) hr0 (by omega) (by omega))
  iapply (wp_loadX (F := F) d L _) $$ Hsx'
  iintro %v11 ⟨Hsx', %hv11⟩
  have hc11 : ∀ x : S16.Idx, ((v11 : IVec S16 32) x).toNat = Cert.OneHot.Pure.col X (0) (160 + (x 0).val) := fun x => by
    rw [hv11]; exact Cert.OneHot.Pure.loadIdx_col (F := F) X _ _ _ 160 (0) (lvc_toNat 160#32 160 rfl (by omega)) hr0 x
  sl_exec (disch := exact Cert.OneHot.Pure.chk_store _ _ 160 (lvc_toNat 160#32 160 rfl (by omega)) (fun x => by rw [hc11 x]; exact Cert.OneHot.Pure.col_lt hXr _ _) (by omega))
  iapply (wp_store_sB0 (F := F) d L _) $$ Hb0
  iintro %g11 ⟨Hb0, %hg11⟩
  have s11 := Cert.OneHot.Pure.ScatTo.step (f' := g11) 160 s10 (by omega) (by omega) (fun j => by
    rw [hg11]; exact Cert.OneHot.Pure.storeIdx_const (F := F) _ _ _ one _ 160 (Cert.OneHot.Pure.col X (0)) (lvc_toNat 160#32 160 rfl (by omega)) hc11 j)
  clear hv11 hg11
  -- tokens 176 .. 191
  sl_exec (disch := exact Cert.OneHot.Pure.chk_load _ _ 176 (0) (lvc_toNat 176#32 176 rfl (by omega)) hr0 (by omega) (by omega))
  iapply (wp_loadX (F := F) d L _) $$ Hsx'
  iintro %v12 ⟨Hsx', %hv12⟩
  have hc12 : ∀ x : S16.Idx, ((v12 : IVec S16 32) x).toNat = Cert.OneHot.Pure.col X (0) (176 + (x 0).val) := fun x => by
    rw [hv12]; exact Cert.OneHot.Pure.loadIdx_col (F := F) X _ _ _ 176 (0) (lvc_toNat 176#32 176 rfl (by omega)) hr0 x
  sl_exec (disch := exact Cert.OneHot.Pure.chk_store _ _ 176 (lvc_toNat 176#32 176 rfl (by omega)) (fun x => by rw [hc12 x]; exact Cert.OneHot.Pure.col_lt hXr _ _) (by omega))
  iapply (wp_store_sB0 (F := F) d L _) $$ Hb0
  iintro %g12 ⟨Hb0, %hg12⟩
  have s12 := Cert.OneHot.Pure.ScatTo.step (f' := g12) 176 s11 (by omega) (by omega) (fun j => by
    rw [hg12]; exact Cert.OneHot.Pure.storeIdx_const (F := F) _ _ _ one _ 176 (Cert.OneHot.Pure.col X (0)) (lvc_toNat 176#32 176 rfl (by omega)) hc12 j)
  clear hv12 hg12
  -- tokens 184 .. 199
  sl_exec (disch := exact Cert.OneHot.Pure.chk_load _ _ 184 (0) (lvc_toNat 184#32 184 rfl (by omega)) hr0 (by omega) (by omega))
  iapply (wp_loadX (F := F) d L _) $$ Hsx'
  iintro %v13 ⟨Hsx', %hv13⟩
  have hc13 : ∀ x : S16.Idx, ((v13 : IVec S16 32) x).toNat = Cert.OneHot.Pure.col X (0) (184 + (x 0).val) := fun x => by
    rw [hv13]; exact Cert.OneHot.Pure.loadIdx_col (F := F) X _ _ _ 184 (0) (lvc_toNat 184#32 184 rfl (by omega)) hr0 x
  sl_exec (disch := exact Cert.OneHot.Pure.chk_store _ _ 184 (lvc_toNat 184#32 184 rfl (by omega)) (fun x => by rw [hc13 x]; exact Cert.OneHot.Pure.col_lt hXr _ _) (by omega))
  iapply (wp_store_sB0 (F := F) d L _) $$ Hb0
  iintro %g13 ⟨Hb0, %hg13⟩
  have s13 := Cert.OneHot.Pure.ScatTo.step (f' := g13) 184 s12 (by omega) (by omega) (fun j => by
    rw [hg13]; exact Cert.OneHot.Pure.storeIdx_const (F := F) _ _ _ one _ 184 (Cert.OneHot.Pure.col X (0)) (lvc_toNat 184#32 184 rfl (by omega)) hc13 j)
  clear hv13 hg13
  have htr1 : Scf.trips k0_t1_loop.lb k0_t1_loop.ub k0_t1_loop.st = 200 := by decide
  have hrow0 : Cert.OneHot.Pure.RowIs (F := F) (Cert.OneHot.Pure.col X r0.val) g13 :=
    Cert.OneHot.Pure.RowIs.of_zero (base := g0) (fun j => hg0 j (by have hj : (j 0).val < 200 := (j 0).isLt; omega)) (Cert.OneHot.Pure.ScatTo.done s13)
  ihave Hr0' := (Entails.of_eq (row_todo (F := F) d L r0 (k0_off10 L) (k0_off10_inb L) (hoff10 L) (m (oLoc d)))) $$ Hr0
  sl_exec
  have hpay0 : Cert.OneHot.Pure.RowIs (F := F) (Cert.OneHot.Pure.col X r0.val) (tile_body.sl.dma0_1 d L g13) := fun j => hrow0 j
  ihave Hs3 := (Transfers.Flight_mono countersEmb (thr d L) (sep_mono_l (Entails.of_eq (row_landed m d L X hXdef r0 (k0_off10 L) (k0_off10_inb L) (hoff10 L) (m (oLoc d)) (tile_body.sl.dma0_1 d L g13) hpay0)))) $$ Hs3
  clear s0 s1 s2 s3 s4 s5 s6 s7 s8 s9 s10 s11 s12 hc1 hc2 hc3 hc4 hc5 hc6 hc7 hc8 hc9 hc10 hc11 hc12 hc13
  -- the second row buffer is cleared
  sl_for (inv2 (F := F) d L) $$ [Hb1']
  case region =>
    intro k _
    unfold inv2
    iintro ⟨%f, %hf, Hb⟩
    sl_exec
    sl_step
    iexists _
    isplitr
    · ipureintro
      exact zero_row_sB1 d L k f hf _ (fun x => rfl) (k0_off11_inb k) (k0_off12_inb k) (k0_off13_inb k) (k0_off14_inb k) (k0_off15_inb k) (k0_off16_inb k) (k0_off17_inb k) (k0_off18_inb k)
    · iexact Hb
  · unfold inv2
    iexists f1
    isplitr
    · ipureintro; intro j hj; exact absurd hj (Nat.not_lt_zero _)
    · iexact Hb1'
  iintro %_ HI
  unfold inv2
  icases HI with ⟨%h0, %hh0, Hb1⟩
  have htr2 : Scf.trips k0_t2_loop.lb k0_t2_loop.ub k0_t2_loop.st = 200 := by decide

  have hr1 : ∀ x : S16.Idx, (rvc 1#32 x).toNat = 1 := fun x => rvc_toNat 1#32 x
  have t0 := Cert.OneHot.Pure.ScatTo.zero (F := F) (Cert.OneHot.Pure.col X 1) one h0

  -- tokens 0 .. 15
  sl_exec (disch := exact Cert.OneHot.Pure.chk_load _ _ 0 (1) (lvc_toNat 0#32 0 rfl (by omega)) hr1 (by omega) (by omega))
  iapply (wp_loadX (F := F) d L _) $$ Hsx'
  iintro %v21 ⟨Hsx', %hv21⟩
  have hc21 : ∀ x : S16.Idx, ((v21 : IVec S16 32) x).toNat = Cert.OneHot.Pure.col X (1) (0 + (x 0).val) := fun x => by
    rw [hv21]; exact Cert.OneHot.Pure.loadIdx_col (F := F) X _ _ _ 0 (1) (lvc_toNat 0#32 0 rfl (by omega)) hr1 x
  sl_exec (disch := exact Cert.OneHot.Pure.chk_store _ _ 0 (lvc_toNat 0#32 0 rfl (by omega)) (fun x => by rw [hc21 x]; exact Cert.OneHot.Pure.col_lt hXr _ _) (by omega))
  iapply (wp_store_sB1 (F := F) d L _) $$ Hb1
  iintro %g21 ⟨Hb1, %hg21⟩
  have s21 := Cert.OneHot.Pure.ScatTo.step (f' := g21) 0 t0 (by omega) (by omega) (fun j => by
    rw [hg21]; exact Cert.OneHot.Pure.storeIdx_const (F := F) _ _ _ one _ 0 (Cert.OneHot.Pure.col X (1)) (lvc_toNat 0#32 0 rfl (by omega)) hc21 j)
  clear hv21 hg21
  -- tokens 16 .. 31
  sl_exec (disch := exact Cert.OneHot.Pure.chk_load _ _ 16 (1) (lvc_toNat 16#32 16 rfl (by omega)) hr1 (by omega) (by omega))
  iapply (wp_loadX (F := F) d L _) $$ Hsx'
  iintro %v22 ⟨Hsx', %hv22⟩
  have hc22 : ∀ x : S16.Idx, ((v22 : IVec S16 32) x).toNat = Cert.OneHot.Pure.col X (1) (16 + (x 0).val) := fun x => by
    rw [hv22]; exact Cert.OneHot.Pure.loadIdx_col (F := F) X _ _ _ 16 (1) (lvc_toNat 16#32 16 rfl (by omega)) hr1 x
  sl_exec (disch := exact Cert.OneHot.Pure.chk_store _ _ 16 (lvc_toNat 16#32 16 rfl (by omega)) (fun x => by rw [hc22 x]; exact Cert.OneHot.Pure.col_lt hXr _ _) (by omega))
  iapply (wp_store_sB1 (F := F) d L _) $$ Hb1
  iintro %g22 ⟨Hb1, %hg22⟩
  have s22 := Cert.OneHot.Pure.ScatTo.step (f' := g22) 16 s21 (by omega) (by omega) (fun j => by
    rw [hg22]; exact Cert.OneHot.Pure.storeIdx_const (F := F) _ _ _ one _ 16 (Cert.OneHot.Pure.col X (1)) (lvc_toNat 16#32 16 rfl (by omega)) hc22 j)
  clear hv22 hg22
  -- tokens 32 .. 47
  sl_exec (disch := exact Cert.OneHot.Pure.chk_load _ _ 32 (1) (lvc_toNat 32#32 32 rfl (by omega)) hr1 (by omega) (by omega))
  iapply (wp_loadX (F := F) d L _) $$ Hsx'
  iintro %v23 ⟨Hsx', %hv23⟩
  have hc23 : ∀ x : S16.Idx, ((v23 : IVec S16 32) x).toNat = Cert.OneHot.Pure.col X (1) (32 + (x 0).val) := fun x => by
    rw [hv23]; exact Cert.OneHot.Pure.loadIdx_col (F := F) X _ _ _ 32 (1) (lvc_toNat 32#32 32 rfl (by omega)) hr1 x
  sl_exec (disch := exact Cert.OneHot.Pure.chk_store _ _ 32 (lvc_toNat 32#32 32 rfl (by omega)) (fun x => by rw [hc23 x]; exact Cert.OneHot.Pure.col_lt hXr _ _) (by omega))
  iapply (wp_store_sB1 (F := F) d L _) $$ Hb1
  iintro %g23 ⟨Hb1, %hg23⟩
  have s23 := Cert.OneHot.Pure.ScatTo.step (f' := g23) 32 s22 (by omega) (by omega) (fun j => by
    rw [hg23]; exact Cert.OneHot.Pure.storeIdx_const (F := F) _ _ _ one _ 32 (Cert.OneHot.Pure.col X (1)) (lvc_toNat 32#32 32 rfl (by omega)) hc23 j)
  clear hv23 hg23
  -- tokens 48 .. 63
  sl_exec (disch := exact Cert.OneHot.Pure.chk_load _ _ 48 (1) (lvc_toNat 48#32 48 rfl (by omega)) hr1 (by omega) (by omega))
  iapply (wp_loadX (F := F) d L _) $$ Hsx'
  iintro %v24 ⟨Hsx', %hv24⟩
  have hc24 : ∀ x : S16.Idx, ((v24 : IVec S16 32) x).toNat = Cert.OneHot.Pure.col X (1) (48 + (x 0).val) := fun x => by
    rw [hv24]; exact Cert.OneHot.Pure.loadIdx_col (F := F) X _ _ _ 48 (1) (lvc_toNat 48#32 48 rfl (by omega)) hr1 x
  sl_exec (disch := exact Cert.OneHot.Pure.chk_store _ _ 48 (lvc_toNat 48#32 48 rfl (by omega)) (fun x => by rw [hc24 x]; exact Cert.OneHot.Pure.col_lt hXr _ _) (by omega))
  iapply (wp_store_sB1 (F := F) d L _) $$ Hb1
  iintro %g24 ⟨Hb1, %hg24⟩
  have s24 := Cert.OneHot.Pure.ScatTo.step (f' := g24) 48 s23 (by omega) (by omega) (fun j => by
    rw [hg24]; exact Cert.OneHot.Pure.storeIdx_const (F := F) _ _ _ one _ 48 (Cert.OneHot.Pure.col X (1)) (lvc_toNat 48#32 48 rfl (by omega)) hc24 j)
  clear hv24 hg24
  -- tokens 64 .. 79
  sl_exec (disch := exact Cert.OneHot.Pure.chk_load _ _ 64 (1) (lvc_toNat 64#32 64 rfl (by omega)) hr1 (by omega) (by omega))
  iapply (wp_loadX (F := F) d L _) $$ Hsx'
  iintro %v25 ⟨Hsx', %hv25⟩
  have hc25 : ∀ x : S16.Idx, ((v25 : IVec S16 32) x).toNat = Cert.OneHot.Pure.col X (1) (64 + (x 0).val) := fun x => by
    rw [hv25]; exact Cert.OneHot.Pure.loadIdx_col (F := F) X _ _ _ 64 (1) (lvc_toNat 64#32 64 rfl (by omega)) hr1 x
  sl_exec (disch := exact Cert.OneHot.Pure.chk_store _ _ 64 (lvc_toNat 64#32 64 rfl (by omega)) (fun x => by rw [hc25 x]; exact Cert.OneHot.Pure.col_lt hXr _ _) (by omega))
  iapply (wp_store_sB1 (F := F) d L _) $$ Hb1
  iintro %g25 ⟨Hb1, %hg25⟩
  have s25 := Cert.OneHot.Pure.ScatTo.step (f' := g25) 64 s24 (by omega) (by omega) (fun j => by
    rw [hg25]; exact Cert.OneHot.Pure.storeIdx_const (F := F) _ _ _ one _ 64 (Cert.OneHot.Pure.col X (1)) (lvc_toNat 64#32 64 rfl (by omega)) hc25 j)
  clear hv25 hg25
  -- tokens 80 .. 95
  sl_exec (disch := exact Cert.OneHot.Pure.chk_load _ _ 80 (1) (lvc_toNat 80#32 80 rfl (by omega)) hr1 (by omega) (by omega))
  iapply (wp_loadX (F := F) d L _) $$ Hsx'
  iintro %v26 ⟨Hsx', %hv26⟩
  have hc26 : ∀ x : S16.Idx, ((v26 : IVec S16 32) x).toNat = Cert.OneHot.Pure.col X (1) (80 + (x 0).val) := fun x => by
    rw [hv26]; exact Cert.OneHot.Pure.loadIdx_col (F := F) X _ _ _ 80 (1) (lvc_toNat 80#32 80 rfl (by omega)) hr1 x
  sl_exec (disch := exact Cert.OneHot.Pure.chk_store _ _ 80 (lvc_toNat 80#32 80 rfl (by omega)) (fun x => by rw [hc26 x]; exact Cert.OneHot.Pure.col_lt hXr _ _) (by omega))
  iapply (wp_store_sB1 (F := F) d L _) $$ Hb1
  iintro %g26 ⟨Hb1, %hg26⟩
  have s26 := Cert.OneHot.Pure.ScatTo.step (f' := g26) 80 s25 (by omega) (by omega) (fun j => by
    rw [hg26]; exact Cert.OneHot.Pure.storeIdx_const (F := F) _ _ _ one _ 80 (Cert.OneHot.Pure.col X (1)) (lvc_toNat 80#32 80 rfl (by omega)) hc26 j)
  clear hv26 hg26
  -- tokens 96 .. 111
  sl_exec (disch := exact Cert.OneHot.Pure.chk_load _ _ 96 (1) (lvc_toNat 96#32 96 rfl (by omega)) hr1 (by omega) (by omega))
  iapply (wp_loadX (F := F) d L _) $$ Hsx'
  iintro %v27 ⟨Hsx', %hv27⟩
  have hc27 : ∀ x : S16.Idx, ((v27 : IVec S16 32) x).toNat = Cert.OneHot.Pure.col X (1) (96 + (x 0).val) := fun x => by
    rw [hv27]; exact Cert.OneHot.Pure.loadIdx_col (F := F) X _ _ _ 96 (1) (lvc_toNat 96#32 96 rfl (by omega)) hr1 x
  sl_exec (disch := exact Cert.OneHot.Pure.chk_store _ _ 96 (lvc_toNat 96#32 96 rfl (by omega)) (fun x => by rw [hc27 x]; exact Cert.OneHot.Pure.col_lt hXr _ _) (by omega))
  iapply (wp_store_sB1 (F := F) d L _) $$ Hb1
  iintro %g27 ⟨Hb1, %hg27⟩
  have s27 := Cert.OneHot.Pure.ScatTo.step (f' := g27) 96 s26 (by omega) (by omega) (fun j => by
    rw [hg27]; exact Cert.OneHot.Pure.storeIdx_const (F := F) _ _ _ one _ 96 (Cert.OneHot.Pure.col X (1)) (lvc_toNat 96#32 96 rfl (by omega)) hc27 j)
  clear hv27 hg27
  -- tokens 112 .. 127
  sl_exec (disch := exact Cert.OneHot.Pure.chk_load _ _ 112 (1) (lvc_toNat 112#32 112 rfl (by omega)) hr1 (by omega) (by omega))
  iapply (wp_loadX (F := F) d L _) $$ Hsx'
  iintro %v28 ⟨Hsx', %hv28⟩
  have hc28 : ∀ x : S16.Idx, ((v28 : IVec S16 32) x).toNat = Cert.OneHot.Pure.col X (1) (112 + (x 0).val) := fun x => by
    rw [hv28]; exact Cert.OneHot.Pure.loadIdx_col (F := F) X _ _ _ 112 (1) (lvc_toNat 112#32 112 rfl (by omega)) hr1 x
  sl_exec (disch := exact Cert.OneHot.Pure.chk_store _ _ 112 (lvc_toNat 112#32 112 rfl (by omega)) (fun x => by rw [hc28 x]; exact Cert.OneHot.Pure.col_lt hXr _ _) (by omega))
  iapply (wp_store_sB1 (F := F) d L _) $$ Hb1
  iintro %g28 ⟨Hb1, %hg28⟩
  have s28 := Cert.OneHot.Pure.ScatTo.step (f' := g28) 112 s27 (by omega) (by omega) (fun j => by
    rw [hg28]; exact Cert.OneHot.Pure.storeIdx_const (F := F) _ _ _ one _ 112 (Cert.OneHot.Pure.col X (1)) (lvc_toNat 112#32 112 rfl (by omega)) hc28 j)
  clear hv28 hg28
  -- tokens 128 .. 143
  sl_exec (disch := exact Cert.OneHot.Pure.chk_load _ _ 128 (1) (lvc_toNat 128#32 128 rfl (by omega)) hr1 (by omega) (by omega))
  iapply (wp_loadX (F := F) d L _) $$ Hsx'
  iintro %v29 ⟨Hsx', %hv29⟩
  have hc29 : ∀ x : S16.Idx, ((v29 : IVec S16 32) x).toNat = Cert.OneHot.Pure.col X (1) (128 + (x 0).val) := fun x => by
    rw [hv29]; exact Cert.OneHot.Pure.loadIdx_col (F := F) X _ _ _ 128 (1) (lvc_toNat 128#32 128 rfl (by omega)) hr1 x
  sl_exec (disch := exact Cert.OneHot.Pure.chk_store _ _ 128 (lvc_toNat 128#32 128 rfl (by omega)) (fun x => by rw [hc29 x]; exact Cert.OneHot.Pure.col_lt hXr _ _) (by omega))
  iapply (wp_store_sB1 (F := F) d L _) $$ Hb1
  iintro %g29 ⟨Hb1, %hg29⟩
  have s29 := Cert.OneHot.Pure.ScatTo.step (f' := g29) 128 s28 (by omega) (by omega) (fun j => by
    rw [hg29]; exact Cert.OneHot.Pure.storeIdx_const (F := F) _ _ _ one _ 128 (Cert.OneHot.Pure.col X (1)) (lvc_toNat 128#32 128 rfl (by omega)) hc29 j)
  clear hv29 hg29
  -- tokens 144 .. 159
  sl_exec (disch := exact Cert.OneHot.Pure.chk_load _ _ 144 (1) (lvc_toNat 144#32 144 rfl (by omega)) hr1 (by omega) (by omega))
  iapply (wp_loadX (F := F) d L _) $$ Hsx'
  iintro %v30 ⟨Hsx', %hv30⟩
  have hc30 : ∀ x : S16.Idx, ((v30 : IVec S16 32) x).toNat = Cert.OneHot.Pure.col X (1) (144 + (x 0).val) := fun x => by
    rw [hv30]; exact Cert.OneHot.Pure.loadIdx_col (F := F) X _ _ _ 144 (1) (lvc_toNat 144#32 144 rfl (by omega)) hr1 x
  sl_exec (disch := exact Cert.OneHot.Pure.chk_store _ _ 144 (lvc_toNat 144#32 144 rfl (by omega)) (fun x => by rw [hc30 x]; exact Cert.OneHot.Pure.col_lt hXr _ _) (by omega))
  iapply (wp_store_sB1 (F := F) d L _) $$ Hb1
  iintro %g30 ⟨Hb1, %hg30⟩
  have s30 := Cert.OneHot.Pure.ScatTo.step (f' := g30) 144 s29 (by omega) (by omega) (fun j => by
    rw [hg30]; exact Cert.OneHot.Pure.storeIdx_const (F := F) _ _ _ one _ 144 (Cert.OneHot.Pure.col X (1)) (lvc_toNat 144#32 144 rfl (by omega)) hc30 j)
  clear hv30 hg30
  -- tokens 160 .. 175
  sl_exec (disch := exact Cert.OneHot.Pure.chk_load _ _ 160 (1) (lvc_toNat 160#32 160 rfl (by omega)) hr1 (by omega) (by omega))
  iapply (wp_loadX (F := F) d L _) $$ Hsx'
  iintro %v31 ⟨Hsx', %hv31⟩
  have hc31 : ∀ x : S16.Idx, ((v31 : IVec S16 32) x).toNat = Cert.OneHot.Pure.col X (1) (160 + (x 0).val) := fun x => by
    rw [hv31]; exact Cert.OneHot.Pure.loadIdx_col (F := F) X _ _ _ 160 (1) (lvc_toNat 160#32 160 rfl (by omega)) hr1 x
  sl_exec (disch := exact Cert.OneHot.Pure.chk_store _ _ 160 (lvc_toNat 160#32 160 rfl (by omega)) (fun x => by rw [hc31 x]; exact Cert.OneHot.Pure.col_lt hXr _ _) (by omega))
  iapply (wp_store_sB1 (F := F) d L _) $$ Hb1
  iintro %g31 ⟨Hb1, %hg31⟩
  have s31 := Cert.OneHot.Pure.ScatTo.step (f' := g31) 160 s30 (by omega) (by omega) (fun j => by
    rw [hg31]; exact Cert.OneHot.Pure.storeIdx_const (F := F) _ _ _ one _ 160 (Cert.OneHot.Pure.col X (1)) (lvc_toNat 160#32 160 rfl (by omega)) hc31 j)
  clear hv31 hg31
  -- tokens 176 .. 191
  sl_exec (disch := exact Cert.OneHot.Pure.chk_load _ _ 176 (1) (lvc_toNat 176#32 176 rfl (by omega)) hr1 (by omega) (by omega))
  iapply (wp_loadX (F := F) d L _) $$ Hsx'
  iintro %v32 ⟨Hsx', %hv32⟩
  have hc32 : ∀ x : S16.Idx, ((v32 : IVec S16 32) x).toNat = Cert.OneHot.Pure.col X (1) (176 + (x 0).val) := fun x => by
    rw [hv32]; exact Cert.OneHot.Pure.loadIdx_col (F := F) X _ _ _ 176 (1) (lvc_toNat 176#32 176 rfl (by omega)) hr1 x
  sl_exec (disch := exact Cert.OneHot.Pure.chk_store _ _ 176 (lvc_toNat 176#32 176 rfl (by omega)) (fun x => by rw [hc32 x]; exact Cert.OneHot.Pure.col_lt hXr _ _) (by omega))
  iapply (wp_store_sB1 (F := F) d L _) $$ Hb1
  iintro %g32 ⟨Hb1, %hg32⟩
  have s32 := Cert.OneHot.Pure.ScatTo.step (f' := g32) 176 s31 (by omega) (by omega) (fun j => by
    rw [hg32]; exact Cert.OneHot.Pure.storeIdx_const (F := F) _ _ _ one _ 176 (Cert.OneHot.Pure.col X (1)) (lvc_toNat 176#32 176 rfl (by omega)) hc32 j)
  clear hv32 hg32
  -- tokens 184 .. 199
  sl_exec (disch := exact Cert.OneHot.Pure.chk_load _ _ 184 (1) (lvc_toNat 184#32 184 rfl (by omega)) hr1 (by omega) (by omega))
  iapply (wp_loadX (F := F) d L _) $$ Hsx'
  iintro %v33 ⟨Hsx', %hv33⟩
  have hc33 : ∀ x : S16.Idx, ((v33 : IVec S16 32) x).toNat = Cert.OneHot.Pure.col X (1) (184 + (x 0).val) := fun x => by
    rw [hv33]; exact Cert.OneHot.Pure.loadIdx_col (F := F) X _ _ _ 184 (1) (lvc_toNat 184#32 184 rfl (by omega)) hr1 x
  sl_exec (disch := exact Cert.OneHot.Pure.chk_store _ _ 184 (lvc_toNat 184#32 184 rfl (by omega)) (fun x => by rw [hc33 x]; exact Cert.OneHot.Pure.col_lt hXr _ _) (by omega))
  iapply (wp_store_sB1 (F := F) d L _) $$ Hb1
  iintro %g33 ⟨Hb1, %hg33⟩
  have s33 := Cert.OneHot.Pure.ScatTo.step (f' := g33) 184 s32 (by omega) (by omega) (fun j => by
    rw [hg33]; exact Cert.OneHot.Pure.storeIdx_const (F := F) _ _ _ one _ 184 (Cert.OneHot.Pure.col X (1)) (lvc_toNat 184#32 184 rfl (by omega)) hc33 j)
  clear hv33 hg33
  have hrow1 : Cert.OneHot.Pure.RowIs (F := F) (Cert.OneHot.Pure.col X r1.val) g33 :=
    Cert.OneHot.Pure.RowIs.of_zero (base := h0) (fun j => hh0 j (by have hj : (j 0).val < 200 := (j 0).isLt; omega)) (Cert.OneHot.Pure.ScatTo.done s33)
  ihave Hr1' := (Entails.of_eq (row_todo (F := F) d L r1 (k0_off19 L) (k0_off19_inb L) (hoff19 L) (m (oLoc d)))) $$ Hr1
  sl_exec
  have hpay1 : Cert.OneHot.Pure.RowIs (F := F) (Cert.OneHot.Pure.col X r1.val) (tile_body.sl.dma0_2 d L g33) := fun j => hrow1 j
  ihave Hs4 := (Transfers.Flight_mono countersEmb (thr d L) (sep_mono_l (Entails.of_eq (row_landed m d L X hXdef r1 (k0_off19 L) (k0_off19_inb L) (hoff19 L) (m (oLoc d)) (tile_body.sl.dma0_2 d L g33) hpay1)))) $$ Hs4
  -- the main loop
  sl_for (inv3 (F := F) m d L X O (insert (SemLoc.dma cc0_scoped0.sem, (default : HIx 1)) W)) $$ [Hmw Hsx' Hs3 Hb0 Hs4 Hb1 Htodo HO]
  case region =>
    intro k acc
    exact trip3 m d L O X hXdef hXr hO _ (tile_body.sl.v2 L) k acc
  · unfold inv3 flightOf
    isplitr; · iexact Hmw
    isplitl [Hsx']; · iexact Hsx'
    isplitl [Hs3 Hb0]
    · iexists g13
      isplitr; · ipureintro; exact hrow0
      isplitl [Hs3]; · iexact Hs3
      iexact Hb0
    isplitl [Hs4 Hb1]
    · iexists g33
      isplitr; · ipureintro; exact hrow1
      isplitl [Hs4]; · iexact Hs4
      iexact Hb1
    isplitr; · rw [show (2 * 0 : ℕ) = 0 from rfl, bigSep_below_zero (F := F) (doneRow m d L)]; iempintro
    isplitl [Htodo]; · iexact Htodo
    iexists (insert (SemLoc.dma cc0_scoped0.sem, (default : HIx 1)) W); isplitr
    · ipureintro; exact fun p hp => .inl hp
    iexact HO
  iintro %_ HI

  have htr3 : Scf.trips k0_t3_loop.lb k0_t3_loop.ub k0_t3_loop.st = 63 := by decide
  unfold inv3 flightOf
  rw [htr3]
  icases HI with ⟨-, Hsx', ⟨%gA, %hA, Hs3, Hb0⟩, ⟨%gB, %hB, Hs4, Hb1⟩, Hdone, Htodo, %W', %hW', HO⟩
  -- the last two copies land
  sl_exec
  sl_step
  have h126 : 2 * 63 < 128 := by omega
  have h127 : 2 * 63 + 1 < 128 := by omega
  isplitl [Hxt' Hdone Hs3_dst Hs4_dst]
  · unfold tdRes
    isplitl [Hxt']
    · iapply (Entails.of_eq (show ((xtCols L).view.loc (V d (cV L) (jV L)) ↦[(xtCols L).view.set]{fullShare} xtVal m d : sProp 𝕄) = (xtLoc d ↦[colSet (widL L)]{fullShare} xtVal m d) from by rw [set_xtCols]))
      iexact Hxt'
    · ihave Hd1 := (Entails.of_eq (congrArg (doneRow m d L) (fr_eq (n := 2 * 63) h126))) $$ Hs3_dst
      ihave Hd := (Entails.of_eq (bigSep_below_succ (F := F) (doneRow m d L) (2 * 63) h126).symm) $$ [Hdone Hd1]
      · isplitl [Hdone]; · iexact Hdone
        iexact Hd1
      ihave Hd2 := (Entails.of_eq (congrArg (doneRow m d L) (fr_eq (n := 2 * 63 + 1) h127))) $$ Hs4_dst
      ihave Hd' := (Entails.of_eq (bigSep_below_succ (F := F) (doneRow m d L) (2 * 63 + 1) h127).symm) $$ [Hd Hd2]
      · isplitl [Hd]; · iexact Hd
        iexact Hd2
      ihave Hall := (Entails.of_eq ((show bigSep (Finset.univ.filter fun r : Fin 128 => r.val < 2 * 63 + 1 + 1) (doneRow (F := F) m d L)
          = bigSep (Finset.univ.filter fun r : Fin 128 => r.val < 128) (doneRow (F := F) m d L) from rfl).trans
        ((bigSep_below_all (F := F) (doneRow m d L)).trans (oRows_split (F := F) d (widL L) (outVal m d)).symm))) $$ Hd'
      iexact Hall
  isplitl [Hsx' Hb0 Hb1 Hbufs]
  · isplitl [Hsx']; · iexists _; iexact Hsx'
    isplitl [Hb0]; · iexists _; iexact Hb0
    isplitl [Hb1]; · iexists _; iexact Hb1
    iexact Hbufs
  isplitl [Hs3 Hs4 Hs0 Hsems]
  · isplitl [Hs3]; · iexact Hs3
    isplitl [Hs4]; · iexact Hs4
    isplitl [Hs0]; · iexact Hs0
    iexact Hsems
  iexists (insert (SemLoc.dma cc0_scratch4.sem, (default : HIx 1)) (insert (SemLoc.dma cc0_scratch3.sem, (default : HIx 1)) W')); isplitr
  · ipureintro; intro p hp
    rcases Finset.mem_insert.mp hp with rfl | hp
    · exact .inr rfl
    rcases Finset.mem_insert.mp hp with rfl | hp
    · exact .inr rfl
    rcases hW' p hp with h | h
    · rcases Finset.mem_insert.mp h with rfl | h
      · exact .inr rfl
      · exact .inl h
    · exact .inr h
  iexact HO

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__onehot_sc (coordsV c s)
          xtV (Memref.isWhole_whole _) oV (Memref.isWhole_whole _) sX (Memref.isWhole_whole _) sB0 (Memref.isWhole_whole _) sB1 (Memref.isWhole_whole _)
          cc0_scratch3 cc0_scratch4 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- What the proof asks of the launch memory: every class number of the transposed table is below 128. -/
def PreOK : Prop := ∀ (d : Dev nD) i, ((xtVal m d : (⟨S200x4096, .i32⟩ : BufTy).Contents (Elt F)) i).toNat < 128

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF (hpre d) O W hO).trans (wp_mono frame _ _ fun _ => obl_post)

end Cert.Proof.KB

end
-- ==== Proof.LaunchB.lean ====
/-
  The launch of the one-hot program: how the sparse cores' operands split among the 32 workers and join again,
  the host's two transposes around the call, and the run of the whole family of threads from the workers' obligation.
-/
import proofs.«212721_g4020089389465_cont_8to1_b_1189_16_alg».proof.Proof.CommonB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.StableHlo (held held_split held_sdiff_result wp_hlo_within)

variable {F : FTy → Type}

local notation "𝕄" => MT nD τ sig (HIx 1) (Elt F) ℕ UU ℕ

variable (m : (ℓ : Loc nD τ sig) → Buf (Elt F) ℓ) (ρ : Dev nD → PrngReg)
variable [FloatOps F]

/-! ## What the call carries, as equations -/

theorem P_st (d : Dev nD) (c : Fin ((K (F := F)).nCore 0)) :
    (P (F := F) m).st 0 d c = bigSep Finset.univ fun s : Fin 16 => goRes m d (wid (Fin.cast nCore_zero c) s) := rfl
theorem P_dn (d : Dev nD) (c : Fin ((K (F := F)).nCore 0)) :
    (P (F := F) m).dn 0 d c = bigSep Finset.univ fun s : Fin 16 => tdRes m d (wid (Fin.cast nCore_zero c) s) := rfl
theorem P_go (d : Dev nD) (c : Fin ((K (F := F)).nCore 0)) (i : Fin ((K (F := F)).nSub 0)) :
    (P (F := F) m).go 0 d c i = goRes m d (wid (Fin.cast nCore_zero c) (Fin.cast nSub_zero i)) := rfl
theorem P_td (d : Dev nD) (c : Fin ((K (F := F)).nCore 0)) (i : Fin ((K (F := F)).nSub 0)) :
    (P (F := F) m).td 0 d c i = tdRes m d (wid (Fin.cast nCore_zero c) (Fin.cast nSub_zero i)) := rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A sparse core's operands are its sixteen workers' parts, and so are its results. -/
theorem vecSplit : (K (F := F)).VecSplit' (P m) 0 := by
  intro d c
  simp only [P_st, P_dn, P_go, P_td]
  rw [bigSep_tasks (F := F) (fun s => goRes m d (wid (Fin.cast nCore_zero c) s)),
    bigSep_tasks (F := F) (fun s => tdRes m d (wid (Fin.cast nCore_zero c) s))]
  iintro H; imodintro
  isplitl [H]; · iexact H
  iintro H; iexact H

/-! ## The launch element: the handshakes' rounds; the transfers' counters are not used -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = iprop(emp) from by
    show (bigSep Finset.univ fun _ : Thread nD τ => bigSep Finset.univ fun _ : Fin 1 => (iprop(emp) : sProp 𝕄)) = iprop(emp)
    rw [bigSep_congr fun _ _ => bigSep_emp' _, bigSep_emp']]
  iempintro

/-! ## The arrays split among the 32 workers -/

omit [FloatOps F] in
theorem colSet_eq (w : Fin 32) : colSet w = (colRect w).set := by
  show ((View.whole (main_v0_scv : Ref sig .scVector)).slice (colRect w)).set = _
  rw [View.set_slice]; exact Finset.map_refl
omit [FloatOps F] in
theorem rowSet_eq (w : Fin 32) : rowSet w = (rowRect w).set := by
  show ((View.whole (main_v1_scv : Ref sig .scVector)).slice (rowRect w)).set = _
  rw [View.set_slice]; exact Finset.map_refl
omit [FloatOps F] in
theorem cols_disjoint : ∀ i ∈ (Finset.univ : Finset (Fin 32)), ∀ j ∈ (Finset.univ : Finset (Fin 32)), i ≠ j → Disjoint (colSet i) (colSet j) :=
  fun i _ j _ h => by rw [colSet_eq, colSet_eq]; exact Rect.part_disjoint hdivX h
omit [FloatOps F] in
theorem rows_disjoint : ∀ i ∈ (Finset.univ : Finset (Fin 32)), ∀ j ∈ (Finset.univ : Finset (Fin 32)), i ≠ j → Disjoint (rowSet i) (rowSet j) :=
  fun i _ j _ h => by rw [rowSet_eq, rowSet_eq]; exact Rect.part_disjoint hdivO h
omit [FloatOps F] in
theorem cols_cover : (Finset.univ : Finset (Fin 32)).biUnion colSet = Finset.univ :=
  (Finset.biUnion_congr rfl fun i _ => colSet_eq i).trans (Rect.biUnion_part hdivX)
omit [FloatOps F] in
theorem rows_cover : (Finset.univ : Finset (Fin 32)).biUnion rowSet = Finset.univ :=
  (Finset.biUnion_congr rfl fun i _ => rowSet_eq i).trans (Rect.biUnion_part hdivO)

omit [FloatOps F] in
/-- `xt` whole is the 32 workers' columns of it. -/
theorem xt_cols (d : Dev nD) (f : Buf (Elt F) (xtLoc d)) :
    (xtLoc d ↦{fullShare} f : sProp 𝕄) = bigSep Finset.univ fun w : Fin 32 => xtLoc d ↦[colSet w]{fullShare} f := by
  rw [← pointsTo_biUnion Finset.univ (ℓ := xtLoc d) colSet cols_disjoint, cols_cover]; try rfl
omit [FloatOps F] in
/-- The tiles' array whole is the 32 workers' rows of it. -/
theorem o_rows (d : Dev nD) (f : Buf (Elt F) (oLoc d)) :
    (oLoc d ↦{fullShare} f : sProp 𝕄) = bigSep Finset.univ fun w : Fin 32 => oLoc d ↦[rowSet w]{fullShare} f := by
  rw [← pointsTo_biUnion Finset.univ (ℓ := oLoc d) rowSet rows_disjoint, rows_cover]; try rfl

/-- Worker `2 s + c` is subcore `s` of sparse core `c`: the workers are the pairs. -/
def widEquiv : Fin 2 × Fin 16 ≃ Fin 32 where
  toFun p := wid p.1 p.2
  invFun w := (⟨w.val % 2, Nat.mod_lt _ (by decide)⟩, ⟨w.val / 2, by omega⟩)
  left_inv p := by
    rcases p with ⟨c, s⟩
    refine Prod.ext (Fin.ext ?_) (Fin.ext ?_)
    · show (2 * s.val + c.val) % 2 = c.val; omega
    · show (2 * s.val + c.val) / 2 = s.val; omega
  right_inv w := by
    refine Fin.ext ?_
    show 2 * (w.val / 2) + w.val % 2 = w.val; omega

omit [FloatOps F] in
/-- Something of every worker is, per sparse core, something of each of its sixteen subcores. -/
theorem bigSep_workers (Φ : Fin 32 → sProp 𝕄) :
    bigSep Finset.univ Φ
      = bigSep Finset.univ fun c : Fin ((K (F := F)).nCore 0) => bigSep Finset.univ fun s : Fin 16 => Φ (wid (Fin.cast nCore_zero c) s) := by
  rw [BI.bigSep_univ_equiv widEquiv Φ, BI.bigSep_univ_prod]
  exact bigSep_congr fun _ _ => rfl

/-- What the call takes: `xt` at the transposed table and the tiles' array, whole. -/
theorem st0_eq (d : Dev nD) :
    (bigSep Finset.univ fun c : Fin ((K (F := F)).nCore 0) => (P m).st 0 d c)
      = iprop((xtLoc d ↦{fullShare} xtVal m d) ∗ (oLoc d ↦{fullShare} m (oLoc d))) := by
  simp only [P_st]
  rw [← bigSep_workers (F := F) (fun w => goRes m d w)]
  unfold goRes
  rw [bigSep_sep', ← xt_cols, ← o_rows]
/-- What it brings back: `xt` unchanged, the tiles' array at the one-hot array. -/
theorem dn0_eq (d : Dev nD) :
    (bigSep Finset.univ fun c : Fin ((K (F := F)).nCore 0) => (P m).dn 0 d c)
      = iprop((xtLoc d ↦{fullShare} xtVal m d) ∗ (oLoc d ↦{fullShare} outVal m d)) := by
  simp only [P_dn]
  rw [← bigSep_workers (F := F) (fun w => tdRes m d w)]
  unfold tdRes
  rw [bigSep_sep', ← xt_cols, ← o_rows]

/-! ## The host's two transposes -/

abbrev a' : DevRef τ sig := Proc.devRef .tc (main_arg0 : Ref sig .tc)
abbrev xt' : DevRef τ sig := Proc.devRef .tc (main_v0 : Ref sig .tc)
abbrev o' : DevRef τ sig := Proc.devRef .tc (main_v1 : Ref sig .tc)
abbrev r' : DevRef τ sig := Proc.devRef .tc (main_v2 : Ref sig .tc)

abbrev opX : HloOp τ sig (Elt F) :=
  StableHlo.unary main_arg0 main_v0 ((transpose S200x4096 [1, 0] · transposes_S4096x200_S200x4096_1_0) : (⟨S4096x200, .i32⟩ : BufTy).Contents (Elt F) → (⟨S200x4096, .i32⟩ : BufTy).Contents (Elt F))
abbrev opR : HloOp τ sig (Elt F) :=
  StableHlo.unary main_v1 main_v2 ((transpose S4096x128x200 [0, 2, 1] · transposes_S4096x200x128_S4096x128x200_0_2_1) : (⟨S4096x200x128, .f32⟩ : BufTy).Contents (Elt F) → (⟨S4096x128x200, .f32⟩ : BufTy).Contents (Elt F))

/-- The TensorCore's arrays, all unscoped: `x`, `xt`, the tiles' array, the result. -/
abbrev S4 : Finset (DevRef τ sig) := {a', xt', o', r'}

omit [FloatOps F] in
theorem held_S4 (d : Dev nD) (W : Valuation τ sig (Elt F)) :
    (held (T d) S4 W : sProp 𝕄)
      = iprop((aLoc d ↦{fullShare} W a') ∗ (xtLoc d ↦{fullShare} W xt') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((aLoc d ↦{fullShare} W main_arg0) ∗ (xtLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The launch valuation; and the one after the call: `xt` at the transposed table, the tiles' array at the one-hot array. -/
def V0 (d : Dev nD) : Valuation τ sig (Elt F) := fun b => m (d, b)
def V1 (d : Dev nD) : Valuation τ sig (Elt F) := Function.update (Function.update (V0 m d) xt' (xtVal m d)) o' (outVal m d)

omit [FloatOps F] in
theorem unscoped_held (d : Dev nD) : (unscopedBufs d (fun b => m ((SparseCore.T d).loc b)) : sProp 𝕄) = held (T d) S4 (V0 m d) := by
  rw [unscopedBufs_eq, held_S4]; rfl

theorem V1_a (d : Dev nD) : V1 m d a' = m (aLoc d) :=
  (Function.update_of_ne (show a' ≠ o' by decide) _ _).trans (Function.update_of_ne (show a' ≠ xt' by decide) _ _)
theorem V1_xt (d : Dev nD) : V1 m d xt' = xtVal m d :=
  (Function.update_of_ne (show xt' ≠ o' by decide) _ _).trans (Function.update_self _ _ _)
theorem V1_o (d : Dev nD) : V1 m d o' = outVal m d := Function.update_self _ _ _
theorem V1_r (d : Dev nD) : V1 m d r' = m (rLoc d) :=
  (Function.update_of_ne (show r' ≠ o' by decide) _ _).trans (Function.update_of_ne (show r' ≠ xt' by decide) _ _)

theorem hopX : (opX (F := F)).bufs ⊆ S4 := show ({a', xt'} : Finset (DevRef τ sig)) ⊆ S4 by decide
theorem hopR : (opR (F := F)).bufs ⊆ S4 := show ({o', r'} : Finset (DevRef τ sig)) ⊆ S4 by decide

/-- After the first transpose: `xt` at the transposed table, the rest as launched. -/
theorem held_X (d : Dev nD) :
    (held (T d) S4 ((opX (F := F)).result (V0 m d)) : sProp 𝕄)
      = iprop((aLoc d ↦{fullShare} m (aLoc d)) ∗ (xtLoc d ↦{fullShare} xtVal m d) ∗ (oLoc d ↦{fullShare} m (oLoc d)) ∗ rLoc d ↦{fullShare} m (rLoc d)) := by
  rw [held_S4,
    (opX (F := F)).result_of_not_mem (V0 m d) (b := Proc.devRef .tc (main_arg0 : Ref sig .tc)) (show Proc.devRef .tc (main_arg0 : Ref sig .tc) ∉ ({xt'} : Finset (DevRef τ sig)) by decide),
    (opX (F := F)).result_of_not_mem (V0 m d) (b := Proc.devRef .tc (main_v1 : Ref sig .tc)) (show Proc.devRef .tc (main_v1 : Ref sig .tc) ∉ ({xt'} : Finset (DevRef τ sig)) by decide),
    (opX (F := F)).result_of_not_mem (V0 m d) (b := Proc.devRef .tc (main_v2 : Ref sig .tc)) (show Proc.devRef .tc (main_v2 : Ref sig .tc) ∉ ({xt'} : Finset (DevRef τ sig)) by decide),
    (opX (F := F)).result_of_mem (V0 m d) (b := xt') (Finset.mem_singleton_self _)]
  rfl

/-- After the second: the result at the one-hot array's transpose. -/
theorem held_R (d : Dev nD) :
    (held (T d) S4 ((opR (F := F)).result (V1 m d)) : sProp 𝕄)
      = iprop((aLoc d ↦{fullShare} m (aLoc d)) ∗ (xtLoc d ↦{fullShare} xtVal m d) ∗ (oLoc d ↦{fullShare} outVal m d) ∗ rLoc d ↦{fullShare} resVal m d) := by
  rw [held_S4,
    (opR (F := F)).result_of_not_mem (V1 m d) (b := Proc.devRef .tc (main_arg0 : Ref sig .tc)) (show Proc.devRef .tc (main_arg0 : Ref sig .tc) ∉ ({r'} : Finset (DevRef τ sig)) by decide),
    (opR (F := F)).result_of_not_mem (V1 m d) (b := Proc.devRef .tc (main_v0 : Ref sig .tc)) (show Proc.devRef .tc (main_v0 : Ref sig .tc) ∉ ({r'} : Finset (DevRef τ sig)) by decide),
    (opR (F := F)).result_of_not_mem (V1 m d) (b := Proc.devRef .tc (main_v1 : Ref sig .tc)) (show Proc.devRef .tc (main_v1 : Ref sig .tc) ∉ ({r'} : Finset (DevRef τ sig)) by decide),
    (opR (F := F)).result_of_mem (V1 m d) (b := r') (Finset.mem_singleton_self _), V1_a, V1_xt, V1_o]
  rfl

/-! ## @main on the TensorCore -/

abbrev FIN (d : Dev nD) : sProp 𝕄 := iprop((aLoc d ↦{fullShare} m (aLoc d)) ∗ (rLoc d ↦{fullShare} resVal m d))

/-- @main on device `d`'s TensorCore: the transpose of `x`, the one call, the exchange of the tiles' array's last two axes. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the first transpose, over the four arrays
  iapply (wp_hlo_within 𝒱 (SparseCore.T d) none Set.univ (op := opX) (S := S4) hopX (V := V0 m d)) $$ [Hb Hheld]
  · isplitl [Hb]; · iexact Hb
    iexact Hheld
  iintro ⟨Hb, Hheld⟩
  ihave Hh := (Entails.of_eq (held_X (F := F) m d)) $$ Hheld
  icases Hh with ⟨Ha, Hxt, Ho, Hr⟩
  rw [wp_ret]; imodintro
  -- the call: `xt` and the tiles' array to the 32 workers and back
  iapply ((K (F := F)).wp_run (D (F := F)) 𝒱 (EH := EH) (P := P m) κ d 0) $$ [Hst Hxt Ho Hb Ha Hr]
  isplitr; · iexact Hctx
  isplitl [Hst]; · iexact Hst
  isplitl [Hxt Ho]
  · rw [st0_eq]
    isplitl [Hxt]; · iexact Hxt
    iexact Ho
  iintro ⟨Hst, Hdn⟩
  ihave Hdn' := (Entails.of_eq (dn0_eq m d)) $$ Hdn
  icases Hdn' with ⟨Hxt, Ho⟩
  -- the second transpose
  iapply (wp_hlo_within 𝒱 (SparseCore.T d) none Set.univ (op := opR) (S := S4) hopR (V := V1 m d)) $$ [Hb Ha Hxt Ho Hr]
  · isplitl [Hb]; · iexact Hb
    rw [held_S4, V1_a, V1_xt, V1_o, V1_r]
    isplitl [Ha]; · iexact Ha
    isplitl [Hxt]; · iexact Hxt
    isplitl [Ho]; · iexact Ho
    iexact Hr
  iintro ⟨Hb, Hheld⟩
  ihave Hh := (Entails.of_eq (held_R (F := F) m d)) $$ Hheld
  icases Hh with ⟨Ha, -, -, Hr⟩
  rw [wp_ret]; imodintro; imodintro
  isplitl [Hst]; · iexact Hst
  isplitl [Ha]; · iexact Ha
  iexact Hr

/-! ## What the final memory says -/

def fq (d : Dev nD) (s' : Phys nD τ sig (Elt F)) : Prop := s'.mem.mem (rLoc d) = resVal m d ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := resVal m d)) $$ [HSI Hr]
  · isplitl [HSI] <;> iassumption
  icases H with %h2
  ipureintro; exact ⟨funext fun i => h2 i (Finset.mem_univ i), funext fun i => h1 i (Finset.mem_univ i)⟩

/-! ## The program's run -/

def QC : PUnit × MemSt nD τ sig (Elt F) → Prop := fun r => ∀ c : Dev nD, r.2.mem (rLoc c) = resVal m c ∧ r.2.mem (aLoc c) = m (aLoc c)

/-- From the workers' obligation: every weakly fair execution of the threads ends, nothing faulting, the result at
    the transposed one-hot array and `x` unchanged. -/
theorem run_main [∀ e, Nonempty (Elt F e)] (hobl : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hobl)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.ResValueB.lean ====
/-
  The result's value: the transposed one-hot array of the transposed table is the one-hot array of the table.
-/
import proofs.«212721_g4020089389465_cont_8to1_b_1189_16_alg».proof.Proof.CommonB
import proofs.«212721_g4020089389465_cont_8to1_b_1189_16_alg».proof.Proof.OneHotSpec
import Idealize.ShloMosaic.Lib.Pipeline.Value

noncomputable section

namespace Cert.Proof.KB

open Cert.Kernel Cert.Kernel.Gen

open Idealize.ShloMosaic
open Idealize.ShloMosaic.ValueIdx

variable {F : FTy → Type}
variable (m : (ℓ : Loc nD τ sig) → Buf (Elt F) ℓ)
variable [FloatOps F]

/-- `xt[l, b] = x[b, l]`. -/
theorem xtVal_apply (d : Dev nD) (l : Fin 200) (b : Fin 4096) :
    (xtVal m d : (⟨S200x4096, .i32⟩ : BufTy).Contents (Elt F)) (ix2 l b)
      = (m (aLoc d) : (⟨S4096x200, .i32⟩ : BufTy).Contents (Elt F)) (ix2 b l) := by
  unfold xtVal
  refine transpose_apply _ _ _ _ _ fun a => ?_
  match a with
  | ⟨0, _⟩ => rfl
  | ⟨1, _⟩ => rfl

/-- Entry `(b, c, l)` of the result is entry `(b, l, c)` of the tiles' array, which reads `xt[l, b] = x[b, l]`. -/
theorem resVal_eq (d : Dev nD) :
    resVal m d
      = (Cert.OneHot.oneHot (F := F) (m (aLoc d) : (⟨S4096x200, .i32⟩ : BufTy).Contents (Elt F)) : (⟨S4096x128x200, .f32⟩ : BufTy).Contents (Elt F)) := by
  funext (i : S4096x128x200.Idx)
  have h1 : (resVal m d : (⟨S4096x128x200, .f32⟩ : BufTy).Contents (Elt F)) i
      = (outVal m d : (⟨S4096x200x128, .f32⟩ : BufTy).Contents (Elt F)) (ix3 (i 0) (i 2) (i 1)) := by
    unfold resVal
    refine transpose_apply _ _ _ _ _ fun a => ?_
    match a with
    | ⟨0, _⟩ => rfl
    | ⟨1, _⟩ => rfl
    | ⟨2, _⟩ => rfl
  refine h1.trans ?_
  unfold outVal Cert.OneHot.oneHot
  show (if ((xtVal m d : (⟨S200x4096, .i32⟩ : BufTy).Contents (Elt F)) (ix2 (i 2) (i 0))).toNat = (i 1).val then one else zero) = _
  rw [show (xtVal m d : (⟨S200x4096, .i32⟩ : BufTy).Contents (Elt F)) (ix2 (i 2) (i 0)) = _ from xtVal_apply m d (i 2) (i 0)]

end Cert.Proof.KB

end
-- ==== Proof.RefPre.lean ====
/-
  The precondition read back: when the printed predicate "every token is a class in 0..127" evaluates to the
  all-ones bit, every entry of the table, read unsigned, is below 128 (and, read signed, between 0 and 127).
-/
import proofs.«212721_g4020089389465_cont_8to1_b_1189_16_alg».proof.Pre_input_domain
import Idealize.ShloMosaic.Lib.ReduceAll
import Idealize.ShloMosaic.Lib.ValueIdx

namespace Cert.RefSide

open Idealize.ShloMosaic Idealize.ShloMosaic.ValueIdx

/-- A 32-bit word whose signed reading lies between 0 and 127 has that same unsigned reading. -/
theorem toNat_lt_of_toInt_range (v : BitVec 32) (h0 : 0 ≤ v.toInt) (h1 : v.toInt ≤ 127) : v.toNat < 128 := by
  rw [BitVec.toInt_eq_toNat_cond] at h0 h1
  have := v.isLt
  split at h0 <;> omega

/-- The precondition gives the signed range of every entry. -/
theorem pre_range_int {F : FTy → Type} [FloatOps F] [Cert.Pre_input_domain.Facts]
    (x : IVec (⟨2, ![4096, 200]⟩ : Shape) 32)
    (h : Cert.Pre_input_domain.fn (F := F) x = fun _ => 1#1) : ∀ i, 0 ≤ (x i).toInt ∧ (x i).toInt ≤ 127 := by
  intro i
  have h0 := congrFun h ValueIdx.ix0
  dsimp only [Cert.Pre_input_domain.fn] at h0
  haveI : Subsingleton Cert.Pre_input_domain.S_.Idx := ⟨fun a b => funext fun d => d.elim0⟩
  have h1 := Host.reduce_andi_all _ _ _ _ _ h0 i
  obtain ⟨hge, hle⟩ := IntOp.andi_eq_one.1 h1
  have hge' := IntOp.cmpi_sge.1 hge
  have hle' := IntOp.cmpi_sle.1 hle
  exact ⟨hge', hle'⟩

/-- The precondition gives the unsigned range of every entry: each token is a class below 128. -/
theorem pre_range {F : FTy → Type} [FloatOps F] [Cert.Pre_input_domain.Facts]
    (x : IVec (⟨2, ![4096, 200]⟩ : Shape) 32)
    (h : Cert.Pre_input_domain.fn (F := F) x = fun _ => 1#1) : ∀ i, (x i).toNat < 128 := fun i =>
  toNat_lt_of_toInt_range (x i) (pre_range_int (F := F) x h i).1 (pre_range_int (F := F) x h i).2

end Cert.RefSide
-- ==== Proof.RefScatter.lean ====
/-
  A scatter whose body returns the update ("set"), with every update the same value c: an entry of the result is c
  when some update index lands on it, and is the operand's entry when none does.  The order of the updates does
  not matter because they all write the same value.
-/
import Idealize.ShloMosaic.PureOps

namespace Cert.RefSide

open Idealize.ShloMosaic

section Fold
variable {ι β α : Type}

/-- A left fold of steps none of which touches entry `b` leaves entry `b` as it was. -/
theorem foldl_miss (step : (β → α) → ι → (β → α)) (g : ι → Option β) (b : β)
    (h2 : ∀ r n, g n ≠ some b → step r n b = r b) :
    ∀ (l : List ι) (x : β → α), (∀ n ∈ l, g n ≠ some b) → l.foldl step x b = x b
  | [], _, _ => rfl
  | a :: l, x, h => by
    rw [List.foldl_cons, foldl_miss step g b h2 l (step x a) (fun n hn => h n (List.mem_cons_of_mem _ hn))]
    exact h2 x a (h a List.mem_cons_self)

/-- A left fold of steps, each writing `c` at the entry it names, ends with `c` at entry `b` once some step names `b`. -/
theorem foldl_hit (step : (β → α) → ι → (β → α)) (g : ι → Option β) (c : α) (b : β)
    (h1 : ∀ r n, g n = some b → step r n b = c)
    (h2 : ∀ r n, g n ≠ some b → step r n b = r b) :
    ∀ (l : List ι) (x : β → α), (∃ n ∈ l, g n = some b) → l.foldl step x b = c
  | [], _, h => by obtain ⟨n, hn, _⟩ := h; exact nomatch hn
  | a :: l, x, h => by
    rw [List.foldl_cons]
    by_cases hl : ∃ n ∈ l, g n = some b
    · exact foldl_hit step g c b h1 h2 l _ hl
    · have ha : g a = some b := by
        obtain ⟨n, hn, hg⟩ := h
        rcases List.mem_cons.1 hn with rfl | hn
        · exact hg
        · exact absurd ⟨n, hn, hg⟩ hl
      rw [foldl_miss step g b h2 l _ (fun n hn hg => hl ⟨n, hn, hg⟩)]
      exact h1 x a ha

end Fold

section Scatter
variable {α : Type} {s si u : Shape} {w : Nat}

/-- Entry `i` of a set-scatter of the constant `c` is `c` when some update index lands on `i`. -/
theorem scatter_set_hit (d : ScatterDims s si u) (x : s.Idx → α) (idx : IVec si w) (upd : u.Idx → α) (c : α)
    (hupd : ∀ j, upd j = c) (i : s.Idx) (j : u.Idx) (hj : d.resultIdx? j idx = some i) :
    Host.scatter d (fun _ b => b) x idx upd i = c := by
  unfold Host.scatter
  refine foldl_hit _ (fun n => d.resultIdx? (u.rowMajor.symm n) idx) c i ?_ ?_ _ x
    ⟨u.rowMajor j, List.mem_finRange _, by simpa using hj⟩
  · intro r n hn
    simp only [hn, if_true]
    exact hupd _
  · intro r n hn
    generalize d.resultIdx? (u.rowMajor.symm n) idx = o at hn
    cases o with
    | none => rfl
    | some i0 =>
      have : i ≠ i0 := fun e => hn (by rw [e])
      exact if_neg this

/-- Entry `i` of a set-scatter is the operand's when no update index lands on `i`. -/
theorem scatter_set_miss (d : ScatterDims s si u) (x : s.Idx → α) (idx : IVec si w) (upd : u.Idx → α)
    (i : s.Idx) (hmiss : ∀ j : u.Idx, d.resultIdx? j idx ≠ some i) :
    Host.scatter d (fun _ b => b) x idx upd i = x i := by
  unfold Host.scatter
  refine foldl_miss _ (fun n => d.resultIdx? (u.rowMajor.symm n) idx) i ?_ _ x (fun n _ => hmiss _)
  intro r n hn
  generalize d.resultIdx? (u.rowMajor.symm n) idx = o at hn
  cases o with
  | none => rfl
  | some i0 =>
    have : i ≠ i0 := fun e => hn (by rw [e])
    exact if_neg this

end Scatter

end Cert.RefSide
-- ==== Proof.RefIndex.lean ====
/-
  The scatter's index array, read at an index.  Its last axis holds three components: the batch number b, the
  token's class x[b, l], and the position l, each passed through the "negative index" wrap (add the axis length
  when the value is negative).  For a batch number below 4096, a position below 200 and a class between 0 and
  127 no wrap fires, so the three components read, as signed integers, b, x[b, l] and l.
-/
import proofs.«212721_g4020089389465_cont_8to1_b_1189_16_alg».proof.Proof.Gen.ReferenceIdeal.Read
import Idealize.ShloMosaic.Lib.ValueIdx
import Idealize.ShloMosaic.Lib.Affine

noncomputable section

namespace Cert.RefSide

open Cert.ReferenceIdeal Cert.ReferenceIdeal.Gen Cert.ReferenceIdeal.Read
open Idealize.ShloMosaic Idealize.ShloMosaic.ValueIdx

/-! ## Words -/

/-- A 32-bit word below 2^31 reads the same signed and unsigned. -/
theorem toInt_of_toNat_lt (v : BitVec 32) (h : v.toNat < 2147483648) : v.toInt = (v.toNat : Int) := by
  rw [BitVec.toInt_eq_toNat_cond]
  split <;> omega

/-- The word of a number below 2^31 reads, signed, that number. -/
theorem toInt_ofNat_small (n : Nat) (h : n < 2147483648) : (BitVec.ofNat 32 n).toInt = (n : Int) := by
  rw [toInt_of_toNat_lt _ (by rw [BitVec.toNat_ofNat]; omega), BitVec.toNat_ofNat]
  congr 1
  omega

/-- The negative-index wrap leaves a non-negative word alone. -/
theorem wrap_id (v n : BitVec 32) (h : 0 ≤ v.toInt) :
    Scalar.select (IntOp.cmpi .slt v 0#32) (IntOp.addi v n) v = v := by
  have hz : (0#32 : BitVec 32).toInt = 0 := by decide
  have : IntOp.cmpi .slt v 0#32 = 0#1 := eq_zero_of_ne_one (fun e => by
    have := IntOp.cmpi_slt.1 e
    rw [hz] at this
    omega)
  rw [this, select_zero]

variable {F : FTy → Type} [FloatOps F]

/-! ## The three pieces of the concatenation -/

theorem v25_at0 (x : IVec S4096x200 32) (b : Fin 4096) (l : Fin 200) :
    val_main_v25 (F := F) x (ix3 b l (0 : Fin 3)) = val_main_v22 (F := F) (ix3 b l (0 : Fin 1)) := by
  unfold val_main_v25
  refine concatenate_apply_piece (2 : Fin S4096x200x3.rank) _ _ (ix3 b l (0 : Fin 3)) 0 (by simp) S4096x200x1 _ rfl rfl 0 rfl
    (ix3 b l (0 : Fin 1)) (fun b' hb' => ?_) rfl
  match b', hb' with
  | ⟨0, _⟩, _ => rfl
  | ⟨1, _⟩, _ => rfl
  | ⟨2, _⟩, hb' => exact absurd rfl hb'

theorem v25_at1 (x : IVec S4096x200 32) (b : Fin 4096) (l : Fin 200) :
    val_main_v25 (F := F) x (ix3 b l (1 : Fin 3)) = val_main_v23 (F := F) x (ix3 b l (0 : Fin 1)) := by
  unfold val_main_v25
  refine concatenate_apply_piece (2 : Fin S4096x200x3.rank) _ _ (ix3 b l (1 : Fin 3)) 1 (by simp) S4096x200x1 _ rfl rfl 1 rfl
    (ix3 b l (0 : Fin 1)) (fun b' hb' => ?_) rfl
  match b', hb' with
  | ⟨0, _⟩, _ => rfl
  | ⟨1, _⟩, _ => rfl
  | ⟨2, _⟩, hb' => exact absurd rfl hb'

theorem v25_at2 (x : IVec S4096x200 32) (b : Fin 4096) (l : Fin 200) :
    val_main_v25 (F := F) x (ix3 b l (2 : Fin 3)) = val_main_v24 (F := F) (ix3 b l (0 : Fin 1)) := by
  unfold val_main_v25
  refine concatenate_apply_piece (2 : Fin S4096x200x3.rank) _ _ (ix3 b l (2 : Fin 3)) 2 (by simp) S4096x200x1 _ rfl rfl 2 rfl
    (ix3 b l (0 : Fin 1)) (fun b' hb' => ?_) rfl
  match b', hb' with
  | ⟨0, _⟩, _ => rfl
  | ⟨1, _⟩, _ => rfl
  | ⟨2, _⟩, hb' => exact absurd rfl hb'

/-! ## The three components -/

/-- Component 0 is the batch number's word. -/
theorem v22_val (b : Fin 4096) (l : Fin 200) :
    val_main_v22 (F := F) (ix3 b l (0 : Fin 1)) = BitVec.ofNat 32 b.val := by
  show Scalar.select (IntOp.cmpi .slt (BitVec.ofNat 32 b.val) 0#32) (IntOp.addi (BitVec.ofNat 32 b.val) 4096#32)
    (BitVec.ofNat 32 b.val) = BitVec.ofNat 32 b.val
  exact wrap_id _ _ (by rw [toInt_ofNat_small _ (by have := b.isLt; omega)]; exact Int.natCast_nonneg _)

/-- Component 2 is the position's word. -/
theorem v24_val (b : Fin 4096) (l : Fin 200) :
    val_main_v24 (F := F) (ix3 b l (0 : Fin 1)) = BitVec.ofNat 32 l.val := by
  show Scalar.select (IntOp.cmpi .slt (BitVec.ofNat 32 l.val) 0#32) (IntOp.addi (BitVec.ofNat 32 l.val) 200#32)
    (BitVec.ofNat 32 l.val) = BitVec.ofNat 32 l.val
  exact wrap_id _ _ (by rw [toInt_ofNat_small _ (by have := l.isLt; omega)]; exact Int.natCast_nonneg _)

/-- Component 1 is the token's class, when that is not negative. -/
theorem v23_val (x : IVec S4096x200 32) (b : Fin 4096) (l : Fin 200) (hx : 0 ≤ (x (ix2 b l)).toInt) :
    val_main_v23 (F := F) x (ix3 b l (0 : Fin 1)) = x (ix2 b l) := by
  have hk : idx_main_v23 (ix3 b l (0 : Fin 1)) = ix2 b l := by
    funext a
    match a with
    | ⟨0, _⟩ => rfl
    | ⟨1, _⟩ => rfl
  rw [val_main_v23_apply, val_main_v14_apply, val_main_v11_apply, val_main_v13_apply, val_main_v10_apply,
    val_main_v12_apply, val_main_c_1_apply, val_main_c_2_apply, hk]
  exact wrap_id _ _ hx

/-- The index array at `(b, l, ·)`, read signed: `(b, x[b, l], l)`, for a class below 128. -/
theorem idx_at (x : IVec S4096x200 32) (b : Fin 4096) (l : Fin 200) (hx : (x (ix2 b l)).toNat < 128) :
    (val_main_v25 (F := F) x (ix3 b l (0 : Fin 3))).toInt = (b.val : Int)
    ∧ (val_main_v25 (F := F) x (ix3 b l (1 : Fin 3))).toInt = ((x (ix2 b l)).toNat : Int)
    ∧ (val_main_v25 (F := F) x (ix3 b l (2 : Fin 3))).toInt = (l.val : Int) := by
  have hxi : (x (ix2 b l)).toInt = ((x (ix2 b l)).toNat : Int) := toInt_of_toNat_lt _ (by omega)
  refine ⟨?_, ?_, ?_⟩
  · rw [v25_at0, v22_val, toInt_ofNat_small _ (by have := b.isLt; omega)]
  · rw [v25_at1, v23_val x b l (by rw [hxi]; exact Int.natCast_nonneg _), hxi]
  · rw [v25_at2, v24_val, toInt_ofNat_small _ (by have := l.isLt; omega)]

end Cert.RefSide

end
-- ==== Proof.RefLand.lean ====
/-
  Where an update of the reference's scatter lands.  All three axes of the operand are scattered (none carries a
  window), the index vector lies along the last axis of the index array, so update `(b, l)` lands at the operand
  index whose three coordinates are the index array's entries `(b, l, 0)`, `(b, l, 1)`, `(b, l, 2)` read as signed
  integers, when each is inside its axis.
-/
import proofs.«212721_g4020089389465_cont_8to1_b_1189_16_alg».proof.Proof.Gen.ReferenceIdeal
import Idealize.ShloMosaic.Lib.ValueIdx

noncomputable section

namespace Cert.RefSide

open Cert.ReferenceIdeal Cert.ReferenceIdeal.Gen
open Idealize.ShloMosaic Idealize.ShloMosaic.ValueIdx

/-- The reference's scatter dimension numbers. -/
abbrev dS : ScatterDims S4096x128x200 S4096x200x3 S4096x200 := scatter_S4096x128x200_S4096x200x3_S4096x200_n_012_012_2

/-- No operand axis carries a window coordinate. -/
theorem window_zero (j : S4096x200.Idx) (a : Fin S4096x128x200.rank) : dS.window j a = 0 := by
  unfold ScatterDims.window
  have hk : dS.sKept = [] := by decide
  exact dif_neg (by rw [hk]; exact List.not_mem_nil)

theorem start0 (idx : IVec S4096x200x3 32) (b : Fin 4096) (l : Fin 200) :
    dS.start (ix2 b l) idx (0 : Fin S4096x128x200.rank) = (idx (ix3 b l (0 : Fin 3))).toInt := by
  unfold ScatterDims.start
  rw [dif_pos (show (0 : Fin S4096x128x200.rank) ∈ dS.scatterDimsToOperandDims from by decide)]
  have hsi : dS.siIdx (ix2 b l) ⟨List.idxOf (0 : Fin S4096x128x200.rank) dS.scatterDimsToOperandDims,
      List.idxOf_lt_length_iff.2 (by decide)⟩ = ix3 b l (0 : Fin 3) := by
    funext b'; refine Fin.ext ?_
    match b' with
    | ⟨0, _⟩ => rfl
    | ⟨1, _⟩ => rfl
    | ⟨2, _⟩ => rfl
  rw [hsi]

theorem start1 (idx : IVec S4096x200x3 32) (b : Fin 4096) (l : Fin 200) :
    dS.start (ix2 b l) idx (1 : Fin S4096x128x200.rank) = (idx (ix3 b l (1 : Fin 3))).toInt := by
  unfold ScatterDims.start
  rw [dif_pos (show (1 : Fin S4096x128x200.rank) ∈ dS.scatterDimsToOperandDims from by decide)]
  have hsi : dS.siIdx (ix2 b l) ⟨List.idxOf (1 : Fin S4096x128x200.rank) dS.scatterDimsToOperandDims,
      List.idxOf_lt_length_iff.2 (by decide)⟩ = ix3 b l (1 : Fin 3) := by
    funext b'; refine Fin.ext ?_
    match b' with
    | ⟨0, _⟩ => rfl
    | ⟨1, _⟩ => rfl
    | ⟨2, _⟩ => rfl
  rw [hsi]

theorem start2 (idx : IVec S4096x200x3 32) (b : Fin 4096) (l : Fin 200) :
    dS.start (ix2 b l) idx (2 : Fin S4096x128x200.rank) = (idx (ix3 b l (2 : Fin 3))).toInt := by
  unfold ScatterDims.start
  rw [dif_pos (show (2 : Fin S4096x128x200.rank) ∈ dS.scatterDimsToOperandDims from by decide)]
  have hsi : dS.siIdx (ix2 b l) ⟨List.idxOf (2 : Fin S4096x128x200.rank) dS.scatterDimsToOperandDims,
      List.idxOf_lt_length_iff.2 (by decide)⟩ = ix3 b l (2 : Fin 3) := by
    funext b'; refine Fin.ext ?_
    match b' with
    | ⟨0, _⟩ => rfl
    | ⟨1, _⟩ => rfl
    | ⟨2, _⟩ => rfl
  rw [hsi]

/-- Update `(b, l)` lands at `i` when the index array's three entries at `(b, l, ·)`, read signed, are `i`'s
    coordinates. -/
theorem resultIdx_eq (idx : IVec S4096x200x3 32) (b : Fin 4096) (l : Fin 200) (i : S4096x128x200.Idx)
    (h0 : (idx (ix3 b l (0 : Fin 3))).toInt = ((i 0).val : Int))
    (h1 : (idx (ix3 b l (1 : Fin 3))).toInt = ((i 1).val : Int))
    (h2 : (idx (ix3 b l (2 : Fin 3))).toInt = ((i 2).val : Int)) :
    dS.resultIdx? (ix2 b l) idx = some i := by
  have hsw : ∀ a : Fin S4096x128x200.rank,
      dS.start (ix2 b l) idx a + (dS.window (ix2 b l) a : Int) = ((i a).val : Int) := by
    intro a
    rw [window_zero, Nat.cast_zero, Int.add_zero]
    match a with
    | ⟨0, _⟩ => exact (start0 idx b l).trans h0
    | ⟨1, _⟩ => exact (start1 idx b l).trans h1
    | ⟨2, _⟩ => exact (start2 idx b l).trans h2
  have hc : ∀ a : Fin S4096x128x200.rank,
      0 ≤ dS.start (ix2 b l) idx a + (dS.window (ix2 b l) a : Int)
      ∧ dS.start (ix2 b l) idx a + (dS.window (ix2 b l) a : Int) < (S4096x128x200.size a : Int) := by
    intro a
    rw [hsw a]
    exact ⟨Int.natCast_nonneg _, by exact_mod_cast (i a).isLt⟩
  unfold ScatterDims.resultIdx?
  rw [dif_pos hc]
  congr 1
  funext a
  refine Fin.ext ?_
  show (dS.start (ix2 b l) idx a + (dS.window (ix2 b l) a : Int)).toNat = (i a).val
  rw [hsw a]
  exact Int.toNat_natCast _

end Cert.RefSide

end
-- ==== Proof.RefValue.lean ====
/-
  The reference's result is the one-hot array.  Its last operation scatters the constant 1.0 into an array of 0.0
  at the indices `(b, x[b, l], l)`, one per token; so entry `(b', c, l')` ends at 1.0 exactly when some token
  `(b, l)` has `(b, x[b, l], l) = (b', c, l')`, that is when `x[b', l'] = c`.
-/
import proofs.«212721_g4020089389465_cont_8to1_b_1189_16_alg».proof.Proof.OneHotSpec
import proofs.«212721_g4020089389465_cont_8to1_b_1189_16_alg».proof.Proof.RefScatter
import proofs.«212721_g4020089389465_cont_8to1_b_1189_16_alg».proof.Proof.RefIndex
import proofs.«212721_g4020089389465_cont_8to1_b_1189_16_alg».proof.Proof.RefLand

noncomputable section

namespace Cert.RefSide

open Cert.ReferenceIdeal Cert.ReferenceIdeal.Gen Cert.ReferenceIdeal.Read
open Idealize.ShloMosaic Idealize.ShloMosaic.ValueIdx

variable {F : FTy → Type} [FloatOps F]

/-- Token `(b, l)`'s update lands at `(b, x[b, l], l)`. -/
theorem land (x : IVec S4096x200 32) (hx : ∀ i, (x i).toNat < 128) (b : Fin 4096) (l : Fin 200) :
    dS.resultIdx? (ix2 b l) (val_main_v25 (F := F) x)
      = some (ix3 b (⟨(x (ix2 b l)).toNat, hx _⟩ : Fin 128) l) := by
  obtain ⟨h0, h1, h2⟩ := idx_at (F := F) x b l (hx _)
  exact resultIdx_eq _ b l _ h0 h1 h2

/-- Under the class range, the reference's last stage is the one-hot array. -/
theorem ref_stage (x : IVec S4096x200 32) (hx : ∀ i, (x i).toNat < 128) :
    val_main_v27 (F := F) x = Cert.OneHot.oneHot (F := F) x := by
  funext i
  obtain ⟨b', c, l', rfl⟩ : ∃ (b' : Fin 4096) (c : Fin 128) (l' : Fin 200), i = ix3 b' c l' :=
    ⟨i 0, i 1, i 2, eq_ix3 i⟩
  show Host.scatter dS (fun _ b => b) (val_main_v0 (F := F)) (val_main_v25 (F := F) x) (val_main_v26 (F := F))
      (ix3 b' c l')
    = if (x (ix2 b' l')).toNat = c.val then FloatOps.ofBits .f32 0x3F800000#32 else FloatOps.ofBits .f32 0x00000000#32
  by_cases hc : (x (ix2 b' l')).toNat = c.val
  · rw [if_pos hc]
    refine scatter_set_hit dS _ _ _ _ (fun j => rfl) _ (ix2 b' l') ?_
    rw [land x hx b' l']
    have : (⟨(x (ix2 b' l')).toNat, hx _⟩ : Fin 128) = c := Fin.ext hc
    rw [this]
  · rw [if_neg hc, scatter_set_miss dS _ _ _ _ ?_]
    · rfl
    · intro j hj
      obtain ⟨b, l, rfl⟩ : ∃ (b : Fin 4096) (l : Fin 200), j = ix2 b l := ⟨j 0, j 1, eq_ix2 j⟩
      rw [land x hx b l] at hj
      have he := Option.some.inj hj
      have e0 : b = b' := congrFun he 0
      have e1 : (⟨(x (ix2 b l)).toNat, hx _⟩ : Fin 128) = c := congrFun he 1
      have e2 : l = l' := congrFun he 2
      subst e0 e2
      exact hc (congrArg Fin.val e1)

/-- The term the reference's run states for its result, at the argument `x`, is the one-hot array of `x`. -/
theorem ref_value (x : IVec S4096x200 32) (hx : ∀ i, (x i).toNat < 128) :
    Host.scatter scatter_S4096x128x200_S4096x200x3_S4096x200_n_012_012_2 (fun _ b => b) (broadcastInDim S4096x128x200 ![] bcast_S_S4096x128x200 (constant S_ .f32 0x00000000#32)) (concatenate S4096x200x3 2 [⟨S4096x200x1, (broadcastInDim S4096x200x1 ![0, 1] bcast_S4096x200_S4096x200x1_0_1 (broadcastInDim S4096x200 ![0, 1] bcast_S4096x1_S4096x200_0_1 (select (cmpi .slt (broadcastInDim S4096x1 ![0] bcast_S4096_S4096x1_0 (iotaInDim S4096 32 0)) (broadcastInDim S4096x1 ![] bcast_S_S4096x1 (constantI S_ 32 0#32))) (addi (broadcastInDim S4096x1 ![0] bcast_S4096_S4096x1_0 (iotaInDim S4096 32 0)) (broadcastInDim S4096x1 ![] bcast_S_S4096x1 (constantI S_ 32 4096#32))) (broadcastInDim S4096x1 ![0] bcast_S4096_S4096x1_0 (iotaInDim S4096 32 0)))))⟩, ⟨S4096x200x1, (broadcastInDim S4096x200x1 ![0, 1] bcast_S4096x200_S4096x200x1_0_1 (select (cmpi .slt (x) (broadcastInDim S4096x200 ![] bcast_S_S4096x200 (constantI S_ 32 0#32))) (addi (x) (broadcastInDim S4096x200 ![] bcast_S_S4096x200 (constantI S_ 32 128#32))) (x)))⟩, ⟨S4096x200x1, (broadcastInDim S4096x200x1 ![0, 1] bcast_S4096x200_S4096x200x1_0_1 (broadcastInDim S4096x200 ![0, 1] bcast_S1x200_S4096x200_0_1 (select (cmpi .slt (broadcastInDim S1x200 ![1] bcast_S200_S1x200_1 (iotaInDim S200 32 0)) (broadcastInDim S1x200 ![] bcast_S_S1x200 (constantI S_ 32 0#32))) (addi (broadcastInDim S1x200 ![1] bcast_S200_S1x200_1 (iotaInDim S200 32 0)) (broadcastInDim S1x200 ![] bcast_S_S1x200 (constantI S_ 32 200#32))) (broadcastInDim S1x200 ![1] bcast_S200_S1x200_1 (iotaInDim S200 32 0)))))⟩] concatenates_S4096x200x1_S4096x200x1_S4096x200x1_S4096x200x3_d2) (broadcastInDim S4096x200 ![] bcast_S_S4096x200 (constant S_ .f32 0x3F800000#32))
      = Cert.OneHot.oneHot (F := F) x :=
  (val_main_v27_eq (F := F) x).trans (ref_stage x hx)

end Cert.RefSide

end
-- ==== Proof.RefRun.lean ====
/-
  The reference's two halves of the claim: it runs and leaves its argument unchanged, and, when every token is a
  class in 0..127, it ends with the one-hot array of its argument.
-/
import proofs.«212721_g4020089389465_cont_8to1_b_1189_16_alg».proof.Defs
import proofs.«212721_g4020089389465_cont_8to1_b_1189_16_alg».proof.Proof.Gen.ReferenceIdeal
import proofs.«212721_g4020089389465_cont_8to1_b_1189_16_alg».proof.Proof.Gen.Pre_input_domain
import proofs.«212721_g4020089389465_cont_8to1_b_1189_16_alg».proof.Proof.Gen.ReferenceIdeal.Run
import proofs.«212721_g4020089389465_cont_8to1_b_1189_16_alg».proof.Proof.RefPre
import proofs.«212721_g4020089389465_cont_8to1_b_1189_16_alg».proof.Proof.RefValue

noncomputable section

namespace Cert.RefSide

open Cert.ReferenceIdeal Cert.ReferenceIdeal.Gen
open Idealize.ShloMosaic Idealize.ShloMosaic.TcCoe Idealize.SL.Sem Idealize.ShloMosaic.StableHlo

/-- The reference runs and its argument ends unchanged: the run with the result dropped. -/
theorem ref_frame : Cert.frame_ReferenceIdeal (hReferenceIdeal := Cert.ReferenceIdeal.Gen.facts)
    (hPre_input_domain := Cert.Pre_input_domain.Gen.facts) :=
  fun m ρ _ => (θ_run Cert.ReferenceIdeal.defs _ _).mono (fun _ h c => (h c).2)
    (Cert.ReferenceIdeal.Value.run (F := Ideal) m ρ)

/-- From any memory whose argument holds classes below 128, the reference ends with the one-hot array of its
    argument, the argument unchanged. -/
theorem ref_run_of_range (m' : (ℓ : Loc nD τ sig) → Buf (Elt Ideal) ℓ) (g' : Dev nD → PrngReg)
    (hr : ∀ (c : Dev nD) (i : S4096x200.Idx),
      ((m' ((c.tc : Thread nD τ).loc main_arg0) : IVec S4096x200 32) i).toNat < 128) :
    θ_run (Cert.ReferenceIdeal.defs (F := Ideal)) (onTc (τ := τ) (Cert.ReferenceIdeal.main (F := Ideal)))
      ⟨m', fun _ => 0, g'⟩ (fun r => ∀ c : Dev nD,
        r.2.mem ((c.tc : Thread nD τ).loc main_v27)
          = Cert.OneHot.oneHot (F := Ideal) (m' ((c.tc : Thread nD τ).loc main_arg0))
        ∧ r.2.mem ((c.tc : Thread nD τ).loc main_arg0) = m' ((c.tc : Thread nD τ).loc main_arg0)) :=
  (θ_run Cert.ReferenceIdeal.defs _ _).mono
    (fun _ h c => ⟨(h c).1.trans (ref_value (F := Ideal) _ (hr c)), (h c).2⟩)
    (Cert.ReferenceIdeal.Value.run (F := Ideal) m' g')

/-- The same from the precondition as the claim states it. -/
theorem ref_run (m' : (ℓ : Loc nD τ sig) → Buf (Elt Ideal) ℓ) (g' : Dev nD → PrngReg)
    (hpre : Cert.Pre_ReferenceIdeal (hPre_input_domain := Cert.Pre_input_domain.Gen.facts) m') :
    θ_run (Cert.ReferenceIdeal.defs (F := Ideal)) (onTc (τ := τ) (Cert.ReferenceIdeal.main (F := Ideal)))
      ⟨m', fun _ => 0, g'⟩ (fun r => ∀ c : Dev nD,
        r.2.mem ((c.tc : Thread nD τ).loc main_v27)
          = Cert.OneHot.oneHot (F := Ideal) (m' ((c.tc : Thread nD τ).loc main_arg0))
        ∧ r.2.mem ((c.tc : Thread nD τ).loc main_arg0) = m' ((c.tc : Thread nD τ).loc main_arg0)) :=
  ref_run_of_range m' g' (fun c =>
    pre_range (F := Ideal) _ (hpre c))

end Cert.RefSide

end
-- ==== Proof.lean ====
/-
  The one-hot encoding of a table of class numbers on the sparse cores, against `zeros.at[b, x, l].set(1.0)`.
  Both programs only place the words of 1.0 and 0.0: entry `(b, c, l)` of the result is 1.0 exactly when `x[b, l] = c`.
  The kernel transposes `x` on the host, has each of the 32 vector subcores encode its 128 batch rows into
  `[200, 128]` row buffers and copy them out, and transposes the last two axes back; the reference scatters 1.0 into
  zeros at `(b, x[b, l], l)`.  Under the precondition `0 ≤ x ≤ 127` every indexed access of the kernel is in range
  and no negative-index wrap of the reference fires, and both results are the one function `Cert.OneHot.oneHot x`.
  The three frames are the programs' runs with the values dropped; the idealization rewrote nothing.
-/
import proofs.«212721_g4020089389465_cont_8to1_b_1189_16_alg».proof.Defs
import proofs.«212721_g4020089389465_cont_8to1_b_1189_16_alg».proof.Proof.Gen.Kernel
import proofs.«212721_g4020089389465_cont_8to1_b_1189_16_alg».proof.Proof.Gen.Kernel.Skeleton
import proofs.«212721_g4020089389465_cont_8to1_b_1189_16_alg».proof.Proof.Gen.KernelIdeal
import proofs.«212721_g4020089389465_cont_8to1_b_1189_16_alg».proof.Proof.Gen.KernelIdeal.Skeleton
import proofs.«212721_g4020089389465_cont_8to1_b_1189_16_alg».proof.Proof.Gen.ReferenceIdeal
import proofs.«212721_g4020089389465_cont_8to1_b_1189_16_alg».proof.Proof.Gen.Pre_input_domain
import proofs.«212721_g4020089389465_cont_8to1_b_1189_16_alg».proof.Proof.Gen.ReferenceIdeal.Run
import proofs.«212721_g4020089389465_cont_8to1_b_1189_16_alg».proof.Proof.Gen.ReferenceIdeal.Read
import proofs.«212721_g4020089389465_cont_8to1_b_1189_16_alg».proof.Proof.TileI
import proofs.«212721_g4020089389465_cont_8to1_b_1189_16_alg».proof.Proof.LaunchI
import proofs.«212721_g4020089389465_cont_8to1_b_1189_16_alg».proof.Proof.ResValueI
import proofs.«212721_g4020089389465_cont_8to1_b_1189_16_alg».proof.Proof.TileB
import proofs.«212721_g4020089389465_cont_8to1_b_1189_16_alg».proof.Proof.LaunchB
import proofs.«212721_g4020089389465_cont_8to1_b_1189_16_alg».proof.Proof.ResValueB
import proofs.«212721_g4020089389465_cont_8to1_b_1189_16_alg».proof.Proof.RefRun
import Idealize.ShloMosaic.Adequacy
import Idealize.ShloMosaic.Init

noncomputable section

namespace Cert.Proof

open Idealize.ShloMosaic Idealize.SL.Sem Idealize.ShloMosaic.ValueIdx

/-- Under the precondition every class number of the transposed table is below 128 (the idealized program). -/
theorem preOK_I (m : (ℓ : Loc Cert.KernelIdeal.nD Cert.KernelIdeal.τ Cert.KernelIdeal.sig) → Buf (Elt Ideal) ℓ)
    (h : Cert.Pre_KernelIdeal (hPre_input_domain := Cert.Pre_input_domain.Gen.facts) m) : KI.PreOK (F := Ideal) m := by
  letI : Cert.Pre_input_domain.Facts := Cert.Pre_input_domain.Gen.facts
  intro d (i : Cert.KernelIdeal.S200x4096.Idx)
  have hr := Cert.RefSide.pre_range (F := Ideal) _ (h d)
  have e : (KI.xtVal m d : (⟨Cert.KernelIdeal.S200x4096, .i32⟩ : BufTy).Contents (Elt Ideal)) i
      = (m (KI.aLoc d) : (⟨Cert.KernelIdeal.S4096x200, .i32⟩ : BufTy).Contents (Elt Ideal)) (ix2 (i 1) (i 0)) :=
    (congrArg (KI.xtVal m d : (⟨Cert.KernelIdeal.S200x4096, .i32⟩ : BufTy).Contents (Elt Ideal)) (eq_ix2 i)).trans (KI.xtVal_apply m d (i 0) (i 1))
  show BitVec.toNat ((KI.xtVal m d : (⟨Cert.KernelIdeal.S200x4096, .i32⟩ : BufTy).Contents (Elt Ideal)) i) < 128
  rw [e]
  exact hr _

/-- The same for the program as printed. -/
theorem preOK_B (m : (ℓ : Loc Cert.Kernel.nD Cert.Kernel.τ Cert.Kernel.sig) → Buf (Elt Bits) ℓ)
    (h : Cert.Pre_Kernel (hPre_input_domain := Cert.Pre_input_domain.Gen.facts) m) : KB.PreOK (F := Bits) m := by
  letI : Cert.Pre_input_domain.Facts := Cert.Pre_input_domain.Gen.facts
  intro d (i : Cert.Kernel.S200x4096.Idx)
  have hr := Cert.RefSide.pre_range (F := Bits) _ (h d)
  have e : (KB.xtVal m d : (⟨Cert.Kernel.S200x4096, .i32⟩ : BufTy).Contents (Elt Bits)) i
      = (m (KB.aLoc d) : (⟨Cert.Kernel.S4096x200, .i32⟩ : BufTy).Contents (Elt Bits)) (ix2 (i 1) (i 0)) :=
    (congrArg (KB.xtVal m d : (⟨Cert.Kernel.S200x4096, .i32⟩ : BufTy).Contents (Elt Bits)) (eq_ix2 i)).trans (KB.xtVal_apply m d (i 0) (i 1))
  show BitVec.toNat ((KB.xtVal m d : (⟨Cert.Kernel.S200x4096, .i32⟩ : BufTy).Contents (Elt Bits)) i) < 128
  rw [e]
  exact hr _

theorem claim : Cert.Claim := ⟨Cert.Kernel.Gen.facts, Cert.KernelIdeal.Gen.facts, Cert.ReferenceIdeal.Gen.facts, Cert.Pre_input_domain.Gen.facts,
  fun m ρ hpre => (θ_run (Cert.Kernel.defs (F := Bits)) _ _).mono (fun _ h c => (h c).2)
    (KB.run_main (F := Bits) m ρ (KB.tileObl m KB.facts (preOK_B m hpre))),
  fun m ρ hpre => (θ_run (Cert.KernelIdeal.defs (F := Ideal)) _ _).mono (fun _ h c => (h c).2)
    (KI.run_main (F := Ideal) m ρ (KI.tileObl m KI.facts (preOK_I m hpre))),
  Cert.RefSide.ref_frame,
  trivial,
  fun m ρ m' ρ' hpre hagree =>
    ⟨fun c => Cert.OneHot.oneHot (F := Ideal) (m ((c.tc : Thread Cert.KernelIdeal.nD Cert.KernelIdeal.τ).loc Cert.KernelIdeal.main_arg0)),
      (θ_run (Cert.KernelIdeal.defs (F := Ideal)) _ _).mono (fun _ h c => ⟨(h c).1.trans (KI.resVal_eq m c), (h c).2⟩)
        (KI.run_main (F := Ideal) m ρ (KI.tileObl m KI.facts (preOK_I m hpre))),
      (θ_run (Cert.ReferenceIdeal.defs (F := Ideal)) _ _).mono (fun _ h c => ⟨by rw [(h c).1, hagree c], (h c).2⟩)
        (Cert.RefSide.ref_run_of_range m' ρ' (fun c i => by
          letI : Cert.Pre_input_domain.Facts := Cert.Pre_input_domain.Gen.facts
          rw [hagree c]
          exact Cert.RefSide.pre_range (F := Ideal) _ (hpre c) i))⟩⟩

end Cert.Proof

end
